-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v255)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v255) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v342) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x625000 : Shape := ⟨2, ![2, 625000]⟩
abbrev S50000 : Shape := ⟨1, ![50000]⟩
abbrev S128x128 : Shape := ⟨2, ![128, 128]⟩
abbrev S128 : Shape := ⟨1, ![128]⟩
abbrev S3x1x128 : Shape := ⟨3, ![3, 1, 128]⟩
abbrev S3x1 : Shape := ⟨2, ![3, 1]⟩
abbrev S3x128x128 : Shape := ⟨3, ![3, 128, 128]⟩
abbrev S3x128 : Shape := ⟨2, ![3, 128]⟩
abbrev S3x128x384 : Shape := ⟨3, ![3, 128, 384]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x1x128 : S_.BroadcastsInDim S3x1x128 (![] : Fin 0 → Fin S3x1x128.rank)
  reducesTo_S3x1x128_S_d0_1_2 : S3x1x128.ReducesTo [0, 1, 2] S_
  bcast_S_S3x1 : S_.BroadcastsInDim S3x1 (![] : Fin 0 → Fin S3x1.rank)
  reducesTo_S3x1_S_d0_1 : S3x1.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x384 : S_.BroadcastsInDim S3x128x384 (![] : Fin 0 → Fin S3x128x384.rank)
  reducesTo_S3x128x384_S_d0_1_2 : S3x128x384.ReducesTo [0, 1, 2] S_

variable [Facts]

def fn_part3 {F : FTy → Type} [FloatOps F] (main_arg13 : FVec F S3x128 .f32) (main_arg14 : FVec F S3x128 .f32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S3x128 .f32 := Host.absf main_arg13
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S3x128 .f32 := Host.absf main_arg14
  let main_cst_22 : FVec F S_ .f32 := constant S_ .f32 0x7F800000#32
  let main_v60 : FVec F S3x128 .f32 := broadcastInDim S3x128 ![] bcast_S_S3x128 main_cst_22
  let main_v61 : IVec S3x128 1 := cmpf .olt main_v59 main_v60
  let main_c_23 : IVec S_ 1 := constantI S_ 1 1#1
  let main_v62 : IVec S_ 1 := (fun x v => Host.reduce IntOp.andi x v reducesTo_S3x128_S_d0_1 h_S_) main_v61 main_c_23
  let main_v63 : IVec S_ 1 := andi main_v58 main_v62
  main_v63

def fn_part2 {F : FTy → Type} [FloatOps F] (main_arg9 : FVec F S3x128x128 .f32) (main_arg10 : FVec F S3x128 .f32) (main_arg11 : FVec F S3x128x384 .f32) (main_arg12 : FVec F S3x128 .f32) (main_arg13 : FVec F S3x128 .f32) (main_arg14 : FVec F S3x128 .f32) (main_v33 : IVec S_ 1) : IVec S_ 1 :=
  let main_v34 : FVec F S3x128x128 .f32 := Host.absf main_arg9
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  let main_v39 : FVec F S3x128 .f32 := Host.absf main_arg10
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x128x384 .f32 := Host.absf main_arg11
  let main_cst_16 : FVec F S_ .f32 := constant S_ .f32 0x7F800000#32
  let main_v45 : FVec F S3x128x384 .f32 := broadcastInDim S3x128x384 ![] bcast_S_S3x128x384 main_cst_16
  let main_v46 : IVec S3x128x384 1 := cmpf .olt main_v44 main_v45
  let main_c_17 : IVec S_ 1 := constantI S_ 1 1#1
  let main_v47 : IVec S_ 1 := (fun x v => Host.reduce IntOp.andi x v reducesTo_S3x128x384_S_d0_1_2 h_S_) main_v46 main_c_17
  let main_v48 : IVec S_ 1 := andi main_v43 main_v47
  let main_v49 : FVec F S3x128 .f32 := Host.absf main_arg12
  let main_cst_18 : FVec F S_ .f32 := constant S_ .f32 0x7F800000#32
  let main_v50 : FVec F S3x128 .f32 := broadcastInDim S3x128 ![] bcast_S_S3x128 main_cst_18
  fn_part3 (F := F) main_arg13 main_arg14 main_v48 main_v49 main_v50

def fn_part1 {F : FTy → Type} [FloatOps F] (main_arg6 : FVec F S3x1 .f32) (main_arg7 : FVec F S3x128x128 .f32) (main_arg8 : FVec F S3x128x128 .f32) (main_arg9 : FVec F S3x128x128 .f32) (main_arg10 : FVec F S3x128 .f32) (main_arg11 : FVec F S3x128x384 .f32) (main_arg12 : FVec F S3x128 .f32) (main_arg13 : FVec F S3x128 .f32) (main_arg14 : FVec F S3x128 .f32) (main_v13 : IVec S_ 1) (main_v16 : IVec S3x1x128 1) : IVec S_ 1 :=
  let main_c_5 : IVec S_ 1 := constantI S_ 1 1#1
  let main_v17 : IVec S_ 1 := (fun x v => Host.reduce IntOp.andi x v reducesTo_S3x1x128_S_d0_1_2 h_S_) main_v16 main_c_5
  let main_v18 : IVec S_ 1 := andi main_v13 main_v17
  let main_v19 : FVec F S3x1 .f32 := Host.absf main_arg6
  let main_cst_6 : FVec F S_ .f32 := constant S_ .f32 0x7F800000#32
  let main_v20 : FVec F S3x1 .f32 := broadcastInDim S3x1 ![] bcast_S_S3x1 main_cst_6
  let main_v21 : IVec S3x1 1 := cmpf .olt main_v19 main_v20
  let main_c_7 : IVec S_ 1 := constantI S_ 1 1#1
  let main_v22 : IVec S_ 1 := (fun x v => Host.reduce IntOp.andi x v reducesTo_S3x1_S_d0_1 h_S_) main_v21 main_c_7
  let main_v23 : IVec S_ 1 := andi main_v18 main_v22
  let main_v24 : FVec F S3x128x128 .f32 := Host.absf main_arg7
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128x128 .f32 := Host.absf main_arg8
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S2x625000 32) (main_arg2 : IVec S50000 32) (main_arg3 : FVec F S128x128 .f32) (main_arg4 : FVec F S128 .f32) (main_arg5 : FVec F S3x1x128 .f32) (main_arg6 : FVec F S3x1 .f32) (main_arg7 : FVec F S3x128x128 .f32) (main_arg8 : FVec F S3x128x128 .f32) (main_arg9 : FVec F S3x128x128 .f32) (main_arg10 : FVec F S3x128 .f32) (main_arg11 : FVec F S3x128x384 .f32) (main_arg12 : FVec F S3x128 .f32) (main_arg13 : FVec F S3x128 .f32) (main_arg14 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x1x128 .f32 := Host.absf main_arg5
  let main_cst_4 : FVec F S_ .f32 := constant S_ .f32 0x7F800000#32
  let main_v15 : FVec F S3x1x128 .f32 := broadcastInDim S3x1x128 ![] bcast_S_S3x1x128 main_cst_4
  let main_v16 : IVec S3x1x128 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S2x625000 : Shape := ⟨2, ![2, 625000]⟩
abbrev S50000 : Shape := ⟨1, ![50000]⟩
abbrev S128x128 : Shape := ⟨2, ![128, 128]⟩
abbrev S128 : Shape := ⟨1, ![128]⟩
abbrev S3x1x128 : Shape := ⟨3, ![3, 1, 128]⟩
abbrev S3x1 : Shape := ⟨2, ![3, 1]⟩
abbrev S3x128x128 : Shape := ⟨3, ![3, 128, 128]⟩
abbrev S3x128 : Shape := ⟨2, ![3, 128]⟩
abbrev S3x128x384 : Shape := ⟨3, ![3, 128, 384]⟩
abbrev S1x128 : Shape := ⟨2, ![1, 128]⟩
abbrev S5000x128 : Shape := ⟨2, ![5000, 128]⟩
abbrev S1x625000 : Shape := ⟨2, ![1, 625000]⟩
abbrev S625000 : Shape := ⟨1, ![625000]⟩
abbrev S1x128x128 : Shape := ⟨3, ![1, 128, 128]⟩
abbrev S1x1x128 : Shape := ⟨3, ![1, 1, 128]⟩
abbrev S1x1 : Shape := ⟨2, ![1, 1]⟩
abbrev S1 : Shape := ⟨1, ![1]⟩
abbrev S1x128x384 : Shape := ⟨3, ![1, 128, 384]⟩
abbrev S128x384 : Shape := ⟨2, ![128, 384]⟩
abbrev S128x256 : Shape := ⟨2, ![128, 256]⟩
abbrev S50000x1 : Shape := ⟨2, ![50000, 1]⟩
abbrev S50000x256 : Shape := ⟨2, ![50000, 256]⟩
abbrev S5000x1 : Shape := ⟨2, ![5000, 1]⟩
abbrev S5000x256 : Shape := ⟨2, ![5000, 256]⟩
abbrev S5000 : Shape := ⟨1, ![5000]⟩
abbrev S_ : Shape := ⟨0, ![]⟩
abbrev S625000x1 : Shape := ⟨2, ![625000, 1]⟩
abbrev S625000x256 : Shape := ⟨2, ![625000, 256]⟩
abbrev S625000x128 : Shape := ⟨2, ![625000, 128]⟩
abbrev S64x128 : Shape := ⟨2, ![64, 128]⟩
abbrev S64 : Shape := ⟨1, ![64]⟩
abbrev S64x1 : Shape := ⟨2, ![64, 1]⟩

abbrev nBuf : Space → Nat
  | .hbm => 308
  | .vmem => 81
  | .smem => 0
  | _ => 0

abbrev hbmTy0_0 (i : Nat) : BufTy := match i % 128 with
  | 0 => ⟨S50000x128, .f32⟩
  | 1 => ⟨S2x625000, .i32⟩
  | 2 => ⟨S50000, .i32⟩
  | 3 => ⟨S128x128, .f32⟩
  | 4 => ⟨S128, .f32⟩
  | 5 => ⟨S3x1x128, .f32⟩
  | 6 => ⟨S3x1, .f32⟩
  | 7 => ⟨S3x128x128, .f32⟩
  | 8 => ⟨S3x128x128, .f32⟩
  | 9 => ⟨S3x128x128, .f32⟩
  | 10 => ⟨S3x128, .f32⟩
  | 11 => ⟨S3x128x384, .f32⟩
  | 12 => ⟨S3x128, .f32⟩
  | 13 => ⟨S3x128, .f32⟩
  | 14 => ⟨S3x128, .f32⟩
  | 15 => ⟨S128x128, .f32⟩
  | 16 => ⟨S1x128, .f32⟩
  | 17 => ⟨S50000x128, .f32⟩
  | 18 => ⟨S1x625000, .i32⟩
  | 19 => ⟨S625000, .i32⟩
  | 20 => ⟨S1x625000, .i32⟩
  | 21 => ⟨S625000, .i32⟩
  | 22 => ⟨S1x128x128, .f32⟩
  | 23 => ⟨S128x128, .f32⟩
  | 24 => ⟨S128x128, .f32⟩
  | 25 => ⟨S1x1x128, .f32⟩
  | 26 => ⟨S1x128, .f32⟩
  | 27 => ⟨S1x1, .f32⟩
  | 28 => ⟨S1, .f32⟩
  | 29 => ⟨S1x1, .f32⟩
  | 30 => ⟨S1x128, .f32⟩
  | 31 => ⟨S128, .f32⟩
  | 32 => ⟨S1x128, .f32⟩
  | 33 => ⟨S1x128x384, .f32⟩
  | 34 => ⟨S128x384, .f32⟩
  | 35 => ⟨S128x128, .f32⟩
  | 36 => ⟨S128x128, .f32⟩
  | 37 => ⟨S128x128, .f32⟩
  | 38 => ⟨S128x128, .f32⟩
  | 39 => ⟨S128x128, .f32⟩
  | 40 => ⟨S128x128, .f32⟩
  | 41 => ⟨S1x128x128, .f32⟩
  | 42 => ⟨S128x128, .f32⟩
  | 43 => ⟨S128x128, .f32⟩
  | 44 => ⟨S128x128, .f32⟩
  | 45 => ⟨S1x128x128, .f32⟩
  | 46 => ⟨S128x128, .f32⟩
  | 47 => ⟨S128x128, .f32⟩
  | 48 => ⟨S128x128, .f32⟩
  | 49 => ⟨S128x128, .f32⟩
  | 50 => ⟨S128x256, .f32⟩
  | 51 => ⟨S128x256, .bf16⟩
  | 52 => ⟨S1x128, .f32⟩
  | 53 => ⟨S128, .f32⟩
  | 54 => ⟨S1x128, .f32⟩
  | 55 => ⟨S1x128, .f32⟩
  | 56 => ⟨S128, .f32⟩
  | 57 => ⟨S1x128, .f32⟩
  | 58 => ⟨S1x128, .f32⟩
  | 59 => ⟨S128, .f32⟩
  | 60 => ⟨S1x128, .f32⟩
  | 61 => ⟨S50000x1, .f32⟩
  | 62 => ⟨S50000x128, .f32⟩
  | 63 => ⟨S50000x256, .bf16⟩
  | 64 => ⟨S_, .i32⟩
  | 65 => ⟨S625000, .i32⟩
  | 66 => ⟨S625000, .i1⟩
  | 67 => ⟨S_, .i32⟩
  | 68 => ⟨S625000, .i32⟩
  | 69 => ⟨S625000, .i32⟩
  | 70 => ⟨S625000, .i32⟩
  | 71 => ⟨S625000x1, .i32⟩
  | 72 => ⟨S625000x1, .f32⟩
  | 73 => ⟨S_, .i32⟩
  | 74 => ⟨S625000, .i32⟩
  | 75 => ⟨S625000, .i1⟩
  | 76 => ⟨S_, .i32⟩
  | 77 => ⟨S625000, .i32⟩
  | 78 => ⟨S625000, .i32⟩
  | 79 => ⟨S625000, .i32⟩
  | 80 => ⟨S625000x1, .i32⟩
  | 81 => ⟨S625000x1, .f32⟩
  | 82 => ⟨S625000x1, .f32⟩
  | 83 => ⟨S625000x1, .f32⟩
  | 84 => ⟨S625000x1, .f32⟩
  | 85 => ⟨S_, .f32⟩
  | 86 => ⟨S625000x1, .f32⟩
  | 87 => ⟨S625000x1, .f32⟩
  | 88 => ⟨S_, .f32⟩
  | 89 => ⟨S625000x1, .f32⟩
  | 90 => ⟨S625000x1, .f32⟩
  | 91 => ⟨S_, .i32⟩
  | 92 => ⟨S625000, .i32⟩
  | 93 => ⟨S625000, .i1⟩
  | 94 => ⟨S_, .i32⟩
  | 95 => ⟨S625000, .i32⟩
  | 96 => ⟨S625000, .i32⟩
  | 97 => ⟨S625000, .i32⟩
  | 98 => ⟨S625000x1, .i32⟩
  | 99 => ⟨S625000x256, .bf16⟩
  | 100 => ⟨S625000x128, .bf16⟩
  | 101 => ⟨S625000x128, .f32⟩
  | 102 => ⟨S625000x128, .bf16⟩
  | 103 => ⟨S625000x128, .f32⟩
  | 104 => ⟨S625000x128, .f32⟩
  | 105 => ⟨S625000x128, .f32⟩
  | 106 => ⟨S625000x128, .f32⟩
  | 107 => ⟨S_, .f32⟩
  | 108 => ⟨S50000x128, .f32⟩
  | 109 => ⟨S625000x1, .i32⟩
  | 110 => ⟨S50000x128, .f32⟩
  | 111 => ⟨S50000x128, .f32⟩
  | 112 => ⟨S1x128x128, .f32⟩
  | 113 => ⟨S128x128, .f32⟩
  | 114 => ⟨S128x128, .f32⟩
  | 115 => ⟨S1x1x128, .f32⟩
  | 116 => ⟨S1x128, .f32⟩
  | 117 => ⟨S1x1, .f32⟩
  | 118 => ⟨S1, .f32⟩
  | 119 => ⟨S1x1, .f32⟩
  | 120 => ⟨S1x128, .f32⟩
  | 121 => ⟨S128, .f32⟩
  | 122 => ⟨S1x128, .f32⟩
  | 123 => ⟨S1x128x384, .f32⟩
  | 124 => ⟨S128x384, .f32⟩
  | 125 => ⟨S128x128, .f32⟩
  | 126 => ⟨S128x128, .f32⟩
  | 127 => ⟨S128x128, .f32⟩
  | _ => ⟨S50000x128, .f32⟩

abbrev hbmTy0_1 (i : Nat) : BufTy := match i % 128 with
  | 0 => ⟨S128x128, .f32⟩
  | 1 => ⟨S128x128, .f32⟩
  | 2 => ⟨S128x128, .f32⟩
  | 3 => ⟨S1x128x128, .f32⟩
  | 4 => ⟨S128x128, .f32⟩
  | 5 => ⟨S128x128, .f32⟩
  | 6 => ⟨S128x128, .f32⟩
  | 7 => ⟨S1x128x128, .f32⟩
  | 8 => ⟨S128x128, .f32⟩
  | 9 => ⟨S128x128, .f32⟩
  | 10 => ⟨S128x128, .f32⟩
  | 11 => ⟨S128x128, .f32⟩
  | 12 => ⟨S128x256, .f32⟩
  | 13 => ⟨S128x256, .bf16⟩
  | 14 => ⟨S1x128, .f32⟩
  | 15 => ⟨S128, .f32⟩
  | 16 => ⟨S1x128, .f32⟩
  | 17 => ⟨S1x128, .f32⟩
  | 18 => ⟨S128, .f32⟩
  | 19 => ⟨S1x128, .f32⟩
  | 20 => ⟨S1x128, .f32⟩
  | 21 => ⟨S128, .f32⟩
  | 22 => ⟨S1x128, .f32⟩
  | 23 => ⟨S50000x1, .f32⟩
  | 24 => ⟨S50000x128, .f32⟩
  | 25 => ⟨S50000x256, .bf16⟩
  | 26 => ⟨S_, .i32⟩
  | 27 => ⟨S625000, .i32⟩
  | 28 => ⟨S625000, .i1⟩
  | 29 => ⟨S_, .i32⟩
  | 30 => ⟨S625000, .i32⟩
  | 31 => ⟨S625000, .i32⟩
  | 32 => ⟨S625000, .i32⟩
  | 33 => ⟨S625000x1, .i32⟩
  | 34 => ⟨S625000x1, .f32⟩
  | 35 => ⟨S_, .i32⟩
  | 36 => ⟨S625000, .i32⟩
  | 37 => ⟨S625000, .i1⟩
  | 38 => ⟨S_, .i32⟩
  | 39 => ⟨S625000, .i32⟩
  | 40 => ⟨S625000, .i32⟩
  | 41 => ⟨S625000, .i32⟩
  | 42 => ⟨S625000x1, .i32⟩
  | 43 => ⟨S625000x1, .f32⟩
  | 44 => ⟨S625000x1, .f32⟩
  | 45 => ⟨S625000x1, .f32⟩
  | 46 => ⟨S625000x1, .f32⟩
  | 47 => ⟨S_, .f32⟩
  | 48 => ⟨S625000x1, .f32⟩
  | 49 => ⟨S625000x1, .f32⟩
  | 50 => ⟨S_, .f32⟩
  | 51 => ⟨S625000x1, .f32⟩
  | 52 => ⟨S625000x1, .f32⟩
  | 53 => ⟨S_, .i32⟩
  | 54 => ⟨S625000, .i32⟩
  | 55 => ⟨S625000, .i1⟩
  | 56 => ⟨S_, .i32⟩
  | 57 => ⟨S625000, .i32⟩
  | 58 => ⟨S625000, .i32⟩
  | 59 => ⟨S625000, .i32⟩
  | 60 => ⟨S625000x1, .i32⟩
  | 61 => ⟨S625000x256, .bf16⟩
  | 62 => ⟨S625000x128, .bf16⟩
  | 63 => ⟨S625000x128, .f32⟩
  | 64 => ⟨S625000x128, .bf16⟩
  | 65 => ⟨S625000x128, .f32⟩
  | 66 => ⟨S625000x128, .f32⟩
  | 67 => ⟨S625000x128, .f32⟩
  | 68 => ⟨S625000x128, .f32⟩
  | 69 => ⟨S_, .f32⟩
  | 70 => ⟨S50000x128, .f32⟩
  | 71 => ⟨S625000x1, .i32⟩
  | 72 => ⟨S50000x128, .f32⟩
  | 73 => ⟨S50000x128, .f32⟩
  | 74 => ⟨S1x128x128, .f32⟩
  | 75 => ⟨S128x128, .f32⟩
  | 76 => ⟨S128x128, .f32⟩
  | 77 => ⟨S1x1x128, .f32⟩
  | 78 => ⟨S1x128, .f32⟩
  | 79 => ⟨S1x1, .f32⟩
  | 80 => ⟨S1, .f32⟩
  | 81 => ⟨S1x1, .f32⟩
  | 82 => ⟨S1x128, .f32⟩
  | 83 => ⟨S128, .f32⟩
  | 84 => ⟨S1x128, .f32⟩
  | 85 => ⟨S1x128x384, .f32⟩
  | 86 => ⟨S128x384, .f32⟩
  | 87 => ⟨S128x128, .f32⟩
  | 88 => ⟨S128x128, .f32⟩
  | 89 => ⟨S128x128, .f32⟩
  | 90 => ⟨S128x128, .f32⟩
  | 91 => ⟨S128x128, .f32⟩
  | 92 => ⟨S128x128, .f32⟩
  | 93 => ⟨S1x128x128, .f32⟩
  | 94 => ⟨S128x128, .f32⟩
  | 95 => ⟨S128x128, .f32⟩
  | 96 => ⟨S128x128, .f32⟩
  | 97 => ⟨S1x128x128, .f32⟩
  | 98 => ⟨S128x128, .f32⟩
  | 99 => ⟨S128x128, .f32⟩
  | 100 => ⟨S128x128, .f32⟩
  | 101 => ⟨S128x128, .f32⟩
  | 102 => ⟨S128x256, .f32⟩
  | 103 => ⟨S128x256, .bf16⟩
  | 104 => ⟨S1x128, .f32⟩
  | 105 => ⟨S128, .f32⟩
  | 106 => ⟨S1x128, .f32⟩
  | 107 => ⟨S1x128, .f32⟩
  | 108 => ⟨S128, .f32⟩
  | 109 => ⟨S1x128, .f32⟩
  | 110 => ⟨S1x128, .f32⟩
  | 111 => ⟨S128, .f32⟩
  | 112 => ⟨S1x128, .f32⟩
  | 113 => ⟨S50000x1, .f32⟩
  | 114 => ⟨S50000x128, .f32⟩
  | 115 => ⟨S50000x256, .bf16⟩
  | 116 => ⟨S_, .i32⟩
  | 117 => ⟨S625000, .i32⟩
  | 118 => ⟨S625000, .i1⟩
  | 119 => ⟨S_, .i32⟩
  | 120 => ⟨S625000, .i32⟩
  | 121 => ⟨S625000, .i32⟩
  | 122 => ⟨S625000, .i32⟩
  | 123 => ⟨S625000x1, .i32⟩
  | 124 => ⟨S625000x1, .f32⟩
  | 125 => ⟨S_, .i32⟩
  | 126 => ⟨S625000, .i32⟩
  | 127 => ⟨S625000, .i1⟩
  | _ => ⟨S50000x128, .f32⟩

abbrev hbmTy0_2 (i : Nat) : BufTy := match i % 128 with
  | 0 => ⟨S_, .i32⟩
  | 1 => ⟨S625000, .i32⟩
  | 2 => ⟨S625000, .i32⟩
  | 3 => ⟨S625000, .i32⟩
  | 4 => ⟨S625000x1, .i32⟩
  | 5 => ⟨S625000x1, .f32⟩
  | 6 => ⟨S625000x1, .f32⟩
  | 7 => ⟨S625000x1, .f32⟩
  | 8 => ⟨S625000x1, .f32⟩
  | 9 => ⟨S_, .f32⟩
  | 10 => ⟨S625000x1, .f32⟩
  | 11 => ⟨S625000x1, .f32⟩
  | 12 => ⟨S_, .f32⟩
  | 13 => ⟨S625000x1, .f32⟩
  | 14 => ⟨S625000x1, .f32⟩
  | 15 => ⟨S_, .i32⟩
  | 16 => ⟨S625000, .i32⟩
  | 17 => ⟨S625000, .i1⟩
  | 18 => ⟨S_, .i32⟩
  | 19 => ⟨S625000, .i32⟩
  | 20 => ⟨S625000, .i32⟩
  | 21 => ⟨S625000, .i32⟩
  | 22 => ⟨S625000x1, .i32⟩
  | 23 => ⟨S625000x256, .bf16⟩
  | 24 => ⟨S625000x128, .bf16⟩
  | 25 => ⟨S625000x128, .f32⟩
  | 26 => ⟨S625000x128, .bf16⟩
  | 27 => ⟨S625000x128, .f32⟩
  | 28 => ⟨S625000x128, .f32⟩
  | 29 => ⟨S625000x128, .f32⟩
  | 30 => ⟨S625000x128, .f32⟩
  | 31 => ⟨S_, .f32⟩
  | 32 => ⟨S50000x128, .f32⟩
  | 33 => ⟨S625000x1, .i32⟩
  | 34 => ⟨S50000x128, .f32⟩
  | 35 => ⟨S50000x128, .f32⟩
  | 36 => ⟨S_, .f32⟩
  | 37 => ⟨S64x128, .f32⟩
  | 38 => ⟨S50000x1, .i32⟩
  | 39 => ⟨S64x128, .f32⟩
  | 40 => ⟨S_, .f32⟩
  | 41 => ⟨S50000, .f32⟩
  | 42 => ⟨S_, .f32⟩
  | 43 => ⟨S64, .f32⟩
  | 44 => ⟨S50000x1, .i32⟩
  | 45 => ⟨S64, .f32⟩
  | 46 => ⟨S_, .f32⟩
  | 47 => ⟨S64, .f32⟩
  | 48 => ⟨S64, .f32⟩
  | 49 => ⟨S64x1, .f32⟩
  | 50 => ⟨S64x128, .f32⟩
  | 51 => ⟨S64x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x1, .f32⟩
  | .local _ .vmem, ⟨10, _⟩ => ⟨S128x128, .f32⟩
  | .local _ .vmem, ⟨11, _⟩ => ⟨S1x128, .f32⟩
  | .local _ .vmem, ⟨12, _⟩ => ⟨S128x256, .bf16⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S5000x256, .bf16⟩
  | .local _ .vmem, ⟨18, _⟩ => ⟨S5000x256, .bf16⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S1x128, .f32⟩
  | .local _ .vmem, ⟨34, _⟩ => ⟨S1x1, .f32⟩
  | .local _ .vmem, ⟨35, _⟩ => ⟨S128x128, .f32⟩
  | .local _ .vmem, ⟨36, _⟩ => ⟨S1x128, .f32⟩
  | .local _ .vmem, ⟨37, _⟩ => ⟨S128x256, .bf16⟩
  | .local _ .vmem, ⟨38, _⟩ => ⟨S5000x1, .f32⟩
  | .local _ .vmem, ⟨39, _⟩ => ⟨S5000x1, .f32⟩
  | .local _ .vmem, ⟨40, _⟩ => ⟨S5000x128, .f32⟩
  | .local _ .vmem, ⟨41, _⟩ => ⟨S5000x128, .f32⟩
  | .local _ .vmem, ⟨42, _⟩ => ⟨S5000x256, .bf16⟩
  | .local _ .vmem, ⟨43, _⟩ => ⟨S5000x256, .bf16⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S128x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S1x128, .f32⟩
  | .local _ .vmem, ⟨59, _⟩ => ⟨S1x1, .f32⟩
  | .local _ .vmem, ⟨60, _⟩ => ⟨S128x128, .f32⟩
  | .local _ .vmem, ⟨61, _⟩ => ⟨S1x128, .f32⟩
  | .local _ .vmem, ⟨62, _⟩ => ⟨S128x256, .bf16⟩
  | .local _ .vmem, ⟨63, _⟩ => ⟨S5000x1, .f32⟩
  | .local _ .vmem, ⟨64, _⟩ => ⟨S5000x1, .f32⟩
  | .local _ .vmem, ⟨65, _⟩ => ⟨S5000x128, .f32⟩
  | .local _ .vmem, ⟨66, _⟩ => ⟨S5000x128, .f32⟩
  | .local _ .vmem, ⟨67, _⟩ => ⟨S5000x256, .bf16⟩
  | .local _ .vmem, ⟨68, _⟩ => ⟨S5000x256, .bf16⟩
  | .local _ .vmem, ⟨69, _⟩ => ⟨S5000x128, .f32⟩
  | .local _ .vmem, ⟨70, _⟩ => ⟨S5000x128, .f32⟩
  | .local _ .vmem, ⟨71, _⟩ => ⟨S5000x128, .f32⟩
  | .local _ .vmem, ⟨72, _⟩ => ⟨S5000x128, .f32⟩
  | .local _ .vmem, ⟨73, _⟩ => ⟨S5000x128, .f32⟩
  | .local _ .vmem, ⟨74, _⟩ => ⟨S5000x128, .f32⟩
  | .local _ .vmem, ⟨75, _⟩ => ⟨S128x128, .f32⟩
  | .local _ .vmem, ⟨76, _⟩ => ⟨S1x128, .f32⟩
  | .local _ .vmem, ⟨77, _⟩ => ⟨S1x128, .f32⟩
  | .local _ .vmem, ⟨78, _⟩ => ⟨S1x128, .f32⟩
  | .local _ .vmem, ⟨79, _⟩ => ⟨S5000x128, .f32⟩
  | .local _ .vmem, ⟨80, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | _, _ => false

abbrev semScoped : Fin 0 → Bool
  | ⟨_, h⟩ => absurd h (Nat.not_lt_zero _)

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  ofTc nBuf bufTy 0 81 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46_0 : Ref sig .tc := ⟨.hbm, 61, rfl⟩
abbrev main_v46_1 : Ref sig .tc := ⟨.hbm, 62, rfl⟩
abbrev main_v46_2 : Ref sig .tc := ⟨.hbm, 63, rfl⟩
abbrev main_c : Ref sig .tc := ⟨.hbm, 64, rfl⟩
abbrev main_v47 : Ref sig .tc := ⟨.hbm, 65, rfl⟩
abbrev main_v48 : Ref sig .tc := ⟨.hbm, 66, rfl⟩
abbrev main_c_0 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_1 : Ref sig .tc := ⟨.hbm, 73, rfl⟩
abbrev main_v54 : Ref sig .tc := ⟨.hbm, 74, rfl⟩
abbrev main_v55 : Ref sig .tc := ⟨.hbm, 75, rfl⟩
abbrev main_c_2 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst : Ref sig .tc := ⟨.hbm, 85, rfl⟩
abbrev main_v64 : Ref sig .tc := ⟨.hbm, 86, rfl⟩
abbrev main_v65 : Ref sig .tc := ⟨.hbm, 87, rfl⟩
abbrev main_cst_3 : Ref sig .tc := ⟨.hbm, 88, rfl⟩
abbrev main_v66 : Ref sig .tc := ⟨.hbm, 89, rfl⟩
abbrev main_v67 : Ref sig .tc := ⟨.hbm, 90, rfl⟩
abbrev main_c_4 : Ref sig .tc := ⟨.hbm, 91, rfl⟩
abbrev main_v68 : Ref sig .tc := ⟨.hbm, 92, rfl⟩
abbrev main_v69 : Ref sig .tc := ⟨.hbm, 93, rfl⟩
abbrev main_c_5 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_6 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125_0 : Ref sig .tc := ⟨.hbm, 151, rfl⟩
abbrev main_v125_1 : Ref sig .tc := ⟨.hbm, 152, rfl⟩
abbrev main_v125_2 : Ref sig .tc := ⟨.hbm, 153, rfl⟩
abbrev main_c_7 : Ref sig .tc := ⟨.hbm, 154, rfl⟩
abbrev main_v126 : Ref sig .tc := ⟨.hbm, 155, rfl⟩
abbrev main_v127 : Ref sig .tc := ⟨.hbm, 156, rfl⟩
abbrev main_c_8 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_c_9 : Ref sig .tc := ⟨.hbm, 163, rfl⟩
abbrev main_v133 : Ref sig .tc := ⟨.hbm, 164, rfl⟩
abbrev main_v134 : Ref sig .tc := ⟨.hbm, 165, rfl⟩
abbrev main_c_10 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_cst_11 : Ref sig .tc := ⟨.hbm, 175, rfl⟩
abbrev main_v143 : Ref sig .tc := ⟨.hbm, 176, rfl⟩
abbrev main_v144 : Ref sig .tc := ⟨.hbm, 177, rfl⟩
abbrev main_cst_12 : Ref sig .tc := ⟨.hbm, 178, rfl⟩
abbrev main_v145 : Ref sig .tc := ⟨.hbm, 179, rfl⟩
abbrev main_v146 : Ref sig .tc := ⟨.hbm, 180, rfl⟩
abbrev main_c_13 : Ref sig .tc := ⟨.hbm, 181, rfl⟩
abbrev main_v147 : Ref sig .tc := ⟨.hbm, 182, rfl⟩
abbrev main_v148 : Ref sig .tc := ⟨.hbm, 183, rfl⟩
abbrev main_c_14 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_cst_15 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_v198 : Ref sig .tc := ⟨.hbm, 235, rfl⟩
abbrev main_v199 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204_0 : Ref sig .tc := ⟨.hbm, 241, rfl⟩
abbrev main_v204_1 : Ref sig .tc := ⟨.hbm, 242, rfl⟩
abbrev main_v204_2 : Ref sig .tc := ⟨.hbm, 243, rfl⟩
abbrev main_c_16 : Ref sig .tc := ⟨.hbm, 244, rfl⟩
abbrev main_v205 : Ref sig .tc := ⟨.hbm, 245, rfl⟩
abbrev main_v206 : Ref sig .tc := ⟨.hbm, 246, rfl⟩
abbrev main_c_17 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_v211 : Ref sig .tc := ⟨.hbm, 252, rfl⟩
abbrev main_c_18 : Ref sig .tc := ⟨.hbm, 253, rfl⟩
abbrev main_v212 : Ref sig .tc := ⟨.hbm, 254, rfl⟩
abbrev main_v213 : Ref sig .tc := ⟨.hbm, 255, rfl⟩
abbrev main_c_19 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_v221 : Ref sig .tc := ⟨.hbm, 264, rfl⟩
abbrev main_cst_20 : Ref sig .tc := ⟨.hbm, 265, rfl⟩
abbrev main_v222 : Ref sig .tc := ⟨.hbm, 266, rfl⟩
abbrev main_v223 : Ref sig .tc := ⟨.hbm, 267, rfl⟩
abbrev main_cst_21 : Ref sig .tc := ⟨.hbm, 268, rfl⟩
abbrev main_v224 : Ref sig .tc := ⟨.hbm, 269, rfl⟩
abbrev main_v225 : Ref sig .tc := ⟨.hbm, 270, rfl⟩
abbrev main_c_22 : Ref sig .tc := ⟨.hbm, 271, rfl⟩
abbrev main_v226 : Ref sig .tc := ⟨.hbm, 272, rfl⟩
abbrev main_v227 : Ref sig .tc := ⟨.hbm, 273, rfl⟩
abbrev main_c_23 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_v231 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_v236 : Ref sig .tc := ⟨.hbm, 283, rfl⟩
abbrev main_v237 : Ref sig .tc := ⟨.hbm, 284, rfl⟩
abbrev main_v238 : Ref sig .tc := ⟨.hbm, 285, rfl⟩
abbrev main_v239 : Ref sig .tc := ⟨.hbm, 286, rfl⟩
abbrev main_cst_24 : Ref sig .tc := ⟨.hbm, 287, rfl⟩
abbrev main_v240 : Ref sig .tc := ⟨.hbm, 288, rfl⟩
abbrev main_v241 : Ref sig .tc := ⟨.hbm, 289, rfl⟩
abbrev main_v242 : Ref sig .tc := ⟨.hbm, 290, rfl⟩
abbrev main_v243 : Ref sig .tc := ⟨.hbm, 291, rfl⟩
abbrev main_cst_25 : Ref sig .tc := ⟨.hbm, 292, rfl⟩
abbrev main_v244 : Ref sig .tc := ⟨.hbm, 293, rfl⟩
abbrev main_v245 : Ref sig .tc := ⟨.hbm, 294, rfl⟩
abbrev main_v246 : Ref sig .tc := ⟨.hbm, 295, rfl⟩
abbrev main_cst_26 : Ref sig .tc := ⟨.hbm, 296, rfl⟩
abbrev main_v247 : Ref sig .tc := ⟨.hbm, 297, rfl⟩
abbrev main_cst_27 : Ref sig .tc := ⟨.hbm, 298, rfl⟩
abbrev main_v248 : Ref sig .tc := ⟨.hbm, 299, rfl⟩
abbrev main_v249 : Ref sig .tc := ⟨.hbm, 300, rfl⟩
abbrev main_v250 : Ref sig .tc := ⟨.hbm, 301, rfl⟩
abbrev main_cst_28 : Ref sig .tc := ⟨.hbm, 302, rfl⟩
abbrev main_v251 : Ref sig .tc := ⟨.hbm, 303, rfl⟩
abbrev main_v252 : Ref sig .tc := ⟨.hbm, 304, rfl⟩
abbrev main_v253 : Ref sig .tc := ⟨.hbm, 305, rfl⟩
abbrev main_v254 : Ref sig .tc := ⟨.hbm, 306, rfl⟩
abbrev main_v255 : Ref sig .tc := ⟨.hbm, 307, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc1_stg7_0 : Ref sig .tc := ⟨.vmem, 15, rfl⟩
abbrev cc1_stg7_1 : Ref sig .tc := ⟨.vmem, 16, rfl⟩
abbrev cc1_stg8_0 : Ref sig .tc := ⟨.vmem, 17, rfl⟩
abbrev cc1_stg8_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg7_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc3_stg7_0 : Ref sig .tc := ⟨.vmem, 40, rfl⟩
abbrev cc3_stg7_1 : Ref sig .tc := ⟨.vmem, 41, rfl⟩
abbrev cc3_stg8_0 : Ref sig .tc := ⟨.vmem, 42, rfl⟩
abbrev cc3_stg8_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg4_0 : Ref sig .tc := ⟨.vmem, 51, rfl⟩
abbrev cc4_stg5_0 : Ref sig .tc := ⟨.vmem, 52, rfl⟩
abbrev cc4_stg6_0 : Ref sig .tc := ⟨.vmem, 53, rfl⟩
abbrev cc4_stg7_0 : Ref sig .tc := ⟨.vmem, 54, rfl⟩
abbrev cc4_stg7_1 : Ref sig .tc := ⟨.vmem, 55, rfl⟩
abbrev cc5_stg0_0 : Ref sig .tc := ⟨.vmem, 56, rfl⟩
abbrev cc5_stg0_1 : Ref sig .tc := ⟨.vmem, 57, rfl⟩
abbrev cc5_stg1_0 : Ref sig .tc := ⟨.vmem, 58, rfl⟩
abbrev cc5_stg2_0 : Ref sig .tc := ⟨.vmem, 59, rfl⟩
abbrev cc5_stg3_0 : Ref sig .tc := ⟨.vmem, 60, rfl⟩
abbrev cc5_stg4_0 : Ref sig .tc := ⟨.vmem, 61, rfl⟩
abbrev cc5_stg5_0 : Ref sig .tc := ⟨.vmem, 62, rfl⟩
abbrev cc5_stg6_0 : Ref sig .tc := ⟨.vmem, 63, rfl⟩
abbrev cc5_stg6_1 : Ref sig .tc := ⟨.vmem, 64, rfl⟩
abbrev cc5_stg7_0 : Ref sig .tc := ⟨.vmem, 65, rfl⟩
abbrev cc5_stg7_1 : Ref sig .tc := ⟨.vmem, 66, rfl⟩
abbrev cc5_stg8_0 : Ref sig .tc := ⟨.vmem, 67, rfl⟩
abbrev cc5_stg8_1 : Ref sig .tc := ⟨.vmem, 68, rfl⟩
abbrev cc6_stg0_0 : Ref sig .tc := ⟨.vmem, 69, rfl⟩
abbrev cc6_stg0_1 : Ref sig .tc := ⟨.vmem, 70, rfl⟩
abbrev cc6_stg1_0 : Ref sig .tc := ⟨.vmem, 71, rfl⟩
abbrev cc6_stg1_1 : Ref sig .tc := ⟨.vmem, 72, rfl⟩
abbrev cc6_stg2_0 : Ref sig .tc := ⟨.vmem, 73, rfl⟩
abbrev cc6_stg2_1 : Ref sig .tc := ⟨.vmem, 74, rfl⟩
abbrev cc6_stg3_0 : Ref sig .tc := ⟨.vmem, 75, rfl⟩
abbrev cc6_stg4_0 : Ref sig .tc := ⟨.vmem, 76, rfl⟩
abbrev cc6_stg5_0 : Ref sig .tc := ⟨.vmem, 77, rfl⟩
abbrev cc6_stg6_0 : Ref sig .tc := ⟨.vmem, 78, rfl⟩
abbrev cc6_stg7_0 : Ref sig .tc := ⟨.vmem, 79, rfl⟩
abbrev cc6_stg7_1 : Ref sig .tc := ⟨.vmem, 80, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc1_sem7_0 : DmaSem sig := 15
abbrev cc1_sem7_1 : DmaSem sig := 16
abbrev cc1_sem8_0 : DmaSem sig := 17
abbrev cc1_sem8_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem7_1 : DmaSem sig := 30
abbrev cc3_sem0_0 : DmaSem sig := 31
abbrev cc3_sem0_1 : DmaSem sig := 32
abbrev cc3_sem1_0 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc3_sem7_0 : DmaSem sig := 40
abbrev cc3_sem7_1 : DmaSem sig := 41
abbrev cc3_sem8_0 : DmaSem sig := 42
abbrev cc3_sem8_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem4_0 : DmaSem sig := 51
abbrev cc4_sem5_0 : DmaSem sig := 52
abbrev cc4_sem6_0 : DmaSem sig := 53
abbrev cc4_sem7_0 : DmaSem sig := 54
abbrev cc4_sem7_1 : DmaSem sig := 55
abbrev cc5_sem0_0 : DmaSem sig := 56
abbrev cc5_sem0_1 : DmaSem sig := 57
abbrev cc5_sem1_0 : DmaSem sig := 58
abbrev cc5_sem2_0 : DmaSem sig := 59
abbrev cc5_sem3_0 : DmaSem sig := 60
abbrev cc5_sem4_0 : DmaSem sig := 61
abbrev cc5_sem5_0 : DmaSem sig := 62
abbrev cc5_sem6_0 : DmaSem sig := 63
abbrev cc5_sem6_1 : DmaSem sig := 64
abbrev cc5_sem7_0 : DmaSem sig := 65
abbrev cc5_sem7_1 : DmaSem sig := 66
abbrev cc5_sem8_0 : DmaSem sig := 67
abbrev cc5_sem8_1 : DmaSem sig := 68
abbrev cc6_sem0_0 : DmaSem sig := 69
abbrev cc6_sem0_1 : DmaSem sig := 70
abbrev cc6_sem1_0 : DmaSem sig := 71
abbrev cc6_sem1_1 : DmaSem sig := 72
abbrev cc6_sem2_0 : DmaSem sig := 73
abbrev cc6_sem2_1 : DmaSem sig := 74
abbrev cc6_sem3_0 : DmaSem sig := 75
abbrev cc6_sem4_0 : DmaSem sig := 76
abbrev cc6_sem5_0 : DmaSem sig := 77
abbrev cc6_sem6_0 : DmaSem sig := 78
abbrev cc6_sem7_0 : DmaSem sig := 79
abbrev cc6_sem7_1 : DmaSem sig := 80

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x256 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S5000x256 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_8 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x256 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x1 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S5000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev stage5_8 : Fin 2 → Memref sig .tc .vmem S5000x256 .bf16 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

class Facts₀ : Prop where
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x625000_S1x625000_0_0 : S2x625000.Slices ![0, 0] S1x625000
  shapeCasts_S1x625000_S625000 : S1x625000.ShapeCasts S625000
  slices_S2x625000_S1x625000_1_0 : S2x625000.Slices ![1, 0] S1x625000
  slices_S3x128x128_S1x128x128_0_0_0 : S3x128x128.Slices ![0, 0, 0] S1x128x128
  shapeCasts_S1x128x128_S128x128 : S1x128x128.ShapeCasts S128x128
  slices_S3x1x128_S1x1x128_0_0_0 : S3x1x128.Slices ![0, 0, 0] S1x1x128
  shapeCasts_S1x1x128_S1x128 : S1x1x128.ShapeCasts S1x128
  slices_S3x1_S1x1_0_0 : S3x1.Slices ![0, 0] S1x1
  shapeCasts_S1x1_S1 : S1x1.ShapeCasts S1
  shapeCasts_S1_S1x1 : S1.ShapeCasts S1x1
  slices_S3x128_S1x128_0_0 : S3x128.Slices ![0, 0] S1x128
  shapeCasts_S1x128_S128 : S1x128.ShapeCasts S128
  slices_S3x128x384_S1x128x384_0_0_0 : S3x128x384.Slices ![0, 0, 0] S1x128x384
  shapeCasts_S1x128x384_S128x384 : S1x128x384.ShapeCasts S128x384
  slices_S128x384_S128x128_0_0 : S128x384.Slices ![0, 0] S128x128
  slices_S128x384_S128x128_0_128 : S128x384.Slices ![0, 128] S128x128
  slices_S128x384_S128x128_0_256 : S128x384.Slices ![0, 256] S128x128
  concatenates_S128x128_S128x128_S128x256_d1 : Shape.Concatenates [S128x128, S128x128] S128x256 1
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S5000x256_S5000x256_0_0 : ∀ a, (![0, 0] : Fin 2 → Nat) a + S5000x256.size a ≤ S5000x256.size a
  h_S5000x256 : 0 < S5000x256.numel
  packedbf16_S5000x256_S5000x256_0_0 : (Rect.unit (s := S5000x256) ![0, 0] S5000x256.size inb_S5000x256_S5000x256_0_0).PackedRows (EltTy.packing .bf16)
  reduces_S5000x128_S5000 : S5000x128.Reduces [1] S5000
  shapeCasts_S5000_S5000x1 : S5000.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  bcast_S_S625000 : S_.BroadcastsInDim S625000 (![] : Fin 0 → Fin S625000.rank)
  bcast_S625000_S625000x1_0 : S625000.BroadcastsInDim S625000x1 (![0] : Fin 1 → Fin S625000x1.rank)
  bcast_S_S625000x1 : S_.BroadcastsInDim S625000x1 (![] : Fin 0 → Fin S625000x1.rank)
  slices_S625000x256_S625000x128_0_0 : S625000x256.Slices ![0, 0] S625000x128
  slices_S625000x256_S625000x128_0_128 : S625000x256.Slices ![0, 128] S625000x128
  bcast_S625000x1_S625000x128_0_1 : S625000x1.BroadcastsInDim S625000x128 (![0, 1] : Fin 2 → Fin S625000x128.rank)
  bcast_S_S50000x128 : S_.BroadcastsInDim S50000x128 (![] : Fin 0 → Fin S50000x128.rank)
  broadcasts_S5000x1_S5000x128 : S5000x1.Broadcasts S5000x128
  slices_S3x128x128_S1x128x128_1_0_0 : S3x128x128.Slices ![1, 0, 0] S1x128x128
  slices_S3x1x128_S1x1x128_1_0_0 : S3x1x128.Slices ![1, 0, 0] S1x1x128
  slices_S3x1_S1x1_1_0 : S3x1.Slices ![1, 0] S1x1
  slices_S3x128_S1x128_1_0 : S3x128.Slices ![1, 0] S1x128
  slices_S3x128x384_S1x128x384_1_0_0 : S3x128x384.Slices ![1, 0, 0] S1x128x384
  slices_S3x128x128_S1x128x128_2_0_0 : S3x128x128.Slices ![2, 0, 0] S1x128x128
  slices_S3x1x128_S1x1x128_2_0_0 : S3x1x128.Slices ![2, 0, 0] S1x1x128
  slices_S3x1_S1x1_2_0 : S3x1.Slices ![2, 0] S1x1
  slices_S3x128_S1x128_2_0 : S3x128.Slices ![2, 0] S1x128
  slices_S3x128x384_S1x128x384_2_0_0 : S3x128x384.Slices ![2, 0, 0] S1x128x384
  bcast_S_S64x128 : S_.BroadcastsInDim S64x128 (![] : Fin 0 → Fin S64x128.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  dot_S5000x128_S128x128_S5000x128_1_0_0_1_n_n_wf : DotDims.WF S5000x128 S128x128 S5000x128 [1] [0] [0] [1] [] []
  dot_S128x128_S128x128_S128x128_1_0_0_1_n_n_wf : DotDims.WF S128x128 S128x128 S128x128 [1] [0] [0] [1] [] []
  dot_S5000x128_S128x256_S5000x256_1_0_0_1_n_n_wf : DotDims.WF S5000x128 S128x256 S5000x256 [1] [0] [0] [1] [] []
  gather_S50000x1_S625000x1_S625000x1_1_0_n_n_0_1_11_wf : GatherDims.WF S50000x1 S625000x1 S625000x1 [1] [0] [] [0] [] 1 ![1, 1]
  gather_S50000x256_S625000x1_S625000x256_1_0_n_n_0_1_1256_wf : GatherDims.WF S50000x256 S625000x1 S625000x256 [1] [0] [] [0] [] 1 ![1, 256]
  scatter_S50000x128_S625000x1_S625000x128_1_0_0_1_wf : ScatterDims.WF S50000x128 S625000x1 S625000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x256.size a ≤ S128x256.size a
  hwx1_5 : ∀ i : grid1.Coords, EltTy.bits .bf16 = 32 ∨ (Rect.block (s := S128x256) S128x256.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x1.size a ≤ S50000x1.size a
  hwx1_6 : ∀ i : grid1.Coords, EltTy.bits .f32 = 32 ∨ (Rect.block (s := S50000x1) S5000x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x256.size a ≤ S50000x256.size a
  hwx1_8 : ∀ i : grid1.Coords, EltTy.bits .bf16 = 32 ∨ (Rect.block (s := S50000x256) S5000x256.size (cc1_transform_8 i) (hinb1_8 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x256.size a ≤ S128x256.size a
  hwx3_5 : ∀ i : grid3.Coords, EltTy.bits .bf16 = 32 ∨ (Rect.block (s := S128x256) S128x256.size (cc3_transform_5 i) (hinb3_5 i)).WholeWords (EltTy.packing .bf16)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x1.size a ≤ S50000x1.size a
  hwx3_6 : ∀ i : grid3.Coords, EltTy.bits .f32 = 32 ∨ (Rect.block (s := S50000x1) S5000x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S50000x128.size a
  hwx3_7 : ∀ i : grid3.Coords, EltTy.bits .f32 = 32 ∨ (Rect.block (s := S50000x128) S5000x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x256.size a ≤ S50000x256.size a
  hwx3_8 : ∀ i : grid3.Coords, EltTy.bits .bf16 = 32 ∨ (Rect.block (s := S50000x256) S5000x256.size (cc3_transform_8 i) (hinb3_8 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x128.size a ≤ S50000x128.size a
  hwx4_7 : ∀ i : grid4.Coords, EltTy.bits .f32 = 32 ∨ (Rect.block (s := S50000x128) S5000x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x256.size a ≤ S128x256.size a
  hwx5_5 : ∀ i : grid5.Coords, EltTy.bits .bf16 = 32 ∨ (Rect.block (s := S128x256) S128x256.size (cc5_transform_5 i) (hinb5_5 i)).WholeWords (EltTy.packing .bf16)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x1.size a ≤ S50000x1.size a
  hwx5_6 : ∀ i : grid5.Coords, EltTy.bits .f32 = 32 ∨ (Rect.block (s := S50000x1) S5000x1.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x128.size a ≤ S50000x128.size a
  hwx5_7 : ∀ i : grid5.Coords, EltTy.bits .f32 = 32 ∨ (Rect.block (s := S50000x128) S5000x128.size (cc5_transform_7 i) (hinb5_7 i)).WholeWords (EltTy.packing .f32)
  hstage5_8 : ∀ j, (stage5_8 j).IsWhole
  nbuf5_8 : grid5.bufCount reads5_8 false = 2
  hreads5_8 : ∀ i i' : grid5.Coords, (∀ a, reads5_8 a = true → i a = i' a) → cc5_transform_8 i = cc5_transform_8 i'
  hinb5_8 : ∀ (i : grid5.Coords) a, (cc5_transform_8 i a + 1) * S5000x256.size a ≤ S50000x256.size a
  hwx5_8 : ∀ i : grid5.Coords, EltTy.bits .bf16 = 32 ∨ (Rect.block (s := S50000x256) S5000x256.size (cc5_transform_8 i) (hinb5_8 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x128.size a ≤ S50000x128.size a
  hwx6_7 : ∀ i : grid6.Coords, EltTy.bits .f32 = 32 ∨ (Rect.block (s := S50000x128) S5000x128.size (cc6_transform_7 i) (hinb6_7 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x1_S625000x1_S625000x1_1_0_n_n_0_1_11 : GatherDims S50000x1 S625000x1 S625000x1 where
  offsetDims := [1]
  collapsedSliceDims := [0]
  operandBatchingDims := []
  startIndicesBatchingDims := []
  startIndexMap := [0]
  indexVectorDim := 1
  sliceSizes := ![1, 1]
  wf := gather_S50000x1_S625000x1_S625000x1_1_0_n_n_0_1_11_wf
def gather_S50000x256_S625000x1_S625000x256_1_0_n_n_0_1_1256 : GatherDims S50000x256 S625000x1 S625000x256 where
  offsetDims := [1]
  collapsedSliceDims := [0]
  operandBatchingDims := []
  startIndicesBatchingDims := []
  startIndexMap := [0]
  indexVectorDim := 1
  sliceSizes := ![1, 256]
  wf := gather_S50000x256_S625000x1_S625000x256_1_0_n_n_0_1_1256_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S128x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46_0) S5000x1.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v46_1) S5000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v46_2) S5000x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v46_1) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v84) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v21) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v45) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v85) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v85) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v90) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v93) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v88) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v96) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v115) S128x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v125_0) S5000x1.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v125_1) S5000x128.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v125_2) S5000x256.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v125_1) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v163) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v85) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v100) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v118) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v121) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v124) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v164) S5000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v164) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v169) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v172) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v167) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v175) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v194) S128x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v204_0) S5000x1.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v204_1) S5000x128.size cc5_transform_7 reads5_7 true false 2 stage5_7 sem5_7
    hrank5 hreads5_7 hinb5_7 nbuf5_7 (Memref.isWhole_whole _) hwx5_7 hstage5_7

abbrev win5_8 : Pipeline.Window sig grid5 :=
  Pipeline.Window.ofSpec (Memref.whole main_v204_2) S5000x256.size cc5_transform_8 reads5_8 true false 2 stage5_8 sem5_8
    hrank5 hreads5_8 hinb5_8 nbuf5_8 (Memref.isWhole_whole _) hwx5_8 hstage5_8

abbrev win5 : Fin 9 → Pipeline.Window sig grid5 := fun | 0 => win5_0 | 1 => win5_1 | 2 => win5_2 | 3 => win5_3 | 4 => win5_4 | 5 => win5_5 | 6 => win5_6 | 7 => win5_7 | 8 => win5_8 | ⟨_ + 9, h⟩ => absurd h (Nat.not_lt.2 (Nat.le_add_left _ _))
abbrev spec5 : Fin 9 → Pipeline.WinSpec sig grid5.rank := fun w => (win5 w).toWinSpec

abbrev win6_0 : Pipeline.Window sig grid6 :=
  Pipeline.Window.ofSpec (Memref.whole main_v204_1) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v242) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v164) S5000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v179) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v197) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v200) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v203) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v243) S5000x128.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x625000 : Shape := ⟨2, ![2, 625000]⟩
abbrev S50000 : Shape := ⟨1, ![50000]⟩
abbrev S128x128 : Shape := ⟨2, ![128, 128]⟩
abbrev S128 : Shape := ⟨1, ![128]⟩
abbrev S3x1x128 : Shape := ⟨3, ![3, 1, 128]⟩
abbrev S3x1 : Shape := ⟨2, ![3, 1]⟩
abbrev S3x128x128 : Shape := ⟨3, ![3, 128, 128]⟩
abbrev S3x128 : Shape := ⟨2, ![3, 128]⟩
abbrev S3x128x384 : Shape := ⟨3, ![3, 128, 384]⟩
abbrev S1x625000 : Shape := ⟨2, ![1, 625000]⟩
abbrev S625000 : Shape := ⟨1, ![625000]⟩
abbrev S1x128 : Shape := ⟨2, ![1, 128]⟩
abbrev S_ : Shape := ⟨0, ![]⟩
abbrev S1x1x128 : Shape := ⟨3, ![1, 1, 128]⟩
abbrev S128x1 : Shape := ⟨2, ![128, 1]⟩
abbrev S50000x1 : Shape := ⟨2, ![50000, 1]⟩
abbrev S1x1 : Shape := ⟨2, ![1, 1]⟩
abbrev S1 : Shape := ⟨1, ![1]⟩
abbrev S1x128x128 : Shape := ⟨3, ![1, 128, 128]⟩
abbrev S625000x1 : Shape := ⟨2, ![625000, 1]⟩
abbrev S625000x128 : Shape := ⟨2, ![625000, 128]⟩
abbrev S50000x384 : Shape := ⟨2, ![50000, 384]⟩
abbrev S1x128x384 : Shape := ⟨3, ![1, 128, 384]⟩
abbrev S128x384 : Shape := ⟨2, ![128, 384]⟩
abbrev S384x128 : Shape := ⟨2, ![384, 128]⟩
abbrev S64x128 : Shape := ⟨2, ![64, 128]⟩
abbrev S64 : Shape := ⟨1, ![64]⟩
abbrev S64x1 : Shape := ⟨2, ![64, 1]⟩

abbrev nBuf : Space → Nat
  | .hbm => 487
  | .vmem => 0
  | .smem => 0
  | _ => 0

abbrev hbmTy0_0 (i : Nat) : BufTy := match i % 128 with
  | 0 => ⟨S50000x128, .f32⟩
  | 1 => ⟨S2x625000, .i32⟩
  | 2 => ⟨S50000, .i32⟩
  | 3 => ⟨S128x128, .f32⟩
  | 4 => ⟨S128, .f32⟩
  | 5 => ⟨S3x1x128, .f32⟩
  | 6 => ⟨S3x1, .f32⟩
  | 7 => ⟨S3x128x128, .f32⟩
  | 8 => ⟨S3x128x128, .f32⟩
  | 9 => ⟨S3x128x128, .f32⟩
  | 10 => ⟨S3x128, .f32⟩
  | 11 => ⟨S3x128x384, .f32⟩
  | 12 => ⟨S3x128, .f32⟩
  | 13 => ⟨S3x128, .f32⟩
  | 14 => ⟨S3x128, .f32⟩
  | 15 => ⟨S1x625000, .i32⟩
  | 16 => ⟨S625000, .i32⟩
  | 17 => ⟨S1x625000, .i32⟩
  | 18 => ⟨S625000, .i32⟩
  | 19 => ⟨S128x128, .f32⟩
  | 20 => ⟨S50000x128, .f32⟩
  | 21 => ⟨S1x128, .f32⟩
  | 22 => ⟨S50000x128, .f32⟩
  | 23 => ⟨S50000x128, .f32⟩
  | 24 => ⟨S_, .f32⟩
  | 25 => ⟨S50000x128, .f32⟩
  | 26 => ⟨S50000x128, .f32⟩
  | 27 => ⟨S1x1x128, .f32⟩
  | 28 => ⟨S1x128, .f32⟩
  | 29 => ⟨S128x1, .f32⟩
  | 30 => ⟨S50000x1, .f32⟩
  | 31 => ⟨S1x1, .f32⟩
  | 32 => ⟨S1, .f32⟩
  | 33 => ⟨S1x1, .f32⟩
  | 34 => ⟨S50000x1, .f32⟩
  | 35 => ⟨S50000x1, .f32⟩
  | 36 => ⟨S1x128x128, .f32⟩
  | 37 => ⟨S128x128, .f32⟩
  | 38 => ⟨S128x128, .f32⟩
  | 39 => ⟨S50000x128, .f32⟩
  | 40 => ⟨S1x128x128, .f32⟩
  | 41 => ⟨S128x128, .f32⟩
  | 42 => ⟨S128x128, .f32⟩
  | 43 => ⟨S50000x128, .f32⟩
  | 44 => ⟨S1x128x128, .f32⟩
  | 45 => ⟨S128x128, .f32⟩
  | 46 => ⟨S128x128, .f32⟩
  | 47 => ⟨S50000x128, .f32⟩
  | 48 => ⟨S1x128, .f32⟩
  | 49 => ⟨S128, .f32⟩
  | 50 => ⟨S1x128, .f32⟩
  | 51 => ⟨S50000x128, .f32⟩
  | 52 => ⟨S50000x128, .f32⟩
  | 53 => ⟨S_, .i32⟩
  | 54 => ⟨S625000, .i32⟩
  | 55 => ⟨S625000, .i1⟩
  | 56 => ⟨S_, .i32⟩
  | 57 => ⟨S625000, .i32⟩
  | 58 => ⟨S625000, .i32⟩
  | 59 => ⟨S625000, .i32⟩
  | 60 => ⟨S625000x1, .i32⟩
  | 61 => ⟨S625000x1, .f32⟩
  | 62 => ⟨S_, .i32⟩
  | 63 => ⟨S625000, .i32⟩
  | 64 => ⟨S625000, .i1⟩
  | 65 => ⟨S_, .i32⟩
  | 66 => ⟨S625000, .i32⟩
  | 67 => ⟨S625000, .i32⟩
  | 68 => ⟨S625000, .i32⟩
  | 69 => ⟨S625000x1, .i32⟩
  | 70 => ⟨S625000x1, .f32⟩
  | 71 => ⟨S625000x1, .f32⟩
  | 72 => ⟨S625000x1, .f32⟩
  | 73 => ⟨S625000x1, .f32⟩
  | 74 => ⟨S_, .f32⟩
  | 75 => ⟨S625000x1, .f32⟩
  | 76 => ⟨S625000x1, .f32⟩
  | 77 => ⟨S_, .f32⟩
  | 78 => ⟨S625000x1, .f32⟩
  | 79 => ⟨S625000x1, .f32⟩
  | 80 => ⟨S_, .i32⟩
  | 81 => ⟨S625000, .i32⟩
  | 82 => ⟨S625000, .i1⟩
  | 83 => ⟨S_, .i32⟩
  | 84 => ⟨S625000, .i32⟩
  | 85 => ⟨S625000, .i32⟩
  | 86 => ⟨S625000, .i32⟩
  | 87 => ⟨S625000x1, .i32⟩
  | 88 => ⟨S625000x128, .f32⟩
  | 89 => ⟨S625000x128, .f32⟩
  | 90 => ⟨S625000x128, .f32⟩
  | 91 => ⟨S_, .f32⟩
  | 92 => ⟨S50000x128, .f32⟩
  | 93 => ⟨S625000x1, .i32⟩
  | 94 => ⟨S50000x128, .f32⟩
  | 95 => ⟨S_, .i32⟩
  | 96 => ⟨S625000, .i32⟩
  | 97 => ⟨S625000, .i1⟩
  | 98 => ⟨S_, .i32⟩
  | 99 => ⟨S625000, .i32⟩
  | 100 => ⟨S625000, .i32⟩
  | 101 => ⟨S625000, .i32⟩
  | 102 => ⟨S625000x1, .i32⟩
  | 103 => ⟨S625000x128, .f32⟩
  | 104 => ⟨S_, .f32⟩
  | 105 => ⟨S625000x1, .f32⟩
  | 106 => ⟨S625000x1, .f32⟩
  | 107 => ⟨S625000x128, .f32⟩
  | 108 => ⟨S625000x128, .f32⟩
  | 109 => ⟨S_, .f32⟩
  | 110 => ⟨S50000x128, .f32⟩
  | 111 => ⟨S625000x1, .i32⟩
  | 112 => ⟨S50000x128, .f32⟩
  | 113 => ⟨S50000x384, .f32⟩
  | 114 => ⟨S1x128x384, .f32⟩
  | 115 => ⟨S128x384, .f32⟩
  | 116 => ⟨S384x128, .f32⟩
  | 117 => ⟨S50000x128, .f32⟩
  | 118 => ⟨S1x128, .f32⟩
  | 119 => ⟨S128, .f32⟩
  | 120 => ⟨S1x128, .f32⟩
  | 121 => ⟨S50000x128, .f32⟩
  | 122 => ⟨S50000x128, .f32⟩
  | 123 => ⟨S_, .f32⟩
  | 124 => ⟨S50000, .f32⟩
  | 125 => ⟨S50000x1, .f32⟩
  | 126 => ⟨S_, .f32⟩
  | 127 => ⟨S50000x1, .f32⟩
  | _ => ⟨S50000x128, .f32⟩

abbrev hbmTy0_1 (i : Nat) : BufTy := match i % 128 with
  | 0 => ⟨S50000x1, .f32⟩
  | 1 => ⟨S_, .i32⟩
  | 2 => ⟨S_, .f32⟩
  | 3 => ⟨S50000, .f32⟩
  | 4 => ⟨S50000x1, .f32⟩
  | 5 => ⟨S_, .f32⟩
  | 6 => ⟨S50000x1, .f32⟩
  | 7 => ⟨S50000x1, .f32⟩
  | 8 => ⟨S50000x128, .f32⟩
  | 9 => ⟨S50000x128, .f32⟩
  | 10 => ⟨S50000x128, .f32⟩
  | 11 => ⟨S_, .f32⟩
  | 12 => ⟨S_, .f32⟩
  | 13 => ⟨S_, .f32⟩
  | 14 => ⟨S_, .f32⟩
  | 15 => ⟨S50000, .f32⟩
  | 16 => ⟨S50000x1, .f32⟩
  | 17 => ⟨S50000x1, .f32⟩
  | 18 => ⟨S50000x1, .f32⟩
  | 19 => ⟨S_, .f32⟩
  | 20 => ⟨S_, .i1⟩
  | 21 => ⟨S_, .f32⟩
  | 22 => ⟨S_, .f32⟩
  | 23 => ⟨S50000x1, .f32⟩
  | 24 => ⟨S50000x1, .f32⟩
  | 25 => ⟨S50000x128, .f32⟩
  | 26 => ⟨S50000x128, .f32⟩
  | 27 => ⟨S_, .f32⟩
  | 28 => ⟨S50000x1, .f32⟩
  | 29 => ⟨S50000x1, .f32⟩
  | 30 => ⟨S50000x1, .f32⟩
  | 31 => ⟨S50000x128, .f32⟩
  | 32 => ⟨S50000x128, .f32⟩
  | 33 => ⟨S1x128, .f32⟩
  | 34 => ⟨S128, .f32⟩
  | 35 => ⟨S1x128, .f32⟩
  | 36 => ⟨S50000x128, .f32⟩
  | 37 => ⟨S50000x128, .f32⟩
  | 38 => ⟨S1x128, .f32⟩
  | 39 => ⟨S128, .f32⟩
  | 40 => ⟨S1x128, .f32⟩
  | 41 => ⟨S50000x128, .f32⟩
  | 42 => ⟨S50000x128, .f32⟩
  | 43 => ⟨S_, .f32⟩
  | 44 => ⟨S50000x128, .f32⟩
  | 45 => ⟨S50000x128, .f32⟩
  | 46 => ⟨S50000x128, .f32⟩
  | 47 => ⟨S1x1x128, .f32⟩
  | 48 => ⟨S1x128, .f32⟩
  | 49 => ⟨S128x1, .f32⟩
  | 50 => ⟨S50000x1, .f32⟩
  | 51 => ⟨S1x1, .f32⟩
  | 52 => ⟨S1, .f32⟩
  | 53 => ⟨S1x1, .f32⟩
  | 54 => ⟨S50000x1, .f32⟩
  | 55 => ⟨S50000x1, .f32⟩
  | 56 => ⟨S1x128x128, .f32⟩
  | 57 => ⟨S128x128, .f32⟩
  | 58 => ⟨S128x128, .f32⟩
  | 59 => ⟨S50000x128, .f32⟩
  | 60 => ⟨S1x128x128, .f32⟩
  | 61 => ⟨S128x128, .f32⟩
  | 62 => ⟨S128x128, .f32⟩
  | 63 => ⟨S50000x128, .f32⟩
  | 64 => ⟨S1x128x128, .f32⟩
  | 65 => ⟨S128x128, .f32⟩
  | 66 => ⟨S128x128, .f32⟩
  | 67 => ⟨S50000x128, .f32⟩
  | 68 => ⟨S1x128, .f32⟩
  | 69 => ⟨S128, .f32⟩
  | 70 => ⟨S1x128, .f32⟩
  | 71 => ⟨S50000x128, .f32⟩
  | 72 => ⟨S50000x128, .f32⟩
  | 73 => ⟨S_, .i32⟩
  | 74 => ⟨S625000, .i32⟩
  | 75 => ⟨S625000, .i1⟩
  | 76 => ⟨S_, .i32⟩
  | 77 => ⟨S625000, .i32⟩
  | 78 => ⟨S625000, .i32⟩
  | 79 => ⟨S625000, .i32⟩
  | 80 => ⟨S625000x1, .i32⟩
  | 81 => ⟨S625000x1, .f32⟩
  | 82 => ⟨S_, .i32⟩
  | 83 => ⟨S625000, .i32⟩
  | 84 => ⟨S625000, .i1⟩
  | 85 => ⟨S_, .i32⟩
  | 86 => ⟨S625000, .i32⟩
  | 87 => ⟨S625000, .i32⟩
  | 88 => ⟨S625000, .i32⟩
  | 89 => ⟨S625000x1, .i32⟩
  | 90 => ⟨S625000x1, .f32⟩
  | 91 => ⟨S625000x1, .f32⟩
  | 92 => ⟨S625000x1, .f32⟩
  | 93 => ⟨S625000x1, .f32⟩
  | 94 => ⟨S_, .f32⟩
  | 95 => ⟨S625000x1, .f32⟩
  | 96 => ⟨S625000x1, .f32⟩
  | 97 => ⟨S_, .f32⟩
  | 98 => ⟨S625000x1, .f32⟩
  | 99 => ⟨S625000x1, .f32⟩
  | 100 => ⟨S_, .i32⟩
  | 101 => ⟨S625000, .i32⟩
  | 102 => ⟨S625000, .i1⟩
  | 103 => ⟨S_, .i32⟩
  | 104 => ⟨S625000, .i32⟩
  | 105 => ⟨S625000, .i32⟩
  | 106 => ⟨S625000, .i32⟩
  | 107 => ⟨S625000x1, .i32⟩
  | 108 => ⟨S625000x128, .f32⟩
  | 109 => ⟨S625000x128, .f32⟩
  | 110 => ⟨S625000x128, .f32⟩
  | 111 => ⟨S_, .f32⟩
  | 112 => ⟨S50000x128, .f32⟩
  | 113 => ⟨S625000x1, .i32⟩
  | 114 => ⟨S50000x128, .f32⟩
  | 115 => ⟨S_, .i32⟩
  | 116 => ⟨S625000, .i32⟩
  | 117 => ⟨S625000, .i1⟩
  | 118 => ⟨S_, .i32⟩
  | 119 => ⟨S625000, .i32⟩
  | 120 => ⟨S625000, .i32⟩
  | 121 => ⟨S625000, .i32⟩
  | 122 => ⟨S625000x1, .i32⟩
  | 123 => ⟨S625000x128, .f32⟩
  | 124 => ⟨S_, .f32⟩
  | 125 => ⟨S625000x1, .f32⟩
  | 126 => ⟨S625000x1, .f32⟩
  | 127 => ⟨S625000x128, .f32⟩
  | _ => ⟨S50000x128, .f32⟩

abbrev hbmTy0_2 (i : Nat) : BufTy := match i % 128 with
  | 0 => ⟨S625000x128, .f32⟩
  | 1 => ⟨S_, .f32⟩
  | 2 => ⟨S50000x128, .f32⟩
  | 3 => ⟨S625000x1, .i32⟩
  | 4 => ⟨S50000x128, .f32⟩
  | 5 => ⟨S50000x384, .f32⟩
  | 6 => ⟨S1x128x384, .f32⟩
  | 7 => ⟨S128x384, .f32⟩
  | 8 => ⟨S384x128, .f32⟩
  | 9 => ⟨S50000x128, .f32⟩
  | 10 => ⟨S1x128, .f32⟩
  | 11 => ⟨S128, .f32⟩
  | 12 => ⟨S1x128, .f32⟩
  | 13 => ⟨S50000x128, .f32⟩
  | 14 => ⟨S50000x128, .f32⟩
  | 15 => ⟨S_, .f32⟩
  | 16 => ⟨S50000, .f32⟩
  | 17 => ⟨S50000x1, .f32⟩
  | 18 => ⟨S_, .f32⟩
  | 19 => ⟨S50000x1, .f32⟩
  | 20 => ⟨S50000x1, .f32⟩
  | 21 => ⟨S_, .i32⟩
  | 22 => ⟨S_, .f32⟩
  | 23 => ⟨S50000, .f32⟩
  | 24 => ⟨S50000x1, .f32⟩
  | 25 => ⟨S_, .f32⟩
  | 26 => ⟨S50000x1, .f32⟩
  | 27 => ⟨S50000x1, .f32⟩
  | 28 => ⟨S50000x128, .f32⟩
  | 29 => ⟨S50000x128, .f32⟩
  | 30 => ⟨S50000x128, .f32⟩
  | 31 => ⟨S_, .f32⟩
  | 32 => ⟨S_, .f32⟩
  | 33 => ⟨S_, .f32⟩
  | 34 => ⟨S_, .f32⟩
  | 35 => ⟨S50000, .f32⟩
  | 36 => ⟨S50000x1, .f32⟩
  | 37 => ⟨S50000x1, .f32⟩
  | 38 => ⟨S50000x1, .f32⟩
  | 39 => ⟨S_, .f32⟩
  | 40 => ⟨S_, .i1⟩
  | 41 => ⟨S_, .f32⟩
  | 42 => ⟨S_, .f32⟩
  | 43 => ⟨S50000x1, .f32⟩
  | 44 => ⟨S50000x1, .f32⟩
  | 45 => ⟨S50000x128, .f32⟩
  | 46 => ⟨S50000x128, .f32⟩
  | 47 => ⟨S_, .f32⟩
  | 48 => ⟨S50000x1, .f32⟩
  | 49 => ⟨S50000x1, .f32⟩
  | 50 => ⟨S50000x1, .f32⟩
  | 51 => ⟨S50000x128, .f32⟩
  | 52 => ⟨S50000x128, .f32⟩
  | 53 => ⟨S1x128, .f32⟩
  | 54 => ⟨S128, .f32⟩
  | 55 => ⟨S1x128, .f32⟩
  | 56 => ⟨S50000x128, .f32⟩
  | 57 => ⟨S50000x128, .f32⟩
  | 58 => ⟨S1x128, .f32⟩
  | 59 => ⟨S128, .f32⟩
  | 60 => ⟨S1x128, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S50000x128, .f32⟩
  | 67 => ⟨S1x1x128, .f32⟩
  | 68 => ⟨S1x128, .f32⟩
  | 69 => ⟨S128x1, .f32⟩
  | 70 => ⟨S50000x1, .f32⟩
  | 71 => ⟨S1x1, .f32⟩
  | 72 => ⟨S1, .f32⟩
  | 73 => ⟨S1x1, .f32⟩
  | 74 => ⟨S50000x1, .f32⟩
  | 75 => ⟨S50000x1, .f32⟩
  | 76 => ⟨S1x128x128, .f32⟩
  | 77 => ⟨S128x128, .f32⟩
  | 78 => ⟨S128x128, .f32⟩
  | 79 => ⟨S50000x128, .f32⟩
  | 80 => ⟨S1x128x128, .f32⟩
  | 81 => ⟨S128x128, .f32⟩
  | 82 => ⟨S128x128, .f32⟩
  | 83 => ⟨S50000x128, .f32⟩
  | 84 => ⟨S1x128x128, .f32⟩
  | 85 => ⟨S128x128, .f32⟩
  | 86 => ⟨S128x128, .f32⟩
  | 87 => ⟨S50000x128, .f32⟩
  | 88 => ⟨S1x128, .f32⟩
  | 89 => ⟨S128, .f32⟩
  | 90 => ⟨S1x128, .f32⟩
  | 91 => ⟨S50000x128, .f32⟩
  | 92 => ⟨S50000x128, .f32⟩
  | 93 => ⟨S_, .i32⟩
  | 94 => ⟨S625000, .i32⟩
  | 95 => ⟨S625000, .i1⟩
  | 96 => ⟨S_, .i32⟩
  | 97 => ⟨S625000, .i32⟩
  | 98 => ⟨S625000, .i32⟩
  | 99 => ⟨S625000, .i32⟩
  | 100 => ⟨S625000x1, .i32⟩
  | 101 => ⟨S625000x1, .f32⟩
  | 102 => ⟨S_, .i32⟩
  | 103 => ⟨S625000, .i32⟩
  | 104 => ⟨S625000, .i1⟩
  | 105 => ⟨S_, .i32⟩
  | 106 => ⟨S625000, .i32⟩
  | 107 => ⟨S625000, .i32⟩
  | 108 => ⟨S625000, .i32⟩
  | 109 => ⟨S625000x1, .i32⟩
  | 110 => ⟨S625000x1, .f32⟩
  | 111 => ⟨S625000x1, .f32⟩
  | 112 => ⟨S625000x1, .f32⟩
  | 113 => ⟨S625000x1, .f32⟩
  | 114 => ⟨S_, .f32⟩
  | 115 => ⟨S625000x1, .f32⟩
  | 116 => ⟨S625000x1, .f32⟩
  | 117 => ⟨S_, .f32⟩
  | 118 => ⟨S625000x1, .f32⟩
  | 119 => ⟨S625000x1, .f32⟩
  | 120 => ⟨S_, .i32⟩
  | 121 => ⟨S625000, .i32⟩
  | 122 => ⟨S625000, .i1⟩
  | 123 => ⟨S_, .i32⟩
  | 124 => ⟨S625000, .i32⟩
  | 125 => ⟨S625000, .i32⟩
  | 126 => ⟨S625000, .i32⟩
  | 127 => ⟨S625000x1, .i32⟩
  | _ => ⟨S50000x128, .f32⟩

abbrev hbmTy0_3 (i : Nat) : BufTy := match i % 128 with
  | 0 => ⟨S625000x128, .f32⟩
  | 1 => ⟨S625000x128, .f32⟩
  | 2 => ⟨S625000x128, .f32⟩
  | 3 => ⟨S_, .f32⟩
  | 4 => ⟨S50000x128, .f32⟩
  | 5 => ⟨S625000x1, .i32⟩
  | 6 => ⟨S50000x128, .f32⟩
  | 7 => ⟨S_, .i32⟩
  | 8 => ⟨S625000, .i32⟩
  | 9 => ⟨S625000, .i1⟩
  | 10 => ⟨S_, .i32⟩
  | 11 => ⟨S625000, .i32⟩
  | 12 => ⟨S625000, .i32⟩
  | 13 => ⟨S625000, .i32⟩
  | 14 => ⟨S625000x1, .i32⟩
  | 15 => ⟨S625000x128, .f32⟩
  | 16 => ⟨S_, .f32⟩
  | 17 => ⟨S625000x1, .f32⟩
  | 18 => ⟨S625000x1, .f32⟩
  | 19 => ⟨S625000x128, .f32⟩
  | 20 => ⟨S625000x128, .f32⟩
  | 21 => ⟨S_, .f32⟩
  | 22 => ⟨S50000x128, .f32⟩
  | 23 => ⟨S625000x1, .i32⟩
  | 24 => ⟨S50000x128, .f32⟩
  | 25 => ⟨S50000x384, .f32⟩
  | 26 => ⟨S1x128x384, .f32⟩
  | 27 => ⟨S128x384, .f32⟩
  | 28 => ⟨S384x128, .f32⟩
  | 29 => ⟨S50000x128, .f32⟩
  | 30 => ⟨S1x128, .f32⟩
  | 31 => ⟨S128, .f32⟩
  | 32 => ⟨S1x128, .f32⟩
  | 33 => ⟨S50000x128, .f32⟩
  | 34 => ⟨S50000x128, .f32⟩
  | 35 => ⟨S_, .f32⟩
  | 36 => ⟨S50000, .f32⟩
  | 37 => ⟨S50000x1, .f32⟩
  | 38 => ⟨S_, .f32⟩
  | 39 => ⟨S50000x1, .f32⟩
  | 40 => ⟨S50000x1, .f32⟩
  | 41 => ⟨S_, .i32⟩
  | 42 => ⟨S_, .f32⟩
  | 43 => ⟨S50000, .f32⟩
  | 44 => ⟨S50000x1, .f32⟩
  | 45 => ⟨S_, .f32⟩
  | 46 => ⟨S50000x1, .f32⟩
  | 47 => ⟨S50000x1, .f32⟩
  | 48 => ⟨S50000x128, .f32⟩
  | 49 => ⟨S50000x128, .f32⟩
  | 50 => ⟨S50000x128, .f32⟩
  | 51 => ⟨S_, .f32⟩
  | 52 => ⟨S_, .f32⟩
  | 53 => ⟨S_, .f32⟩
  | 54 => ⟨S_, .f32⟩
  | 55 => ⟨S50000, .f32⟩
  | 56 => ⟨S50000x1, .f32⟩
  | 57 => ⟨S50000x1, .f32⟩
  | 58 => ⟨S50000x1, .f32⟩
  | 59 => ⟨S_, .f32⟩
  | 60 => ⟨S_, .i1⟩
  | 61 => ⟨S_, .f32⟩
  | 62 => ⟨S_, .f32⟩
  | 63 => ⟨S50000x1, .f32⟩
  | 64 => ⟨S50000x1, .f32⟩
  | 65 => ⟨S50000x128, .f32⟩
  | 66 => ⟨S50000x128, .f32⟩
  | 67 => ⟨S_, .f32⟩
  | 68 => ⟨S50000x1, .f32⟩
  | 69 => ⟨S50000x1, .f32⟩
  | 70 => ⟨S50000x1, .f32⟩
  | 71 => ⟨S50000x128, .f32⟩
  | 72 => ⟨S50000x128, .f32⟩
  | 73 => ⟨S1x128, .f32⟩
  | 74 => ⟨S128, .f32⟩
  | 75 => ⟨S1x128, .f32⟩
  | 76 => ⟨S50000x128, .f32⟩
  | 77 => ⟨S50000x128, .f32⟩
  | 78 => ⟨S1x128, .f32⟩
  | 79 => ⟨S128, .f32⟩
  | 80 => ⟨S1x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S50000x128, .f32⟩
  | 87 => ⟨S_, .f32⟩
  | 88 => ⟨S64x128, .f32⟩
  | 89 => ⟨S50000x1, .i32⟩
  | 90 => ⟨S64x128, .f32⟩
  | 91 => ⟨S_, .f32⟩
  | 92 => ⟨S50000, .f32⟩
  | 93 => ⟨S_, .f32⟩
  | 94 => ⟨S64, .f32⟩
  | 95 => ⟨S50000x1, .i32⟩
  | 96 => ⟨S64, .f32⟩
  | 97 => ⟨S_, .f32⟩
  | 98 => ⟨S64, .f32⟩
  | 99 => ⟨S64, .f32⟩
  | 100 => ⟨S64x1, .f32⟩
  | 101 => ⟨S64x128, .f32⟩
  | 102 => ⟨S64x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call0_cst : Ref sig .tc := ⟨.hbm, 24, rfl⟩
abbrev main_call0_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c : Ref sig .tc := ⟨.hbm, 53, rfl⟩
abbrev main_v36 : Ref sig .tc := ⟨.hbm, 54, rfl⟩
abbrev main_v37 : Ref sig .tc := ⟨.hbm, 55, rfl⟩
abbrev main_c_0 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_1 : Ref sig .tc := ⟨.hbm, 62, rfl⟩
abbrev main_v43 : Ref sig .tc := ⟨.hbm, 63, rfl⟩
abbrev main_v44 : Ref sig .tc := ⟨.hbm, 64, rfl⟩
abbrev main_c_2 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst : Ref sig .tc := ⟨.hbm, 74, rfl⟩
abbrev main_v53 : Ref sig .tc := ⟨.hbm, 75, rfl⟩
abbrev main_v54 : Ref sig .tc := ⟨.hbm, 76, rfl⟩
abbrev main_cst_3 : Ref sig .tc := ⟨.hbm, 77, rfl⟩
abbrev main_v55 : Ref sig .tc := ⟨.hbm, 78, rfl⟩
abbrev main_v56 : Ref sig .tc := ⟨.hbm, 79, rfl⟩
abbrev main_c_4 : Ref sig .tc := ⟨.hbm, 80, rfl⟩
abbrev main_v57 : Ref sig .tc := ⟨.hbm, 81, rfl⟩
abbrev main_v58 : Ref sig .tc := ⟨.hbm, 82, rfl⟩
abbrev main_c_5 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_6 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c_7 : Ref sig .tc := ⟨.hbm, 95, rfl⟩
abbrev main_v69 : Ref sig .tc := ⟨.hbm, 96, rfl⟩
abbrev main_v70 : Ref sig .tc := ⟨.hbm, 97, rfl⟩
abbrev main_c_8 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_9 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_10 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_11 : Ref sig .tc := ⟨.hbm, 123, rfl⟩
abbrev main_v93 : Ref sig .tc := ⟨.hbm, 124, rfl⟩
abbrev main_v94 : Ref sig .tc := ⟨.hbm, 125, rfl⟩
abbrev main_cst_12 : Ref sig .tc := ⟨.hbm, 126, rfl⟩
abbrev main_v95 : Ref sig .tc := ⟨.hbm, 127, rfl⟩
abbrev main_v96 : Ref sig .tc := ⟨.hbm, 128, rfl⟩
abbrev main_c_13 : Ref sig .tc := ⟨.hbm, 129, rfl⟩
abbrev main_call1_cst : Ref sig .tc := ⟨.hbm, 130, rfl⟩
abbrev main_call1_v0 : Ref sig .tc := ⟨.hbm, 131, rfl⟩
abbrev main_call1_v1 : Ref sig .tc := ⟨.hbm, 132, rfl⟩
abbrev main_call1_cst_0 : Ref sig .tc := ⟨.hbm, 133, rfl⟩
abbrev main_call1_v2 : Ref sig .tc := ⟨.hbm, 134, rfl⟩
abbrev main_call1_v3 : Ref sig .tc := ⟨.hbm, 135, rfl⟩
abbrev main_call1_v4 : Ref sig .tc := ⟨.hbm, 136, rfl⟩
abbrev main_call1_v5 : Ref sig .tc := ⟨.hbm, 137, rfl⟩
abbrev main_call1_v6 : Ref sig .tc := ⟨.hbm, 138, rfl⟩
abbrev main_call1_v7 : Ref sig .tc := ⟨.hbm, 139, rfl⟩
abbrev main_call1_cst_1 : Ref sig .tc := ⟨.hbm, 140, rfl⟩
abbrev main_call1_v8 : Ref sig .tc := ⟨.hbm, 141, rfl⟩
abbrev main_call1_cst_2 : Ref sig .tc := ⟨.hbm, 142, rfl⟩
abbrev main_call1_v9 : Ref sig .tc := ⟨.hbm, 143, rfl⟩
abbrev main_call1_v10 : Ref sig .tc := ⟨.hbm, 144, rfl⟩
abbrev main_call1_v11 : Ref sig .tc := ⟨.hbm, 145, rfl⟩
abbrev main_call1_v12 : Ref sig .tc := ⟨.hbm, 146, rfl⟩
abbrev main_call1_cst_3 : Ref sig .tc := ⟨.hbm, 147, rfl⟩
abbrev main_call1_v13 : Ref sig .tc := ⟨.hbm, 148, rfl⟩
abbrev main_call1_cst_4 : Ref sig .tc := ⟨.hbm, 149, rfl⟩
abbrev main_call1_call0_v0 : Ref sig .tc := ⟨.hbm, 150, rfl⟩
abbrev main_call1_call0_v1 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_cst_14 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_call2_cst : Ref sig .tc := ⟨.hbm, 171, rfl⟩
abbrev main_call2_v0 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_c_15 : Ref sig .tc := ⟨.hbm, 201, rfl⟩
abbrev main_v143 : Ref sig .tc := ⟨.hbm, 202, rfl⟩
abbrev main_v144 : Ref sig .tc := ⟨.hbm, 203, rfl⟩
abbrev main_c_16 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_c_17 : Ref sig .tc := ⟨.hbm, 210, rfl⟩
abbrev main_v150 : Ref sig .tc := ⟨.hbm, 211, rfl⟩
abbrev main_v151 : Ref sig .tc := ⟨.hbm, 212, rfl⟩
abbrev main_c_18 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_cst_19 : Ref sig .tc := ⟨.hbm, 222, rfl⟩
abbrev main_v160 : Ref sig .tc := ⟨.hbm, 223, rfl⟩
abbrev main_v161 : Ref sig .tc := ⟨.hbm, 224, rfl⟩
abbrev main_cst_20 : Ref sig .tc := ⟨.hbm, 225, rfl⟩
abbrev main_v162 : Ref sig .tc := ⟨.hbm, 226, rfl⟩
abbrev main_v163 : Ref sig .tc := ⟨.hbm, 227, rfl⟩
abbrev main_c_21 : Ref sig .tc := ⟨.hbm, 228, rfl⟩
abbrev main_v164 : Ref sig .tc := ⟨.hbm, 229, rfl⟩
abbrev main_v165 : Ref sig .tc := ⟨.hbm, 230, rfl⟩
abbrev main_c_22 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_cst_23 : Ref sig .tc := ⟨.hbm, 239, rfl⟩
abbrev main_v173 : Ref sig .tc := ⟨.hbm, 240, rfl⟩
abbrev main_v174 : Ref sig .tc := ⟨.hbm, 241, rfl⟩
abbrev main_v175 : Ref sig .tc := ⟨.hbm, 242, rfl⟩
abbrev main_c_24 : Ref sig .tc := ⟨.hbm, 243, rfl⟩
abbrev main_v176 : Ref sig .tc := ⟨.hbm, 244, rfl⟩
abbrev main_v177 : Ref sig .tc := ⟨.hbm, 245, rfl⟩
abbrev main_c_25 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_cst_26 : Ref sig .tc := ⟨.hbm, 252, rfl⟩
abbrev main_v183 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_cst_27 : Ref sig .tc := ⟨.hbm, 257, rfl⟩
abbrev main_v187 : Ref sig .tc := ⟨.hbm, 258, rfl⟩
abbrev main_v188 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩
abbrev main_v192 : Ref sig .tc := ⟨.hbm, 263, rfl⟩
abbrev main_v193 : Ref sig .tc := ⟨.hbm, 264, rfl⟩
abbrev main_v194 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_cst_28 : Ref sig .tc := ⟨.hbm, 271, rfl⟩
abbrev main_v200 : Ref sig .tc := ⟨.hbm, 272, rfl⟩
abbrev main_v201 : Ref sig .tc := ⟨.hbm, 273, rfl⟩
abbrev main_cst_29 : Ref sig .tc := ⟨.hbm, 274, rfl⟩
abbrev main_v202 : Ref sig .tc := ⟨.hbm, 275, rfl⟩
abbrev main_v203 : Ref sig .tc := ⟨.hbm, 276, rfl⟩
abbrev main_c_30 : Ref sig .tc := ⟨.hbm, 277, rfl⟩
abbrev main_call3_cst : Ref sig .tc := ⟨.hbm, 278, rfl⟩
abbrev main_call3_v0 : Ref sig .tc := ⟨.hbm, 279, rfl⟩
abbrev main_call3_v1 : Ref sig .tc := ⟨.hbm, 280, rfl⟩
abbrev main_call3_cst_0 : Ref sig .tc := ⟨.hbm, 281, rfl⟩
abbrev main_call3_v2 : Ref sig .tc := ⟨.hbm, 282, rfl⟩
abbrev main_call3_v3 : Ref sig .tc := ⟨.hbm, 283, rfl⟩
abbrev main_call3_v4 : Ref sig .tc := ⟨.hbm, 284, rfl⟩
abbrev main_call3_v5 : Ref sig .tc := ⟨.hbm, 285, rfl⟩
abbrev main_call3_v6 : Ref sig .tc := ⟨.hbm, 286, rfl⟩
abbrev main_call3_v7 : Ref sig .tc := ⟨.hbm, 287, rfl⟩
abbrev main_call3_cst_1 : Ref sig .tc := ⟨.hbm, 288, rfl⟩
abbrev main_call3_v8 : Ref sig .tc := ⟨.hbm, 289, rfl⟩
abbrev main_call3_cst_2 : Ref sig .tc := ⟨.hbm, 290, rfl⟩
abbrev main_call3_v9 : Ref sig .tc := ⟨.hbm, 291, rfl⟩
abbrev main_call3_v10 : Ref sig .tc := ⟨.hbm, 292, rfl⟩
abbrev main_call3_v11 : Ref sig .tc := ⟨.hbm, 293, rfl⟩
abbrev main_call3_v12 : Ref sig .tc := ⟨.hbm, 294, rfl⟩
abbrev main_call3_cst_3 : Ref sig .tc := ⟨.hbm, 295, rfl⟩
abbrev main_call3_v13 : Ref sig .tc := ⟨.hbm, 296, rfl⟩
abbrev main_call3_cst_4 : Ref sig .tc := ⟨.hbm, 297, rfl⟩
abbrev main_call3_call0_v0 : Ref sig .tc := ⟨.hbm, 298, rfl⟩
abbrev main_call3_call0_v1 : Ref sig .tc := ⟨.hbm, 299, rfl⟩
abbrev main_v204 : Ref sig .tc := ⟨.hbm, 300, rfl⟩
abbrev main_v205 : Ref sig .tc := ⟨.hbm, 301, rfl⟩
abbrev main_v206 : Ref sig .tc := ⟨.hbm, 302, rfl⟩
abbrev main_cst_31 : Ref sig .tc := ⟨.hbm, 303, rfl⟩
abbrev main_v207 : Ref sig .tc := ⟨.hbm, 304, rfl⟩
abbrev main_v208 : Ref sig .tc := ⟨.hbm, 305, rfl⟩
abbrev main_v209 : Ref sig .tc := ⟨.hbm, 306, rfl⟩
abbrev main_v210 : Ref sig .tc := ⟨.hbm, 307, rfl⟩
abbrev main_v211 : Ref sig .tc := ⟨.hbm, 308, rfl⟩
abbrev main_v212 : Ref sig .tc := ⟨.hbm, 309, rfl⟩
abbrev main_v213 : Ref sig .tc := ⟨.hbm, 310, rfl⟩
abbrev main_v214 : Ref sig .tc := ⟨.hbm, 311, rfl⟩
abbrev main_v215 : Ref sig .tc := ⟨.hbm, 312, rfl⟩
abbrev main_v216 : Ref sig .tc := ⟨.hbm, 313, rfl⟩
abbrev main_v217 : Ref sig .tc := ⟨.hbm, 314, rfl⟩
abbrev main_v218 : Ref sig .tc := ⟨.hbm, 315, rfl⟩
abbrev main_v219 : Ref sig .tc := ⟨.hbm, 316, rfl⟩
abbrev main_v220 : Ref sig .tc := ⟨.hbm, 317, rfl⟩
abbrev main_v221 : Ref sig .tc := ⟨.hbm, 318, rfl⟩
abbrev main_call4_cst : Ref sig .tc := ⟨.hbm, 319, rfl⟩
abbrev main_call4_v0 : Ref sig .tc := ⟨.hbm, 320, rfl⟩
abbrev main_v222 : Ref sig .tc := ⟨.hbm, 321, rfl⟩
abbrev main_v223 : Ref sig .tc := ⟨.hbm, 322, rfl⟩
abbrev main_v224 : Ref sig .tc := ⟨.hbm, 323, rfl⟩
abbrev main_v225 : Ref sig .tc := ⟨.hbm, 324, rfl⟩
abbrev main_v226 : Ref sig .tc := ⟨.hbm, 325, rfl⟩
abbrev main_v227 : Ref sig .tc := ⟨.hbm, 326, rfl⟩
abbrev main_v228 : Ref sig .tc := ⟨.hbm, 327, rfl⟩
abbrev main_v229 : Ref sig .tc := ⟨.hbm, 328, rfl⟩
abbrev main_v230 : Ref sig .tc := ⟨.hbm, 329, rfl⟩
abbrev main_v231 : Ref sig .tc := ⟨.hbm, 330, rfl⟩
abbrev main_v232 : Ref sig .tc := ⟨.hbm, 331, rfl⟩
abbrev main_v233 : Ref sig .tc := ⟨.hbm, 332, rfl⟩
abbrev main_v234 : Ref sig .tc := ⟨.hbm, 333, rfl⟩
abbrev main_v235 : Ref sig .tc := ⟨.hbm, 334, rfl⟩
abbrev main_v236 : Ref sig .tc := ⟨.hbm, 335, rfl⟩
abbrev main_v237 : Ref sig .tc := ⟨.hbm, 336, rfl⟩
abbrev main_v238 : Ref sig .tc := ⟨.hbm, 337, rfl⟩
abbrev main_v239 : Ref sig .tc := ⟨.hbm, 338, rfl⟩
abbrev main_v240 : Ref sig .tc := ⟨.hbm, 339, rfl⟩
abbrev main_v241 : Ref sig .tc := ⟨.hbm, 340, rfl⟩
abbrev main_v242 : Ref sig .tc := ⟨.hbm, 341, rfl⟩
abbrev main_v243 : Ref sig .tc := ⟨.hbm, 342, rfl⟩
abbrev main_v244 : Ref sig .tc := ⟨.hbm, 343, rfl⟩
abbrev main_v245 : Ref sig .tc := ⟨.hbm, 344, rfl⟩
abbrev main_v246 : Ref sig .tc := ⟨.hbm, 345, rfl⟩
abbrev main_v247 : Ref sig .tc := ⟨.hbm, 346, rfl⟩
abbrev main_v248 : Ref sig .tc := ⟨.hbm, 347, rfl⟩
abbrev main_v249 : Ref sig .tc := ⟨.hbm, 348, rfl⟩
abbrev main_c_32 : Ref sig .tc := ⟨.hbm, 349, rfl⟩
abbrev main_v250 : Ref sig .tc := ⟨.hbm, 350, rfl⟩
abbrev main_v251 : Ref sig .tc := ⟨.hbm, 351, rfl⟩
abbrev main_c_33 : Ref sig .tc := ⟨.hbm, 352, rfl⟩
abbrev main_v252 : Ref sig .tc := ⟨.hbm, 353, rfl⟩
abbrev main_v253 : Ref sig .tc := ⟨.hbm, 354, rfl⟩
abbrev main_v254 : Ref sig .tc := ⟨.hbm, 355, rfl⟩
abbrev main_v255 : Ref sig .tc := ⟨.hbm, 356, rfl⟩
abbrev main_v256 : Ref sig .tc := ⟨.hbm, 357, rfl⟩
abbrev main_c_34 : Ref sig .tc := ⟨.hbm, 358, rfl⟩
abbrev main_v257 : Ref sig .tc := ⟨.hbm, 359, rfl⟩
abbrev main_v258 : Ref sig .tc := ⟨.hbm, 360, rfl⟩
abbrev main_c_35 : Ref sig .tc := ⟨.hbm, 361, rfl⟩
abbrev main_v259 : Ref sig .tc := ⟨.hbm, 362, rfl⟩
abbrev main_v260 : Ref sig .tc := ⟨.hbm, 363, rfl⟩
abbrev main_v261 : Ref sig .tc := ⟨.hbm, 364, rfl⟩
abbrev main_v262 : Ref sig .tc := ⟨.hbm, 365, rfl⟩
abbrev main_v263 : Ref sig .tc := ⟨.hbm, 366, rfl⟩
abbrev main_v264 : Ref sig .tc := ⟨.hbm, 367, rfl⟩
abbrev main_v265 : Ref sig .tc := ⟨.hbm, 368, rfl⟩
abbrev main_v266 : Ref sig .tc := ⟨.hbm, 369, rfl⟩
abbrev main_cst_36 : Ref sig .tc := ⟨.hbm, 370, rfl⟩
abbrev main_v267 : Ref sig .tc := ⟨.hbm, 371, rfl⟩
abbrev main_v268 : Ref sig .tc := ⟨.hbm, 372, rfl⟩
abbrev main_cst_37 : Ref sig .tc := ⟨.hbm, 373, rfl⟩
abbrev main_v269 : Ref sig .tc := ⟨.hbm, 374, rfl⟩
abbrev main_v270 : Ref sig .tc := ⟨.hbm, 375, rfl⟩
abbrev main_c_38 : Ref sig .tc := ⟨.hbm, 376, rfl⟩
abbrev main_v271 : Ref sig .tc := ⟨.hbm, 377, rfl⟩
abbrev main_v272 : Ref sig .tc := ⟨.hbm, 378, rfl⟩
abbrev main_c_39 : Ref sig .tc := ⟨.hbm, 379, rfl⟩
abbrev main_v273 : Ref sig .tc := ⟨.hbm, 380, rfl⟩
abbrev main_v274 : Ref sig .tc := ⟨.hbm, 381, rfl⟩
abbrev main_v275 : Ref sig .tc := ⟨.hbm, 382, rfl⟩
abbrev main_v276 : Ref sig .tc := ⟨.hbm, 383, rfl⟩
abbrev main_v277 : Ref sig .tc := ⟨.hbm, 384, rfl⟩
abbrev main_v278 : Ref sig .tc := ⟨.hbm, 385, rfl⟩
abbrev main_v279 : Ref sig .tc := ⟨.hbm, 386, rfl⟩
abbrev main_cst_40 : Ref sig .tc := ⟨.hbm, 387, rfl⟩
abbrev main_v280 : Ref sig .tc := ⟨.hbm, 388, rfl⟩
abbrev main_v281 : Ref sig .tc := ⟨.hbm, 389, rfl⟩
abbrev main_v282 : Ref sig .tc := ⟨.hbm, 390, rfl⟩
abbrev main_c_41 : Ref sig .tc := ⟨.hbm, 391, rfl⟩
abbrev main_v283 : Ref sig .tc := ⟨.hbm, 392, rfl⟩
abbrev main_v284 : Ref sig .tc := ⟨.hbm, 393, rfl⟩
abbrev main_c_42 : Ref sig .tc := ⟨.hbm, 394, rfl⟩
abbrev main_v285 : Ref sig .tc := ⟨.hbm, 395, rfl⟩
abbrev main_v286 : Ref sig .tc := ⟨.hbm, 396, rfl⟩
abbrev main_v287 : Ref sig .tc := ⟨.hbm, 397, rfl⟩
abbrev main_v288 : Ref sig .tc := ⟨.hbm, 398, rfl⟩
abbrev main_v289 : Ref sig .tc := ⟨.hbm, 399, rfl⟩
abbrev main_cst_43 : Ref sig .tc := ⟨.hbm, 400, rfl⟩
abbrev main_v290 : Ref sig .tc := ⟨.hbm, 401, rfl⟩
abbrev main_v291 : Ref sig .tc := ⟨.hbm, 402, rfl⟩
abbrev main_v292 : Ref sig .tc := ⟨.hbm, 403, rfl⟩
abbrev main_v293 : Ref sig .tc := ⟨.hbm, 404, rfl⟩
abbrev main_cst_44 : Ref sig .tc := ⟨.hbm, 405, rfl⟩
abbrev main_v294 : Ref sig .tc := ⟨.hbm, 406, rfl⟩
abbrev main_v295 : Ref sig .tc := ⟨.hbm, 407, rfl⟩
abbrev main_v296 : Ref sig .tc := ⟨.hbm, 408, rfl⟩
abbrev main_v297 : Ref sig .tc := ⟨.hbm, 409, rfl⟩
abbrev main_v298 : Ref sig .tc := ⟨.hbm, 410, rfl⟩
abbrev main_v299 : Ref sig .tc := ⟨.hbm, 411, rfl⟩
abbrev main_v300 : Ref sig .tc := ⟨.hbm, 412, rfl⟩
abbrev main_v301 : Ref sig .tc := ⟨.hbm, 413, rfl⟩
abbrev main_v302 : Ref sig .tc := ⟨.hbm, 414, rfl⟩
abbrev main_v303 : Ref sig .tc := ⟨.hbm, 415, rfl⟩
abbrev main_v304 : Ref sig .tc := ⟨.hbm, 416, rfl⟩
abbrev main_v305 : Ref sig .tc := ⟨.hbm, 417, rfl⟩
abbrev main_v306 : Ref sig .tc := ⟨.hbm, 418, rfl⟩
abbrev main_cst_45 : Ref sig .tc := ⟨.hbm, 419, rfl⟩
abbrev main_v307 : Ref sig .tc := ⟨.hbm, 420, rfl⟩
abbrev main_v308 : Ref sig .tc := ⟨.hbm, 421, rfl⟩
abbrev main_cst_46 : Ref sig .tc := ⟨.hbm, 422, rfl⟩
abbrev main_v309 : Ref sig .tc := ⟨.hbm, 423, rfl⟩
abbrev main_v310 : Ref sig .tc := ⟨.hbm, 424, rfl⟩
abbrev main_c_47 : Ref sig .tc := ⟨.hbm, 425, rfl⟩
abbrev main_call5_cst : Ref sig .tc := ⟨.hbm, 426, rfl⟩
abbrev main_call5_v0 : Ref sig .tc := ⟨.hbm, 427, rfl⟩
abbrev main_call5_v1 : Ref sig .tc := ⟨.hbm, 428, rfl⟩
abbrev main_call5_cst_0 : Ref sig .tc := ⟨.hbm, 429, rfl⟩
abbrev main_call5_v2 : Ref sig .tc := ⟨.hbm, 430, rfl⟩
abbrev main_call5_v3 : Ref sig .tc := ⟨.hbm, 431, rfl⟩
abbrev main_call5_v4 : Ref sig .tc := ⟨.hbm, 432, rfl⟩
abbrev main_call5_v5 : Ref sig .tc := ⟨.hbm, 433, rfl⟩
abbrev main_call5_v6 : Ref sig .tc := ⟨.hbm, 434, rfl⟩
abbrev main_call5_v7 : Ref sig .tc := ⟨.hbm, 435, rfl⟩
abbrev main_call5_cst_1 : Ref sig .tc := ⟨.hbm, 436, rfl⟩
abbrev main_call5_v8 : Ref sig .tc := ⟨.hbm, 437, rfl⟩
abbrev main_call5_cst_2 : Ref sig .tc := ⟨.hbm, 438, rfl⟩
abbrev main_call5_v9 : Ref sig .tc := ⟨.hbm, 439, rfl⟩
abbrev main_call5_v10 : Ref sig .tc := ⟨.hbm, 440, rfl⟩
abbrev main_call5_v11 : Ref sig .tc := ⟨.hbm, 441, rfl⟩
abbrev main_call5_v12 : Ref sig .tc := ⟨.hbm, 442, rfl⟩
abbrev main_call5_cst_3 : Ref sig .tc := ⟨.hbm, 443, rfl⟩
abbrev main_call5_v13 : Ref sig .tc := ⟨.hbm, 444, rfl⟩
abbrev main_call5_cst_4 : Ref sig .tc := ⟨.hbm, 445, rfl⟩
abbrev main_call5_call0_v0 : Ref sig .tc := ⟨.hbm, 446, rfl⟩
abbrev main_call5_call0_v1 : Ref sig .tc := ⟨.hbm, 447, rfl⟩
abbrev main_v311 : Ref sig .tc := ⟨.hbm, 448, rfl⟩
abbrev main_v312 : Ref sig .tc := ⟨.hbm, 449, rfl⟩
abbrev main_v313 : Ref sig .tc := ⟨.hbm, 450, rfl⟩
abbrev main_cst_48 : Ref sig .tc := ⟨.hbm, 451, rfl⟩
abbrev main_v314 : Ref sig .tc := ⟨.hbm, 452, rfl⟩
abbrev main_v315 : Ref sig .tc := ⟨.hbm, 453, rfl⟩
abbrev main_v316 : Ref sig .tc := ⟨.hbm, 454, rfl⟩
abbrev main_v317 : Ref sig .tc := ⟨.hbm, 455, rfl⟩
abbrev main_v318 : Ref sig .tc := ⟨.hbm, 456, rfl⟩
abbrev main_v319 : Ref sig .tc := ⟨.hbm, 457, rfl⟩
abbrev main_v320 : Ref sig .tc := ⟨.hbm, 458, rfl⟩
abbrev main_v321 : Ref sig .tc := ⟨.hbm, 459, rfl⟩
abbrev main_v322 : Ref sig .tc := ⟨.hbm, 460, rfl⟩
abbrev main_v323 : Ref sig .tc := ⟨.hbm, 461, rfl⟩
abbrev main_v324 : Ref sig .tc := ⟨.hbm, 462, rfl⟩
abbrev main_v325 : Ref sig .tc := ⟨.hbm, 463, rfl⟩
abbrev main_v326 : Ref sig .tc := ⟨.hbm, 464, rfl⟩
abbrev main_v327 : Ref sig .tc := ⟨.hbm, 465, rfl⟩
abbrev main_v328 : Ref sig .tc := ⟨.hbm, 466, rfl⟩
abbrev main_call6_cst : Ref sig .tc := ⟨.hbm, 467, rfl⟩
abbrev main_call6_v0 : Ref sig .tc := ⟨.hbm, 468, rfl⟩
abbrev main_v329 : Ref sig .tc := ⟨.hbm, 469, rfl⟩
abbrev main_v330 : Ref sig .tc := ⟨.hbm, 470, rfl⟩
abbrev main_cst_49 : Ref sig .tc := ⟨.hbm, 471, rfl⟩
abbrev main_v331 : Ref sig .tc := ⟨.hbm, 472, rfl⟩
abbrev main_v332 : Ref sig .tc := ⟨.hbm, 473, rfl⟩
abbrev main_v333 : Ref sig .tc := ⟨.hbm, 474, rfl⟩
abbrev main_cst_50 : Ref sig .tc := ⟨.hbm, 475, rfl⟩
abbrev main_v334 : Ref sig .tc := ⟨.hbm, 476, rfl⟩
abbrev main_cst_51 : Ref sig .tc := ⟨.hbm, 477, rfl⟩
abbrev main_v335 : Ref sig .tc := ⟨.hbm, 478, rfl⟩
abbrev main_v336 : Ref sig .tc := ⟨.hbm, 479, rfl⟩
abbrev main_v337 : Ref sig .tc := ⟨.hbm, 480, rfl⟩
abbrev main_cst_52 : Ref sig .tc := ⟨.hbm, 481, rfl⟩
abbrev main_v338 : Ref sig .tc := ⟨.hbm, 482, rfl⟩
abbrev main_v339 : Ref sig .tc := ⟨.hbm, 483, rfl⟩
abbrev main_v340 : Ref sig .tc := ⟨.hbm, 484, rfl⟩
abbrev main_v341 : Ref sig .tc := ⟨.hbm, 485, rfl⟩
abbrev main_v342 : Ref sig .tc := ⟨.hbm, 486, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S3x1x128_S1x1x128_0_0_0 : S3x1x128.Slices ![0, 0, 0] S1x1x128
  shapeCasts_S1x1x128_S1x128 : S1x1x128.ShapeCasts S1x128
  transposes_S1x128_S128x1_1_0 : S1x128.Transposes [1, 0] S128x1
  slices_S3x1_S1x1_0_0 : S3x1.Slices ![0, 0] S1x1
  shapeCasts_S1x1_S1 : S1x1.ShapeCasts S1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S625000 : S_.BroadcastsInDim S625000 (![] : Fin 0 → Fin S625000.rank)
  bcast_S625000_S625000x1_0 : S625000.BroadcastsInDim S625000x1 (![0] : Fin 1 → Fin S625000x1.rank)
  bcast_S_S625000x1 : S_.BroadcastsInDim S625000x1 (![] : Fin 0 → Fin S625000x1.rank)
  bcast_S625000x1_S625000x128_0_1 : S625000x1.BroadcastsInDim S625000x128 (![0, 1] : Fin 2 → Fin S625000x128.rank)
  concatenates_S50000x128_S50000x128_S50000x128_S50000x384_d1 : Shape.Concatenates [S50000x128, S50000x128, S50000x128] S50000x384 1
  slices_S3x128x384_S1x128x384_0_0_0 : S3x128x384.Slices ![0, 0, 0] S1x128x384
  shapeCasts_S1x128x384_S128x384 : S1x128x384.ShapeCasts S128x384
  transposes_S128x384_S384x128_1_0 : S128x384.Transposes [1, 0] S384x128
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S3x1x128_S1x1x128_1_0_0 : S3x1x128.Slices ![1, 0, 0] S1x1x128
  slices_S3x1_S1x1_1_0 : S3x1.Slices ![1, 0] S1x1
  slices_S3x128x128_S1x128x128_1_0_0 : S3x128x128.Slices ![1, 0, 0] S1x128x128
  slices_S3x128_S1x128_1_0 : S3x128.Slices ![1, 0] S1x128
  slices_S3x128x384_S1x128x384_1_0_0 : S3x128x384.Slices ![1, 0, 0] S1x128x384
  slices_S3x1x128_S1x1x128_2_0_0 : S3x1x128.Slices ![2, 0, 0] S1x1x128
  slices_S3x1_S1x1_2_0 : S3x1.Slices ![2, 0] S1x1
  slices_S3x128x128_S1x128x128_2_0_0 : S3x128x128.Slices ![2, 0, 0] S1x128x128
  slices_S3x128_S1x128_2_0 : S3x128.Slices ![2, 0] S1x128
  slices_S3x128x384_S1x128x384_2_0_0 : S3x128x384.Slices ![2, 0, 0] S1x128x384
  bcast_S_S64x128 : S_.BroadcastsInDim S64x128 (![] : Fin 0 → Fin S64x128.rank)
  bcast_S_S50000 : S_.BroadcastsInDim S50000 (![] : Fin 0 → Fin S50000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []
  gather_S50000x1_S625000x1_S625000x1_1_0_n_n_0_1_11_wf : GatherDims.WF S50000x1 S625000x1 S625000x1 [1] [0] [] [0] [] 1 ![1, 1]
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  dot_S50000x384_S384x128_S50000x128_1_0_0_1_n_n_wf : DotDims.WF S50000x384 S384x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def gather_S50000x1_S625000x1_S625000x1_1_0_n_n_0_1_11 : GatherDims S50000x1 S625000x1 S625000x1 where
  offsetDims := [1]
  collapsedSliceDims := [0]
  operandBatchingDims := []
  startIndicesBatchingDims := []
  startIndexMap := [0]
  indexVectorDim := 1
  sliceSizes := ![1, 1]
  wf := gather_S50000x1_S625000x1_S625000x1_1_0_n_n_0_1_11_wf
def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.KRun.lean ====
/-
  The idealized kernel's run with its result named. Every weakly fair execution of @main from a memory with zero
  counters terminates, nothing faulting; the argument arrays end as launched, and the result buffer ends at the last
  boundary's contents: the fold of the fifteen segments (a stretch of host operations applies them in order; a region
  leaves each window's array at what its blocks wrote back) read at the result buffer.
-/
import proofs.«108119_j38019050504554_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer at the last boundary's contents and the arguments unchanged. -/
theorem run_result : θ_run defs (onTc (τ := τ) (main (F := F))) ⟨m, fun _ => 0, ρ⟩ (fun r => ∀ c : Dev nD,
      r.2.mem ((c.tc : Thread nD τ).loc main_v255) = W15 m ρ c (Proc.devRef .tc main_v255)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v255 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c)⟩)

end Cert.KernelIdeal.KRun

end
-- ==== Proof.KSpec.lean ====
/-
  The vector kernels of the layer stack, as functions of whole arrays, entry by entry over the extended reals.
  Every function is generic in the number of rows R: each depends, at row p, only on row p of its row-shaped
  operands, so the rows [a, a+r) of a result over R rows are the result over those r rows.

  * embed      h = max (x·W + b) 0
  * hself      h·W + b                       (the self projection)
  * table      h·T                            (the edge table: 256 columns, the low and the high half)
  * scores     (Σₖ h(p,k)·w(0,k)) + c(0,0)    (one score per row)
  * combine    z = a·W + g + b ; μ = (Σ z)/128 ; d = z − μ ; v = (Σ d·d)/128 ;
               out = max (d · rsqrt (v + ε) · γ + β) 0 + e
-/
import Idealize.ShloMosaic.PureOps.Ideal
import Idealize.ShloMosaic.Lib.ValueIdx

noncomputable section

namespace Cert.Spec

open Idealize.ShloMosaic Idealize.ShloMosaic.ValueIdx
open scoped BigOperators

variable {R : ℕ}

/-- The f32 word of 128. -/
abbrev w128 : BitVec 32 := 0x43000000#32
/-- The f32 word nearest to 1e-5 (the same word in both programs; never evaluated). -/
abbrev wEps : BitVec 32 := 0x3727C5AC#32

/-- Entry (p,q) of a·W: the sum over the 128 shared coordinates. -/
def dotE {N : ℕ} {φ₁ φ₂ : FTy} (a : FVec Ideal ⟨2, ![R, 128]⟩ φ₁) (w : FVec Ideal ⟨2, ![128, N]⟩ φ₂) (p : Fin R) (q : Fin N) : EReal :=
  ∑ k : Fin 128, a (ix2 p k) * w (ix2 k q)

/-- max (x·W + b) 0. -/
def embed (x : FVec Ideal ⟨2, ![R, 128]⟩ .f32) (w : FVec Ideal ⟨2, ![128, 128]⟩ .f32) (b : FVec Ideal ⟨2, ![1, 128]⟩ .f32) :
    FVec Ideal ⟨2, ![R, 128]⟩ .f32 :=
  fun i => max (dotE x w (i 0) (i 1) + b (ix2 0 (i 1))) 0

/-- h·W + b. -/
def hself (h : FVec Ideal ⟨2, ![R, 128]⟩ .f32) (w : FVec Ideal ⟨2, ![128, 128]⟩ .f32) (b : FVec Ideal ⟨2, ![1, 128]⟩ .f32) :
    FVec Ideal ⟨2, ![R, 128]⟩ .f32 :=
  fun i => dotE h w (i 0) (i 1) + b (ix2 0 (i 1))

/-- h·T, T of 256 columns. -/
def table (h : FVec Ideal ⟨2, ![R, 128]⟩ .f32) (t : FVec Ideal ⟨2, ![128, 256]⟩ .bf16) : FVec Ideal ⟨2, ![R, 256]⟩ .bf16 :=
  fun i => dotE h t (i 0) (i 1)

/-- (Σₖ h(p,k)·w(0,k)) + c(0,0), as an R×1 column. -/
def scores (h : FVec Ideal ⟨2, ![R, 128]⟩ .f32) (w : FVec Ideal ⟨2, ![1, 128]⟩ .f32) (c : FVec Ideal ⟨2, ![1, 1]⟩ .f32) :
    FVec Ideal ⟨2, ![R, 1]⟩ .f32 :=
  fun i => (∑ k : Fin 128, h (ix2 (i 0) k) * w (ix2 0 k)) + c (ix2 0 0)

/-- The pre-normalisation value z = a·W + g + b at an entry. -/
def zE (a : FVec Ideal ⟨2, ![R, 128]⟩ .f32) (w : FVec Ideal ⟨2, ![128, 128]⟩ .f32) (g : FVec Ideal ⟨2, ![R, 128]⟩ .f32)
    (b : FVec Ideal ⟨2, ![1, 128]⟩ .f32) (p : Fin R) (q : Fin 128) : EReal :=
  (dotE a w p q + g (ix2 p q)) + b (ix2 0 q)

/-- A row's mean of a function of the column: the sum over the 128 columns divided by the word of 128. -/
def mean128 (f : Fin 128 → EReal) : EReal := Ideal.div (∑ q : Fin 128, f q) (Ideal.ofBits .f32 w128)

/-- The normalised, scaled, shifted, clipped row entry plus the carried entry: for a row z, centred d = z − mean z,
    max (d q · rsqrt (mean (d·d) + ε) · γ q + β q) 0 + e. -/
def normE (z : Fin 128 → EReal) (γ β : Fin 128 → EReal) (e : EReal) (q : Fin 128) : EReal :=
  max (((z q - mean128 z) * Ideal.rsqrt (mean128 (fun j => (z j - mean128 z) * (z j - mean128 z)) + Ideal.ofBits .f32 wEps)) * γ q + β q) 0 + e

/-- The combine step: z = a·W + g + b row by row, normalised over the row, scaled by γ, shifted by β, clipped at 0,
    plus the carried array e. -/
def combine (a g e : FVec Ideal ⟨2, ![R, 128]⟩ .f32) (w : FVec Ideal ⟨2, ![128, 128]⟩ .f32)
    (b γ β : FVec Ideal ⟨2, ![1, 128]⟩ .f32) : FVec Ideal ⟨2, ![R, 128]⟩ .f32 :=
  fun i => normE (fun q => zE a w g b (i 0) q) (fun q => γ (ix2 0 q)) (fun q => β (ix2 0 q)) (e i) (i 1)

end Cert.Spec

end
-- ==== Proof.KStage.lean ====
/-
  The host-side stages of the layer stack as functions of whole arrays, over the extended reals, and the whole
  forward pass composed from them and the vector kernels' entrywise functions.

  * the embedding's operands: the transposed weight matrix and the bias as a 1×128 row;
  * a layer's prepared parameters, each a function of that layer's slice of a stacked parameter array: the score
    row and the score offset, the transposed self weight and its bias row, the three 128-column parts of the
    combining weight transposed, the two composed 128×128 products joined into the 128×256 edge table weight, and
    the three rows of the normalisation;
  * the edge aggregate: with s, d the edge endpoints (negative indices wrapped by the node count), the gate
    1 / (1 + exp (−(score s − score d))), the message (low half of the table row of s) + gate · (high half), and the
    sum of the messages over the edges into each destination node;
  * the pooling: the sum of the rows of each graph divided by max (number of rows of the graph) 1.
-/
import proofs.«108119_j38019050504554_2_alg».proof.Proof.Gen.KernelIdeal
import proofs.«108119_j38019050504554_2_alg».proof.Proof.KSpec

noncomputable section

namespace Cert.KStage

open Idealize.ShloMosaic Idealize.ShloMosaic.TcCoe
open Cert.KernelIdeal Cert.KernelIdeal.Gen

/-! ## The embedding's operands -/

/-- The weight matrix transposed. -/
def wembT (a : FVec Ideal S128x128 .f32) : FVec Ideal S128x128 .f32 :=
  transpose S128x128 [1, 0] a transposes_S128x128_S128x128_1_0

/-- The bias as a 1×128 row. -/
def biasRow (a : FVec Ideal S128 .f32) : FVec Ideal S1x128 .f32 :=
  fun i => shapeCast S1x128 a shapeCasts_S128_S1x128 i

/-! ## The edge endpoints -/

/-- Row 0 of the edge list: the source node of every edge. -/
def src (a : IVec S2x625000 32) : IVec S625000 32 :=
  fun i => shapeCast S625000 (extractStridedSlice S1x625000 ![0, 0] a slices_S2x625000_S1x625000_0_0) shapeCasts_S1x625000_S625000 i

/-- Row 1 of the edge list: the destination node of every edge. -/
def dst (a : IVec S2x625000 32) : IVec S625000 32 :=
  fun i => shapeCast S625000 (extractStridedSlice S1x625000 ![1, 0] a slices_S2x625000_S1x625000_1_0) shapeCasts_S1x625000_S625000 i

/-! ## A layer's prepared parameters, of the layer's slices -/

/-- A 1×128×128 slice as a 128×128 matrix. -/
def mat (s : FVec Ideal S1x128x128 .f32) : FVec Ideal S128x128 .f32 :=
  fun i => shapeCast S128x128 s shapeCasts_S1x128x128_S128x128 i

/-- A 1×128×128 slice as a matrix, transposed. -/
def matT (s : FVec Ideal S1x128x128 .f32) : FVec Ideal S128x128 .f32 :=
  transpose S128x128 [1, 0] (mat s) transposes_S128x128_S128x128_1_0

/-- The score row: a 1×1×128 slice as a 1×128 row. -/
def scoreRow (s : FVec Ideal S1x1x128 .f32) : FVec Ideal S1x128 .f32 :=
  fun i => shapeCast S1x128 s shapeCasts_S1x1x128_S1x128 i

/-- The score offset: a 1×1 slice, flattened and restored. -/
def scoreOff (s : FVec Ideal S1x1 .f32) : FVec Ideal S1x1 .f32 :=
  fun i => shapeCast S1x1 (fun j => shapeCast S1 s shapeCasts_S1x1_S1 j) shapeCasts_S1_S1x1 i

/-- A 1×128 slice, flattened and restored as a 1×128 row. -/
def row (s : FVec Ideal S1x128 .f32) : FVec Ideal S1x128 .f32 :=
  fun i => shapeCast S1x128 (fun j => shapeCast S128 s shapeCasts_S1x128_S128 j) shapeCasts_S128_S1x128 i

/-- The combining weight's slice as a 128×384 matrix. -/
def comb (s : FVec Ideal S1x128x384 .f32) : FVec Ideal S128x384 .f32 :=
  fun i => shapeCast S128x384 s shapeCasts_S1x128x384_S128x384 i

/-- Columns [0,128) of the combining weight, transposed: the self part. -/
def combSelfT (s : FVec Ideal S1x128x384 .f32) : FVec Ideal S128x128 .f32 :=
  transpose S128x128 [1, 0] (extractStridedSlice S128x128 ![0, 0] (comb s) slices_S128x384_S128x128_0_0) transposes_S128x128_S128x128_1_0

/-- Columns [128,256) of the combining weight, transposed: the forward part. -/
def combFwdT (s : FVec Ideal S1x128x384 .f32) : FVec Ideal S128x128 .f32 :=
  transpose S128x128 [1, 0] (extractStridedSlice S128x128 ![0, 128] (comb s) slices_S128x384_S128x128_0_128) transposes_S128x128_S128x128_1_0

/-- Columns [256,384) of the combining weight, transposed: the backward part. -/
def combBwdT (s : FVec Ideal S1x128x384 .f32) : FVec Ideal S128x128 .f32 :=
  transpose S128x128 [1, 0] (extractStridedSlice S128x128 ![0, 256] (comb s) slices_S128x384_S128x128_0_256) transposes_S128x128_S128x128_1_0

/-- The forward weight transposed times the forward part of the combining weight. -/
def fwdComp (sf : FVec Ideal S1x128x128 .f32) (sc : FVec Ideal S1x128x384 .f32) : FVec Ideal S128x128 .f32 :=
  Host.dotGeneral dot_S128x128_S128x128_S128x128_1_0_0_1_n_n none (matT sf) (combFwdT sc)

/-- The backward weight transposed times the backward part of the combining weight. -/
def bwdComp (sb : FVec Ideal S1x128x128 .f32) (sc : FVec Ideal S1x128x384 .f32) : FVec Ideal S128x128 .f32 :=
  Host.dotGeneral dot_S128x128_S128x128_S128x128_1_0_0_1_n_n none (matT sb) (combBwdT sc)

/-- The edge table weight: [backward product, forward product − backward product], 128×256, in the narrow format. -/
def tableW (sf sb : FVec Ideal S1x128x128 .f32) (sc : FVec Ideal S1x128x384 .f32) : FVec Ideal S128x256 .bf16 :=
  truncf .bf16 (concatenate S128x256 1 [⟨S128x128, bwdComp sb sc⟩, ⟨S128x128, subf (fwdComp sf sc) (bwdComp sb sc)⟩]
    concatenates_S128x128_S128x128_S128x256_d1) bitsLt_bf16_f32

/-- A layer's prepared parameters. -/
structure Params where
  /-- the score row -/
  wscore : FVec Ideal S1x128 .f32
  /-- the score offset -/
  bscore : FVec Ideal S1x1 .f32
  /-- the self weight, transposed -/
  wselfT : FVec Ideal S128x128 .f32
  /-- the self bias row -/
  bself : FVec Ideal S1x128 .f32
  /-- the edge table weight -/
  wtable : FVec Ideal S128x256 .bf16
  /-- the self part of the combining weight, transposed -/
  wself2 : FVec Ideal S128x128 .f32
  /-- the combining bias row -/
  bcomb : FVec Ideal S1x128 .f32
  /-- the normalisation's scale row -/
  gamma : FVec Ideal S1x128 .f32
  /-- the normalisation's shift row -/
  beta : FVec Ideal S1x128 .f32

/-- The prepared parameters of a layer, of the layer's slices of the stacked parameter arrays. -/
def prep (s5 : FVec Ideal S1x1x128 .f32) (s6 : FVec Ideal S1x1 .f32) (s7 s8 s9 : FVec Ideal S1x128x128 .f32) (s10 : FVec Ideal S1x128 .f32)
    (s11 : FVec Ideal S1x128x384 .f32) (s12 s13 s14 : FVec Ideal S1x128 .f32) : Params where
  wscore := scoreRow s5
  bscore := scoreOff s6
  wselfT := matT s9
  bself := row s10
  wtable := tableW s7 s8 s11
  wself2 := combSelfT s11
  bcomb := row s12
  gamma := row s13
  beta := row s14

/-! ## The edge aggregate -/

/-- The all-zero index vector. -/
def zeroIdx : IVec S625000 32 := broadcastInDim S625000 ![] bcast_S_S625000 (constantI S_ 32 0#32)

/-- The node count at every edge. -/
def nodeCount : IVec S625000 32 := broadcastInDim S625000 ![] bcast_S_S625000 (constantI S_ 32 50000#32)

/-- An endpoint vector with negative entries wrapped by the node count, as a column of row indices. -/
def wrapIdx (v : IVec S625000 32) : IVec S625000x1 32 :=
  broadcastInDim S625000x1 ![0] bcast_S625000_S625000x1_0 (select (cmpi .slt v zeroIdx) (addi v nodeCount) v)

/-- One at every edge. -/
def oneCol : FVec Ideal S625000x1 .f32 := broadcastInDim S625000x1 ![] bcast_S_S625000x1 (constant (F := Ideal) S_ .f32 0x3F800000#32)

/-- The gate of every edge: 1 / (1 + exp (−(score of the source − score of the destination))). -/
def gate (s d : IVec S625000 32) (sc : FVec Ideal S50000x1 .f32) : FVec Ideal S625000x1 .f32 :=
  Host.divf oneCol (addf oneCol (Host.exp (Host.negf (subf
    (Host.gather gather_S50000x1_S625000x1_S625000x1_1_0_n_n_0_1_11 sc (wrapIdx s))
    (Host.gather gather_S50000x1_S625000x1_S625000x1_1_0_n_n_0_1_11 sc (wrapIdx d))))))

/-- The table row of every edge's source. -/
def tableAt (s : IVec S625000 32) (tb : FVec Ideal S50000x256 .bf16) : FVec Ideal S625000x256 .bf16 :=
  Host.gather gather_S50000x256_S625000x1_S625000x256_1_0_n_n_0_1_1256 tb (wrapIdx s)

/-- The message of every edge: the low half of its source's table row plus the gate times the high half. -/
def message (s d : IVec S625000 32) (sc : FVec Ideal S50000x1 .f32) (tb : FVec Ideal S50000x256 .bf16) : FVec Ideal S625000x128 .f32 :=
  addf (extf .f32 (extractStridedSlice S625000x128 ![0, 0] (tableAt s tb) slices_S625000x256_S625000x128_0_0) bitsLt_bf16_f32)
    (mulf (broadcastInDim S625000x128 ![0, 1] bcast_S625000x1_S625000x128_0_1 (gate s d sc))
      (extf .f32 (extractStridedSlice S625000x128 ![0, 128] (tableAt s tb) slices_S625000x256_S625000x128_0_128) bitsLt_bf16_f32))

/-- The messages summed into their destination nodes, from zero. -/
def aggregate (s d : IVec S625000 32) (sc : FVec Ideal S50000x1 .f32) (tb : FVec Ideal S50000x256 .bf16) : FVec Ideal S50000x128 .f32 :=
  Host.scatterAdd scatter_S50000x128_S625000x1_S625000x128_1_0_0_1
    (broadcastInDim S50000x128 ![] bcast_S_S50000x128 (constant (F := Ideal) S_ .f32 0x00000000#32))
    (broadcastInDim S625000x1 ![0] bcast_S625000_S625000x1_0 d)
    (message s d sc tb)

/-- The edge aggregate as a function of the score column, the table and the edge list. -/
def edge (sc : FVec Ideal S50000x1 .f32) (tb : FVec Ideal S50000x256 .bf16) (a1 : IVec S2x625000 32) : FVec Ideal S50000x128 .f32 :=
  aggregate (src a1) (dst a1) sc tb

/-! ## The pooling -/

/-- The number of rows of every graph, at least one. -/
def counts (a2 : IVec S50000 32) : FVec Ideal S64 .f32 :=
  maximumf
    (Host.scatterAdd scatter_S64_S50000x1_S50000_n_0_0_1
      (broadcastInDim S64 ![] bcast_S_S64 (constant (F := Ideal) S_ .f32 0x00000000#32))
      (broadcastInDim S50000x1 ![0] bcast_S50000_S50000x1_0 a2)
      (broadcastInDim S50000 ![] bcast_S_S50000 (constant (F := Ideal) S_ .f32 0x3F800000#32)))
    (broadcastInDim S64 ![] bcast_S_S64 (constant (F := Ideal) S_ .f32 0x3F800000#32))

/-- Every graph's mean row: the sum of its rows divided by its count. -/
def pool (h : FVec Ideal S50000x128 .f32) (a2 : IVec S50000 32) : FVec Ideal S64x128 .f32 :=
  Host.divf
    (Host.scatterAdd scatter_S64x128_S50000x1_S50000x128_1_0_0_1
      (broadcastInDim S64x128 ![] bcast_S_S64x128 (constant (F := Ideal) S_ .f32 0x00000000#32))
      (broadcastInDim S50000x1 ![0] bcast_S50000_S50000x1_0 a2) h)
    (broadcastInDim S64x128 ![0, 1] bcast_S64x1_S64x128_0_1 (broadcastInDim S64x1 ![0] bcast_S64_S64x1_0 (counts a2)))

/-! ## The layer and the forward pass -/

/-- One layer: the scores, the self projection and the edge table of the features, the edge aggregate, and the
    combine step with the features carried. -/
def layer (h : FVec Ideal S50000x128 .f32) (a1 : IVec S2x625000 32) (P : Params) : FVec Ideal S50000x128 .f32 :=
  Cert.Spec.combine (Cert.Spec.hself h P.wselfT P.bself)
    (edge (Cert.Spec.scores h P.wscore P.bscore) (Cert.Spec.table h P.wtable) a1) h P.wself2 P.bcomb P.gamma P.beta

/-- Layer 0's prepared parameters, of the stacked parameter arrays. -/
def params0 (a5 : FVec Ideal S3x1x128 .f32) (a6 : FVec Ideal S3x1 .f32) (a7 a8 a9 : FVec Ideal S3x128x128 .f32) (a10 : FVec Ideal S3x128 .f32)
    (a11 : FVec Ideal S3x128x384 .f32) (a12 a13 a14 : FVec Ideal S3x128 .f32) : Params :=
  prep (extractStridedSlice S1x1x128 ![0, 0, 0] a5 slices_S3x1x128_S1x1x128_0_0_0)
    (extractStridedSlice S1x1 ![0, 0] a6 slices_S3x1_S1x1_0_0)
    (extractStridedSlice S1x128x128 ![0, 0, 0] a7 slices_S3x128x128_S1x128x128_0_0_0)
    (extractStridedSlice S1x128x128 ![0, 0, 0] a8 slices_S3x128x128_S1x128x128_0_0_0)
    (extractStridedSlice S1x128x128 ![0, 0, 0] a9 slices_S3x128x128_S1x128x128_0_0_0)
    (extractStridedSlice S1x128 ![0, 0] a10 slices_S3x128_S1x128_0_0)
    (extractStridedSlice S1x128x384 ![0, 0, 0] a11 slices_S3x128x384_S1x128x384_0_0_0)
    (extractStridedSlice S1x128 ![0, 0] a12 slices_S3x128_S1x128_0_0)
    (extractStridedSlice S1x128 ![0, 0] a13 slices_S3x128_S1x128_0_0)
    (extractStridedSlice S1x128 ![0, 0] a14 slices_S3x128_S1x128_0_0)

/-- Layer 1's prepared parameters. -/
def params1 (a5 : FVec Ideal S3x1x128 .f32) (a6 : FVec Ideal S3x1 .f32) (a7 a8 a9 : FVec Ideal S3x128x128 .f32) (a10 : FVec Ideal S3x128 .f32)
    (a11 : FVec Ideal S3x128x384 .f32) (a12 a13 a14 : FVec Ideal S3x128 .f32) : Params :=
  prep (extractStridedSlice S1x1x128 ![1, 0, 0] a5 slices_S3x1x128_S1x1x128_1_0_0)
    (extractStridedSlice S1x1 ![1, 0] a6 slices_S3x1_S1x1_1_0)
    (extractStridedSlice S1x128x128 ![1, 0, 0] a7 slices_S3x128x128_S1x128x128_1_0_0)
    (extractStridedSlice S1x128x128 ![1, 0, 0] a8 slices_S3x128x128_S1x128x128_1_0_0)
    (extractStridedSlice S1x128x128 ![1, 0, 0] a9 slices_S3x128x128_S1x128x128_1_0_0)
    (extractStridedSlice S1x128 ![1, 0] a10 slices_S3x128_S1x128_1_0)
    (extractStridedSlice S1x128x384 ![1, 0, 0] a11 slices_S3x128x384_S1x128x384_1_0_0)
    (extractStridedSlice S1x128 ![1, 0] a12 slices_S3x128_S1x128_1_0)
    (extractStridedSlice S1x128 ![1, 0] a13 slices_S3x128_S1x128_1_0)
    (extractStridedSlice S1x128 ![1, 0] a14 slices_S3x128_S1x128_1_0)

/-- Layer 2's prepared parameters. -/
def params2 (a5 : FVec Ideal S3x1x128 .f32) (a6 : FVec Ideal S3x1 .f32) (a7 a8 a9 : FVec Ideal S3x128x128 .f32) (a10 : FVec Ideal S3x128 .f32)
    (a11 : FVec Ideal S3x128x384 .f32) (a12 a13 a14 : FVec Ideal S3x128 .f32) : Params :=
  prep (extractStridedSlice S1x1x128 ![2, 0, 0] a5 slices_S3x1x128_S1x1x128_2_0_0)
    (extractStridedSlice S1x1 ![2, 0] a6 slices_S3x1_S1x1_2_0)
    (extractStridedSlice S1x128x128 ![2, 0, 0] a7 slices_S3x128x128_S1x128x128_2_0_0)
    (extractStridedSlice S1x128x128 ![2, 0, 0] a8 slices_S3x128x128_S1x128x128_2_0_0)
    (extractStridedSlice S1x128x128 ![2, 0, 0] a9 slices_S3x128x128_S1x128x128_2_0_0)
    (extractStridedSlice S1x128 ![2, 0] a10 slices_S3x128_S1x128_2_0)
    (extractStridedSlice S1x128x384 ![2, 0, 0] a11 slices_S3x128x384_S1x128x384_2_0_0)
    (extractStridedSlice S1x128 ![2, 0] a12 slices_S3x128_S1x128_2_0)
    (extractStridedSlice S1x128 ![2, 0] a13 slices_S3x128_S1x128_2_0)
    (extractStridedSlice S1x128 ![2, 0] a14 slices_S3x128_S1x128_2_0)

/-- The embedded features. -/
def h0 (a0 : FVec Ideal S50000x128 .f32) (a3 : FVec Ideal S128x128 .f32) (a4 : FVec Ideal S128 .f32) : FVec Ideal S50000x128 .f32 :=
  Cert.Spec.embed a0 (wembT a3) (biasRow a4)

/-- The forward pass: the embedding, three layers, the pooling. -/
def out (a0 : FVec Ideal S50000x128 .f32) (a1 : IVec S2x625000 32) (a2 : IVec S50000 32) (a3 : FVec Ideal S128x128 .f32) (a4 : FVec Ideal S128 .f32)
    (a5 : FVec Ideal S3x1x128 .f32) (a6 : FVec Ideal S3x1 .f32) (a7 a8 a9 : FVec Ideal S3x128x128 .f32) (a10 : FVec Ideal S3x128 .f32)
    (a11 : FVec Ideal S3x128x384 .f32) (a12 a13 a14 : FVec Ideal S3x128 .f32) : FVec Ideal S64x128 .f32 :=
  pool
    (layer (layer (layer (h0 a0 a3 a4) a1 (params0 a5 a6 a7 a8 a9 a10 a11 a12 a13 a14))
      a1 (params1 a5 a6 a7 a8 a9 a10 a11 a12 a13 a14))
      a1 (params2 a5 a6 a7 a8 a9 a10 a11 a12 a13 a14))
    a2

end Cert.KStage

end
-- ==== Proof.KFoldHost0.lean ====
/-
  The two host operations before the embedding, read at the buffers they write: the weight matrix transposed and the
  bias as a row, each of the argument buffer it reads; every other buffer keeps its contents.
-/
import proofs.«108119_j38019050504554_2_alg».proof.Proof.Gen.KernelIdeal.Launch
import proofs.«108119_j38019050504554_2_alg».proof.Proof.KStage

set_option maxRecDepth 16384

noncomputable section

namespace Cert.KFold

open Idealize.ShloMosaic Idealize.ShloMosaic.TcCoe
open Cert.KernelIdeal Cert.KernelIdeal.Gen Cert.KStage

variable (V : Valuation τ sig (Elt Ideal))

/-- The buffers the stretch writes. -/
def writes0 : List (Ref sig .tc) := [main_v0, main_v1]

theorem host0_v0 : StableHlo.after (hostOps0 (F := Ideal)) V (Proc.devRef .tc main_v0) = wembT (V (Proc.devRef .tc main_arg3)) := by
  after_results
  rfl

theorem host0_v1 : StableHlo.after (hostOps0 (F := Ideal)) V (Proc.devRef .tc main_v1) = biasRow (V (Proc.devRef .tc main_arg4)) := by
  after_results
  rfl

theorem host0_keep (r : Ref sig .tc) (hr : r ∉ writes0) :
    StableHlo.after (hostOps0 (F := Ideal)) V (Proc.devRef .tc r) = V (Proc.devRef .tc r) :=
  StableHlo.after_of_writes_sub (W := writes0) hostOps0 V (by
    simp only [hostOps0, List.Forall, StableHlo.nullary_writes, StableHlo.unary_writes, StableHlo.binary_writes,
      StableHlo.ternary_writes, StableHlo.reshape_writes, Finset.singleton_subset_iff, List.mem_toFinset]
    repeat' apply And.intro
    all_goals exact List.mem_map.mpr ⟨_, by decide, rfl⟩) hr

end Cert.KFold

end
-- ==== Proof.KFoldPool.lean ====
/-
  The pooling (16 host operations), read at the result buffer: every graph's mean row, of the last features and the
  graph index of every node as the stretch finds them.
-/
import proofs.«108119_j38019050504554_2_alg».proof.Proof.Gen.KernelIdeal.Launch
import proofs.«108119_j38019050504554_2_alg».proof.Proof.KStage

set_option maxRecDepth 16384

noncomputable section

namespace Cert.KFold

open Idealize.ShloMosaic Idealize.ShloMosaic.TcCoe
open Cert.KernelIdeal Cert.KernelIdeal.Gen Cert.KStage

variable (V : Valuation τ sig (Elt Ideal))

theorem host7_out : StableHlo.after (hostOps7 (F := Ideal)) V (Proc.devRef .tc main_v255)
    = pool (V (Proc.devRef .tc main_v243)) (V (Proc.devRef .tc main_arg2)) := by
  after_results
  rfl

end Cert.KFold

end
-- ==== Proof.KFoldPrep0.lean ====
/-
  Layer 0's parameter preparation (43 host operations), read at the buffers the next two regions take: each
  prepared parameter is the stage function of that layer's slice of its stacked argument array; the two rows of the edge
  list are read here as well. Every buffer the stretch does not write keeps its contents.
-/
import proofs.«108119_j38019050504554_2_alg».proof.Proof.Gen.KernelIdeal.Launch
import proofs.«108119_j38019050504554_2_alg».proof.Proof.KStage

set_option maxRecDepth 16384

noncomputable section

namespace Cert.KFold

open Idealize.ShloMosaic Idealize.ShloMosaic.TcCoe
open Cert.KernelIdeal Cert.KernelIdeal.Gen Cert.KStage

variable (V : Valuation τ sig (Elt Ideal))

/-- The buffers the stretch writes. -/
def writes1 : List (Ref sig .tc) := [main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45]

/-- Layer 0's prepared parameters, of the argument buffers' contents. -/
abbrev P0 : Params := params0 (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14))

theorem host1_src : StableHlo.after (hostOps1 (F := Ideal)) V (Proc.devRef .tc main_v4) = src (V (Proc.devRef .tc main_arg1)) := by
  after_results
  rfl

theorem host1_dst : StableHlo.after (hostOps1 (F := Ideal)) V (Proc.devRef .tc main_v6) = dst (V (Proc.devRef .tc main_arg1)) := by
  after_results
  rfl

theorem host1_wscore : StableHlo.after (hostOps1 (F := Ideal)) V (Proc.devRef .tc main_v11) = (P0 V).wscore := by
  after_results
  rfl

theorem host1_bscore : StableHlo.after (hostOps1 (F := Ideal)) V (Proc.devRef .tc main_v14) = (P0 V).bscore := by
  after_results
  rfl

theorem host1_wselfT : StableHlo.after (hostOps1 (F := Ideal)) V (Proc.devRef .tc main_v9) = (P0 V).wselfT := by
  after_results
  rfl

theorem host1_bself : StableHlo.after (hostOps1 (F := Ideal)) V (Proc.devRef .tc main_v17) = (P0 V).bself := by
  after_results
  rfl

theorem host1_wtable : StableHlo.after (hostOps1 (F := Ideal)) V (Proc.devRef .tc main_v36) = (P0 V).wtable := by
  after_results_simp
  rfl

theorem host1_wself2 : StableHlo.after (hostOps1 (F := Ideal)) V (Proc.devRef .tc main_v21) = (P0 V).wself2 := by
  after_results
  rfl

theorem host1_bcomb : StableHlo.after (hostOps1 (F := Ideal)) V (Proc.devRef .tc main_v39) = (P0 V).bcomb := by
  after_results
  rfl

theorem host1_gamma : StableHlo.after (hostOps1 (F := Ideal)) V (Proc.devRef .tc main_v42) = (P0 V).gamma := by
  after_results
  rfl

theorem host1_beta : StableHlo.after (hostOps1 (F := Ideal)) V (Proc.devRef .tc main_v45) = (P0 V).beta := by
  after_results
  rfl

theorem host1_keep (r : Ref sig .tc) (hr : r ∉ writes1) :
    StableHlo.after (hostOps1 (F := Ideal)) V (Proc.devRef .tc r) = V (Proc.devRef .tc r) :=
  StableHlo.after_of_writes_sub (W := writes1) hostOps1 V (by
    simp only [hostOps1, List.Forall, StableHlo.nullary_writes, StableHlo.unary_writes, StableHlo.binary_writes,
      StableHlo.ternary_writes, StableHlo.reshape_writes, Finset.singleton_subset_iff, List.mem_toFinset]
    repeat' apply And.intro
    all_goals exact List.mem_map.mpr ⟨_, by decide, rfl⟩) hr

end Cert.KFold

end
-- ==== Proof.KFoldPrep1.lean ====
/-
  Layer 1's parameter preparation (39 host operations), read at the buffers the next two regions take: each
  prepared parameter is the stage function of that layer's slice of its stacked argument array. Every buffer the stretch does not write keeps its contents.
-/
import proofs.«108119_j38019050504554_2_alg».proof.Proof.Gen.KernelIdeal.Launch
import proofs.«108119_j38019050504554_2_alg».proof.Proof.KStage

set_option maxRecDepth 16384

noncomputable section

namespace Cert.KFold

open Idealize.ShloMosaic Idealize.ShloMosaic.TcCoe
open Cert.KernelIdeal Cert.KernelIdeal.Gen Cert.KStage

variable (V : Valuation τ sig (Elt Ideal))

/-- The buffers the stretch writes. -/
def writes3 : List (Ref sig .tc) := [main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121, main_v122, main_v123, main_v124]

/-- Layer 1's prepared parameters, of the argument buffers' contents. -/
abbrev P1 : Params := params1 (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14))

theorem host3_wscore : StableHlo.after (hostOps3 (F := Ideal)) V (Proc.devRef .tc main_v90) = (P1 V).wscore := by
  after_results
  rfl

theorem host3_bscore : StableHlo.after (hostOps3 (F := Ideal)) V (Proc.devRef .tc main_v93) = (P1 V).bscore := by
  after_results
  rfl

theorem host3_wselfT : StableHlo.after (hostOps3 (F := Ideal)) V (Proc.devRef .tc main_v88) = (P1 V).wselfT := by
  after_results
  rfl

theorem host3_bself : StableHlo.after (hostOps3 (F := Ideal)) V (Proc.devRef .tc main_v96) = (P1 V).bself := by
  after_results
  rfl

theorem host3_wtable : StableHlo.after (hostOps3 (F := Ideal)) V (Proc.devRef .tc main_v115) = (P1 V).wtable := by
  after_results_simp
  rfl

theorem host3_wself2 : StableHlo.after (hostOps3 (F := Ideal)) V (Proc.devRef .tc main_v100) = (P1 V).wself2 := by
  after_results
  rfl

theorem host3_bcomb : StableHlo.after (hostOps3 (F := Ideal)) V (Proc.devRef .tc main_v118) = (P1 V).bcomb := by
  after_results
  rfl

theorem host3_gamma : StableHlo.after (hostOps3 (F := Ideal)) V (Proc.devRef .tc main_v121) = (P1 V).gamma := by
  after_results
  rfl

theorem host3_beta : StableHlo.after (hostOps3 (F := Ideal)) V (Proc.devRef .tc main_v124) = (P1 V).beta := by
  after_results
  rfl

theorem host3_keep (r : Ref sig .tc) (hr : r ∉ writes3) :
    StableHlo.after (hostOps3 (F := Ideal)) V (Proc.devRef .tc r) = V (Proc.devRef .tc r) :=
  StableHlo.after_of_writes_sub (W := writes3) hostOps3 V (by
    simp only [hostOps3, List.Forall, StableHlo.nullary_writes, StableHlo.unary_writes, StableHlo.binary_writes,
      StableHlo.ternary_writes, StableHlo.reshape_writes, Finset.singleton_subset_iff, List.mem_toFinset]
    repeat' apply And.intro
    all_goals exact List.mem_map.mpr ⟨_, by decide, rfl⟩) hr

end Cert.KFold

end
-- ==== Proof.KFoldPrep2.lean ====
/-
  Layer 2's parameter preparation (39 host operations), read at the buffers the next two regions take: each
  prepared parameter is the stage function of that layer's slice of its stacked argument array. Every buffer the stretch does not write keeps its contents.
-/
import proofs.«108119_j38019050504554_2_alg».proof.Proof.Gen.KernelIdeal.Launch
import proofs.«108119_j38019050504554_2_alg».proof.Proof.KStage

set_option maxRecDepth 16384

noncomputable section

namespace Cert.KFold

open Idealize.ShloMosaic Idealize.ShloMosaic.TcCoe
open Cert.KernelIdeal Cert.KernelIdeal.Gen Cert.KStage

variable (V : Valuation τ sig (Elt Ideal))

/-- The buffers the stretch writes. -/
def writes5 : List (Ref sig .tc) := [main_v165, main_v166, main_v167, main_v168, main_v169, main_v170, main_v171, main_v172, main_v173, main_v174, main_v175, main_v176, main_v177, main_v178, main_v179, main_v180, main_v181, main_v182, main_v183, main_v184, main_v185, main_v186, main_v187, main_v188, main_v189, main_v190, main_v191, main_v192, main_v193, main_v194, main_v195, main_v196, main_v197, main_v198, main_v199, main_v200, main_v201, main_v202, main_v203]

/-- Layer 2's prepared parameters, of the argument buffers' contents. -/
abbrev P2 : Params := params2 (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14))

theorem host5_wscore : StableHlo.after (hostOps5 (F := Ideal)) V (Proc.devRef .tc main_v169) = (P2 V).wscore := by
  after_results
  rfl

theorem host5_bscore : StableHlo.after (hostOps5 (F := Ideal)) V (Proc.devRef .tc main_v172) = (P2 V).bscore := by
  after_results
  rfl

theorem host5_wselfT : StableHlo.after (hostOps5 (F := Ideal)) V (Proc.devRef .tc main_v167) = (P2 V).wselfT := by
  after_results
  rfl

theorem host5_bself : StableHlo.after (hostOps5 (F := Ideal)) V (Proc.devRef .tc main_v175) = (P2 V).bself := by
  after_results
  rfl

theorem host5_wtable : StableHlo.after (hostOps5 (F := Ideal)) V (Proc.devRef .tc main_v194) = (P2 V).wtable := by
  after_results_simp
  rfl

theorem host5_wself2 : StableHlo.after (hostOps5 (F := Ideal)) V (Proc.devRef .tc main_v179) = (P2 V).wself2 := by
  after_results
  rfl

theorem host5_bcomb : StableHlo.after (hostOps5 (F := Ideal)) V (Proc.devRef .tc main_v197) = (P2 V).bcomb := by
  after_results
  rfl

theorem host5_gamma : StableHlo.after (hostOps5 (F := Ideal)) V (Proc.devRef .tc main_v200) = (P2 V).gamma := by
  after_results
  rfl

theorem host5_beta : StableHlo.after (hostOps5 (F := Ideal)) V (Proc.devRef .tc main_v203) = (P2 V).beta := by
  after_results
  rfl

theorem host5_keep (r : Ref sig .tc) (hr : r ∉ writes5) :
    StableHlo.after (hostOps5 (F := Ideal)) V (Proc.devRef .tc r) = V (Proc.devRef .tc r) :=
  StableHlo.after_of_writes_sub (W := writes5) hostOps5 V (by
    simp only [hostOps5, List.Forall, StableHlo.nullary_writes, StableHlo.unary_writes, StableHlo.binary_writes,
      StableHlo.ternary_writes, StableHlo.reshape_writes, Finset.singleton_subset_iff, List.mem_toFinset]
    repeat' apply And.intro
    all_goals exact List.mem_map.mpr ⟨_, by decide, rfl⟩) hr

end Cert.KFold

end
-- ==== Proof.KFoldEdge0.lean ====
/-
  Layer 0's edge path (47 host operations), read at the aggregate's buffer: the aggregate of the two endpoint
  vectors, the score column and the table as the stretch finds them. Every buffer the stretch does not write keeps
  its contents.
-/
import proofs.«108119_j38019050504554_2_alg».proof.Proof.Gen.KernelIdeal.Launch
import proofs.«108119_j38019050504554_2_alg».proof.Proof.KStage

set_option maxRecDepth 16384

noncomputable section

namespace Cert.KFold

open Idealize.ShloMosaic Idealize.ShloMosaic.TcCoe
open Cert.KernelIdeal Cert.KernelIdeal.Gen Cert.KStage

variable (V : Valuation τ sig (Elt Ideal))

/-- The buffers the stretch writes. -/
def writes2 : List (Ref sig .tc) := [main_c, main_v47, main_v48, main_c_0, main_v49, main_v50, main_v51, main_v52, main_v53, main_c_1, main_v54, main_v55, main_c_2, main_v56, main_v57, main_v58, main_v59, main_v60, main_v61, main_v62, main_v63, main_cst, main_v64, main_v65, main_cst_3, main_v66, main_v67, main_c_4, main_v68, main_v69, main_c_5, main_v70, main_v71, main_v72, main_v73, main_v74, main_v75, main_v76, main_v77, main_v78, main_v79, main_v80, main_v81, main_cst_6, main_v82, main_v83, main_v84]

theorem host2_aggr : StableHlo.after (hostOps2 (F := Ideal)) V (Proc.devRef .tc main_v84)
    = aggregate (V (Proc.devRef .tc main_v4)) (V (Proc.devRef .tc main_v6)) (V (Proc.devRef .tc main_v46_0)) (V (Proc.devRef .tc main_v46_2)) := by
  after_results_simp
  rfl

theorem host2_keep (r : Ref sig .tc) (hr : r ∉ writes2) :
    StableHlo.after (hostOps2 (F := Ideal)) V (Proc.devRef .tc r) = V (Proc.devRef .tc r) :=
  StableHlo.after_of_writes_sub (W := writes2) hostOps2 V (by
    simp only [hostOps2, List.Forall, StableHlo.nullary_writes, StableHlo.unary_writes, StableHlo.binary_writes,
      StableHlo.ternary_writes, StableHlo.reshape_writes, Finset.singleton_subset_iff, List.mem_toFinset]
    repeat' apply And.intro
    all_goals exact List.mem_map.mpr ⟨_, by decide, rfl⟩) hr

end Cert.KFold

end
-- ==== Proof.KFoldEdge1.lean ====
/-
  Layer 1's edge path (47 host operations), read at the aggregate's buffer: the aggregate of the two endpoint
  vectors, the score column and the table as the stretch finds them. Every buffer the stretch does not write keeps
  its contents.
-/
import proofs.«108119_j38019050504554_2_alg».proof.Proof.Gen.KernelIdeal.Launch
import proofs.«108119_j38019050504554_2_alg».proof.Proof.KStage

set_option maxRecDepth 16384

noncomputable section

namespace Cert.KFold

open Idealize.ShloMosaic Idealize.ShloMosaic.TcCoe
open Cert.KernelIdeal Cert.KernelIdeal.Gen Cert.KStage

variable (V : Valuation τ sig (Elt Ideal))

/-- The buffers the stretch writes. -/
def writes4 : List (Ref sig .tc) := [main_c_7, main_v126, main_v127, main_c_8, main_v128, main_v129, main_v130, main_v131, main_v132, main_c_9, main_v133, main_v134, main_c_10, main_v135, main_v136, main_v137, main_v138, main_v139, main_v140, main_v141, main_v142, main_cst_11, main_v143, main_v144, main_cst_12, main_v145, main_v146, main_c_13, main_v147, main_v148, main_c_14, main_v149, main_v150, main_v151, main_v152, main_v153, main_v154, main_v155, main_v156, main_v157, main_v158, main_v159, main_v160, main_cst_15, main_v161, main_v162, main_v163]

theorem host4_aggr : StableHlo.after (hostOps4 (F := Ideal)) V (Proc.devRef .tc main_v163)
    = aggregate (V (Proc.devRef .tc main_v4)) (V (Proc.devRef .tc main_v6)) (V (Proc.devRef .tc main_v125_0)) (V (Proc.devRef .tc main_v125_2)) := by
  after_results_simp
  rfl

theorem host4_keep (r : Ref sig .tc) (hr : r ∉ writes4) :
    StableHlo.after (hostOps4 (F := Ideal)) V (Proc.devRef .tc r) = V (Proc.devRef .tc r) :=
  StableHlo.after_of_writes_sub (W := writes4) hostOps4 V (by
    simp only [hostOps4, List.Forall, StableHlo.nullary_writes, StableHlo.unary_writes, StableHlo.binary_writes,
      StableHlo.ternary_writes, StableHlo.reshape_writes, Finset.singleton_subset_iff, List.mem_toFinset]
    repeat' apply And.intro
    all_goals exact List.mem_map.mpr ⟨_, by decide, rfl⟩) hr

end Cert.KFold

end
-- ==== Proof.KFoldEdge2.lean ====
/-
  Layer 2's edge path (47 host operations), read at the aggregate's buffer: the aggregate of the two endpoint
  vectors, the score column and the table as the stretch finds them. Every buffer the stretch does not write keeps
  its contents.
-/
import proofs.«108119_j38019050504554_2_alg».proof.Proof.Gen.KernelIdeal.Launch
import proofs.«108119_j38019050504554_2_alg».proof.Proof.KStage

set_option maxRecDepth 16384

noncomputable section

namespace Cert.KFold

open Idealize.ShloMosaic Idealize.ShloMosaic.TcCoe
open Cert.KernelIdeal Cert.KernelIdeal.Gen Cert.KStage

variable (V : Valuation τ sig (Elt Ideal))

/-- The buffers the stretch writes. -/
def writes6 : List (Ref sig .tc) := [main_c_16, main_v205, main_v206, main_c_17, main_v207, main_v208, main_v209, main_v210, main_v211, main_c_18, main_v212, main_v213, main_c_19, main_v214, main_v215, main_v216, main_v217, main_v218, main_v219, main_v220, main_v221, main_cst_20, main_v222, main_v223, main_cst_21, main_v224, main_v225, main_c_22, main_v226, main_v227, main_c_23, main_v228, main_v229, main_v230, main_v231, main_v232, main_v233, main_v234, main_v235, main_v236, main_v237, main_v238, main_v239, main_cst_24, main_v240, main_v241, main_v242]

theorem host6_aggr : StableHlo.after (hostOps6 (F := Ideal)) V (Proc.devRef .tc main_v242)
    = aggregate (V (Proc.devRef .tc main_v4)) (V (Proc.devRef .tc main_v6)) (V (Proc.devRef .tc main_v204_0)) (V (Proc.devRef .tc main_v204_2)) := by
  after_results_simp
  rfl

theorem host6_keep (r : Ref sig .tc) (hr : r ∉ writes6) :
    StableHlo.after (hostOps6 (F := Ideal)) V (Proc.devRef .tc r) = V (Proc.devRef .tc r) :=
  StableHlo.after_of_writes_sub (W := writes6) hostOps6 V (by
    simp only [hostOps6, List.Forall, StableHlo.nullary_writes, StableHlo.unary_writes, StableHlo.binary_writes,
      StableHlo.ternary_writes, StableHlo.reshape_writes, Finset.singleton_subset_iff, List.mem_toFinset]
    repeat' apply And.intro
    all_goals exact List.mem_map.mpr ⟨_, by decide, rfl⟩) hr

end Cert.KFold

end
-- ==== Proof.KFoldArgs.lean ====
/-
  Buffers that nothing touches, carried through the run. An argument buffer other than the node features is written
  by no host operation and is no region's window, so at every boundary it holds what the launch memory held. The two
  endpoint vectors are written once, by the first layer's preparation, and then by nothing: at every later boundary
  they are the two rows of the edge list. Each layer's prepared parameters are therefore the stage functions of the
  launch memory's argument arrays.
-/
import proofs.«108119_j38019050504554_2_alg».proof.Proof.Gen.KernelIdeal.Frame
import proofs.«108119_j38019050504554_2_alg».proof.Proof.KStage
import proofs.«108119_j38019050504554_2_alg».proof.Proof.KFoldHost0
import proofs.«108119_j38019050504554_2_alg».proof.Proof.KFoldPrep0
import proofs.«108119_j38019050504554_2_alg».proof.Proof.KFoldPrep1
import proofs.«108119_j38019050504554_2_alg».proof.Proof.KFoldPrep2
import proofs.«108119_j38019050504554_2_alg».proof.Proof.KFoldEdge0
import proofs.«108119_j38019050504554_2_alg».proof.Proof.KFoldEdge1
import proofs.«108119_j38019050504554_2_alg».proof.Proof.KFoldEdge2

set_option maxRecDepth 16384

noncomputable section

namespace Cert.KFold

open Idealize.ShloMosaic Idealize.ShloMosaic.TcCoe
open Cert.KernelIdeal Cert.KernelIdeal.Gen Cert.KStage

variable (m : (ℓ : Loc nD τ sig) → Buf (Elt Ideal) ℓ) (ρ : Dev nD → PrngReg) (c : Dev nD)

/-- A buffer that none of the first seven stretches writes and that is the array of no region's window. -/
structure Untouched (b : Ref sig .tc) : Prop where
  h0 : b ∉ writes0
  r0 : ∀ w, Pipeline.arrRef spec0 w ≠ b
  h1 : b ∉ writes1
  r1 : ∀ w, Pipeline.arrRef spec1 w ≠ b
  h2 : b ∉ writes2
  r2 : ∀ w, Pipeline.arrRef spec2 w ≠ b
  h3 : b ∉ writes3
  r3 : ∀ w, Pipeline.arrRef spec3 w ≠ b
  h4 : b ∉ writes4
  r4 : ∀ w, Pipeline.arrRef spec4 w ≠ b
  h5 : b ∉ writes5
  r5 : ∀ w, Pipeline.arrRef spec5 w ≠ b
  h6 : b ∉ writes6
  r6 : ∀ w, Pipeline.arrRef spec6 w ≠ b

theorem unt_arg1 : Untouched main_arg1 := ⟨by decide, by decide, by decide, by decide, by decide, by decide, by decide, by decide, by decide, by decide, by decide, by decide, by decide, by decide⟩
theorem unt_arg2 : Untouched main_arg2 := ⟨by decide, by decide, by decide, by decide, by decide, by decide, by decide, by decide, by decide, by decide, by decide, by decide, by decide, by decide⟩
theorem unt_arg5 : Untouched main_arg5 := ⟨by decide, by decide, by decide, by decide, by decide, by decide, by decide, by decide, by decide, by decide, by decide, by decide, by decide, by decide⟩
theorem unt_arg6 : Untouched main_arg6 := ⟨by decide, by decide, by decide, by decide, by decide, by decide, by decide, by decide, by decide, by decide, by decide, by decide, by decide, by decide⟩
theorem unt_arg7 : Untouched main_arg7 := ⟨by decide, by decide, by decide, by decide, by decide, by decide, by decide, by decide, by decide, by decide, by decide, by decide, by decide, by decide⟩
theorem unt_arg8 : Untouched main_arg8 := ⟨by decide, by decide, by decide, by decide, by decide, by decide, by decide, by decide, by decide, by decide, by decide, by decide, by decide, by decide⟩
theorem unt_arg9 : Untouched main_arg9 := ⟨by decide, by decide, by decide, by decide, by decide, by decide, by decide, by decide, by decide, by decide, by decide, by decide, by decide, by decide⟩
theorem unt_arg10 : Untouched main_arg10 := ⟨by decide, by decide, by decide, by decide, by decide, by decide, by decide, by decide, by decide, by decide, by decide, by decide, by decide, by decide⟩
theorem unt_arg11 : Untouched main_arg11 := ⟨by decide, by decide, by decide, by decide, by decide, by decide, by decide, by decide, by decide, by decide, by decide, by decide, by decide, by decide⟩
theorem unt_arg12 : Untouched main_arg12 := ⟨by decide, by decide, by decide, by decide, by decide, by decide, by decide, by decide, by decide, by decide, by decide, by decide, by decide, by decide⟩
theorem unt_arg13 : Untouched main_arg13 := ⟨by decide, by decide, by decide, by decide, by decide, by decide, by decide, by decide, by decide, by decide, by decide, by decide, by decide, by decide⟩
theorem unt_arg14 : Untouched main_arg14 := ⟨by decide, by decide, by decide, by decide, by decide, by decide, by decide, by decide, by decide, by decide, by decide, by decide, by decide, by decide⟩

variable {b : Ref sig .tc}

/-- Through the embedding. -/
theorem W2_arg (hb : Untouched b) : W2 m ρ c (Proc.devRef .tc b) = m ((c : Thread nD τ).loc b) :=
  (W2_of_ne m ρ c b hb.r0).trans (host0_keep (W0 m ρ c) b hb.h0)

/-- Through layer 0. -/
theorem W6_arg (hb : Untouched b) : W6 m ρ c (Proc.devRef .tc b) = m ((c : Thread nD τ).loc b) :=
  (W6_of_ne m ρ c b hb.r2).trans ((host2_keep (W4 m ρ c) b hb.h2).trans ((W4_of_ne m ρ c b hb.r1).trans
    ((host1_keep (W2 m ρ c) b hb.h1).trans (W2_arg m ρ c hb))))

/-- Through layer 1. -/
theorem W10_arg (hb : Untouched b) : W10 m ρ c (Proc.devRef .tc b) = m ((c : Thread nD τ).loc b) :=
  (W10_of_ne m ρ c b hb.r4).trans ((host4_keep (W8 m ρ c) b hb.h4).trans ((W8_of_ne m ρ c b hb.r3).trans
    ((host3_keep (W6 m ρ c) b hb.h3).trans (W6_arg m ρ c hb))))

/-- Through layer 2. -/
theorem W14_arg (hb : Untouched b) : W14 m ρ c (Proc.devRef .tc b) = m ((c : Thread nD τ).loc b) :=
  (W14_of_ne m ρ c b hb.r6).trans ((host6_keep (W12 m ρ c) b hb.h6).trans ((W12_of_ne m ρ c b hb.r5).trans
    ((host5_keep (W10 m ρ c) b hb.h5).trans (W10_arg m ρ c hb))))

/-! ## The endpoint vectors -/

theorem W3_src : W3 m ρ c (Proc.devRef .tc main_v4) = src (m ((c : Thread nD τ).loc main_arg1)) :=
  (host1_src (W2 m ρ c)).trans (congrArg src (W2_arg m ρ c unt_arg1))
theorem W3_dst : W3 m ρ c (Proc.devRef .tc main_v6) = dst (m ((c : Thread nD τ).loc main_arg1)) :=
  (host1_dst (W2 m ρ c)).trans (congrArg dst (W2_arg m ρ c unt_arg1))

theorem W4_src : W4 m ρ c (Proc.devRef .tc main_v4) = src (m ((c : Thread nD τ).loc main_arg1)) :=
  (W4_of_ne m ρ c main_v4 (by decide)).trans (W3_src m ρ c)
theorem W8_src : W8 m ρ c (Proc.devRef .tc main_v4) = src (m ((c : Thread nD τ).loc main_arg1)) :=
  (W8_of_ne m ρ c main_v4 (by decide)).trans ((host3_keep (W6 m ρ c) main_v4 (by decide)).trans ((W6_of_ne m ρ c main_v4 (by decide)).trans
    ((host2_keep (W4 m ρ c) main_v4 (by decide)).trans (W4_src m ρ c))))
theorem W12_src : W12 m ρ c (Proc.devRef .tc main_v4) = src (m ((c : Thread nD τ).loc main_arg1)) :=
  (W12_of_ne m ρ c main_v4 (by decide)).trans ((host5_keep (W10 m ρ c) main_v4 (by decide)).trans ((W10_of_ne m ρ c main_v4 (by decide)).trans
    ((host4_keep (W8 m ρ c) main_v4 (by decide)).trans (W8_src m ρ c))))

theorem W4_dst : W4 m ρ c (Proc.devRef .tc main_v6) = dst (m ((c : Thread nD τ).loc main_arg1)) :=
  (W4_of_ne m ρ c main_v6 (by decide)).trans (W3_dst m ρ c)
theorem W8_dst : W8 m ρ c (Proc.devRef .tc main_v6) = dst (m ((c : Thread nD τ).loc main_arg1)) :=
  (W8_of_ne m ρ c main_v6 (by decide)).trans ((host3_keep (W6 m ρ c) main_v6 (by decide)).trans ((W6_of_ne m ρ c main_v6 (by decide)).trans
    ((host2_keep (W4 m ρ c) main_v6 (by decide)).trans (W4_dst m ρ c))))
theorem W12_dst : W12 m ρ c (Proc.devRef .tc main_v6) = dst (m ((c : Thread nD τ).loc main_arg1)) :=
  (W12_of_ne m ρ c main_v6 (by decide)).trans ((host5_keep (W10 m ρ c) main_v6 (by decide)).trans ((W10_of_ne m ρ c main_v6 (by decide)).trans
    ((host4_keep (W8 m ρ c) main_v6 (by decide)).trans (W8_dst m ρ c))))

/-! ## The layers' prepared parameters -/

theorem W2_params : P0 (W2 m ρ c) = params0 (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  unfold P0
  rw [W2_arg m ρ c unt_arg5, W2_arg m ρ c unt_arg6, W2_arg m ρ c unt_arg7, W2_arg m ρ c unt_arg8, W2_arg m ρ c unt_arg9, W2_arg m ρ c unt_arg10, W2_arg m ρ c unt_arg11, W2_arg m ρ c unt_arg12, W2_arg m ρ c unt_arg13, W2_arg m ρ c unt_arg14]

theorem W6_params : P1 (W6 m ρ c) = params1 (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  unfold P1
  rw [W6_arg m ρ c unt_arg5, W6_arg m ρ c unt_arg6, W6_arg m ρ c unt_arg7, W6_arg m ρ c unt_arg8, W6_arg m ρ c unt_arg9, W6_arg m ρ c unt_arg10, W6_arg m ρ c unt_arg11, W6_arg m ρ c unt_arg12, W6_arg m ρ c unt_arg13, W6_arg m ρ c unt_arg14]

theorem W10_params : P2 (W10 m ρ c) = params2 (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  unfold P2
  rw [W10_arg m ρ c unt_arg5, W10_arg m ρ c unt_arg6, W10_arg m ρ c unt_arg7, W10_arg m ρ c unt_arg8, W10_arg m ρ c unt_arg9, W10_arg m ρ c unt_arg10, W10_arg m ρ c unt_arg11, W10_arg m ρ c unt_arg12, W10_arg m ρ c unt_arg13, W10_arg m ρ c unt_arg14]

end Cert.KFold

end
-- ==== Proof.KFoldLayer0.lean ====
/-
  Layer 0 of the stack, from the features at its entry to the features at its exit. The preparation leaves the
  layer's parameters in their buffers and the features in place; the transform region's three results are the scores,
  the self projection and the table of the features; the edge path's aggregate is that of the scores and the table
  along the edge list; the combine region's result is the combine step of the self projection, the aggregate and the
  features carried. The three region results are hypotheses, in the form their proofs conclude.
-/
import proofs.«108119_j38019050504554_2_alg».proof.Proof.Gen.KernelIdeal.Frame
import proofs.«108119_j38019050504554_2_alg».proof.Proof.KStage
import proofs.«108119_j38019050504554_2_alg».proof.Proof.KFoldPrep0
import proofs.«108119_j38019050504554_2_alg».proof.Proof.KFoldEdge0

set_option maxRecDepth 16384

noncomputable section

namespace Cert.KFold

open Idealize.ShloMosaic Idealize.ShloMosaic.TcCoe
open Cert.KernelIdeal Cert.KernelIdeal.Gen Cert.KStage

open Idealize.ShloMosaic.Pipeline (Dat)

variable (m : (ℓ : Loc nD τ sig) → Buf (Elt Ideal) ℓ) (ρ : Dev nD → PrngReg) (c : Dev nD)

/-- The features at layer 0's exit, of the features at its entry, the edge list and the prepared parameters. -/
theorem layer0_value
    (final1_6 : ∀ (V : (c : Dev nD) → (b : Ref sig .tc) → Buf (Elt Ideal) ((c : Thread nD τ).loc b)) (c : Dev nD), (dat1 V c).arrAt 6 cfg1.N
      = Cert.Spec.scores (V c (Pipeline.arrRef spec1 0)) (V c (Pipeline.arrRef spec1 1)) (V c (Pipeline.arrRef spec1 2)))
    (final1_7 : ∀ (V : (c : Dev nD) → (b : Ref sig .tc) → Buf (Elt Ideal) ((c : Thread nD τ).loc b)) (c : Dev nD), (dat1 V c).arrAt 7 cfg1.N
      = Cert.Spec.hself (V c (Pipeline.arrRef spec1 0)) (V c (Pipeline.arrRef spec1 3)) (V c (Pipeline.arrRef spec1 4)))
    (final1_8 : ∀ (V : (c : Dev nD) → (b : Ref sig .tc) → Buf (Elt Ideal) ((c : Thread nD τ).loc b)) (c : Dev nD), (dat1 V c).arrAt 8 cfg1.N
      = Cert.Spec.table (V c (Pipeline.arrRef spec1 0)) (V c (Pipeline.arrRef spec1 5)))
    (final2_7 : ∀ (V : (c : Dev nD) → (b : Ref sig .tc) → Buf (Elt Ideal) ((c : Thread nD τ).loc b)) (c : Dev nD), (dat2 V c).arrAt 7 cfg2.N
      = Cert.Spec.combine (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) (V c (Pipeline.arrRef spec2 6)))
    (h : FVec Ideal S50000x128 .f32) (hh : W2 m ρ c (Proc.devRef .tc main_v2) = h)
    (a1 : IVec S2x625000 32) (hs : W4 m ρ c (Proc.devRef .tc main_v4) = src a1) (hd : W4 m ρ c (Proc.devRef .tc main_v6) = dst a1)
    (P : Params) (hP : P0 (W2 m ρ c) = P) :
    W6 m ρ c (Proc.devRef .tc main_v85) = layer h a1 P := by
  -- the transform region's operands at its entry
  have e_h : W3 m ρ c (Proc.devRef .tc main_v2) = h := (host1_keep (W2 m ρ c) main_v2 (by decide)).trans hh
  have e_wscore : W3 m ρ c (Proc.devRef .tc main_v11) = P.wscore :=
    (host1_wscore (W2 m ρ c)).trans (congrArg Params.wscore hP)
  have e_bscore : W3 m ρ c (Proc.devRef .tc main_v14) = P.bscore :=
    (host1_bscore (W2 m ρ c)).trans (congrArg Params.bscore hP)
  have e_wselfT : W3 m ρ c (Proc.devRef .tc main_v9) = P.wselfT :=
    (host1_wselfT (W2 m ρ c)).trans (congrArg Params.wselfT hP)
  have e_bself : W3 m ρ c (Proc.devRef .tc main_v17) = P.bself :=
    (host1_bself (W2 m ρ c)).trans (congrArg Params.bself hP)
  have e_wtable : W3 m ρ c (Proc.devRef .tc main_v36) = P.wtable :=
    (host1_wtable (W2 m ρ c)).trans (congrArg Params.wtable hP)
  -- the transform region's results
  have s0 : W4 m ρ c (Proc.devRef .tc main_v46_0)
      = Cert.Spec.scores (W3 m ρ c (Proc.devRef .tc main_v2)) (W3 m ρ c (Proc.devRef .tc main_v11)) (W3 m ρ c (Proc.devRef .tc main_v14)) :=
    (W4_arr m ρ c 6).trans (final1_6 (V3 m ρ) c)
  have s1 : W4 m ρ c (Proc.devRef .tc main_v46_1)
      = Cert.Spec.hself (W3 m ρ c (Proc.devRef .tc main_v2)) (W3 m ρ c (Proc.devRef .tc main_v9)) (W3 m ρ c (Proc.devRef .tc main_v17)) :=
    (W4_arr m ρ c 7).trans (final1_7 (V3 m ρ) c)
  have s2 : W4 m ρ c (Proc.devRef .tc main_v46_2)
      = Cert.Spec.table (W3 m ρ c (Proc.devRef .tc main_v2)) (W3 m ρ c (Proc.devRef .tc main_v36)) :=
    (W4_arr m ρ c 8).trans (final1_8 (V3 m ρ) c)
  rw [e_h, e_wscore, e_bscore] at s0
  rw [e_h, e_wselfT, e_bself] at s1
  rw [e_h, e_wtable] at s2
  -- the aggregate
  have ag : W5 m ρ c (Proc.devRef .tc main_v84)
      = aggregate (W4 m ρ c (Proc.devRef .tc main_v4)) (W4 m ρ c (Proc.devRef .tc main_v6)) (W4 m ρ c (Proc.devRef .tc main_v46_0)) (W4 m ρ c (Proc.devRef .tc main_v46_2)) :=
    host2_aggr (W4 m ρ c)
  rw [hs, hd, s0, s2] at ag
  -- the combine region's other operands at its entry
  have c_hs : W5 m ρ c (Proc.devRef .tc main_v46_1) = Cert.Spec.hself h P.wselfT P.bself :=
    (host2_keep (W4 m ρ c) main_v46_1 (by decide)).trans s1
  have c_h : W5 m ρ c (Proc.devRef .tc main_v2) = h :=
    (host2_keep (W4 m ρ c) main_v2 (by decide)).trans (((W4_arr m ρ c 0).trans
      (((dat1 (V3 m ρ) c).arrAt_in 0 rfl _).trans (A_eq1 (V3 m ρ) c 0))).trans e_h)
  have c_wself2 : W5 m ρ c (Proc.devRef .tc main_v21) = P.wself2 :=
    (host2_keep (W4 m ρ c) main_v21 (by decide)).trans ((W4_of_ne m ρ c main_v21 (by decide)).trans
      ((host1_wself2 (W2 m ρ c)).trans (congrArg Params.wself2 hP)))
  have c_bcomb : W5 m ρ c (Proc.devRef .tc main_v39) = P.bcomb :=
    (host2_keep (W4 m ρ c) main_v39 (by decide)).trans ((W4_of_ne m ρ c main_v39 (by decide)).trans
      ((host1_bcomb (W2 m ρ c)).trans (congrArg Params.bcomb hP)))
  have c_gamma : W5 m ρ c (Proc.devRef .tc main_v42) = P.gamma :=
    (host2_keep (W4 m ρ c) main_v42 (by decide)).trans ((W4_of_ne m ρ c main_v42 (by decide)).trans
      ((host1_gamma (W2 m ρ c)).trans (congrArg Params.gamma hP)))
  have c_beta : W5 m ρ c (Proc.devRef .tc main_v45) = P.beta :=
    (host2_keep (W4 m ρ c) main_v45 (by decide)).trans ((W4_of_ne m ρ c main_v45 (by decide)).trans
      ((host1_beta (W2 m ρ c)).trans (congrArg Params.beta hP)))
  -- the combine region's result
  have r : W6 m ρ c (Proc.devRef .tc main_v85)
      = Cert.Spec.combine (W5 m ρ c (Proc.devRef .tc main_v46_1)) (W5 m ρ c (Proc.devRef .tc main_v84)) (W5 m ρ c (Proc.devRef .tc main_v2))
          (W5 m ρ c (Proc.devRef .tc main_v21)) (W5 m ρ c (Proc.devRef .tc main_v39)) (W5 m ρ c (Proc.devRef .tc main_v42)) (W5 m ρ c (Proc.devRef .tc main_v45)) :=
    (W6_arr m ρ c 7).trans (final2_7 (V5 m ρ) c)
  rw [c_hs, ag, c_h, c_wself2, c_bcomb, c_gamma, c_beta] at r
  exact r

end Cert.KFold

end
-- ==== Proof.KFoldLayer1.lean ====
/-
  Layer 1 of the stack, from the features at its entry to the features at its exit. The preparation leaves the
  layer's parameters in their buffers and the features in place; the transform region's three results are the scores,
  the self projection and the table of the features; the edge path's aggregate is that of the scores and the table
  along the edge list; the combine region's result is the combine step of the self projection, the aggregate and the
  features carried. The three region results are hypotheses, in the form their proofs conclude.
-/
import proofs.«108119_j38019050504554_2_alg».proof.Proof.Gen.KernelIdeal.Frame
import proofs.«108119_j38019050504554_2_alg».proof.Proof.KStage
import proofs.«108119_j38019050504554_2_alg».proof.Proof.KFoldPrep1
import proofs.«108119_j38019050504554_2_alg».proof.Proof.KFoldEdge1

set_option maxRecDepth 16384

noncomputable section

namespace Cert.KFold

open Idealize.ShloMosaic Idealize.ShloMosaic.TcCoe
open Cert.KernelIdeal Cert.KernelIdeal.Gen Cert.KStage

open Idealize.ShloMosaic.Pipeline (Dat)

variable (m : (ℓ : Loc nD τ sig) → Buf (Elt Ideal) ℓ) (ρ : Dev nD → PrngReg) (c : Dev nD)

set_option maxHeartbeats 4000000 in
/-- The features at layer 1's exit, of the features at its entry, the edge list and the prepared parameters. -/
theorem layer1_value
    (final3_6 : ∀ (V : (c : Dev nD) → (b : Ref sig .tc) → Buf (Elt Ideal) ((c : Thread nD τ).loc b)) (c : Dev nD), (dat3 V c).arrAt 6 cfg3.N
      = Cert.Spec.scores (V c (Pipeline.arrRef spec3 0)) (V c (Pipeline.arrRef spec3 1)) (V c (Pipeline.arrRef spec3 2)))
    (final3_7 : ∀ (V : (c : Dev nD) → (b : Ref sig .tc) → Buf (Elt Ideal) ((c : Thread nD τ).loc b)) (c : Dev nD), (dat3 V c).arrAt 7 cfg3.N
      = Cert.Spec.hself (V c (Pipeline.arrRef spec3 0)) (V c (Pipeline.arrRef spec3 3)) (V c (Pipeline.arrRef spec3 4)))
    (final3_8 : ∀ (V : (c : Dev nD) → (b : Ref sig .tc) → Buf (Elt Ideal) ((c : Thread nD τ).loc b)) (c : Dev nD), (dat3 V c).arrAt 8 cfg3.N
      = Cert.Spec.table (V c (Pipeline.arrRef spec3 0)) (V c (Pipeline.arrRef spec3 5)))
    (final4_7 : ∀ (V : (c : Dev nD) → (b : Ref sig .tc) → Buf (Elt Ideal) ((c : Thread nD τ).loc b)) (c : Dev nD), (dat4 V c).arrAt 7 cfg4.N
      = Cert.Spec.combine (V c (Pipeline.arrRef spec4 0)) (V c (Pipeline.arrRef spec4 1)) (V c (Pipeline.arrRef spec4 2))
          (V c (Pipeline.arrRef spec4 3)) (V c (Pipeline.arrRef spec4 4)) (V c (Pipeline.arrRef spec4 5)) (V c (Pipeline.arrRef spec4 6)))
    (h : FVec Ideal S50000x128 .f32) (hh : W6 m ρ c (Proc.devRef .tc main_v85) = h)
    (a1 : IVec S2x625000 32) (hs : W8 m ρ c (Proc.devRef .tc main_v4) = src a1) (hd : W8 m ρ c (Proc.devRef .tc main_v6) = dst a1)
    (P : Params) (hP : P1 (W6 m ρ c) = P) :
    W10 m ρ c (Proc.devRef .tc main_v164) = layer h a1 P := by
  -- the transform region's operands at its entry
  have e_h : W7 m ρ c (Proc.devRef .tc main_v85) = h := (host3_keep (W6 m ρ c) main_v85 (by decide)).trans hh
  have e_wscore : W7 m ρ c (Proc.devRef .tc main_v90) = P.wscore :=
    (host3_wscore (W6 m ρ c)).trans (congrArg Params.wscore hP)
  have e_bscore : W7 m ρ c (Proc.devRef .tc main_v93) = P.bscore :=
    (host3_bscore (W6 m ρ c)).trans (congrArg Params.bscore hP)
  have e_wselfT : W7 m ρ c (Proc.devRef .tc main_v88) = P.wselfT :=
    (host3_wselfT (W6 m ρ c)).trans (congrArg Params.wselfT hP)
  have e_bself : W7 m ρ c (Proc.devRef .tc main_v96) = P.bself :=
    (host3_bself (W6 m ρ c)).trans (congrArg Params.bself hP)
  have e_wtable : W7 m ρ c (Proc.devRef .tc main_v115) = P.wtable :=
    (host3_wtable (W6 m ρ c)).trans (congrArg Params.wtable hP)
  -- the transform region's results
  have s0 : W8 m ρ c (Proc.devRef .tc main_v125_0)
      = Cert.Spec.scores (W7 m ρ c (Proc.devRef .tc main_v85)) (W7 m ρ c (Proc.devRef .tc main_v90)) (W7 m ρ c (Proc.devRef .tc main_v93)) :=
    (W8_arr m ρ c 6).trans (final3_6 (V7 m ρ) c)
  have s1 : W8 m ρ c (Proc.devRef .tc main_v125_1)
      = Cert.Spec.hself (W7 m ρ c (Proc.devRef .tc main_v85)) (W7 m ρ c (Proc.devRef .tc main_v88)) (W7 m ρ c (Proc.devRef .tc main_v96)) :=
    (W8_arr m ρ c 7).trans (final3_7 (V7 m ρ) c)
  have s2 : W8 m ρ c (Proc.devRef .tc main_v125_2)
      = Cert.Spec.table (W7 m ρ c (Proc.devRef .tc main_v85)) (W7 m ρ c (Proc.devRef .tc main_v115)) :=
    (W8_arr m ρ c 8).trans (final3_8 (V7 m ρ) c)
  rw [e_h, e_wscore, e_bscore] at s0
  rw [e_h, e_wselfT, e_bself] at s1
  rw [e_h, e_wtable] at s2
  -- the aggregate
  have ag : W9 m ρ c (Proc.devRef .tc main_v163)
      = aggregate (W8 m ρ c (Proc.devRef .tc main_v4)) (W8 m ρ c (Proc.devRef .tc main_v6)) (W8 m ρ c (Proc.devRef .tc main_v125_0)) (W8 m ρ c (Proc.devRef .tc main_v125_2)) :=
    host4_aggr (W8 m ρ c)
  rw [hs, hd, s0, s2] at ag
  -- the combine region's other operands at its entry
  have c_hs : W9 m ρ c (Proc.devRef .tc main_v125_1) = Cert.Spec.hself h P.wselfT P.bself :=
    (host4_keep (W8 m ρ c) main_v125_1 (by decide)).trans s1
  have c_h : W9 m ρ c (Proc.devRef .tc main_v85) = h :=
    (host4_keep (W8 m ρ c) main_v85 (by decide)).trans (((W8_arr m ρ c 0).trans
      (((dat3 (V7 m ρ) c).arrAt_in 0 rfl _).trans (A_eq3 (V7 m ρ) c 0))).trans e_h)
  have c_wself2 : W9 m ρ c (Proc.devRef .tc main_v100) = P.wself2 :=
    (host4_keep (W8 m ρ c) main_v100 (by decide)).trans ((W8_of_ne m ρ c main_v100 (by decide)).trans
      ((host3_wself2 (W6 m ρ c)).trans (congrArg Params.wself2 hP)))
  have c_bcomb : W9 m ρ c (Proc.devRef .tc main_v118) = P.bcomb :=
    (host4_keep (W8 m ρ c) main_v118 (by decide)).trans ((W8_of_ne m ρ c main_v118 (by decide)).trans
      ((host3_bcomb (W6 m ρ c)).trans (congrArg Params.bcomb hP)))
  have c_gamma : W9 m ρ c (Proc.devRef .tc main_v121) = P.gamma :=
    (host4_keep (W8 m ρ c) main_v121 (by decide)).trans ((W8_of_ne m ρ c main_v121 (by decide)).trans
      ((host3_gamma (W6 m ρ c)).trans (congrArg Params.gamma hP)))
  have c_beta : W9 m ρ c (Proc.devRef .tc main_v124) = P.beta :=
    (host4_keep (W8 m ρ c) main_v124 (by decide)).trans ((W8_of_ne m ρ c main_v124 (by decide)).trans
      ((host3_beta (W6 m ρ c)).trans (congrArg Params.beta hP)))
  -- the combine region's result
  have r : W10 m ρ c (Proc.devRef .tc main_v164)
      = Cert.Spec.combine (W9 m ρ c (Proc.devRef .tc main_v125_1)) (W9 m ρ c (Proc.devRef .tc main_v163)) (W9 m ρ c (Proc.devRef .tc main_v85))
          (W9 m ρ c (Proc.devRef .tc main_v100)) (W9 m ρ c (Proc.devRef .tc main_v118)) (W9 m ρ c (Proc.devRef .tc main_v121)) (W9 m ρ c (Proc.devRef .tc main_v124)) :=
    (W10_arr m ρ c 7).trans (final4_7 (V9 m ρ) c)
  rw [c_hs, ag, c_h, c_wself2, c_bcomb, c_gamma, c_beta] at r
  exact r

end Cert.KFold

end
-- ==== Proof.KFoldLayer2.lean ====
/-
  Layer 2 of the stack, from the features at its entry to the features at its exit. The preparation leaves the
  layer's parameters in their buffers and the features in place; the transform region's three results are the scores,
  the self projection and the table of the features; the edge path's aggregate is that of the scores and the table
  along the edge list; the combine region's result is the combine step of the self projection, the aggregate and the
  features carried. The three region results are hypotheses, in the form their proofs conclude.
-/
import proofs.«108119_j38019050504554_2_alg».proof.Proof.Gen.KernelIdeal.Frame
import proofs.«108119_j38019050504554_2_alg».proof.Proof.KStage
import proofs.«108119_j38019050504554_2_alg».proof.Proof.KFoldPrep2
import proofs.«108119_j38019050504554_2_alg».proof.Proof.KFoldEdge2

set_option maxRecDepth 16384

noncomputable section

namespace Cert.KFold

open Idealize.ShloMosaic Idealize.ShloMosaic.TcCoe
open Cert.KernelIdeal Cert.KernelIdeal.Gen Cert.KStage

open Idealize.ShloMosaic.Pipeline (Dat)

variable (m : (ℓ : Loc nD τ sig) → Buf (Elt Ideal) ℓ) (ρ : Dev nD → PrngReg) (c : Dev nD)

set_option maxHeartbeats 4000000 in
/-- The features at layer 2's exit, of the features at its entry, the edge list and the prepared parameters. -/
theorem layer2_value
    (final5_6 : ∀ (V : (c : Dev nD) → (b : Ref sig .tc) → Buf (Elt Ideal) ((c : Thread nD τ).loc b)) (c : Dev nD), (dat5 V c).arrAt 6 cfg5.N
      = Cert.Spec.scores (V c (Pipeline.arrRef spec5 0)) (V c (Pipeline.arrRef spec5 1)) (V c (Pipeline.arrRef spec5 2)))
    (final5_7 : ∀ (V : (c : Dev nD) → (b : Ref sig .tc) → Buf (Elt Ideal) ((c : Thread nD τ).loc b)) (c : Dev nD), (dat5 V c).arrAt 7 cfg5.N
      = Cert.Spec.hself (V c (Pipeline.arrRef spec5 0)) (V c (Pipeline.arrRef spec5 3)) (V c (Pipeline.arrRef spec5 4)))
    (final5_8 : ∀ (V : (c : Dev nD) → (b : Ref sig .tc) → Buf (Elt Ideal) ((c : Thread nD τ).loc b)) (c : Dev nD), (dat5 V c).arrAt 8 cfg5.N
      = Cert.Spec.table (V c (Pipeline.arrRef spec5 0)) (V c (Pipeline.arrRef spec5 5)))
    (final6_7 : ∀ (V : (c : Dev nD) → (b : Ref sig .tc) → Buf (Elt Ideal) ((c : Thread nD τ).loc b)) (c : Dev nD), (dat6 V c).arrAt 7 cfg6.N
      = Cert.Spec.combine (V c (Pipeline.arrRef spec6 0)) (V c (Pipeline.arrRef spec6 1)) (V c (Pipeline.arrRef spec6 2))
          (V c (Pipeline.arrRef spec6 3)) (V c (Pipeline.arrRef spec6 4)) (V c (Pipeline.arrRef spec6 5)) (V c (Pipeline.arrRef spec6 6)))
    (h : FVec Ideal S50000x128 .f32) (hh : W10 m ρ c (Proc.devRef .tc main_v164) = h)
    (a1 : IVec S2x625000 32) (hs : W12 m ρ c (Proc.devRef .tc main_v4) = src a1) (hd : W12 m ρ c (Proc.devRef .tc main_v6) = dst a1)
    (P : Params) (hP : P2 (W10 m ρ c) = P) :
    W14 m ρ c (Proc.devRef .tc main_v243) = layer h a1 P := by
  -- the transform region's operands at its entry
  have e_h : W11 m ρ c (Proc.devRef .tc main_v164) = h := (host5_keep (W10 m ρ c) main_v164 (by decide)).trans hh
  have e_wscore : W11 m ρ c (Proc.devRef .tc main_v169) = P.wscore :=
    (host5_wscore (W10 m ρ c)).trans (congrArg Params.wscore hP)
  have e_bscore : W11 m ρ c (Proc.devRef .tc main_v172) = P.bscore :=
    (host5_bscore (W10 m ρ c)).trans (congrArg Params.bscore hP)
  have e_wselfT : W11 m ρ c (Proc.devRef .tc main_v167) = P.wselfT :=
    (host5_wselfT (W10 m ρ c)).trans (congrArg Params.wselfT hP)
  have e_bself : W11 m ρ c (Proc.devRef .tc main_v175) = P.bself :=
    (host5_bself (W10 m ρ c)).trans (congrArg Params.bself hP)
  have e_wtable : W11 m ρ c (Proc.devRef .tc main_v194) = P.wtable :=
    (host5_wtable (W10 m ρ c)).trans (congrArg Params.wtable hP)
  -- the transform region's results
  have s0 : W12 m ρ c (Proc.devRef .tc main_v204_0)
      = Cert.Spec.scores (W11 m ρ c (Proc.devRef .tc main_v164)) (W11 m ρ c (Proc.devRef .tc main_v169)) (W11 m ρ c (Proc.devRef .tc main_v172)) :=
    (W12_arr m ρ c 6).trans (final5_6 (V11 m ρ) c)
  have s1 : W12 m ρ c (Proc.devRef .tc main_v204_1)
      = Cert.Spec.hself (W11 m ρ c (Proc.devRef .tc main_v164)) (W11 m ρ c (Proc.devRef .tc main_v167)) (W11 m ρ c (Proc.devRef .tc main_v175)) :=
    (W12_arr m ρ c 7).trans (final5_7 (V11 m ρ) c)
  have s2 : W12 m ρ c (Proc.devRef .tc main_v204_2)
      = Cert.Spec.table (W11 m ρ c (Proc.devRef .tc main_v164)) (W11 m ρ c (Proc.devRef .tc main_v194)) :=
    (W12_arr m ρ c 8).trans (final5_8 (V11 m ρ) c)
  rw [e_h, e_wscore, e_bscore] at s0
  rw [e_h, e_wselfT, e_bself] at s1
  rw [e_h, e_wtable] at s2
  -- the aggregate
  have ag : W13 m ρ c (Proc.devRef .tc main_v242)
      = aggregate (W12 m ρ c (Proc.devRef .tc main_v4)) (W12 m ρ c (Proc.devRef .tc main_v6)) (W12 m ρ c (Proc.devRef .tc main_v204_0)) (W12 m ρ c (Proc.devRef .tc main_v204_2)) :=
    host6_aggr (W12 m ρ c)
  rw [hs, hd, s0, s2] at ag
  -- the combine region's other operands at its entry
  have c_hs : W13 m ρ c (Proc.devRef .tc main_v204_1) = Cert.Spec.hself h P.wselfT P.bself :=
    (host6_keep (W12 m ρ c) main_v204_1 (by decide)).trans s1
  have c_h : W13 m ρ c (Proc.devRef .tc main_v164) = h :=
    (host6_keep (W12 m ρ c) main_v164 (by decide)).trans (((W12_arr m ρ c 0).trans
      (((dat5 (V11 m ρ) c).arrAt_in 0 rfl _).trans (A_eq5 (V11 m ρ) c 0))).trans e_h)
  have c_wself2 : W13 m ρ c (Proc.devRef .tc main_v179) = P.wself2 :=
    (host6_keep (W12 m ρ c) main_v179 (by decide)).trans ((W12_of_ne m ρ c main_v179 (by decide)).trans
      ((host5_wself2 (W10 m ρ c)).trans (congrArg Params.wself2 hP)))
  have c_bcomb : W13 m ρ c (Proc.devRef .tc main_v197) = P.bcomb :=
    (host6_keep (W12 m ρ c) main_v197 (by decide)).trans ((W12_of_ne m ρ c main_v197 (by decide)).trans
      ((host5_bcomb (W10 m ρ c)).trans (congrArg Params.bcomb hP)))
  have c_gamma : W13 m ρ c (Proc.devRef .tc main_v200) = P.gamma :=
    (host6_keep (W12 m ρ c) main_v200 (by decide)).trans ((W12_of_ne m ρ c main_v200 (by decide)).trans
      ((host5_gamma (W10 m ρ c)).trans (congrArg Params.gamma hP)))
  have c_beta : W13 m ρ c (Proc.devRef .tc main_v203) = P.beta :=
    (host6_keep (W12 m ρ c) main_v203 (by decide)).trans ((W12_of_ne m ρ c main_v203 (by decide)).trans
      ((host5_beta (W10 m ρ c)).trans (congrArg Params.beta hP)))
  -- the combine region's result
  have r : W14 m ρ c (Proc.devRef .tc main_v243)
      = Cert.Spec.combine (W13 m ρ c (Proc.devRef .tc main_v204_1)) (W13 m ρ c (Proc.devRef .tc main_v242)) (W13 m ρ c (Proc.devRef .tc main_v164))
          (W13 m ρ c (Proc.devRef .tc main_v179)) (W13 m ρ c (Proc.devRef .tc main_v197)) (W13 m ρ c (Proc.devRef .tc main_v200)) (W13 m ρ c (Proc.devRef .tc main_v203)) :=
    (W14_arr m ρ c 7).trans (final6_7 (V13 m ρ) c)
  rw [c_hs, ag, c_h, c_wself2, c_bcomb, c_gamma, c_beta] at r
  exact r

end Cert.KFold

end
-- ==== Proof.KValue.lean ====
/-
  The idealized kernel's result as a function of its arguments. The buffer contents at the last boundary, read at
  the result buffer, are the forward pass of the launch memory's argument arrays: the embedding region leaves the
  embedded features, each of the three layers takes the features at its entry to the features at its exit, and the
  pooling reads the last features and the graph index. The thirteen region results are hypotheses, each in the form
  "the region's output array after its last write-back is the entrywise function of the region's operands at entry".
-/
import proofs.«108119_j38019050504554_2_alg».proof.Proof.Gen.KernelIdeal.Frame
import proofs.«108119_j38019050504554_2_alg».proof.Proof.KStage
import proofs.«108119_j38019050504554_2_alg».proof.Proof.KFoldHost0
import proofs.«108119_j38019050504554_2_alg».proof.Proof.KFoldPool
import proofs.«108119_j38019050504554_2_alg».proof.Proof.KFoldArgs
import proofs.«108119_j38019050504554_2_alg».proof.Proof.KFoldLayer0
import proofs.«108119_j38019050504554_2_alg».proof.Proof.KFoldLayer1
import proofs.«108119_j38019050504554_2_alg».proof.Proof.KFoldLayer2

set_option maxRecDepth 16384

noncomputable section

namespace Cert.KValue

open Idealize.ShloMosaic Idealize.ShloMosaic.TcCoe
open Cert.KernelIdeal Cert.KernelIdeal.Gen Cert.KStage
open Cert.KFold
open Idealize.ShloMosaic.Pipeline (Dat)

set_option maxHeartbeats 4000000 in
/-- The result buffer at the last boundary is the forward pass of the argument arrays. -/
theorem kernel_value
    (final0_3 : ∀ (V : (c : Dev nD) → (b : Ref sig .tc) → Buf (Elt Ideal) ((c : Thread nD τ).loc b)) (c : Dev nD), (dat0 V c).arrAt 3 cfg0.N
      = Cert.Spec.embed (V c (Pipeline.arrRef spec0 0)) (V c (Pipeline.arrRef spec0 1)) (V c (Pipeline.arrRef spec0 2)))
    (final1_6 : ∀ (V : (c : Dev nD) → (b : Ref sig .tc) → Buf (Elt Ideal) ((c : Thread nD τ).loc b)) (c : Dev nD), (dat1 V c).arrAt 6 cfg1.N
      = Cert.Spec.scores (V c (Pipeline.arrRef spec1 0)) (V c (Pipeline.arrRef spec1 1)) (V c (Pipeline.arrRef spec1 2)))
    (final1_7 : ∀ (V : (c : Dev nD) → (b : Ref sig .tc) → Buf (Elt Ideal) ((c : Thread nD τ).loc b)) (c : Dev nD), (dat1 V c).arrAt 7 cfg1.N
      = Cert.Spec.hself (V c (Pipeline.arrRef spec1 0)) (V c (Pipeline.arrRef spec1 3)) (V c (Pipeline.arrRef spec1 4)))
    (final1_8 : ∀ (V : (c : Dev nD) → (b : Ref sig .tc) → Buf (Elt Ideal) ((c : Thread nD τ).loc b)) (c : Dev nD), (dat1 V c).arrAt 8 cfg1.N
      = Cert.Spec.table (V c (Pipeline.arrRef spec1 0)) (V c (Pipeline.arrRef spec1 5)))
    (final2_7 : ∀ (V : (c : Dev nD) → (b : Ref sig .tc) → Buf (Elt Ideal) ((c : Thread nD τ).loc b)) (c : Dev nD), (dat2 V c).arrAt 7 cfg2.N
      = Cert.Spec.combine (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) (V c (Pipeline.arrRef spec2 6)))
    (final3_6 : ∀ (V : (c : Dev nD) → (b : Ref sig .tc) → Buf (Elt Ideal) ((c : Thread nD τ).loc b)) (c : Dev nD), (dat3 V c).arrAt 6 cfg3.N
      = Cert.Spec.scores (V c (Pipeline.arrRef spec3 0)) (V c (Pipeline.arrRef spec3 1)) (V c (Pipeline.arrRef spec3 2)))
    (final3_7 : ∀ (V : (c : Dev nD) → (b : Ref sig .tc) → Buf (Elt Ideal) ((c : Thread nD τ).loc b)) (c : Dev nD), (dat3 V c).arrAt 7 cfg3.N
      = Cert.Spec.hself (V c (Pipeline.arrRef spec3 0)) (V c (Pipeline.arrRef spec3 3)) (V c (Pipeline.arrRef spec3 4)))
    (final3_8 : ∀ (V : (c : Dev nD) → (b : Ref sig .tc) → Buf (Elt Ideal) ((c : Thread nD τ).loc b)) (c : Dev nD), (dat3 V c).arrAt 8 cfg3.N
      = Cert.Spec.table (V c (Pipeline.arrRef spec3 0)) (V c (Pipeline.arrRef spec3 5)))
    (final4_7 : ∀ (V : (c : Dev nD) → (b : Ref sig .tc) → Buf (Elt Ideal) ((c : Thread nD τ).loc b)) (c : Dev nD), (dat4 V c).arrAt 7 cfg4.N
      = Cert.Spec.combine (V c (Pipeline.arrRef spec4 0)) (V c (Pipeline.arrRef spec4 1)) (V c (Pipeline.arrRef spec4 2))
          (V c (Pipeline.arrRef spec4 3)) (V c (Pipeline.arrRef spec4 4)) (V c (Pipeline.arrRef spec4 5)) (V c (Pipeline.arrRef spec4 6)))
    (final5_6 : ∀ (V : (c : Dev nD) → (b : Ref sig .tc) → Buf (Elt Ideal) ((c : Thread nD τ).loc b)) (c : Dev nD), (dat5 V c).arrAt 6 cfg5.N
      = Cert.Spec.scores (V c (Pipeline.arrRef spec5 0)) (V c (Pipeline.arrRef spec5 1)) (V c (Pipeline.arrRef spec5 2)))
    (final5_7 : ∀ (V : (c : Dev nD) → (b : Ref sig .tc) → Buf (Elt Ideal) ((c : Thread nD τ).loc b)) (c : Dev nD), (dat5 V c).arrAt 7 cfg5.N
      = Cert.Spec.hself (V c (Pipeline.arrRef spec5 0)) (V c (Pipeline.arrRef spec5 3)) (V c (Pipeline.arrRef spec5 4)))
    (final5_8 : ∀ (V : (c : Dev nD) → (b : Ref sig .tc) → Buf (Elt Ideal) ((c : Thread nD τ).loc b)) (c : Dev nD), (dat5 V c).arrAt 8 cfg5.N
      = Cert.Spec.table (V c (Pipeline.arrRef spec5 0)) (V c (Pipeline.arrRef spec5 5)))
    (final6_7 : ∀ (V : (c : Dev nD) → (b : Ref sig .tc) → Buf (Elt Ideal) ((c : Thread nD τ).loc b)) (c : Dev nD), (dat6 V c).arrAt 7 cfg6.N
      = Cert.Spec.combine (V c (Pipeline.arrRef spec6 0)) (V c (Pipeline.arrRef spec6 1)) (V c (Pipeline.arrRef spec6 2))
          (V c (Pipeline.arrRef spec6 3)) (V c (Pipeline.arrRef spec6 4)) (V c (Pipeline.arrRef spec6 5)) (V c (Pipeline.arrRef spec6 6)))
    (m : (ℓ : Loc nD τ sig) → Buf (Elt Ideal) ℓ) (ρ : Dev nD → PrngReg) (c : Dev nD) :
    W15 m ρ c (Proc.devRef .tc main_v255)
      = KStage.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  -- the embedding region: its operands are the node features, the transposed weight and the bias row
  have e0 : W2 m ρ c (Proc.devRef .tc main_v2) = h0 (m ((c : Thread nD τ).loc main_arg0)) (m ((c : Thread nD τ).loc main_arg3)) (m ((c : Thread nD τ).loc main_arg4)) := by
    have r : W2 m ρ c (Proc.devRef .tc main_v2)
        = Cert.Spec.embed (W1 m ρ c (Proc.devRef .tc main_arg0)) (W1 m ρ c (Proc.devRef .tc main_v0)) (W1 m ρ c (Proc.devRef .tc main_v1)) :=
      (W2_arr m ρ c 3).trans (final0_3 (V1 m ρ) c)
    rw [show W1 m ρ c (Proc.devRef .tc main_arg0) = (m ((c : Thread nD τ).loc main_arg0)) from host0_keep (W0 m ρ c) main_arg0 (by decide),
      show W1 m ρ c (Proc.devRef .tc main_v0) = wembT (m ((c : Thread nD τ).loc main_arg3)) from host0_v0 (W0 m ρ c),
      show W1 m ρ c (Proc.devRef .tc main_v1) = biasRow (m ((c : Thread nD τ).loc main_arg4)) from host0_v1 (W0 m ρ c)] at r
    exact r
  -- the three layers
  have e1 := layer0_value m ρ c final1_6 final1_7 final1_8 final2_7 _ e0 _ (W4_src m ρ c) (W4_dst m ρ c) _ (W2_params m ρ c)
  have e2 := layer1_value m ρ c final3_6 final3_7 final3_8 final4_7 _ e1 _ (W8_src m ρ c) (W8_dst m ρ c) _ (W6_params m ρ c)
  have e3 := layer2_value m ρ c final5_6 final5_7 final5_8 final6_7 _ e2 _ (W12_src m ρ c) (W12_dst m ρ c) _ (W10_params m ρ c)
  -- the pooling
  have r : W15 m ρ c (Proc.devRef .tc main_v255)
      = pool (W14 m ρ c (Proc.devRef .tc main_v243)) (W14 m ρ c (Proc.devRef .tc main_arg2)) := host7_out (W14 m ρ c)
  rw [e3, W14_arg m ρ c unt_arg2] at r
  exact r

end Cert.KValue

end
-- ==== Proof.LibPlainDot.lean ====
/-
  A plain matrix product over the extended reals, read at one entry.

  For an M×K matrix `l` and a K×N matrix `r` the product contracted over `l`'s columns and `r`'s rows has, at
  entry (p, q), the value ∑ₖ l(p,k)·r(k,q). This holds both for the vector unit's product into a zero accumulator
  and for the host's `dot_general`, so the two are the same sum; the only work is to identify the contraction's
  one-axis index type with `Fin K` and the operand indices with (p,k) and (k,q).
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : ℕ} {φ₁ φ₂ : FTy}

/-- The sum over the contraction index of a plain M×K by K×N product is the sum over `k : Fin K` of the left operand
    at (row, k) times the right operand at (k, column). -/
theorem plain_sum (l : FVec Ideal ⟨2, ![M, K]⟩ φ₁) (r : FVec Ideal ⟨2, ![K, N]⟩ φ₂) (p : Fin M) (q : Fin N) :
    (∑ c : (DotDims.plain M K N).contr.Idx,
        l ((DotDims.plain M K N).lhsIdx (ix2 p q) c) * r ((DotDims.plain M K N).rhsIdx (ix2 p q) c))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl (ix2 p q) _).trans hk
      | ⟨1, _⟩ => rfl)
  rw [el, er]

/-- The vector unit's product into the zero accumulator, for any dimension record that is the plain one. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  exact (Ideal.matmul_constant_zero_apply _ prec l r (ix2 p q)).trans (plain_sum l r p q)

/-- The host's `dot_general`, for any dimension record that is the plain one. -/
theorem dotGeneral_apply (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  exact (Ideal.dotGeneral_apply _ prec sched l r (ix2 p q)).trans (plain_sum l r p q)

end Cert.LibPlainDot

end
-- ==== Proof.KEmbOps.lean ====
/-
  The embedding body's arithmetic, read at an entry of a block of r rows, over the extended reals: the matrix unit's
  product into a zero accumulator is the plain sum of products, a change of float format and a same-shape cast are the
  identity, the bias row is added to every row, and the clip is a maximum with zero. Stated over the operations
  themselves, for any dimension record that is the plain one, so it reads any body made of these operations.
-/
import proofs.«108119_j38019050504554_2_alg».proof.Proof.KSpec
import proofs.«108119_j38019050504554_2_alg».proof.Proof.LibPlainDot
import Idealize.ShloMosaic.Lib.Pipeline.Value
import Idealize.ShloMosaic.Lib.ValueLayout

noncomputable section

namespace Cert.KernelIdeal.KEmbOps

open Idealize.ShloMosaic Idealize.ShloMosaic.ValueIdx
open scoped BigOperators

/-- The embedding body's arithmetic on a block of r rows, read at entry (p,q): the product into the zero accumulator is
    Σₖ x(p,k)·W(k,q) (the narrowing of the operands changes nothing on the extended reals, nor does the same-shape cast),
    the broadcast row adds b(0,q), and the maximum with the splat of the zero word is max · 0. -/
theorem embed_ops {r : ℕ} (d : DotDims ⟨2, ![r, 128]⟩ ⟨2, ![128, 128]⟩ ⟨2, ![r, 128]⟩) (hd : d = DotDims.plain r 128 128)
    (hlt : FTy.bits .bf16 < FTy.bits .f32)
    (hw : (⟨2, ![128, 128]⟩ : Shape).ShapeCasts ⟨2, ![128, 128]⟩) (hb : (⟨2, ![1, 128]⟩ : Shape).ShapeCasts ⟨2, ![1, 128]⟩)
    (hbc : (⟨2, ![1, 128]⟩ : Shape).Broadcasts ⟨2, ![r, 128]⟩)
    (x : FVec Ideal ⟨2, ![r, 128]⟩ .f32) (w : FVec Ideal ⟨2, ![128, 128]⟩ .f32) (b : FVec Ideal ⟨2, ![1, 128]⟩ .f32)
    (p : Fin r) (q : Fin 128) :
    maximumf (addf (matmul d none (truncf .bf16 x hlt) (truncf .bf16 (shapeCast ⟨2, ![128, 128]⟩ w hw) hlt) (constant ⟨2, ![r, 128]⟩ .f32 0x00000000#32))
        (broadcastTo ⟨2, ![r, 128]⟩ (shapeCast ⟨2, ![1, 128]⟩ b hb) hbc)) (broadcast ⟨2, ![r, 128]⟩ (Scalar.ofBits .f32 0x00000000#32)) (ix2 p q)
      = Cert.Spec.embed x w b (ix2 p q) := by
  show max (FloatOps.matmul d none (truncf .bf16 x hlt) (truncf .bf16 (shapeCast ⟨2, ![128, 128]⟩ w hw) hlt) (constant ⟨2, ![r, 128]⟩ .f32 0x00000000#32) (ix2 p q)
        + broadcastTo ⟨2, ![r, 128]⟩ (shapeCast ⟨2, ![1, 128]⟩ b hb) hbc (ix2 p q)) (Ideal.ofBits .f32 0x00000000#32)
      = max (Cert.Spec.dotE x w p q + b (ix2 0 q)) 0
  rw [Ideal.ofBits_zero_f32, Cert.LibPlainDot.matmul_zero_apply d hd none _ _ p q, shapeCast_self, shapeCast_self,
    broadcastTo_1b_ab_apply b hbc p q]
  rfl

end Cert.KernelIdeal.KEmbOps

end
-- ==== Proof.KEmbPay.lean ====
/-
  The embedding kernel's one store, as a function of the three blocks its body loads: the block of 5000 rows it writes is
  max (x·W + b) 0 of the block x of 5000 rows, entry by entry over the extended reals.
-/
import proofs.«108119_j38019050504554_2_alg».proof.Proof.Gen.KernelIdeal.Skeleton
import proofs.«108119_j38019050504554_2_alg».proof.Proof.KEmbOps

noncomputable section

namespace Cert.KernelIdeal.KEmb

open Cert.KernelIdeal Cert.KernelIdeal.Gen
open Idealize.ShloMosaic Idealize.ShloMosaic.ValueIdx

/-- What the embedding body stores is the embedding of its block. -/
theorem pay_eq (x : Vec Ideal S5000x128 .f32) (w : Vec Ideal S128x128 .f32) (b : Vec Ideal S1x128 .f32) :
    k0_pay1 x w b = Cert.Spec.embed (R := 5000) x w b := by
  funext j
  obtain ⟨p, q, rfl⟩ : ∃ (p : Fin 5000) (q : Fin 128), j = ix2 p q := ⟨j 0, j 1, eq_ix2 j⟩
  unfold k0_pay1
  exact Cert.KernelIdeal.KEmbOps.embed_ops _ rfl _ _ _ _ x w b p q

end Cert.KernelIdeal.KEmb

end
-- ==== Proof.KEmbRows.lean ====
/-
  The embedding, row by row: the entry at row p of max (x·W + b) 0 depends on x through row p alone, so the rows
  [a, a+r) of the result over R rows are the result over those r rows of x.
-/
import proofs.«108119_j38019050504554_2_alg».proof.Proof.KSpec

noncomputable section

namespace Cert.Spec

open Idealize.ShloMosaic Idealize.ShloMosaic.ValueIdx
open scoped BigOperators

variable {R r : ℕ}

/-- If row (i 0) of the r-row operand x is row (I 0) of the R-row operand X, the columns agree, and the weight and the
    bias are the same, the entry of the embedding over r rows at i is the entry over R rows at I. -/
theorem embed_rows (X : FVec Ideal ⟨2, ![R, 128]⟩ .f32) (x : FVec Ideal ⟨2, ![r, 128]⟩ .f32)
    (W w : FVec Ideal ⟨2, ![128, 128]⟩ .f32) (B b : FVec Ideal ⟨2, ![1, 128]⟩ .f32)
    (i : (⟨2, ![r, 128]⟩ : Shape).Idx) (I : (⟨2, ![R, 128]⟩ : Shape).Idx) (hq : (I 1).val = (i 1).val)
    (hx : ∀ k : Fin 128, x (ix2 (i 0) k) = X (ix2 (I 0) k)) (hw : w = W) (hb : b = B) :
    embed x w b i = embed X W B I := by
  subst hw hb
  have hq' : I 1 = i 1 := Fin.ext hq
  unfold embed dotE
  rw [hq']
  simp only [hx]

end Cert.Spec

end
-- ==== Proof.KEmbArr.lean ====
/-
  The embedding region, from blocks to the array. The grid has ten points; at point t the row windows (the input x and
  the output) hold rows 5000·t … 5000·t + 4999 of their 50000-row arrays, and the weight and the bias windows hold their
  whole arrays. The body stores the embedding of its block of x, and the entry of the embedding at row p reads x
  through row p alone, so what point t writes back is block t of the embedding of the whole array x. The ten blocks
  cover the rows (row r lies in block r / 5000), so after the region the output array is max (x·W + b) 0 of the arrays
  the region found.
-/
import proofs.«108119_j38019050504554_2_alg».proof.Proof.Gen.KernelIdeal.Frame
import proofs.«108119_j38019050504554_2_alg».proof.Proof.KEmbPay
import proofs.«108119_j38019050504554_2_alg».proof.Proof.KEmbRows
import Idealize.ShloMosaic.Lib.Pipeline.Value

set_option maxRecDepth 16384

noncomputable section

namespace Cert.KernelIdeal.KEmb

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows (the input x and the output) sit at block t of 5000 rows, the
    weight and the bias windows at block 0 of their whole arrays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The weight window's block at any point is the whole weight array. -/
theorem blk_w (c : Dev nD) (t : Fin cfg0.N) :
    (iblk0 V c 1 t : S128x128.Idx → Ideal .f32) = (V c (Pipeline.arrRef spec0 1) : S128x128.Idx → Ideal .f32) := by
  obtain ⟨-, -, e2, e3, -⟩ := idx_facts t
  funext x
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 128 + 1 * (x 0).val = (x 0).val; omega
  | ⟨1, _⟩ => show win0_1.index t (1 : Fin 2) * 128 + 1 * (x 1).val = (x 1).val; omega

/-- The bias window's block at any point is the whole bias row. -/
theorem blk_b (c : Dev nD) (t : Fin cfg0.N) :
    (iblk0 V c 2 t : S1x128.Idx → Ideal .f32) = (V c (Pipeline.arrRef spec0 2) : S1x128.Idx → Ideal .f32) := by
  obtain ⟨-, -, -, -, e4, e5, -⟩ := idx_facts t
  funext x
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 1 + 1 * (x 0).val = (x 0).val; omega
  | ⟨1, _⟩ => show win0_2.index t (1 : Fin 2) * 128 + 1 * (x 1).val = (x 1).val; omega

/-- Row p of the block of x at point t is row 5000·t + p of x. -/
theorem blk_x (c : Dev nD) (t : Fin cfg0.N) (x : S5000x128.Idx) (I : S50000x128.Idx)
    (h0 : (I 0).val = t.val * 5000 + (x 0).val) (h1 : (I 1).val = (x 1).val) :
    (iblk0 V c 0 t : S5000x128.Idx → Ideal .f32) x = (V c (Pipeline.arrRef spec0 0) : S50000x128.Idx → Ideal .f32) I := by
  obtain ⟨e0, e1, -⟩ := idx_facts t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 5000 + 1 * (x 0).val = (I 0).val; omega
  | ⟨1, _⟩ => show win0_0.index t (1 : Fin 2) * 128 + 1 * (x 1).val = (I 1).val; omega

/-- What point t writes back is block t of the embedding of the whole arrays. -/
theorem flushed_eq (c : Dev nD) (t : Fin cfg0.N) :
    (dat0 V c).flushed 3 t = ((cfg0.win 3).blk t).view.read (Elt Ideal)
      (Cert.Spec.embed (R := 50000) (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  rw [pay_eq]
  obtain ⟨e0, e1, -, -, -, -, e6, e7⟩ := idx_facts t
  funext j
  rw [View.read_apply]
  show Cert.Spec.embed (R := 5000) (iblk0 V c 0 t) (iblk0 V c 1 t) (iblk0 V c 2 t) ((cfg0.win 3).xinj (grid0.coords t) j)
     = Cert.Spec.embed (R := 50000) (V c (Pipeline.arrRef spec0 0)) (V c (Pipeline.arrRef spec0 1)) (V c (Pipeline.arrRef spec0 2)) (((cfg0.win 3).blk t).view.emb j)
  refine Cert.Spec.embed_rows _ _ _ _ _ _ _ _ ?_ ?_ (blk_w V c t) (blk_b V c t)
  · show win0_3.index t (1 : Fin 2) * 128 + 1 * (j 1).val = (j 1).val
    omega
  · intro k
    refine blk_x V c t _ _ ?_ rfl
    show win0_3.index t (0 : Fin 2) * 5000 + 1 * (j 0).val = t.val * 5000 + (j 0).val
    omega

/-- An index of the array is in point t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v2).slice (win0_3.rect t)).set ↔ _
  rw [View.set_slice_whole, Rect.mem_set_unit]
  exact Iff.rfl

/-- After the region the output array is the embedding of the arrays the region found: every point writes back its block
    of 5000 rows, block t of the embedding, and the ten blocks cover the 50000 rows (row r is in block r / 5000). -/
theorem final0_3 (c : Dev nD) :
    (dat0 V c).arrAt 3 cfg0.N = Cert.Spec.embed (R := 50000) (V c (Pipeline.arrRef spec0 0)) (V c (Pipeline.arrRef spec0 1)) (V c (Pipeline.arrRef spec0 2)) :=
  (dat0 V c).arrAt_eq_of_cover 3 _ (fun t _ => flushed_eq V c t) fun (i : S50000x128.Idx) => by
    have hi0 : (i 0).val < 50000 := (i 0).isLt
    have hi1 : (i 1).val < 128 := (i 1).isLt
    have hN : cfg0.N = 10 := N_0
    have ht : (i 0).val / 5000 < cfg0.N := by rw [hN]; omega
    obtain ⟨-, -, -, -, -, -, e6, e7⟩ := idx_facts ⟨(i 0).val / 5000, ht⟩
    have e6' : win0_3.index ⟨(i 0).val / 5000, ht⟩ (0 : Fin 2) = (i 0).val / 5000 := e6
    refine ⟨⟨(i 0).val / 5000, ht⟩, flush0_3 _, ?_⟩
    rw [mem_blk]
    intro a
    match a with
    | ⟨0, _⟩ =>
      show win0_3.index ⟨(i 0).val / 5000, ht⟩ (0 : Fin 2) * 5000 ≤ (i 0).val ∧ (i 0).val < win0_3.index ⟨(i 0).val / 5000, ht⟩ (0 : Fin 2) * 5000 + 5000
      omega
    | ⟨1, _⟩ =>
      show win0_3.index ⟨(i 0).val / 5000, ht⟩ (1 : Fin 2) * 128 ≤ (i 1).val ∧ (i 1).val < win0_3.index ⟨(i 0).val / 5000, ht⟩ (1 : Fin 2) * 128 + 128
      omega

end Cert.KernelIdeal.KEmb

end
-- ==== Proof.LibColumn.lean ====
/-
  A column of row statistics, read at an entry.

  A reduction along the rows of a matrix that keeps the reduced axis (a sum with `keepdims`) produces one value per
  row, stored as an a×1 column, and is then spread over the b columns of an a×b matrix. Reading the results at an
  entry: the a×1 column made from an a-vector has, at (i, 0), the vector's entry i; and the a×b matrix made from an
  a×1 column has, at (i, j), the column's entry (i, 0), whatever j. Both facts are arithmetic on row-major positions.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.LibRowOps.lean ====
/-
  Row statistics of a matrix, read at an entry, on the extended reals.

  For an R×D matrix `P`: the sum along each row (a lane reduction with `add`) at row `p` is  Σ_k P(p,k); the
  maximum along each row at row `p` is the fold of `max` over  k ↦ P(p,k)  from the starting value; the same for a
  host-side maximum over the columns. The pointwise square root, exponential and logarithm read at an entry.
-/
import proofs.«108119_j38019050504554_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx Cert.LibColumn

variable {R D : ℕ}

/-- Inserting the column coordinate `k` into the row index `p` gives the entry `(p, k)`. -/
theorem lift_ix1 (h : (⟨2, ![R, D]⟩ : Shape).Reduces [1] ⟨1, ![R]⟩) (p : Fin R) (k : Fin D) :
    h.lift (ix1 p) k = ix2 p k := by
  funext c
  apply Fin.ext
  show h.liftVal (ix1 p) k.val c = _
  unfold Shape.Reduces.liftVal
  match c with
  | ⟨0, _⟩ => simp
  | ⟨1, _⟩ => simp

/-- A row sum at row `p` is the sum of the row's entries. -/
theorem rowSum_apply {φ : FTy} (src : FVec Ideal ⟨2, ![R, D]⟩ φ) (acc : BitVec φ.bits)
    (h : (⟨2, ![R, D]⟩ : Shape).Reduces [1] ⟨1, ![R]⟩) (hφ : FKind.Formats φ) (hacc : acc = FKind.add.neutral φ hφ) (p : Fin R) :
    multiReduction .add [1] ⟨1, ![R]⟩ src acc h hφ hacc (ix1 p) = ∑ k : Fin D, src (ix2 p k) := by
  rw [Ideal.multiReduction_add_single]
  exact Finset.sum_congr rfl fun k _ => congrArg src (lift_ix1 h p k)

/-- A row maximum at row `p` is the fold of `max` over the row's entries, from the starting value. -/
theorem rowMax_apply {φ : FTy} (src : FVec Ideal ⟨2, ![R, D]⟩ φ) (acc : BitVec φ.bits)
    (h : (⟨2, ![R, D]⟩ : Shape).Reduces [1] ⟨1, ![R]⟩) (hφ : FKind.Formats φ) (hacc : acc = FKind.maximumf.neutral φ hφ) (p : Fin R) :
    multiReduction .maximumf [1] ⟨1, ![R]⟩ src acc h hφ hacc (ix1 p)
      = (Finset.univ : Finset (Fin D)).fold max (Ideal.ofBits φ acc) (fun k => src (ix2 p k)) := by
  rw [Ideal.multiReduction_maximumf_single]
  exact congrArg (Finset.fold max _ · _) (funext fun k => congrArg src (lift_ix1 h p k))

/-- A host-side row maximum (a one-operand reduce with `max` over the columns) at row `p`: the fold of `max` over the
    row's entries from the initial value. -/
theorem hostRowMax (U : FVec Ideal ⟨2, ![R, D]⟩ .f32) {u : Shape} (init : u.Idx → Ideal .f32)
    (h' : (⟨2, ![R, D]⟩ : Shape).ReducesTo [1] ⟨1, ![R]⟩) (h : (⟨2, ![R, D]⟩ : Shape).Reduces [1] ⟨1, ![R]⟩) (hu : 0 < u.numel) (p : Fin R) :
    Host.reduce (FloatOps.maximumf (F := Ideal) (φ := .f32)) U init h' hu (ix1 p)
      = (Finset.univ : Finset (Fin D)).fold max (init (Shape.Idx.first hu)) (fun k => U (ix2 p k)) := by
  rw [Host.reduce_eq_fold_single _ _ _ _ h]
  exact congrArg (Finset.fold max _ · _) (funext fun k => congrArg U (lift_ix1 h p k))

/-- The pointwise square root, exponential and logarithm read at an entry. -/
theorem sqrt_apply {s : Shape} {φ : FTy} (x : FVec Ideal s φ) (i : s.Idx) : sqrt x i = Ideal.sqrt (x i) := rfl
theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl

end Cert.LibRowOps

end
-- ==== Proof.KTrOps.lean ====
/-
  The layer transform body's arithmetic, read at an entry of a block of r rows, over the extended reals. Three results
  of the one block h: the self projection (a product into a zero accumulator plus the bias row), the edge table (a
  product with the 256-column table, its narrowing the identity), and the score (h times the broadcast weight row, summed
  along each row, kept as a column, plus the broadcast 1×1 bias). Stated over the operations themselves.
-/
import proofs.«108119_j38019050504554_2_alg».proof.Proof.KSpec
import proofs.«108119_j38019050504554_2_alg».proof.Proof.LibPlainDot
import proofs.«108119_j38019050504554_2_alg».proof.Proof.LibColumn
import proofs.«108119_j38019050504554_2_alg».proof.Proof.LibRowOps
import Idealize.ShloMosaic.Lib.Pipeline.Value
import Idealize.ShloMosaic.Lib.ValueLayout

noncomputable section

namespace Cert.KernelIdeal.KTrOps

open Idealize.ShloMosaic Idealize.ShloMosaic.ValueIdx
open scoped BigOperators

/-- The self projection's arithmetic on a block of r rows, read at entry (p,q): Σₖ h(p,k)·W(k,q) + b(0,q). The
    same-shape casts and the narrowing of the operands change nothing on the extended reals. -/
theorem hself_ops {r : ℕ} (d : DotDims ⟨2, ![r, 128]⟩ ⟨2, ![128, 128]⟩ ⟨2, ![r, 128]⟩) (hd : d = DotDims.plain r 128 128)
    (hlt : FTy.bits .bf16 < FTy.bits .f32)
    (hx : (⟨2, ![r, 128]⟩ : Shape).ShapeCasts ⟨2, ![r, 128]⟩)
    (hw : (⟨2, ![128, 128]⟩ : Shape).ShapeCasts ⟨2, ![128, 128]⟩) (hb : (⟨2, ![1, 128]⟩ : Shape).ShapeCasts ⟨2, ![1, 128]⟩)
    (hbc : (⟨2, ![1, 128]⟩ : Shape).Broadcasts ⟨2, ![r, 128]⟩)
    (x : FVec Ideal ⟨2, ![r, 128]⟩ .f32) (w : FVec Ideal ⟨2, ![128, 128]⟩ .f32) (b : FVec Ideal ⟨2, ![1, 128]⟩ .f32)
    (p : Fin r) (q : Fin 128) :
    addf (matmul d none (truncf .bf16 (shapeCast ⟨2, ![r, 128]⟩ x hx) hlt) (truncf .bf16 (shapeCast ⟨2, ![128, 128]⟩ w hw) hlt) (constant ⟨2, ![r, 128]⟩ .f32 0x00000000#32))
        (broadcastTo ⟨2, ![r, 128]⟩ (shapeCast ⟨2, ![1, 128]⟩ b hb) hbc) (ix2 p q)
      = Cert.Spec.hself x w b (ix2 p q) := by
  show FloatOps.matmul d none (truncf .bf16 (shapeCast ⟨2, ![r, 128]⟩ x hx) hlt) (truncf .bf16 (shapeCast ⟨2, ![128, 128]⟩ w hw) hlt) (constant ⟨2, ![r, 128]⟩ .f32 0x00000000#32) (ix2 p q)
        + broadcastTo ⟨2, ![r, 128]⟩ (shapeCast ⟨2, ![1, 128]⟩ b hb) hbc (ix2 p q)
      = Cert.Spec.dotE x w p q + b (ix2 0 q)
  rw [Cert.LibPlainDot.matmul_zero_apply d hd none _ _ p q, shapeCast_self, shapeCast_self, shapeCast_self,
    broadcastTo_1b_ab_apply b hbc p q]
  rfl

/-- The edge table's arithmetic on a block of r rows, read at entry (p,q): Σₖ h(p,k)·T(k,q); the product's narrowing
    to the table's format is the identity on the extended reals. -/
theorem table_ops {r : ℕ} (d : DotDims ⟨2, ![r, 128]⟩ ⟨2, ![128, 256]⟩ ⟨2, ![r, 256]⟩) (hd : d = DotDims.plain r 128 256)
    (hlt : FTy.bits .bf16 < FTy.bits .f32)
    (hx : (⟨2, ![r, 128]⟩ : Shape).ShapeCasts ⟨2, ![r, 128]⟩)
    (ht : (⟨2, ![128, 256]⟩ : Shape).ShapeCasts ⟨2, ![128, 256]⟩)
    (x : FVec Ideal ⟨2, ![r, 128]⟩ .f32) (t : FVec Ideal ⟨2, ![128, 256]⟩ .bf16)
    (p : Fin r) (q : Fin 256) :
    truncf .bf16 (matmul d none (truncf .bf16 (shapeCast ⟨2, ![r, 128]⟩ x hx) hlt) (shapeCast ⟨2, ![128, 256]⟩ t ht) (constant ⟨2, ![r, 256]⟩ .f32 0x00000000#32)) hlt (ix2 p q)
      = Cert.Spec.table x t (ix2 p q) := by
  show FloatOps.matmul d none (truncf .bf16 (shapeCast ⟨2, ![r, 128]⟩ x hx) hlt) (shapeCast ⟨2, ![128, 256]⟩ t ht) (constant ⟨2, ![r, 256]⟩ .f32 0x00000000#32) (ix2 p q)
      = Cert.Spec.dotE x t p q
  rw [Cert.LibPlainDot.matmul_zero_apply d hd none _ _ p q, shapeCast_self, shapeCast_self]
  rfl

/-- The score's arithmetic on a block of r rows, read at row p: the row of h times the broadcast weight row, summed along
    the row, kept as a column, plus the broadcast 1×1 bias: Σₖ h(p,k)·w(0,k) + c(0,0). -/
theorem scores_ops {r : ℕ}
    (hx : (⟨2, ![r, 128]⟩ : Shape).ShapeCasts ⟨2, ![r, 128]⟩)
    (hw : (⟨2, ![1, 128]⟩ : Shape).ShapeCasts ⟨2, ![1, 128]⟩)
    (hbc : (⟨2, ![1, 128]⟩ : Shape).Broadcasts ⟨2, ![r, 128]⟩)
    (hred : (⟨2, ![r, 128]⟩ : Shape).Reduces [1] ⟨1, ![r]⟩) (hφ : FKind.Formats .f32)
    (hacc : (0x00000000#32 : BitVec (FTy.bits .f32)) = FKind.add.neutral .f32 hφ)
    (hsc : (⟨1, ![r]⟩ : Shape).ShapeCasts ⟨2, ![r, 1]⟩)
    (hc : (⟨2, ![1, 1]⟩ : Shape).ShapeCasts ⟨2, ![1, 1]⟩) (hbc1 : (⟨2, ![1, 1]⟩ : Shape).Broadcasts ⟨2, ![r, 1]⟩)
    (x : FVec Ideal ⟨2, ![r, 128]⟩ .f32) (w : FVec Ideal ⟨2, ![1, 128]⟩ .f32) (c : FVec Ideal ⟨2, ![1, 1]⟩ .f32)
    (p : Fin r) (u : Fin 1) :
    addf (shapeCast ⟨2, ![r, 1]⟩ (multiReduction .add [1] ⟨1, ![r]⟩ (mulf (shapeCast ⟨2, ![r, 128]⟩ x hx) (broadcastTo ⟨2, ![r, 128]⟩ (shapeCast ⟨2, ![1, 128]⟩ w hw) hbc)) 0x00000000#32 hred hφ hacc) hsc)
        (broadcastTo ⟨2, ![r, 1]⟩ (shapeCast ⟨2, ![1, 1]⟩ c hc) hbc1) (ix2 p u)
      = Cert.Spec.scores x w c (ix2 p u) := by
  have hu : u = 0 := Subsingleton.elim _ _
  subst hu
  show shapeCast ⟨2, ![r, 1]⟩ (multiReduction .add [1] ⟨1, ![r]⟩ (mulf (shapeCast ⟨2, ![r, 128]⟩ x hx) (broadcastTo ⟨2, ![r, 128]⟩ (shapeCast ⟨2, ![1, 128]⟩ w hw) hbc)) 0x00000000#32 hred hφ hacc) hsc (ix2 p 0)
        + broadcastTo ⟨2, ![r, 1]⟩ (shapeCast ⟨2, ![1, 1]⟩ c hc) hbc1 (ix2 p 0)
      = (∑ k : Fin 128, x (ix2 p k) * w (ix2 0 k)) + c (ix2 0 0)
  rw [Cert.LibColumn.shapeCast_a_a1_apply, Cert.LibRowOps.rowSum_apply, shapeCast_self, shapeCast_self, shapeCast_self,
    broadcastTo_1b_ab_apply c hbc1 p 0]
  congr 1
  refine Finset.sum_congr rfl fun k _ => ?_
  show x (ix2 p k) * broadcastTo ⟨2, ![r, 128]⟩ w hbc (ix2 p k) = _
  rw [broadcastTo_1b_ab_apply w hbc p k]

end Cert.KernelIdeal.KTrOps

end
-- ==== Proof.KTrPay1.lean ====
/-
  The layer transform kernel's three stores, as functions of the blocks its body loads: from the block h of 5000 rows
  it writes the self projection h·W + b, the 256-column edge table h·T, and the column of scores Σₖ h(p,k)·w(0,k) + c,
  entry by entry over the extended reals.
-/
import proofs.«108119_j38019050504554_2_alg».proof.Proof.Gen.KernelIdeal.Skeleton
import proofs.«108119_j38019050504554_2_alg».proof.Proof.KTrOps

noncomputable section

namespace Cert.KernelIdeal.KTr1

open Cert.KernelIdeal Cert.KernelIdeal.Gen
open Idealize.ShloMosaic Idealize.ShloMosaic.ValueIdx

/-- The store into the second result is the self projection of the block. -/
theorem hself_pay_eq (x : Vec Ideal S5000x128 .f32) (w : Vec Ideal S128x128 .f32) (b : Vec Ideal S1x128 .f32) :
    k1_pay3 x w b = Cert.Spec.hself (R := 5000) x w b := by
  funext j
  obtain ⟨p, q, rfl⟩ : ∃ (p : Fin 5000) (q : Fin 128), j = ix2 p q := ⟨j 0, j 1, eq_ix2 j⟩
  unfold k1_pay3 k1_pay2 k1_pay1
  exact Cert.KernelIdeal.KTrOps.hself_ops _ rfl _ _ _ _ _ x w b p q

/-- The store into the third result is the edge table of the block. -/
theorem table_pay_eq (x : Vec Ideal S5000x128 .f32) (t : Vec Ideal S128x256 .bf16) :
    k1_pay4 x t = Cert.Spec.table (R := 5000) x t := by
  funext j
  obtain ⟨p, q, rfl⟩ : ∃ (p : Fin 5000) (q : Fin 256), j = ix2 p q := ⟨j 0, j 1, eq_ix2 j⟩
  unfold k1_pay4 k1_pay2 k1_pay1
  exact Cert.KernelIdeal.KTrOps.table_ops _ rfl _ _ _ x t p q

/-- The store into the first result is the column of the block's scores. -/
theorem scores_pay_eq (x : Vec Ideal S5000x128 .f32) (w : Vec Ideal S1x128 .f32) (c : Vec Ideal S1x1 .f32) :
    k1_pay5 x w c = Cert.Spec.scores (R := 5000) x w c := by
  funext j
  obtain ⟨p, u, rfl⟩ : ∃ (p : Fin 5000) (u : Fin 1), j = ix2 p u := ⟨j 0, j 1, eq_ix2 j⟩
  unfold k1_pay5 k1_pay1
  exact Cert.KernelIdeal.KTrOps.scores_ops _ _ _ _ _ _ _ _ _ x w c p u

end Cert.KernelIdeal.KTr1

end
-- ==== Proof.KTrRows.lean ====
/-
  The layer transform, row by row: each of its three results (the self projection h·W + b, the edge table h·T, the
  score Σₖ h(p,k)·w(0,k) + c) depends, at row p, on h through row p alone, so a block of rows of a result over R rows is
  the result over that block of rows of h.
-/
import proofs.«108119_j38019050504554_2_alg».proof.Proof.KSpec

noncomputable section

namespace Cert.Spec

open Idealize.ShloMosaic Idealize.ShloMosaic.ValueIdx
open scoped BigOperators

variable {R r : ℕ}

/-- The self projection at an entry reads one row of h: rows that agree give entries that agree. -/
theorem hself_rows (X : FVec Ideal ⟨2, ![R, 128]⟩ .f32) (x : FVec Ideal ⟨2, ![r, 128]⟩ .f32)
    (W w : FVec Ideal ⟨2, ![128, 128]⟩ .f32) (B b : FVec Ideal ⟨2, ![1, 128]⟩ .f32)
    (i : (⟨2, ![r, 128]⟩ : Shape).Idx) (I : (⟨2, ![R, 128]⟩ : Shape).Idx) (hq : (I 1).val = (i 1).val)
    (hx : ∀ k : Fin 128, x (ix2 (i 0) k) = X (ix2 (I 0) k)) (hw : w = W) (hb : b = B) :
    hself x w b i = hself X W B I := by
  subst hw hb
  have hq' : I 1 = i 1 := Fin.ext hq
  unfold hself dotE
  rw [hq']
  simp only [hx]

/-- The edge table at an entry reads one row of h. -/
theorem table_rows (X : FVec Ideal ⟨2, ![R, 128]⟩ .f32) (x : FVec Ideal ⟨2, ![r, 128]⟩ .f32)
    (T t : FVec Ideal ⟨2, ![128, 256]⟩ .bf16)
    (i : (⟨2, ![r, 256]⟩ : Shape).Idx) (I : (⟨2, ![R, 256]⟩ : Shape).Idx) (hq : (I 1).val = (i 1).val)
    (hx : ∀ k : Fin 128, x (ix2 (i 0) k) = X (ix2 (I 0) k)) (ht : t = T) :
    table x t i = table X T I := by
  subst ht
  have hq' : I 1 = i 1 := Fin.ext hq
  unfold table dotE
  rw [hq']
  simp only [hx]

/-- A row's score reads that row of h only. -/
theorem scores_rows (X : FVec Ideal ⟨2, ![R, 128]⟩ .f32) (x : FVec Ideal ⟨2, ![r, 128]⟩ .f32)
    (W w : FVec Ideal ⟨2, ![1, 128]⟩ .f32) (C c : FVec Ideal ⟨2, ![1, 1]⟩ .f32)
    (i : (⟨2, ![r, 1]⟩ : Shape).Idx) (I : (⟨2, ![R, 1]⟩ : Shape).Idx)
    (hx : ∀ k : Fin 128, x (ix2 (i 0) k) = X (ix2 (I 0) k)) (hw : w = W) (hc : c = C) :
    scores x w c i = scores X W C I := by
  subst hw hc
  unfold scores
  simp only [hx]

end Cert.Spec

end
-- ==== Proof.KTrBlk1.lean ====
/-
  The layer transform region's windows, block by block. The grid has ten points; at point t the row windows (the input
  h and the three outputs) hold rows 5000·t … 5000·t + 4999 of their 50000-row arrays, and the five weight and bias
  windows hold their whole arrays at every point. So the block of h at point t, read at row p, is h at row 5000·t + p,
  and each weight window's block is its array.
-/
import proofs.«108119_j38019050504554_2_alg».proof.Proof.Gen.KernelIdeal.Frame
import Idealize.ShloMosaic.Lib.Pipeline.Value
import Idealize.ShloMosaic.Lib.ValueIdx

set_option maxRecDepth 16384

noncomputable section

namespace Cert.KernelIdeal.KTr1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row window sits at block t on the row axis and block 0 on the other, -/
theorem idx_row0 : ∀ t : Fin cfg1.N, win1_0.index t (0 : Fin 2) = t.val ∧ win1_0.index t (1 : Fin 2) = 0 :=
  (by decide +kernel : ∀ t : Fin grid1.N, _)
theorem idx_row6 : ∀ t : Fin cfg1.N, win1_6.index t (0 : Fin 2) = t.val ∧ win1_6.index t (1 : Fin 2) = 0 :=
  (by decide +kernel : ∀ t : Fin grid1.N, _)
theorem idx_row7 : ∀ t : Fin cfg1.N, win1_7.index t (0 : Fin 2) = t.val ∧ win1_7.index t (1 : Fin 2) = 0 :=
  (by decide +kernel : ∀ t : Fin grid1.N, _)
theorem idx_row8 : ∀ t : Fin cfg1.N, win1_8.index t (0 : Fin 2) = t.val ∧ win1_8.index t (1 : Fin 2) = 0 :=
  (by decide +kernel : ∀ t : Fin grid1.N, _)

/-- and a weight or bias window at block 0 of its whole array. -/
theorem idx_whole1 : ∀ t : Fin cfg1.N, win1_1.index t (0 : Fin 2) = 0 ∧ win1_1.index t (1 : Fin 2) = 0 :=
  (by decide +kernel : ∀ t : Fin grid1.N, _)
theorem idx_whole2 : ∀ t : Fin cfg1.N, win1_2.index t (0 : Fin 2) = 0 ∧ win1_2.index t (1 : Fin 2) = 0 :=
  (by decide +kernel : ∀ t : Fin grid1.N, _)
theorem idx_whole3 : ∀ t : Fin cfg1.N, win1_3.index t (0 : Fin 2) = 0 ∧ win1_3.index t (1 : Fin 2) = 0 :=
  (by decide +kernel : ∀ t : Fin grid1.N, _)
theorem idx_whole4 : ∀ t : Fin cfg1.N, win1_4.index t (0 : Fin 2) = 0 ∧ win1_4.index t (1 : Fin 2) = 0 :=
  (by decide +kernel : ∀ t : Fin grid1.N, _)
theorem idx_whole5 : ∀ t : Fin cfg1.N, win1_5.index t (0 : Fin 2) = 0 ∧ win1_5.index t (1 : Fin 2) = 0 :=
  (by decide +kernel : ∀ t : Fin grid1.N, _)

/-- The score weight window's block at any point is the whole 1×128 row. -/
theorem blk_ws (c : Dev nD) (t : Fin cfg1.N) :
    (iblk1 V c 1 t : S1x128.Idx → Ideal .f32) = (V c (Pipeline.arrRef spec1 1) : S1x128.Idx → Ideal .f32) := by
  obtain ⟨e0, e1⟩ := idx_whole1 t
  funext x
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 1 + 1 * (x 0).val = (x 0).val; omega
  | ⟨1, _⟩ => show win1_1.index t (1 : Fin 2) * 128 + 1 * (x 1).val = (x 1).val; omega

/-- The score offset window's block at any point is the whole 1×1 array. -/
theorem blk_cs (c : Dev nD) (t : Fin cfg1.N) :
    (iblk1 V c 2 t : S1x1.Idx → Ideal .f32) = (V c (Pipeline.arrRef spec1 2) : S1x1.Idx → Ideal .f32) := by
  obtain ⟨e0, e1⟩ := idx_whole2 t
  funext x
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 1 + 1 * (x 0).val = (x 0).val; omega
  | ⟨1, _⟩ => show win1_2.index t (1 : Fin 2) * 1 + 1 * (x 1).val = (x 1).val; omega

/-- The projection weight window's block at any point is the whole 128×128 array. -/
theorem blk_w (c : Dev nD) (t : Fin cfg1.N) :
    (iblk1 V c 3 t : S128x128.Idx → Ideal .f32) = (V c (Pipeline.arrRef spec1 3) : S128x128.Idx → Ideal .f32) := by
  obtain ⟨e0, e1⟩ := idx_whole3 t
  funext x
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 128 + 1 * (x 0).val = (x 0).val; omega
  | ⟨1, _⟩ => show win1_3.index t (1 : Fin 2) * 128 + 1 * (x 1).val = (x 1).val; omega

/-- The projection bias window's block at any point is the whole 1×128 row. -/
theorem blk_b (c : Dev nD) (t : Fin cfg1.N) :
    (iblk1 V c 4 t : S1x128.Idx → Ideal .f32) = (V c (Pipeline.arrRef spec1 4) : S1x128.Idx → Ideal .f32) := by
  obtain ⟨e0, e1⟩ := idx_whole4 t
  funext x
  unfold iblk1
  rw [View.read_apply]
  show V c (Pipeline.arrRef spec1 4) _ = V c (Pipeline.arrRef spec1 4) _
  congr 1
  funext a
  apply Fin.ext
  match a with
  | ⟨0, _⟩ => show win1_4.index t (0 : Fin 2) * 1 + 1 * (x 0).val = (x 0).val; omega
  | ⟨1, _⟩ => show win1_4.index t (1 : Fin 2) * 128 + 1 * (x 1).val = (x 1).val; omega

/-- The table weight window's block at any point is the whole 128×256 array. -/
theorem blk_t (c : Dev nD) (t : Fin cfg1.N) :
    (iblk1 V c 5 t : S128x256.Idx → Ideal .bf16) = (V c (Pipeline.arrRef spec1 5) : S128x256.Idx → Ideal .bf16) := by
  obtain ⟨e0, e1⟩ := idx_whole5 t
  funext x
  unfold iblk1
  rw [View.read_apply]
  show V c (Pipeline.arrRef spec1 5) _ = V c (Pipeline.arrRef spec1 5) _
  congr 1
  funext a
  apply Fin.ext
  match a with
  | ⟨0, _⟩ => show win1_5.index t (0 : Fin 2) * 128 + 1 * (x 0).val = (x 0).val; omega
  | ⟨1, _⟩ => show win1_5.index t (1 : Fin 2) * 256 + 1 * (x 1).val = (x 1).val; omega

/-- Row p of the block of h at point t is row 5000·t + p of h. -/
theorem blk_h (c : Dev nD) (t : Fin cfg1.N) (x : S5000x128.Idx) (I : S50000x128.Idx)
    (h0 : (I 0).val = t.val * 5000 + (x 0).val) (h1 : (I 1).val = (x 1).val) :
    (iblk1 V c 0 t : S5000x128.Idx → Ideal .f32) x = (V c (Pipeline.arrRef spec1 0) : S50000x128.Idx → Ideal .f32) I := by
  obtain ⟨e0, e1⟩ := idx_row0 t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 5000 + 1 * (x 0).val = (I 0).val; omega
  | ⟨1, _⟩ => show win1_0.index t (1 : Fin 2) * 128 + 1 * (x 1).val = (I 1).val; omega

end Cert.KernelIdeal.KTr1

end
-- ==== Proof.KTrScores1.lean ====
/-
  The layer transform region's first output, the column of scores, from blocks to the array. The body stores the scores
  of its block of h, and a row's score reads h through that row alone, so what point t writes back is block t of the
  scores of the whole array h. The ten blocks of 5000 rows cover the 50000 rows (row r lies in block r / 5000).
-/
import proofs.«108119_j38019050504554_2_alg».proof.Proof.Gen.KernelIdeal.Frame
import proofs.«108119_j38019050504554_2_alg».proof.Proof.KTrPay1
import proofs.«108119_j38019050504554_2_alg».proof.Proof.KTrRows
import proofs.«108119_j38019050504554_2_alg».proof.Proof.KTrBlk1
import Idealize.ShloMosaic.Lib.Pipeline.Value
import Idealize.ShloMosaic.Lib.ValueIdx

set_option maxRecDepth 16384

noncomputable section

namespace Cert.KernelIdeal.KTr1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- What point t writes back to this output is block t of the result over the whole arrays. -/
theorem flushed_eq6 (c : Dev nD) (t : Fin cfg1.N) :
    (dat1 V c).flushed 6 t = ((cfg1.win 6).blk t).view.read (Elt Ideal)
      (Cert.Spec.scores (R := 50000) (V c (Pipeline.arrRef spec1 0)) (V c (Pipeline.arrRef spec1 1)) (V c (Pipeline.arrRef spec1 2))) := by
  show (cfg1.win 6).cut (grid1.coords t) ((dat1 V c).after 6 t) = _
  rw [after1_6]
  unfold out1_6
  rw [View.canon_unit_zero hz]
  simp only [View.ld_unit_zero (S := S5000x128) hz, View.ld_unit_zero (S := S1x128) hz, View.ld_unit_zero (S := S1x1) hz]
  rw [scores_pay_eq]
  obtain ⟨e0, e1⟩ := idx_row6 t
  funext j
  rw [View.read_apply]
  show Cert.Spec.scores (R := 5000) (iblk1 V c 0 t) (iblk1 V c 1 t) (iblk1 V c 2 t) ((cfg1.win 6).xinj (grid1.coords t) j)
     = Cert.Spec.scores (R := 50000) (V c (Pipeline.arrRef spec1 0)) (V c (Pipeline.arrRef spec1 1)) (V c (Pipeline.arrRef spec1 2)) (((cfg1.win 6).blk t).view.emb j)
  refine Cert.Spec.scores_rows _ _ _ _ _ _ _ _ ?_ (blk_ws V c t) (blk_cs V c t)
  intro k
  refine blk_h V c t _ _ ?_ rfl
  show win1_6.index t (0 : Fin 2) * 5000 + 1 * (j 0).val = t.val * 5000 + (j 0).val
  omega

/-- An index of the array is in point t's block iff each coordinate is in the block's range on its axis. -/
theorem mem_blk6 (t : Fin cfg1.N) (i : S50000x1.Idx) :
    i ∈ ((cfg1.win 6).blk t).view.set ↔ ∀ a : Fin 2, win1_6.index t a * S5000x1.size a ≤ (i a).val ∧ (i a).val < win1_6.index t a * S5000x1.size a + S5000x1.size a := by
  show i ∈ ((View.whole main_v46_0).slice (win1_6.rect t)).set ↔ _
  rw [View.set_slice_whole, Rect.mem_set_unit]
  exact Iff.rfl

/-- After the region the first output array is the column of scores Σₖ h(p,k)·w(0,k) + c(0,0) of the arrays the region found. -/
theorem final1_6 (c : Dev nD) :
    (dat1 V c).arrAt 6 cfg1.N = Cert.Spec.scores (R := 50000) (V c (Pipeline.arrRef spec1 0)) (V c (Pipeline.arrRef spec1 1)) (V c (Pipeline.arrRef spec1 2)) :=
  (dat1 V c).arrAt_eq_of_cover 6 _ (fun t _ => flushed_eq6 V c t) fun (i : S50000x1.Idx) => by
    have hi0 : (i 0).val < 50000 := (i 0).isLt
    have hi1 : (i 1).val < 1 := (i 1).isLt
    have hN : cfg1.N = 10 := N_1
    have ht : (i 0).val / 5000 < cfg1.N := by rw [hN]; omega
    obtain ⟨e0, e1⟩ := idx_row6 ⟨(i 0).val / 5000, ht⟩
    have e0' : win1_6.index ⟨(i 0).val / 5000, ht⟩ (0 : Fin 2) = (i 0).val / 5000 := e0
    refine ⟨⟨(i 0).val / 5000, ht⟩, flush1_6 _, ?_⟩
    rw [mem_blk6]
    intro a
    match a with
    | ⟨0, _⟩ =>
      show win1_6.index ⟨(i 0).val / 5000, ht⟩ (0 : Fin 2) * 5000 ≤ (i 0).val ∧ (i 0).val < win1_6.index ⟨(i 0).val / 5000, ht⟩ (0 : Fin 2) * 5000 + 5000
      omega
    | ⟨1, _⟩ =>
      show win1_6.index ⟨(i 0).val / 5000, ht⟩ (1 : Fin 2) * 1 ≤ (i 1).val ∧ (i 1).val < win1_6.index ⟨(i 0).val / 5000, ht⟩ (1 : Fin 2) * 1 + 1
      omega

end Cert.KernelIdeal.KTr1

end
-- ==== Proof.KTrHself1.lean ====
/-
  The layer transform region's second output, the self projection, from blocks to the array. The body stores h·W + b of
  its block of h, and an entry at row p reads h through row p alone, so what point t writes back is block t of the self
  projection of the whole array h. The ten blocks of 5000 rows cover the 50000 rows (row r lies in block r / 5000).
-/
import proofs.«108119_j38019050504554_2_alg».proof.Proof.Gen.KernelIdeal.Frame
import proofs.«108119_j38019050504554_2_alg».proof.Proof.KTrPay1
import proofs.«108119_j38019050504554_2_alg».proof.Proof.KTrRows
import proofs.«108119_j38019050504554_2_alg».proof.Proof.KTrBlk1
import Idealize.ShloMosaic.Lib.Pipeline.Value
import Idealize.ShloMosaic.Lib.ValueIdx

set_option maxRecDepth 16384

noncomputable section

namespace Cert.KernelIdeal.KTr1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- What point t writes back to this output is block t of the result over the whole arrays. -/
theorem flushed_eq7 (c : Dev nD) (t : Fin cfg1.N) :
    (dat1 V c).flushed 7 t = ((cfg1.win 7).blk t).view.read (Elt Ideal)
      (Cert.Spec.hself (R := 50000) (V c (Pipeline.arrRef spec1 0)) (V c (Pipeline.arrRef spec1 3)) (V c (Pipeline.arrRef spec1 4))) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S1x128) hz]
  rw [hself_pay_eq]
  obtain ⟨e0, e1⟩ := idx_row7 t
  funext j
  rw [View.read_apply]
  show Cert.Spec.hself (R := 5000) (iblk1 V c 0 t) (iblk1 V c 3 t) (iblk1 V c 4 t) ((cfg1.win 7).xinj (grid1.coords t) j)
     = Cert.Spec.hself (R := 50000) (V c (Pipeline.arrRef spec1 0)) (V c (Pipeline.arrRef spec1 3)) (V c (Pipeline.arrRef spec1 4)) (((cfg1.win 7).blk t).view.emb j)
  refine Cert.Spec.hself_rows _ _ _ _ _ _ _ _ ?_ ?_ (blk_w V c t) (blk_b V c t)
  · show win1_7.index t (1 : Fin 2) * 128 + 1 * (j 1).val = (j 1).val
    omega
  · intro k
    refine blk_h V c t _ _ ?_ rfl
    show win1_7.index t (0 : Fin 2) * 5000 + 1 * (j 0).val = t.val * 5000 + (j 0).val
    omega

/-- An index of the array is in point t's block iff each coordinate is in the block's range on its axis. -/
theorem mem_blk7 (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v46_1).slice (win1_7.rect t)).set ↔ _
  rw [View.set_slice_whole, Rect.mem_set_unit]
  exact Iff.rfl

/-- After the region the second output array is the self projection h·W + b of the arrays the region found. -/
theorem final1_7 (c : Dev nD) :
    (dat1 V c).arrAt 7 cfg1.N = Cert.Spec.hself (R := 50000) (V c (Pipeline.arrRef spec1 0)) (V c (Pipeline.arrRef spec1 3)) (V c (Pipeline.arrRef spec1 4)) :=
  (dat1 V c).arrAt_eq_of_cover 7 _ (fun t _ => flushed_eq7 V c t) fun (i : S50000x128.Idx) => by
    have hi0 : (i 0).val < 50000 := (i 0).isLt
    have hi1 : (i 1).val < 128 := (i 1).isLt
    have hN : cfg1.N = 10 := N_1
    have ht : (i 0).val / 5000 < cfg1.N := by rw [hN]; omega
    obtain ⟨e0, e1⟩ := idx_row7 ⟨(i 0).val / 5000, ht⟩
    have e0' : win1_7.index ⟨(i 0).val / 5000, ht⟩ (0 : Fin 2) = (i 0).val / 5000 := e0
    refine ⟨⟨(i 0).val / 5000, ht⟩, flush1_7 _, ?_⟩
    rw [mem_blk7]
    intro a
    match a with
    | ⟨0, _⟩ =>
      show win1_7.index ⟨(i 0).val / 5000, ht⟩ (0 : Fin 2) * 5000 ≤ (i 0).val ∧ (i 0).val < win1_7.index ⟨(i 0).val / 5000, ht⟩ (0 : Fin 2) * 5000 + 5000
      omega
    | ⟨1, _⟩ =>
      show win1_7.index ⟨(i 0).val / 5000, ht⟩ (1 : Fin 2) * 128 ≤ (i 1).val ∧ (i 1).val < win1_7.index ⟨(i 0).val / 5000, ht⟩ (1 : Fin 2) * 128 + 128
      omega

end Cert.KernelIdeal.KTr1

end
-- ==== Proof.KTrTable1.lean ====
/-
  The layer transform region's third output, the 256-column edge table, from blocks to the array. The body stores h·T of
  its block of h, and an entry at row p reads h through row p alone, so what point t writes back is block t of the table
  of the whole array h. The ten blocks of 5000 rows cover the 50000 rows (row r lies in block r / 5000).
-/
import proofs.«108119_j38019050504554_2_alg».proof.Proof.Gen.KernelIdeal.Frame
import proofs.«108119_j38019050504554_2_alg».proof.Proof.KTrPay1
import proofs.«108119_j38019050504554_2_alg».proof.Proof.KTrRows
import proofs.«108119_j38019050504554_2_alg».proof.Proof.KTrBlk1
import Idealize.ShloMosaic.Lib.Pipeline.Value
import Idealize.ShloMosaic.Lib.ValueIdx

set_option maxRecDepth 16384

noncomputable section

namespace Cert.KernelIdeal.KTr1

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- What point t writes back to this output is block t of the result over the whole arrays. -/
theorem flushed_eq8 (c : Dev nD) (t : Fin cfg1.N) :
    (dat1 V c).flushed 8 t = ((cfg1.win 8).blk t).view.read (Elt Ideal)
      (Cert.Spec.table (R := 50000) (V c (Pipeline.arrRef spec1 0)) (V c (Pipeline.arrRef spec1 5))) := by
  show (cfg1.win 8).cut (grid1.coords t) ((dat1 V c).after 8 t) = _
  rw [after1_8]
  unfold out1_8
  rw [View.canon_unit_zero hz]
  simp only [View.ld_unit_zero (S := S5000x128) hz, View.ld_unit_zero (S := S128x256) hz]
  rw [table_pay_eq]
  obtain ⟨e0, e1⟩ := idx_row8 t
  funext j
  rw [View.read_apply]
  show Cert.Spec.table (R := 5000) (iblk1 V c 0 t) (iblk1 V c 5 t) ((cfg1.win 8).xinj (grid1.coords t) j)
     = Cert.Spec.table (R := 50000) (V c (Pipeline.arrRef spec1 0)) (V c (Pipeline.arrRef spec1 5)) (((cfg1.win 8).blk t).view.emb j)
  refine Cert.Spec.table_rows _ _ _ _ _ _ ?_ ?_ (blk_t V c t)
  · show win1_8.index t (1 : Fin 2) * 256 + 1 * (j 1).val = (j 1).val
    omega
  · intro k
    refine blk_h V c t _ _ ?_ rfl
    show win1_8.index t (0 : Fin 2) * 5000 + 1 * (j 0).val = t.val * 5000 + (j 0).val
    omega

/-- An index of the array is in point t's block iff each coordinate is in the block's range on its axis. -/
theorem mem_blk8 (t : Fin cfg1.N) (i : S50000x256.Idx) :
    i ∈ ((cfg1.win 8).blk t).view.set ↔ ∀ a : Fin 2, win1_8.index t a * S5000x256.size a ≤ (i a).val ∧ (i a).val < win1_8.index t a * S5000x256.size a + S5000x256.size a := by
  show i ∈ ((View.whole main_v46_2).slice (win1_8.rect t)).set ↔ _
  rw [View.set_slice_whole, Rect.mem_set_unit]
  exact Iff.rfl

/-- After the region the third output array is the edge table h·T of the arrays the region found. -/
theorem final1_8 (c : Dev nD) :
    (dat1 V c).arrAt 8 cfg1.N = Cert.Spec.table (R := 50000) (V c (Pipeline.arrRef spec1 0)) (V c (Pipeline.arrRef spec1 5)) :=
  (dat1 V c).arrAt_eq_of_cover 8 _ (fun t _ => flushed_eq8 V c t) fun (i : S50000x256.Idx) => by
    have hi0 : (i 0).val < 50000 := (i 0).isLt
    have hi1 : (i 1).val < 256 := (i 1).isLt
    have hN : cfg1.N = 10 := N_1
    have ht : (i 0).val / 5000 < cfg1.N := by rw [hN]; omega
    obtain ⟨e0, e1⟩ := idx_row8 ⟨(i 0).val / 5000, ht⟩
    have e0' : win1_8.index ⟨(i 0).val / 5000, ht⟩ (0 : Fin 2) = (i 0).val / 5000 := e0
    refine ⟨⟨(i 0).val / 5000, ht⟩, flush1_8 _, ?_⟩
    rw [mem_blk8]
    intro a
    match a with
    | ⟨0, _⟩ =>
      show win1_8.index ⟨(i 0).val / 5000, ht⟩ (0 : Fin 2) * 5000 ≤ (i 0).val ∧ (i 0).val < win1_8.index ⟨(i 0).val / 5000, ht⟩ (0 : Fin 2) * 5000 + 5000
      omega
    | ⟨1, _⟩ =>
      show win1_8.index ⟨(i 0).val / 5000, ht⟩ (1 : Fin 2) * 256 ≤ (i 1).val ∧ (i 1).val < win1_8.index ⟨(i 0).val / 5000, ht⟩ (1 : Fin 2) * 256 + 256
      omega

end Cert.KernelIdeal.KTr1

end
-- ==== Proof.KTrArr1.lean ====
/-
  The layer transform region's three output arrays after the region, gathered: the column of scores, the self projection
  and the edge table of the arrays the region found (final1_6, final1_7, final1_8).
-/
import proofs.«108119_j38019050504554_2_alg».proof.Proof.KTrScores1
import proofs.«108119_j38019050504554_2_alg».proof.Proof.KTrHself1
import proofs.«108119_j38019050504554_2_alg».proof.Proof.KTrTable1
-- ==== Proof.KTrPay3.lean ====
/-
  The layer transform kernel's three stores, as functions of the blocks its body loads: from the block h of 5000 rows
  it writes the self projection h·W + b, the 256-column edge table h·T, and the column of scores Σₖ h(p,k)·w(0,k) + c,
  entry by entry over the extended reals.
-/
import proofs.«108119_j38019050504554_2_alg».proof.Proof.Gen.KernelIdeal.Skeleton
import proofs.«108119_j38019050504554_2_alg».proof.Proof.KTrOps

noncomputable section

namespace Cert.KernelIdeal.KTr3

open Cert.KernelIdeal Cert.KernelIdeal.Gen
open Idealize.ShloMosaic Idealize.ShloMosaic.ValueIdx

/-- The store into the second result is the self projection of the block. -/
theorem hself_pay_eq (x : Vec Ideal S5000x128 .f32) (w : Vec Ideal S128x128 .f32) (b : Vec Ideal S1x128 .f32) :
    k3_pay3 x w b = Cert.Spec.hself (R := 5000) x w b := by
  funext j
  obtain ⟨p, q, rfl⟩ : ∃ (p : Fin 5000) (q : Fin 128), j = ix2 p q := ⟨j 0, j 1, eq_ix2 j⟩
  unfold k3_pay3 k3_pay2 k3_pay1
  exact Cert.KernelIdeal.KTrOps.hself_ops _ rfl _ _ _ _ _ x w b p q

/-- The store into the third result is the edge table of the block. -/
theorem table_pay_eq (x : Vec Ideal S5000x128 .f32) (t : Vec Ideal S128x256 .bf16) :
    k3_pay4 x t = Cert.Spec.table (R := 5000) x t := by
  funext j
  obtain ⟨p, q, rfl⟩ : ∃ (p : Fin 5000) (q : Fin 256), j = ix2 p q := ⟨j 0, j 1, eq_ix2 j⟩
  unfold k3_pay4 k3_pay2 k3_pay1
  exact Cert.KernelIdeal.KTrOps.table_ops _ rfl _ _ _ x t p q

/-- The store into the first result is the column of the block's scores. -/
theorem scores_pay_eq (x : Vec Ideal S5000x128 .f32) (w : Vec Ideal S1x128 .f32) (c : Vec Ideal S1x1 .f32) :
    k3_pay5 x w c = Cert.Spec.scores (R := 5000) x w c := by
  funext j
  obtain ⟨p, u, rfl⟩ : ∃ (p : Fin 5000) (u : Fin 1), j = ix2 p u := ⟨j 0, j 1, eq_ix2 j⟩
  unfold k3_pay5 k3_pay1
  exact Cert.KernelIdeal.KTrOps.scores_ops _ _ _ _ _ _ _ _ _ x w c p u

end Cert.KernelIdeal.KTr3

end
-- ==== Proof.KTrBlk3.lean ====
/-
  The layer transform region's windows, block by block. The grid has ten points; at point t the row windows (the input
  h and the three outputs) hold rows 5000·t … 5000·t + 4999 of their 50000-row arrays, and the five weight and bias
  windows hold their whole arrays at every point. So the block of h at point t, read at row p, is h at row 5000·t + p,
  and each weight window's block is its array.
-/
import proofs.«108119_j38019050504554_2_alg».proof.Proof.Gen.KernelIdeal.Frame
import Idealize.ShloMosaic.Lib.Pipeline.Value
import Idealize.ShloMosaic.Lib.ValueIdx

set_option maxRecDepth 16384

noncomputable section

namespace Cert.KernelIdeal.KTr3

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row window sits at block t on the row axis and block 0 on the other, -/
theorem idx_row0 : ∀ t : Fin cfg3.N, win3_0.index t (0 : Fin 2) = t.val ∧ win3_0.index t (1 : Fin 2) = 0 :=
  (by decide +kernel : ∀ t : Fin grid3.N, _)
theorem idx_row6 : ∀ t : Fin cfg3.N, win3_6.index t (0 : Fin 2) = t.val ∧ win3_6.index t (1 : Fin 2) = 0 :=
  (by decide +kernel : ∀ t : Fin grid3.N, _)
theorem idx_row7 : ∀ t : Fin cfg3.N, win3_7.index t (0 : Fin 2) = t.val ∧ win3_7.index t (1 : Fin 2) = 0 :=
  (by decide +kernel : ∀ t : Fin grid3.N, _)
theorem idx_row8 : ∀ t : Fin cfg3.N, win3_8.index t (0 : Fin 2) = t.val ∧ win3_8.index t (1 : Fin 2) = 0 :=
  (by decide +kernel : ∀ t : Fin grid3.N, _)

/-- and a weight or bias window at block 0 of its whole array. -/
theorem idx_whole1 : ∀ t : Fin cfg3.N, win3_1.index t (0 : Fin 2) = 0 ∧ win3_1.index t (1 : Fin 2) = 0 :=
  (by decide +kernel : ∀ t : Fin grid3.N, _)
theorem idx_whole2 : ∀ t : Fin cfg3.N, win3_2.index t (0 : Fin 2) = 0 ∧ win3_2.index t (1 : Fin 2) = 0 :=
  (by decide +kernel : ∀ t : Fin grid3.N, _)
theorem idx_whole3 : ∀ t : Fin cfg3.N, win3_3.index t (0 : Fin 2) = 0 ∧ win3_3.index t (1 : Fin 2) = 0 :=
  (by decide +kernel : ∀ t : Fin grid3.N, _)
theorem idx_whole4 : ∀ t : Fin cfg3.N, win3_4.index t (0 : Fin 2) = 0 ∧ win3_4.index t (1 : Fin 2) = 0 :=
  (by decide +kernel : ∀ t : Fin grid3.N, _)
theorem idx_whole5 : ∀ t : Fin cfg3.N, win3_5.index t (0 : Fin 2) = 0 ∧ win3_5.index t (1 : Fin 2) = 0 :=
  (by decide +kernel : ∀ t : Fin grid3.N, _)

/-- The score weight window's block at any point is the whole 1×128 row. -/
theorem blk_ws (c : Dev nD) (t : Fin cfg3.N) :
    (iblk3 V c 1 t : S1x128.Idx → Ideal .f32) = (V c (Pipeline.arrRef spec3 1) : S1x128.Idx → Ideal .f32) := by
  obtain ⟨e0, e1⟩ := idx_whole1 t
  funext x
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 1 + 1 * (x 0).val = (x 0).val; omega
  | ⟨1, _⟩ => show win3_1.index t (1 : Fin 2) * 128 + 1 * (x 1).val = (x 1).val; omega

/-- The score offset window's block at any point is the whole 1×1 array. -/
theorem blk_cs (c : Dev nD) (t : Fin cfg3.N) :
    (iblk3 V c 2 t : S1x1.Idx → Ideal .f32) = (V c (Pipeline.arrRef spec3 2) : S1x1.Idx → Ideal .f32) := by
  obtain ⟨e0, e1⟩ := idx_whole2 t
  funext x
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 1 + 1 * (x 0).val = (x 0).val; omega
  | ⟨1, _⟩ => show win3_2.index t (1 : Fin 2) * 1 + 1 * (x 1).val = (x 1).val; omega

/-- The projection weight window's block at any point is the whole 128×128 array. -/
theorem blk_w (c : Dev nD) (t : Fin cfg3.N) :
    (iblk3 V c 3 t : S128x128.Idx → Ideal .f32) = (V c (Pipeline.arrRef spec3 3) : S128x128.Idx → Ideal .f32) := by
  obtain ⟨e0, e1⟩ := idx_whole3 t
  funext x
  unfold iblk3
  rw [View.read_apply]
  show V c (Pipeline.arrRef spec3 3) _ = V c (Pipeline.arrRef spec3 3) _
  congr 1
  funext a
  apply Fin.ext
  match a with
  | ⟨0, _⟩ => show win3_3.index t (0 : Fin 2) * 128 + 1 * (x 0).val = (x 0).val; omega
  | ⟨1, _⟩ => show win3_3.index t (1 : Fin 2) * 128 + 1 * (x 1).val = (x 1).val; omega

/-- The projection bias window's block at any point is the whole 1×128 row. -/
theorem blk_b (c : Dev nD) (t : Fin cfg3.N) :
    (iblk3 V c 4 t : S1x128.Idx → Ideal .f32) = (V c (Pipeline.arrRef spec3 4) : S1x128.Idx → Ideal .f32) := by
  obtain ⟨e0, e1⟩ := idx_whole4 t
  funext x
  unfold iblk3
  rw [View.read_apply]
  show V c (Pipeline.arrRef spec3 4) _ = V c (Pipeline.arrRef spec3 4) _
  congr 1
  funext a
  apply Fin.ext
  match a with
  | ⟨0, _⟩ => show win3_4.index t (0 : Fin 2) * 1 + 1 * (x 0).val = (x 0).val; omega
  | ⟨1, _⟩ => show win3_4.index t (1 : Fin 2) * 128 + 1 * (x 1).val = (x 1).val; omega

/-- The table weight window's block at any point is the whole 128×256 array. -/
theorem blk_t (c : Dev nD) (t : Fin cfg3.N) :
    (iblk3 V c 5 t : S128x256.Idx → Ideal .bf16) = (V c (Pipeline.arrRef spec3 5) : S128x256.Idx → Ideal .bf16) := by
  obtain ⟨e0, e1⟩ := idx_whole5 t
  funext x
  unfold iblk3
  rw [View.read_apply]
  show V c (Pipeline.arrRef spec3 5) _ = V c (Pipeline.arrRef spec3 5) _
  congr 1
  funext a
  apply Fin.ext
  match a with
  | ⟨0, _⟩ => show win3_5.index t (0 : Fin 2) * 128 + 1 * (x 0).val = (x 0).val; omega
  | ⟨1, _⟩ => show win3_5.index t (1 : Fin 2) * 256 + 1 * (x 1).val = (x 1).val; omega

/-- Row p of the block of h at point t is row 5000·t + p of h. -/
theorem blk_h (c : Dev nD) (t : Fin cfg3.N) (x : S5000x128.Idx) (I : S50000x128.Idx)
    (h0 : (I 0).val = t.val * 5000 + (x 0).val) (h1 : (I 1).val = (x 1).val) :
    (iblk3 V c 0 t : S5000x128.Idx → Ideal .f32) x = (V c (Pipeline.arrRef spec3 0) : S50000x128.Idx → Ideal .f32) I := by
  obtain ⟨e0, e1⟩ := idx_row0 t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 5000 + 1 * (x 0).val = (I 0).val; omega
  | ⟨1, _⟩ => show win3_0.index t (1 : Fin 2) * 128 + 1 * (x 1).val = (I 1).val; omega

end Cert.KernelIdeal.KTr3

end
-- ==== Proof.KTrScores3.lean ====
/-
  The layer transform region's first output, the column of scores, from blocks to the array. The body stores the scores
  of its block of h, and a row's score reads h through that row alone, so what point t writes back is block t of the
  scores of the whole array h. The ten blocks of 5000 rows cover the 50000 rows (row r lies in block r / 5000).
-/
import proofs.«108119_j38019050504554_2_alg».proof.Proof.Gen.KernelIdeal.Frame
import proofs.«108119_j38019050504554_2_alg».proof.Proof.KTrPay3
import proofs.«108119_j38019050504554_2_alg».proof.Proof.KTrRows
import proofs.«108119_j38019050504554_2_alg».proof.Proof.KTrBlk3
import Idealize.ShloMosaic.Lib.Pipeline.Value
import Idealize.ShloMosaic.Lib.ValueIdx

set_option maxRecDepth 16384

noncomputable section

namespace Cert.KernelIdeal.KTr3

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- What point t writes back to this output is block t of the result over the whole arrays. -/
theorem flushed_eq6 (c : Dev nD) (t : Fin cfg3.N) :
    (dat3 V c).flushed 6 t = ((cfg3.win 6).blk t).view.read (Elt Ideal)
      (Cert.Spec.scores (R := 50000) (V c (Pipeline.arrRef spec3 0)) (V c (Pipeline.arrRef spec3 1)) (V c (Pipeline.arrRef spec3 2))) := by
  show (cfg3.win 6).cut (grid3.coords t) ((dat3 V c).after 6 t) = _
  rw [after3_6]
  unfold out3_6
  rw [View.canon_unit_zero hz]
  simp only [View.ld_unit_zero (S := S5000x128) hz, View.ld_unit_zero (S := S1x128) hz, View.ld_unit_zero (S := S1x1) hz]
  rw [scores_pay_eq]
  obtain ⟨e0, e1⟩ := idx_row6 t
  funext j
  rw [View.read_apply]
  show Cert.Spec.scores (R := 5000) (iblk3 V c 0 t) (iblk3 V c 1 t) (iblk3 V c 2 t) ((cfg3.win 6).xinj (grid3.coords t) j)
     = Cert.Spec.scores (R := 50000) (V c (Pipeline.arrRef spec3 0)) (V c (Pipeline.arrRef spec3 1)) (V c (Pipeline.arrRef spec3 2)) (((cfg3.win 6).blk t).view.emb j)
  refine Cert.Spec.scores_rows _ _ _ _ _ _ _ _ ?_ (blk_ws V c t) (blk_cs V c t)
  intro k
  refine blk_h V c t _ _ ?_ rfl
  show win3_6.index t (0 : Fin 2) * 5000 + 1 * (j 0).val = t.val * 5000 + (j 0).val
  omega

/-- An index of the array is in point t's block iff each coordinate is in the block's range on its axis. -/
theorem mem_blk6 (t : Fin cfg3.N) (i : S50000x1.Idx) :
    i ∈ ((cfg3.win 6).blk t).view.set ↔ ∀ a : Fin 2, win3_6.index t a * S5000x1.size a ≤ (i a).val ∧ (i a).val < win3_6.index t a * S5000x1.size a + S5000x1.size a := by
  show i ∈ ((View.whole main_v125_0).slice (win3_6.rect t)).set ↔ _
  rw [View.set_slice_whole, Rect.mem_set_unit]
  exact Iff.rfl

/-- After the region the first output array is the column of scores Σₖ h(p,k)·w(0,k) + c(0,0) of the arrays the region found. -/
theorem final3_6 (c : Dev nD) :
    (dat3 V c).arrAt 6 cfg3.N = Cert.Spec.scores (R := 50000) (V c (Pipeline.arrRef spec3 0)) (V c (Pipeline.arrRef spec3 1)) (V c (Pipeline.arrRef spec3 2)) :=
  (dat3 V c).arrAt_eq_of_cover 6 _ (fun t _ => flushed_eq6 V c t) fun (i : S50000x1.Idx) => by
    have hi0 : (i 0).val < 50000 := (i 0).isLt
    have hi1 : (i 1).val < 1 := (i 1).isLt
    have hN : cfg3.N = 10 := N_3
    have ht : (i 0).val / 5000 < cfg3.N := by rw [hN]; omega
    obtain ⟨e0, e1⟩ := idx_row6 ⟨(i 0).val / 5000, ht⟩
    have e0' : win3_6.index ⟨(i 0).val / 5000, ht⟩ (0 : Fin 2) = (i 0).val / 5000 := e0
    refine ⟨⟨(i 0).val / 5000, ht⟩, flush3_6 _, ?_⟩
    rw [mem_blk6]
    intro a
    match a with
    | ⟨0, _⟩ =>
      show win3_6.index ⟨(i 0).val / 5000, ht⟩ (0 : Fin 2) * 5000 ≤ (i 0).val ∧ (i 0).val < win3_6.index ⟨(i 0).val / 5000, ht⟩ (0 : Fin 2) * 5000 + 5000
      omega
    | ⟨1, _⟩ =>
      show win3_6.index ⟨(i 0).val / 5000, ht⟩ (1 : Fin 2) * 1 ≤ (i 1).val ∧ (i 1).val < win3_6.index ⟨(i 0).val / 5000, ht⟩ (1 : Fin 2) * 1 + 1
      omega

end Cert.KernelIdeal.KTr3

end
-- ==== Proof.KTrHself3.lean ====
/-
  The layer transform region's second output, the self projection, from blocks to the array. The body stores h·W + b of
  its block of h, and an entry at row p reads h through row p alone, so what point t writes back is block t of the self
  projection of the whole array h. The ten blocks of 5000 rows cover the 50000 rows (row r lies in block r / 5000).
-/
import proofs.«108119_j38019050504554_2_alg».proof.Proof.Gen.KernelIdeal.Frame
import proofs.«108119_j38019050504554_2_alg».proof.Proof.KTrPay3
import proofs.«108119_j38019050504554_2_alg».proof.Proof.KTrRows
import proofs.«108119_j38019050504554_2_alg».proof.Proof.KTrBlk3
import Idealize.ShloMosaic.Lib.Pipeline.Value
import Idealize.ShloMosaic.Lib.ValueIdx

set_option maxRecDepth 16384

noncomputable section

namespace Cert.KernelIdeal.KTr3

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- What point t writes back to this output is block t of the result over the whole arrays. -/
theorem flushed_eq7 (c : Dev nD) (t : Fin cfg3.N) :
    (dat3 V c).flushed 7 t = ((cfg3.win 7).blk t).view.read (Elt Ideal)
      (Cert.Spec.hself (R := 50000) (V c (Pipeline.arrRef spec3 0)) (V c (Pipeline.arrRef spec3 3)) (V c (Pipeline.arrRef spec3 4))) := by
  show (cfg3.win 7).cut (grid3.coords t) ((dat3 V c).after 7 t) = _
  rw [after3_7]
  unfold out3_7
  rw [View.canon_unit_zero hz]
  simp only [View.ld_unit_zero (S := S5000x128) hz, View.ld_unit_zero (S := S128x128) hz, View.ld_unit_zero (S := S1x128) hz]
  rw [hself_pay_eq]
  obtain ⟨e0, e1⟩ := idx_row7 t
  funext j
  rw [View.read_apply]
  show Cert.Spec.hself (R := 5000) (iblk3 V c 0 t) (iblk3 V c 3 t) (iblk3 V c 4 t) ((cfg3.win 7).xinj (grid3.coords t) j)
     = Cert.Spec.hself (R := 50000) (V c (Pipeline.arrRef spec3 0)) (V c (Pipeline.arrRef spec3 3)) (V c (Pipeline.arrRef spec3 4)) (((cfg3.win 7).blk t).view.emb j)
  refine Cert.Spec.hself_rows _ _ _ _ _ _ _ _ ?_ ?_ (blk_w V c t) (blk_b V c t)
  · show win3_7.index t (1 : Fin 2) * 128 + 1 * (j 1).val = (j 1).val
    omega
  · intro k
    refine blk_h V c t _ _ ?_ rfl
    show win3_7.index t (0 : Fin 2) * 5000 + 1 * (j 0).val = t.val * 5000 + (j 0).val
    omega

/-- An index of the array is in point t's block iff each coordinate is in the block's range on its axis. -/
theorem mem_blk7 (t : Fin cfg3.N) (i : S50000x128.Idx) :
    i ∈ ((cfg3.win 7).blk t).view.set ↔ ∀ a : Fin 2, win3_7.index t a * S5000x128.size a ≤ (i a).val ∧ (i a).val < win3_7.index t a * S5000x128.size a + S5000x128.size a := by
  show i ∈ ((View.whole main_v125_1).slice (win3_7.rect t)).set ↔ _
  rw [View.set_slice_whole, Rect.mem_set_unit]
  exact Iff.rfl

/-- After the region the second output array is the self projection h·W + b of the arrays the region found. -/
theorem final3_7 (c : Dev nD) :
    (dat3 V c).arrAt 7 cfg3.N = Cert.Spec.hself (R := 50000) (V c (Pipeline.arrRef spec3 0)) (V c (Pipeline.arrRef spec3 3)) (V c (Pipeline.arrRef spec3 4)) :=
  (dat3 V c).arrAt_eq_of_cover 7 _ (fun t _ => flushed_eq7 V c t) fun (i : S50000x128.Idx) => by
    have hi0 : (i 0).val < 50000 := (i 0).isLt
    have hi1 : (i 1).val < 128 := (i 1).isLt
    have hN : cfg3.N = 10 := N_3
    have ht : (i 0).val / 5000 < cfg3.N := by rw [hN]; omega
    obtain ⟨e0, e1⟩ := idx_row7 ⟨(i 0).val / 5000, ht⟩
    have e0' : win3_7.index ⟨(i 0).val / 5000, ht⟩ (0 : Fin 2) = (i 0).val / 5000 := e0
    refine ⟨⟨(i 0).val / 5000, ht⟩, flush3_7 _, ?_⟩
    rw [mem_blk7]
    intro a
    match a with
    | ⟨0, _⟩ =>
      show win3_7.index ⟨(i 0).val / 5000, ht⟩ (0 : Fin 2) * 5000 ≤ (i 0).val ∧ (i 0).val < win3_7.index ⟨(i 0).val / 5000, ht⟩ (0 : Fin 2) * 5000 + 5000
      omega
    | ⟨1, _⟩ =>
      show win3_7.index ⟨(i 0).val / 5000, ht⟩ (1 : Fin 2) * 128 ≤ (i 1).val ∧ (i 1).val < win3_7.index ⟨(i 0).val / 5000, ht⟩ (1 : Fin 2) * 128 + 128
      omega

end Cert.KernelIdeal.KTr3

end
-- ==== Proof.KTrTable3.lean ====
/-
  The layer transform region's third output, the 256-column edge table, from blocks to the array. The body stores h·T of
  its block of h, and an entry at row p reads h through row p alone, so what point t writes back is block t of the table
  of the whole array h. The ten blocks of 5000 rows cover the 50000 rows (row r lies in block r / 5000).
-/
import proofs.«108119_j38019050504554_2_alg».proof.Proof.Gen.KernelIdeal.Frame
import proofs.«108119_j38019050504554_2_alg».proof.Proof.KTrPay3
import proofs.«108119_j38019050504554_2_alg».proof.Proof.KTrRows
import proofs.«108119_j38019050504554_2_alg».proof.Proof.KTrBlk3
import Idealize.ShloMosaic.Lib.Pipeline.Value
import Idealize.ShloMosaic.Lib.ValueIdx

set_option maxRecDepth 16384

noncomputable section

namespace Cert.KernelIdeal.KTr3

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- What point t writes back to this output is block t of the result over the whole arrays. -/
theorem flushed_eq8 (c : Dev nD) (t : Fin cfg3.N) :
    (dat3 V c).flushed 8 t = ((cfg3.win 8).blk t).view.read (Elt Ideal)
      (Cert.Spec.table (R := 50000) (V c (Pipeline.arrRef spec3 0)) (V c (Pipeline.arrRef spec3 5))) := by
  show (cfg3.win 8).cut (grid3.coords t) ((dat3 V c).after 8 t) = _
  rw [after3_8]
  unfold out3_8
  rw [View.canon_unit_zero hz]
  simp only [View.ld_unit_zero (S := S5000x128) hz, View.ld_unit_zero (S := S128x256) hz]
  rw [table_pay_eq]
  obtain ⟨e0, e1⟩ := idx_row8 t
  funext j
  rw [View.read_apply]
  show Cert.Spec.table (R := 5000) (iblk3 V c 0 t) (iblk3 V c 5 t) ((cfg3.win 8).xinj (grid3.coords t) j)
     = Cert.Spec.table (R := 50000) (V c (Pipeline.arrRef spec3 0)) (V c (Pipeline.arrRef spec3 5)) (((cfg3.win 8).blk t).view.emb j)
  refine Cert.Spec.table_rows _ _ _ _ _ _ ?_ ?_ (blk_t V c t)
  · show win3_8.index t (1 : Fin 2) * 256 + 1 * (j 1).val = (j 1).val
    omega
  · intro k
    refine blk_h V c t _ _ ?_ rfl
    show win3_8.index t (0 : Fin 2) * 5000 + 1 * (j 0).val = t.val * 5000 + (j 0).val
    omega

/-- An index of the array is in point t's block iff each coordinate is in the block's range on its axis. -/
theorem mem_blk8 (t : Fin cfg3.N) (i : S50000x256.Idx) :
    i ∈ ((cfg3.win 8).blk t).view.set ↔ ∀ a : Fin 2, win3_8.index t a * S5000x256.size a ≤ (i a).val ∧ (i a).val < win3_8.index t a * S5000x256.size a + S5000x256.size a := by
  show i ∈ ((View.whole main_v125_2).slice (win3_8.rect t)).set ↔ _
  rw [View.set_slice_whole, Rect.mem_set_unit]
  exact Iff.rfl

/-- After the region the third output array is the edge table h·T of the arrays the region found. -/
theorem final3_8 (c : Dev nD) :
    (dat3 V c).arrAt 8 cfg3.N = Cert.Spec.table (R := 50000) (V c (Pipeline.arrRef spec3 0)) (V c (Pipeline.arrRef spec3 5)) :=
  (dat3 V c).arrAt_eq_of_cover 8 _ (fun t _ => flushed_eq8 V c t) fun (i : S50000x256.Idx) => by
    have hi0 : (i 0).val < 50000 := (i 0).isLt
    have hi1 : (i 1).val < 256 := (i 1).isLt
    have hN : cfg3.N = 10 := N_3
    have ht : (i 0).val / 5000 < cfg3.N := by rw [hN]; omega
    obtain ⟨e0, e1⟩ := idx_row8 ⟨(i 0).val / 5000, ht⟩
    have e0' : win3_8.index ⟨(i 0).val / 5000, ht⟩ (0 : Fin 2) = (i 0).val / 5000 := e0
    refine ⟨⟨(i 0).val / 5000, ht⟩, flush3_8 _, ?_⟩
    rw [mem_blk8]
    intro a
    match a with
    | ⟨0, _⟩ =>
      show win3_8.index ⟨(i 0).val / 5000, ht⟩ (0 : Fin 2) * 5000 ≤ (i 0).val ∧ (i 0).val < win3_8.index ⟨(i 0).val / 5000, ht⟩ (0 : Fin 2) * 5000 + 5000
      omega
    | ⟨1, _⟩ =>
      show win3_8.index ⟨(i 0).val / 5000, ht⟩ (1 : Fin 2) * 256 ≤ (i 1).val ∧ (i 1).val < win3_8.index ⟨(i 0).val / 5000, ht⟩ (1 : Fin 2) * 256 + 256
      omega

end Cert.KernelIdeal.KTr3

end
-- ==== Proof.KTrArr3.lean ====
/-
  The layer transform region's three output arrays after the region, gathered: the column of scores, the self projection
  and the edge table of the arrays the region found (final3_6, final3_7, final3_8).
-/
import proofs.«108119_j38019050504554_2_alg».proof.Proof.KTrScores3
import proofs.«108119_j38019050504554_2_alg».proof.Proof.KTrHself3
import proofs.«108119_j38019050504554_2_alg».proof.Proof.KTrTable3
-- ==== Proof.KTrPay5.lean ====
/-
  The layer transform kernel's three stores, as functions of the blocks its body loads: from the block h of 5000 rows
  it writes the self projection h·W + b, the 256-column edge table h·T, and the column of scores Σₖ h(p,k)·w(0,k) + c,
  entry by entry over the extended reals.
-/
import proofs.«108119_j38019050504554_2_alg».proof.Proof.Gen.KernelIdeal.Skeleton
import proofs.«108119_j38019050504554_2_alg».proof.Proof.KTrOps

noncomputable section

namespace Cert.KernelIdeal.KTr5

open Cert.KernelIdeal Cert.KernelIdeal.Gen
open Idealize.ShloMosaic Idealize.ShloMosaic.ValueIdx

/-- The store into the second result is the self projection of the block. -/
theorem hself_pay_eq (x : Vec Ideal S5000x128 .f32) (w : Vec Ideal S128x128 .f32) (b : Vec Ideal S1x128 .f32) :
    k5_pay3 x w b = Cert.Spec.hself (R := 5000) x w b := by
  funext j
  obtain ⟨p, q, rfl⟩ : ∃ (p : Fin 5000) (q : Fin 128), j = ix2 p q := ⟨j 0, j 1, eq_ix2 j⟩
  unfold k5_pay3 k5_pay2 k5_pay1
  exact Cert.KernelIdeal.KTrOps.hself_ops _ rfl _ _ _ _ _ x w b p q

/-- The store into the third result is the edge table of the block. -/
theorem table_pay_eq (x : Vec Ideal S5000x128 .f32) (t : Vec Ideal S128x256 .bf16) :
    k5_pay4 x t = Cert.Spec.table (R := 5000) x t := by
  funext j
  obtain ⟨p, q, rfl⟩ : ∃ (p : Fin 5000) (q : Fin 256), j = ix2 p q := ⟨j 0, j 1, eq_ix2 j⟩
  unfold k5_pay4 k5_pay2 k5_pay1
  exact Cert.KernelIdeal.KTrOps.table_ops _ rfl _ _ _ x t p q

/-- The store into the first result is the column of the block's scores. -/
theorem scores_pay_eq (x : Vec Ideal S5000x128 .f32) (w : Vec Ideal S1x128 .f32) (c : Vec Ideal S1x1 .f32) :
    k5_pay5 x w c = Cert.Spec.scores (R := 5000) x w c := by
  funext j
  obtain ⟨p, u, rfl⟩ : ∃ (p : Fin 5000) (u : Fin 1), j = ix2 p u := ⟨j 0, j 1, eq_ix2 j⟩
  unfold k5_pay5 k5_pay1
  exact Cert.KernelIdeal.KTrOps.scores_ops _ _ _ _ _ _ _ _ _ x w c p u

end Cert.KernelIdeal.KTr5

end
-- ==== Proof.KTrBlk5.lean ====
/-
  The layer transform region's windows, block by block. The grid has ten points; at point t the row windows (the input
  h and the three outputs) hold rows 5000·t … 5000·t + 4999 of their 50000-row arrays, and the five weight and bias
  windows hold their whole arrays at every point. So the block of h at point t, read at row p, is h at row 5000·t + p,
  and each weight window's block is its array.
-/
import proofs.«108119_j38019050504554_2_alg».proof.Proof.Gen.KernelIdeal.Frame
import Idealize.ShloMosaic.Lib.Pipeline.Value
import Idealize.ShloMosaic.Lib.ValueIdx

set_option maxRecDepth 16384

noncomputable section

namespace Cert.KernelIdeal.KTr5

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: a row window sits at block t on the row axis and block 0 on the other, -/
theorem idx_row0 : ∀ t : Fin cfg5.N, win5_0.index t (0 : Fin 2) = t.val ∧ win5_0.index t (1 : Fin 2) = 0 :=
  (by decide +kernel : ∀ t : Fin grid5.N, _)
theorem idx_row6 : ∀ t : Fin cfg5.N, win5_6.index t (0 : Fin 2) = t.val ∧ win5_6.index t (1 : Fin 2) = 0 :=
  (by decide +kernel : ∀ t : Fin grid5.N, _)
theorem idx_row7 : ∀ t : Fin cfg5.N, win5_7.index t (0 : Fin 2) = t.val ∧ win5_7.index t (1 : Fin 2) = 0 :=
  (by decide +kernel : ∀ t : Fin grid5.N, _)
theorem idx_row8 : ∀ t : Fin cfg5.N, win5_8.index t (0 : Fin 2) = t.val ∧ win5_8.index t (1 : Fin 2) = 0 :=
  (by decide +kernel : ∀ t : Fin grid5.N, _)

/-- and a weight or bias window at block 0 of its whole array. -/
theorem idx_whole1 : ∀ t : Fin cfg5.N, win5_1.index t (0 : Fin 2) = 0 ∧ win5_1.index t (1 : Fin 2) = 0 :=
  (by decide +kernel : ∀ t : Fin grid5.N, _)
theorem idx_whole2 : ∀ t : Fin cfg5.N, win5_2.index t (0 : Fin 2) = 0 ∧ win5_2.index t (1 : Fin 2) = 0 :=
  (by decide +kernel : ∀ t : Fin grid5.N, _)
theorem idx_whole3 : ∀ t : Fin cfg5.N, win5_3.index t (0 : Fin 2) = 0 ∧ win5_3.index t (1 : Fin 2) = 0 :=
  (by decide +kernel : ∀ t : Fin grid5.N, _)
theorem idx_whole4 : ∀ t : Fin cfg5.N, win5_4.index t (0 : Fin 2) = 0 ∧ win5_4.index t (1 : Fin 2) = 0 :=
  (by decide +kernel : ∀ t : Fin grid5.N, _)
theorem idx_whole5 : ∀ t : Fin cfg5.N, win5_5.index t (0 : Fin 2) = 0 ∧ win5_5.index t (1 : Fin 2) = 0 :=
  (by decide +kernel : ∀ t : Fin grid5.N, _)

/-- The score weight window's block at any point is the whole 1×128 row. -/
theorem blk_ws (c : Dev nD) (t : Fin cfg5.N) :
    (iblk5 V c 1 t : S1x128.Idx → Ideal .f32) = (V c (Pipeline.arrRef spec5 1) : S1x128.Idx → Ideal .f32) := by
  obtain ⟨e0, e1⟩ := idx_whole1 t
  funext x
  unfold iblk5
  rw [View.read_apply]
  show V c (Pipeline.arrRef spec5 1) _ = V c (Pipeline.arrRef spec5 1) _
  congr 1
  funext a
  apply Fin.ext
  match a with
  | ⟨0, _⟩ => show win5_1.index t (0 : Fin 2) * 1 + 1 * (x 0).val = (x 0).val; omega
  | ⟨1, _⟩ => show win5_1.index t (1 : Fin 2) * 128 + 1 * (x 1).val = (x 1).val; omega

/-- The score offset window's block at any point is the whole 1×1 array. -/
theorem blk_cs (c : Dev nD) (t : Fin cfg5.N) :
    (iblk5 V c 2 t : S1x1.Idx → Ideal .f32) = (V c (Pipeline.arrRef spec5 2) : S1x1.Idx → Ideal .f32) := by
  obtain ⟨e0, e1⟩ := idx_whole2 t
  funext x
  unfold iblk5
  rw [View.read_apply]
  show V c (Pipeline.arrRef spec5 2) _ = V c (Pipeline.arrRef spec5 2) _
  congr 1
  funext a
  apply Fin.ext
  match a with
  | ⟨0, _⟩ => show win5_2.index t (0 : Fin 2) * 1 + 1 * (x 0).val = (x 0).val; omega
  | ⟨1, _⟩ => show win5_2.index t (1 : Fin 2) * 1 + 1 * (x 1).val = (x 1).val; omega

/-- The projection weight window's block at any point is the whole 128×128 array. -/
theorem blk_w (c : Dev nD) (t : Fin cfg5.N) :
    (iblk5 V c 3 t : S128x128.Idx → Ideal .f32) = (V c (Pipeline.arrRef spec5 3) : S128x128.Idx → Ideal .f32) := by
  obtain ⟨e0, e1⟩ := idx_whole3 t
  funext x
  unfold iblk5
  rw [View.read_apply]
  show V c (Pipeline.arrRef spec5 3) _ = V c (Pipeline.arrRef spec5 3) _
  congr 1
  funext a
  apply Fin.ext
  match a with
  | ⟨0, _⟩ => show win5_3.index t (0 : Fin 2) * 128 + 1 * (x 0).val = (x 0).val; omega
  | ⟨1, _⟩ => show win5_3.index t (1 : Fin 2) * 128 + 1 * (x 1).val = (x 1).val; omega

/-- The projection bias window's block at any point is the whole 1×128 row. -/
theorem blk_b (c : Dev nD) (t : Fin cfg5.N) :
    (iblk5 V c 4 t : S1x128.Idx → Ideal .f32) = (V c (Pipeline.arrRef spec5 4) : S1x128.Idx → Ideal .f32) := by
  obtain ⟨e0, e1⟩ := idx_whole4 t
  funext x
  unfold iblk5
  rw [View.read_apply]
  show V c (Pipeline.arrRef spec5 4) _ = V c (Pipeline.arrRef spec5 4) _
  congr 1
  funext a
  apply Fin.ext
  match a with
  | ⟨0, _⟩ => show win5_4.index t (0 : Fin 2) * 1 + 1 * (x 0).val = (x 0).val; omega
  | ⟨1, _⟩ => show win5_4.index t (1 : Fin 2) * 128 + 1 * (x 1).val = (x 1).val; omega

/-- The table weight window's block at any point is the whole 128×256 array. -/
theorem blk_t (c : Dev nD) (t : Fin cfg5.N) :
    (iblk5 V c 5 t : S128x256.Idx → Ideal .bf16) = (V c (Pipeline.arrRef spec5 5) : S128x256.Idx → Ideal .bf16) := by
  obtain ⟨e0, e1⟩ := idx_whole5 t
  funext x
  unfold iblk5
  rw [View.read_apply]
  show V c (Pipeline.arrRef spec5 5) _ = V c (Pipeline.arrRef spec5 5) _
  congr 1
  funext a
  apply Fin.ext
  match a with
  | ⟨0, _⟩ => show win5_5.index t (0 : Fin 2) * 128 + 1 * (x 0).val = (x 0).val; omega
  | ⟨1, _⟩ => show win5_5.index t (1 : Fin 2) * 256 + 1 * (x 1).val = (x 1).val; omega

/-- Row p of the block of h at point t is row 5000·t + p of h. -/
theorem blk_h (c : Dev nD) (t : Fin cfg5.N) (x : S5000x128.Idx) (I : S50000x128.Idx)
    (h0 : (I 0).val = t.val * 5000 + (x 0).val) (h1 : (I 1).val = (x 1).val) :
    (iblk5 V c 0 t : S5000x128.Idx → Ideal .f32) x = (V c (Pipeline.arrRef spec5 0) : S50000x128.Idx → Ideal .f32) I := by
  obtain ⟨e0, e1⟩ := idx_row0 t
  unfold iblk5
  rw [View.read_apply]
  show V c (Pipeline.arrRef spec5 0) _ = V c (Pipeline.arrRef spec5 0) _
  congr 1
  funext a
  apply Fin.ext
  match a with
  | ⟨0, _⟩ => show win5_0.index t (0 : Fin 2) * 5000 + 1 * (x 0).val = (I 0).val; omega
  | ⟨1, _⟩ => show win5_0.index t (1 : Fin 2) * 128 + 1 * (x 1).val = (I 1).val; omega

end Cert.KernelIdeal.KTr5

end
-- ==== Proof.KTrScores5.lean ====
/-
  The layer transform region's first output, the column of scores, from blocks to the array. The body stores the scores
  of its block of h, and a row's score reads h through that row alone, so what point t writes back is block t of the
  scores of the whole array h. The ten blocks of 5000 rows cover the 50000 rows (row r lies in block r / 5000).
-/
import proofs.«108119_j38019050504554_2_alg».proof.Proof.Gen.KernelIdeal.Frame
import proofs.«108119_j38019050504554_2_alg».proof.Proof.KTrPay5
import proofs.«108119_j38019050504554_2_alg».proof.Proof.KTrRows
import proofs.«108119_j38019050504554_2_alg».proof.Proof.KTrBlk5
import Idealize.ShloMosaic.Lib.Pipeline.Value
import Idealize.ShloMosaic.Lib.ValueIdx

set_option maxRecDepth 16384

noncomputable section

namespace Cert.KernelIdeal.KTr5

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- What point t writes back to this output is block t of the result over the whole arrays. -/
theorem flushed_eq6 (c : Dev nD) (t : Fin cfg5.N) :
    (dat5 V c).flushed 6 t = ((cfg5.win 6).blk t).view.read (Elt Ideal)
      (Cert.Spec.scores (R := 50000) (V c (Pipeline.arrRef spec5 0)) (V c (Pipeline.arrRef spec5 1)) (V c (Pipeline.arrRef spec5 2))) := by
  show (cfg5.win 6).cut (grid5.coords t) ((dat5 V c).after 6 t) = _
  rw [after5_6]
  unfold out5_6
  rw [View.canon_unit_zero hz]
  simp only [View.ld_unit_zero (S := S5000x128) hz, View.ld_unit_zero (S := S1x128) hz, View.ld_unit_zero (S := S1x1) hz]
  rw [scores_pay_eq]
  obtain ⟨e0, e1⟩ := idx_row6 t
  funext j
  rw [View.read_apply]
  show Cert.Spec.scores (R := 5000) (iblk5 V c 0 t) (iblk5 V c 1 t) (iblk5 V c 2 t) ((cfg5.win 6).xinj (grid5.coords t) j)
     = Cert.Spec.scores (R := 50000) (V c (Pipeline.arrRef spec5 0)) (V c (Pipeline.arrRef spec5 1)) (V c (Pipeline.arrRef spec5 2)) (((cfg5.win 6).blk t).view.emb j)
  refine Cert.Spec.scores_rows _ _ _ _ _ _ _ _ ?_ (blk_ws V c t) (blk_cs V c t)
  intro k
  refine blk_h V c t _ _ ?_ rfl
  show win5_6.index t (0 : Fin 2) * 5000 + 1 * (j 0).val = t.val * 5000 + (j 0).val
  omega

/-- An index of the array is in point t's block iff each coordinate is in the block's range on its axis. -/
theorem mem_blk6 (t : Fin cfg5.N) (i : S50000x1.Idx) :
    i ∈ ((cfg5.win 6).blk t).view.set ↔ ∀ a : Fin 2, win5_6.index t a * S5000x1.size a ≤ (i a).val ∧ (i a).val < win5_6.index t a * S5000x1.size a + S5000x1.size a := by
  show i ∈ ((View.whole main_v204_0).slice (win5_6.rect t)).set ↔ _
  rw [View.set_slice_whole, Rect.mem_set_unit]
  exact Iff.rfl

/-- After the region the first output array is the column of scores Σₖ h(p,k)·w(0,k) + c(0,0) of the arrays the region found. -/
theorem final5_6 (c : Dev nD) :
    (dat5 V c).arrAt 6 cfg5.N = Cert.Spec.scores (R := 50000) (V c (Pipeline.arrRef spec5 0)) (V c (Pipeline.arrRef spec5 1)) (V c (Pipeline.arrRef spec5 2)) :=
  (dat5 V c).arrAt_eq_of_cover 6 _ (fun t _ => flushed_eq6 V c t) fun (i : S50000x1.Idx) => by
    have hi0 : (i 0).val < 50000 := (i 0).isLt
    have hi1 : (i 1).val < 1 := (i 1).isLt
    have hN : cfg5.N = 10 := N_5
    have ht : (i 0).val / 5000 < cfg5.N := by rw [hN]; omega
    obtain ⟨e0, e1⟩ := idx_row6 ⟨(i 0).val / 5000, ht⟩
    have e0' : win5_6.index ⟨(i 0).val / 5000, ht⟩ (0 : Fin 2) = (i 0).val / 5000 := e0
    refine ⟨⟨(i 0).val / 5000, ht⟩, flush5_6 _, ?_⟩
    rw [mem_blk6]
    intro a
    match a with
    | ⟨0, _⟩ =>
      show win5_6.index ⟨(i 0).val / 5000, ht⟩ (0 : Fin 2) * 5000 ≤ (i 0).val ∧ (i 0).val < win5_6.index ⟨(i 0).val / 5000, ht⟩ (0 : Fin 2) * 5000 + 5000
      omega
    | ⟨1, _⟩ =>
      show win5_6.index ⟨(i 0).val / 5000, ht⟩ (1 : Fin 2) * 1 ≤ (i 1).val ∧ (i 1).val < win5_6.index ⟨(i 0).val / 5000, ht⟩ (1 : Fin 2) * 1 + 1
      omega

end Cert.KernelIdeal.KTr5

end
-- ==== Proof.KTrHself5.lean ====
/-
  The layer transform region's second output, the self projection, from blocks to the array. The body stores h·W + b of
  its block of h, and an entry at row p reads h through row p alone, so what point t writes back is block t of the self
  projection of the whole array h. The ten blocks of 5000 rows cover the 50000 rows (row r lies in block r / 5000).
-/
import proofs.«108119_j38019050504554_2_alg».proof.Proof.Gen.KernelIdeal.Frame
import proofs.«108119_j38019050504554_2_alg».proof.Proof.KTrPay5
import proofs.«108119_j38019050504554_2_alg».proof.Proof.KTrRows
import proofs.«108119_j38019050504554_2_alg».proof.Proof.KTrBlk5
import Idealize.ShloMosaic.Lib.Pipeline.Value
import Idealize.ShloMosaic.Lib.ValueIdx

set_option maxRecDepth 16384

noncomputable section

namespace Cert.KernelIdeal.KTr5

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- What point t writes back to this output is block t of the result over the whole arrays. -/
theorem flushed_eq7 (c : Dev nD) (t : Fin cfg5.N) :
    (dat5 V c).flushed 7 t = ((cfg5.win 7).blk t).view.read (Elt Ideal)
      (Cert.Spec.hself (R := 50000) (V c (Pipeline.arrRef spec5 0)) (V c (Pipeline.arrRef spec5 3)) (V c (Pipeline.arrRef spec5 4))) := by
  show (cfg5.win 7).cut (grid5.coords t) ((dat5 V c).after 7 t) = _
  rw [after5_7]
  unfold out5_7
  rw [View.canon_unit_zero hz]
  simp only [View.ld_unit_zero (S := S5000x128) hz, View.ld_unit_zero (S := S128x128) hz, View.ld_unit_zero (S := S1x128) hz]
  rw [hself_pay_eq]
  obtain ⟨e0, e1⟩ := idx_row7 t
  funext j
  rw [View.read_apply]
  show Cert.Spec.hself (R := 5000) (iblk5 V c 0 t) (iblk5 V c 3 t) (iblk5 V c 4 t) ((cfg5.win 7).xinj (grid5.coords t) j)
     = Cert.Spec.hself (R := 50000) (V c (Pipeline.arrRef spec5 0)) (V c (Pipeline.arrRef spec5 3)) (V c (Pipeline.arrRef spec5 4)) (((cfg5.win 7).blk t).view.emb j)
  refine Cert.Spec.hself_rows _ _ _ _ _ _ _ _ ?_ ?_ (blk_w V c t) (blk_b V c t)
  · show win5_7.index t (1 : Fin 2) * 128 + 1 * (j 1).val = (j 1).val
    omega
  · intro k
    refine blk_h V c t _ _ ?_ rfl
    show win5_7.index t (0 : Fin 2) * 5000 + 1 * (j 0).val = t.val * 5000 + (j 0).val
    omega

/-- An index of the array is in point t's block iff each coordinate is in the block's range on its axis. -/
theorem mem_blk7 (t : Fin cfg5.N) (i : S50000x128.Idx) :
    i ∈ ((cfg5.win 7).blk t).view.set ↔ ∀ a : Fin 2, win5_7.index t a * S5000x128.size a ≤ (i a).val ∧ (i a).val < win5_7.index t a * S5000x128.size a + S5000x128.size a := by
  show i ∈ ((View.whole main_v204_1).slice (win5_7.rect t)).set ↔ _
  rw [View.set_slice_whole, Rect.mem_set_unit]
  exact Iff.rfl

/-- After the region the second output array is the self projection h·W + b of the arrays the region found. -/
theorem final5_7 (c : Dev nD) :
    (dat5 V c).arrAt 7 cfg5.N = Cert.Spec.hself (R := 50000) (V c (Pipeline.arrRef spec5 0)) (V c (Pipeline.arrRef spec5 3)) (V c (Pipeline.arrRef spec5 4)) :=
  (dat5 V c).arrAt_eq_of_cover 7 _ (fun t _ => flushed_eq7 V c t) fun (i : S50000x128.Idx) => by
    have hi0 : (i 0).val < 50000 := (i 0).isLt
    have hi1 : (i 1).val < 128 := (i 1).isLt
    have hN : cfg5.N = 10 := N_5
    have ht : (i 0).val / 5000 < cfg5.N := by rw [hN]; omega
    obtain ⟨e0, e1⟩ := idx_row7 ⟨(i 0).val / 5000, ht⟩
    have e0' : win5_7.index ⟨(i 0).val / 5000, ht⟩ (0 : Fin 2) = (i 0).val / 5000 := e0
    refine ⟨⟨(i 0).val / 5000, ht⟩, flush5_7 _, ?_⟩
    rw [mem_blk7]
    intro a
    match a with
    | ⟨0, _⟩ =>
      show win5_7.index ⟨(i 0).val / 5000, ht⟩ (0 : Fin 2) * 5000 ≤ (i 0).val ∧ (i 0).val < win5_7.index ⟨(i 0).val / 5000, ht⟩ (0 : Fin 2) * 5000 + 5000
      omega
    | ⟨1, _⟩ =>
      show win5_7.index ⟨(i 0).val / 5000, ht⟩ (1 : Fin 2) * 128 ≤ (i 1).val ∧ (i 1).val < win5_7.index ⟨(i 0).val / 5000, ht⟩ (1 : Fin 2) * 128 + 128
      omega

end Cert.KernelIdeal.KTr5

end
-- ==== Proof.KTrTable5.lean ====
/-
  The layer transform region's third output, the 256-column edge table, from blocks to the array. The body stores h·T of
  its block of h, and an entry at row p reads h through row p alone, so what point t writes back is block t of the table
  of the whole array h. The ten blocks of 5000 rows cover the 50000 rows (row r lies in block r / 5000).
-/
import proofs.«108119_j38019050504554_2_alg».proof.Proof.Gen.KernelIdeal.Frame
import proofs.«108119_j38019050504554_2_alg».proof.Proof.KTrPay5
import proofs.«108119_j38019050504554_2_alg».proof.Proof.KTrRows
import proofs.«108119_j38019050504554_2_alg».proof.Proof.KTrBlk5
import Idealize.ShloMosaic.Lib.Pipeline.Value
import Idealize.ShloMosaic.Lib.ValueIdx

set_option maxRecDepth 16384

noncomputable section

namespace Cert.KernelIdeal.KTr5

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- What point t writes back to this output is block t of the result over the whole arrays. -/
theorem flushed_eq8 (c : Dev nD) (t : Fin cfg5.N) :
    (dat5 V c).flushed 8 t = ((cfg5.win 8).blk t).view.read (Elt Ideal)
      (Cert.Spec.table (R := 50000) (V c (Pipeline.arrRef spec5 0)) (V c (Pipeline.arrRef spec5 5))) := by
  show (cfg5.win 8).cut (grid5.coords t) ((dat5 V c).after 8 t) = _
  rw [after5_8]
  unfold out5_8
  rw [View.canon_unit_zero hz]
  simp only [View.ld_unit_zero (S := S5000x128) hz, View.ld_unit_zero (S := S128x256) hz]
  rw [table_pay_eq]
  obtain ⟨e0, e1⟩ := idx_row8 t
  funext j
  rw [View.read_apply]
  show Cert.Spec.table (R := 5000) (iblk5 V c 0 t) (iblk5 V c 5 t) ((cfg5.win 8).xinj (grid5.coords t) j)
     = Cert.Spec.table (R := 50000) (V c (Pipeline.arrRef spec5 0)) (V c (Pipeline.arrRef spec5 5)) (((cfg5.win 8).blk t).view.emb j)
  refine Cert.Spec.table_rows _ _ _ _ _ _ ?_ ?_ (blk_t V c t)
  · show win5_8.index t (1 : Fin 2) * 256 + 1 * (j 1).val = (j 1).val
    omega
  · intro k
    refine blk_h V c t _ _ ?_ rfl
    show win5_8.index t (0 : Fin 2) * 5000 + 1 * (j 0).val = t.val * 5000 + (j 0).val
    omega

/-- An index of the array is in point t's block iff each coordinate is in the block's range on its axis. -/
theorem mem_blk8 (t : Fin cfg5.N) (i : S50000x256.Idx) :
    i ∈ ((cfg5.win 8).blk t).view.set ↔ ∀ a : Fin 2, win5_8.index t a * S5000x256.size a ≤ (i a).val ∧ (i a).val < win5_8.index t a * S5000x256.size a + S5000x256.size a := by
  show i ∈ ((View.whole main_v204_2).slice (win5_8.rect t)).set ↔ _
  rw [View.set_slice_whole, Rect.mem_set_unit]
  exact Iff.rfl

/-- After the region the third output array is the edge table h·T of the arrays the region found. -/
theorem final5_8 (c : Dev nD) :
    (dat5 V c).arrAt 8 cfg5.N = Cert.Spec.table (R := 50000) (V c (Pipeline.arrRef spec5 0)) (V c (Pipeline.arrRef spec5 5)) :=
  (dat5 V c).arrAt_eq_of_cover 8 _ (fun t _ => flushed_eq8 V c t) fun (i : S50000x256.Idx) => by
    have hi0 : (i 0).val < 50000 := (i 0).isLt
    have hi1 : (i 1).val < 256 := (i 1).isLt
    have hN : cfg5.N = 10 := N_5
    have ht : (i 0).val / 5000 < cfg5.N := by rw [hN]; omega
    obtain ⟨e0, e1⟩ := idx_row8 ⟨(i 0).val / 5000, ht⟩
    have e0' : win5_8.index ⟨(i 0).val / 5000, ht⟩ (0 : Fin 2) = (i 0).val / 5000 := e0
    refine ⟨⟨(i 0).val / 5000, ht⟩, flush5_8 _, ?_⟩
    rw [mem_blk8]
    intro a
    match a with
    | ⟨0, _⟩ =>
      show win5_8.index ⟨(i 0).val / 5000, ht⟩ (0 : Fin 2) * 5000 ≤ (i 0).val ∧ (i 0).val < win5_8.index ⟨(i 0).val / 5000, ht⟩ (0 : Fin 2) * 5000 + 5000
      omega
    | ⟨1, _⟩ =>
      show win5_8.index ⟨(i 0).val / 5000, ht⟩ (1 : Fin 2) * 256 ≤ (i 1).val ∧ (i 1).val < win5_8.index ⟨(i 0).val / 5000, ht⟩ (1 : Fin 2) * 256 + 256
      omega

end Cert.KernelIdeal.KTr5

end
-- ==== Proof.KTrArr5.lean ====
/-
  The layer transform region's three output arrays after the region, gathered: the column of scores, the self projection
  and the edge table of the arrays the region found (final5_6, final5_7, final5_8).
-/
import proofs.«108119_j38019050504554_2_alg».proof.Proof.KTrScores5
import proofs.«108119_j38019050504554_2_alg».proof.Proof.KTrHself5
import proofs.«108119_j38019050504554_2_alg».proof.Proof.KTrTable5
-- ==== Proof.KCoCombineChain.lean ====
/-
  The combine step on a block of rows, entry by entry over the extended reals.

  For a block of R rows the step computes z = a·W + g + b, then for every row: the mean μ of the row (the lane sum
  of the row divided by 128), the centred row d = z − μ, the mean v of d·d, and
  max (d · rsqrt (v + ε) · γ + β) 0 + e.  The vector program computes μ and v once per row as R×1 columns and spreads
  each column back over the 128 lanes; read at an entry (p, q) the column made from a lane sum is the sum of row p,
  and the spread column is its entry (p, 0), so the whole chain at (p, q) is the specification's value at (p, q).
  Everything is stated for any number of rows R, so nothing here depends on the size of a block.

  The last lemma says that the value at row p uses only row p of the three row-shaped operands: that is what lets
  a block of rows of the whole arrays be computed from the block alone.
-/
import proofs.«108119_j38019050504554_2_alg».proof.Proof.KSpec
import proofs.«108119_j38019050504554_2_alg».proof.Proof.LibPlainDot
import proofs.«108119_j38019050504554_2_alg».proof.Proof.LibColumn
import proofs.«108119_j38019050504554_2_alg».proof.Proof.LibRowOps
import Idealize.ShloMosaic.PureOps.Ideal.Laws
import Idealize.ShloMosaic.Lib.ValueIdx
import Idealize.ShloMosaic.Lib.ValueLayout
import Idealize.ShloMosaic.Lib.Pipeline.Value

noncomputable section

namespace Cert.KCo

open Idealize.ShloMosaic Idealize.ShloMosaic.ValueIdx
open scoped BigOperators

variable {R : ℕ}

/-- The pointwise reciprocal square root read at an entry. -/
theorem rsqrt_apply {s : Shape} {φ : FTy} (x : FVec Ideal s φ) (i : s.Idx) : rsqrt x i = Ideal.rsqrt (x i) := rfl

/-- The pre-normalisation block z = a·W + g + b: the product into a zero accumulator, the carried block added entry by
    entry, the bias row added to every row. -/
def zblock (d : DotDims ⟨2, ![R, 128]⟩ ⟨2, ![128, 128]⟩ ⟨2, ![R, 128]⟩) (hb : FTy.bits .bf16 < FTy.bits .f32)
    (hA : (⟨2, ![R, 128]⟩ : Shape).ShapeCasts ⟨2, ![R, 128]⟩) (hW : (⟨2, ![128, 128]⟩ : Shape).ShapeCasts ⟨2, ![128, 128]⟩)
    (hB : (⟨2, ![1, 128]⟩ : Shape).ShapeCasts ⟨2, ![1, 128]⟩) (hbc : (⟨2, ![1, 128]⟩ : Shape).Broadcasts ⟨2, ![R, 128]⟩)
    (a g : FVec Ideal ⟨2, ![R, 128]⟩ .f32) (w : FVec Ideal ⟨2, ![128, 128]⟩ .f32) (b : FVec Ideal ⟨2, ![1, 128]⟩ .f32) :
    FVec Ideal ⟨2, ![R, 128]⟩ .f32 :=
  addf (addf (matmul d none (truncf .bf16 (shapeCast ⟨2, ![R, 128]⟩ a hA) hb) (truncf .bf16 (shapeCast ⟨2, ![128, 128]⟩ w hW) hb)
        (constant ⟨2, ![R, 128]⟩ .f32 0x00000000#32)) (shapeCast ⟨2, ![R, 128]⟩ g hA))
      (broadcastTo ⟨2, ![R, 128]⟩ (shapeCast ⟨2, ![1, 128]⟩ b hB) hbc)

/-- Entry (p,q) of z: the sum over the 128 shared coordinates, plus the carried entry, plus the bias at column q. -/
theorem zblock_apply (d : DotDims ⟨2, ![R, 128]⟩ ⟨2, ![128, 128]⟩ ⟨2, ![R, 128]⟩) (hd : d = DotDims.plain R 128 128)
    (hb : FTy.bits .bf16 < FTy.bits .f32)
    (hA : (⟨2, ![R, 128]⟩ : Shape).ShapeCasts ⟨2, ![R, 128]⟩) (hW : (⟨2, ![128, 128]⟩ : Shape).ShapeCasts ⟨2, ![128, 128]⟩)
    (hB : (⟨2, ![1, 128]⟩ : Shape).ShapeCasts ⟨2, ![1, 128]⟩) (hbc : (⟨2, ![1, 128]⟩ : Shape).Broadcasts ⟨2, ![R, 128]⟩)
    (a g : FVec Ideal ⟨2, ![R, 128]⟩ .f32) (w : FVec Ideal ⟨2, ![128, 128]⟩ .f32) (b : FVec Ideal ⟨2, ![1, 128]⟩ .f32)
    (p : Fin R) (q : Fin 128) :
    zblock d hb hA hW hB hbc a g w b (ix2 p q) = Cert.Spec.zE a w g b p q := by
  unfold zblock
  rw [addf_apply, addf_apply, broadcastTo_1b_ab_apply, shapeCast_self, shapeCast_self, shapeCast_self, shapeCast_self]
  exact congrArg (fun x => x + g (ix2 p q) + b (ix2 0 q))
    (Cert.LibPlainDot.matmul_zero_apply d hd none (truncf .bf16 a hb) (truncf .bf16 w hb) p q)

/-- The row means of a block as an R×1 column: the lane row sums, stood up as a column, divided by the word of 128. -/
def meanCol (X : FVec Ideal ⟨2, ![R, 128]⟩ .f32) (acc : BitVec (FTy.bits .f32))
    (hred : (⟨2, ![R, 128]⟩ : Shape).Reduces [1] ⟨1, ![R]⟩) (hφ : FKind.Formats .f32) (hacc : acc = FKind.add.neutral .f32 hφ)
    (hcol : (⟨1, ![R]⟩ : Shape).ShapeCasts ⟨2, ![R, 1]⟩) : FVec Ideal ⟨2, ![R, 1]⟩ .f32 :=
  divf (shapeCast ⟨2, ![R, 1]⟩ (multiReduction .add [1] ⟨1, ![R]⟩ X acc hred hφ hacc) hcol)
    (broadcast ⟨2, ![R, 1]⟩ (Scalar.ofBits .f32 0x43000000#32))

/-- Row p of that column is the mean of row p. -/
theorem meanCol_apply (X : FVec Ideal ⟨2, ![R, 128]⟩ .f32) (acc : BitVec (FTy.bits .f32))
    (hred : (⟨2, ![R, 128]⟩ : Shape).Reduces [1] ⟨1, ![R]⟩) (hφ : FKind.Formats .f32) (hacc : acc = FKind.add.neutral .f32 hφ)
    (hcol : (⟨1, ![R]⟩ : Shape).ShapeCasts ⟨2, ![R, 1]⟩) (p : Fin R) :
    meanCol X acc hred hφ hacc hcol (ix2 p (0 : Fin 1)) = Cert.Spec.mean128 (fun k => X (ix2 p k)) := by
  unfold meanCol
  rw [divf_apply, broadcast_apply, Cert.LibColumn.shapeCast_a_a1_apply, Cert.LibRowOps.rowSum_apply]
  rfl

/-- A block with each row's mean taken off every entry of the row. -/
def centred (X : FVec Ideal ⟨2, ![R, 128]⟩ .f32) (acc : BitVec (FTy.bits .f32))
    (hred : (⟨2, ![R, 128]⟩ : Shape).Reduces [1] ⟨1, ![R]⟩) (hφ : FKind.Formats .f32) (hacc : acc = FKind.add.neutral .f32 hφ)
    (hcol : (⟨1, ![R]⟩ : Shape).ShapeCasts ⟨2, ![R, 1]⟩) (hcb : (⟨2, ![R, 1]⟩ : Shape).Broadcasts ⟨2, ![R, 128]⟩) :
    FVec Ideal ⟨2, ![R, 128]⟩ .f32 :=
  subf X (broadcastTo ⟨2, ![R, 128]⟩ (meanCol X acc hred hφ hacc hcol) hcb)

/-- Entry (p,q) of the centred block: the entry minus the mean of its row. -/
theorem centred_apply (X : FVec Ideal ⟨2, ![R, 128]⟩ .f32) (acc : BitVec (FTy.bits .f32))
    (hred : (⟨2, ![R, 128]⟩ : Shape).Reduces [1] ⟨1, ![R]⟩) (hφ : FKind.Formats .f32) (hacc : acc = FKind.add.neutral .f32 hφ)
    (hcol : (⟨1, ![R]⟩ : Shape).ShapeCasts ⟨2, ![R, 1]⟩) (hcb : (⟨2, ![R, 1]⟩ : Shape).Broadcasts ⟨2, ![R, 128]⟩)
    (p : Fin R) (q : Fin 128) :
    centred X acc hred hφ hacc hcol hcb (ix2 p q) = X (ix2 p q) - Cert.Spec.mean128 (fun k => X (ix2 p k)) := by
  unfold centred
  rw [subf_apply, Cert.LibColumn.broadcastTo_a1_ab_apply, meanCol_apply]

/-- The normalised block: the centred block times the reciprocal square root of its rows' mean square plus the small
    word, scaled by the row γ, shifted by the row β, clipped at 0, plus the carried block. -/
def normblock (X e : FVec Ideal ⟨2, ![R, 128]⟩ .f32) (γ β : FVec Ideal ⟨2, ![1, 128]⟩ .f32) (acc : BitVec (FTy.bits .f32))
    (hred : (⟨2, ![R, 128]⟩ : Shape).Reduces [1] ⟨1, ![R]⟩) (hφ : FKind.Formats .f32) (hacc : acc = FKind.add.neutral .f32 hφ)
    (hcol : (⟨1, ![R]⟩ : Shape).ShapeCasts ⟨2, ![R, 1]⟩) (hcb : (⟨2, ![R, 1]⟩ : Shape).Broadcasts ⟨2, ![R, 128]⟩)
    (hA : (⟨2, ![R, 128]⟩ : Shape).ShapeCasts ⟨2, ![R, 128]⟩)
    (hB : (⟨2, ![1, 128]⟩ : Shape).ShapeCasts ⟨2, ![1, 128]⟩) (hbc : (⟨2, ![1, 128]⟩ : Shape).Broadcasts ⟨2, ![R, 128]⟩) :
    FVec Ideal ⟨2, ![R, 128]⟩ .f32 :=
  addf
    (maximumf
      (addf
        (mulf
          (mulf (centred X acc hred hφ hacc hcol hcb)
            (broadcastTo ⟨2, ![R, 128]⟩
              (rsqrt (addf (meanCol (mulf (centred X acc hred hφ hacc hcol hcb) (centred X acc hred hφ hacc hcol hcb)) acc hred hφ hacc hcol)
                (broadcast ⟨2, ![R, 1]⟩ (Scalar.ofBits .f32 0x3727C5AC#32)))) hcb))
          (broadcastTo ⟨2, ![R, 128]⟩ (shapeCast ⟨2, ![1, 128]⟩ γ hB) hbc))
        (broadcastTo ⟨2, ![R, 128]⟩ (shapeCast ⟨2, ![1, 128]⟩ β hB) hbc))
      (broadcast ⟨2, ![R, 128]⟩ (Scalar.ofBits .f32 0x00000000#32)))
    (shapeCast ⟨2, ![R, 128]⟩ e hA)

/-- Entry (p,q) of the normalised block is the specification's row formula at column q, for the row p of X. -/
theorem normblock_apply (X e : FVec Ideal ⟨2, ![R, 128]⟩ .f32) (γ β : FVec Ideal ⟨2, ![1, 128]⟩ .f32) (acc : BitVec (FTy.bits .f32))
    (hred : (⟨2, ![R, 128]⟩ : Shape).Reduces [1] ⟨1, ![R]⟩) (hφ : FKind.Formats .f32) (hacc : acc = FKind.add.neutral .f32 hφ)
    (hcol : (⟨1, ![R]⟩ : Shape).ShapeCasts ⟨2, ![R, 1]⟩) (hcb : (⟨2, ![R, 1]⟩ : Shape).Broadcasts ⟨2, ![R, 128]⟩)
    (hA : (⟨2, ![R, 128]⟩ : Shape).ShapeCasts ⟨2, ![R, 128]⟩)
    (hB : (⟨2, ![1, 128]⟩ : Shape).ShapeCasts ⟨2, ![1, 128]⟩) (hbc : (⟨2, ![1, 128]⟩ : Shape).Broadcasts ⟨2, ![R, 128]⟩)
    (p : Fin R) (q : Fin 128) :
    normblock X e γ β acc hred hφ hacc hcol hcb hA hB hbc (ix2 p q)
      = Cert.Spec.normE (fun k => X (ix2 p k)) (fun k => γ (ix2 0 k)) (fun k => β (ix2 0 k)) (e (ix2 p q)) q := by
  unfold normblock
  rw [addf_apply, maximumf_apply, addf_apply, mulf_apply, mulf_apply, broadcast_apply, shapeCast_self, shapeCast_self, shapeCast_self,
    broadcastTo_1b_ab_apply, broadcastTo_1b_ab_apply, Cert.LibColumn.broadcastTo_a1_ab_apply, rsqrt_apply, addf_apply, broadcast_apply,
    meanCol_apply, centred_apply]
  have hsq : (fun k => mulf (centred X acc hred hφ hacc hcol hcb) (centred X acc hred hφ hacc hcol hcb) (ix2 p k))
      = fun k => (X (ix2 p k) - Cert.Spec.mean128 (fun j => X (ix2 p j))) * (X (ix2 p k) - Cert.Spec.mean128 (fun j => X (ix2 p j))) :=
    funext fun k => by rw [mulf_apply, centred_apply]
  rw [hsq]
  unfold Cert.Spec.normE
  rw [show Scalar.ofBits (F := Ideal) .f32 0x00000000#32 = (0 : EReal) from Ideal.ofBits_zero_f32]
  rfl

/-- The whole combine step on a block of R rows, entry by entry. -/
theorem combineChain_apply (d : DotDims ⟨2, ![R, 128]⟩ ⟨2, ![128, 128]⟩ ⟨2, ![R, 128]⟩) (hd : d = DotDims.plain R 128 128)
    (hb : FTy.bits .bf16 < FTy.bits .f32)
    (hA : (⟨2, ![R, 128]⟩ : Shape).ShapeCasts ⟨2, ![R, 128]⟩) (hW : (⟨2, ![128, 128]⟩ : Shape).ShapeCasts ⟨2, ![128, 128]⟩)
    (hB : (⟨2, ![1, 128]⟩ : Shape).ShapeCasts ⟨2, ![1, 128]⟩) (hbc : (⟨2, ![1, 128]⟩ : Shape).Broadcasts ⟨2, ![R, 128]⟩)
    (acc : BitVec (FTy.bits .f32))
    (hred : (⟨2, ![R, 128]⟩ : Shape).Reduces [1] ⟨1, ![R]⟩) (hφ : FKind.Formats .f32) (hacc : acc = FKind.add.neutral .f32 hφ)
    (hcol : (⟨1, ![R]⟩ : Shape).ShapeCasts ⟨2, ![R, 1]⟩) (hcb : (⟨2, ![R, 1]⟩ : Shape).Broadcasts ⟨2, ![R, 128]⟩)
    (a g e : FVec Ideal ⟨2, ![R, 128]⟩ .f32) (w : FVec Ideal ⟨2, ![128, 128]⟩ .f32) (b γ β : FVec Ideal ⟨2, ![1, 128]⟩ .f32)
    (p : Fin R) (q : Fin 128) :
    normblock (zblock d hb hA hW hB hbc a g w b) e γ β acc hred hφ hacc hcol hcb hA hB hbc (ix2 p q)
      = Cert.Spec.combine a g e w b γ β (ix2 p q) := by
  rw [normblock_apply]
  have hz : (fun k => zblock d hb hA hW hB hbc a g w b (ix2 p k)) = fun k => Cert.Spec.zE a w g b p k :=
    funext fun k => zblock_apply d hd hb hA hW hB hbc a g w b p k
  rw [hz]
  rfl

/-- The combine step at row p uses only row p of a, g and e: if two triples of row-shaped operands (possibly with
    different numbers of rows) agree on one row each, the results agree on that row. -/
theorem combine_row {R' : ℕ} (a g e : FVec Ideal ⟨2, ![R, 128]⟩ .f32) (a' g' e' : FVec Ideal ⟨2, ![R', 128]⟩ .f32)
    (w : FVec Ideal ⟨2, ![128, 128]⟩ .f32) (b γ β : FVec Ideal ⟨2, ![1, 128]⟩ .f32) (p : Fin R) (p' : Fin R')
    (ha : ∀ k : Fin 128, a (ix2 p k) = a' (ix2 p' k)) (hg : ∀ k : Fin 128, g (ix2 p k) = g' (ix2 p' k))
    (he : ∀ k : Fin 128, e (ix2 p k) = e' (ix2 p' k)) (q : Fin 128) :
    Cert.Spec.combine a g e w b γ β (ix2 p q) = Cert.Spec.combine a' g' e' w b γ β (ix2 p' q) := by
  have hd : ∀ k : Fin 128, Cert.Spec.dotE a w p k = Cert.Spec.dotE a' w p' k := fun k => by
    unfold Cert.Spec.dotE
    exact Finset.sum_congr rfl fun j _ => by rw [ha j]
  have hz : (fun k => Cert.Spec.zE a w g b p k) = fun k => Cert.Spec.zE a' w g' b p' k := funext fun k => by
    unfold Cert.Spec.zE
    rw [hd k, hg k]
  show Cert.Spec.normE (fun k => Cert.Spec.zE a w g b p k) (fun k => γ (ix2 0 k)) (fun k => β (ix2 0 k)) (e (ix2 p q)) q
      = Cert.Spec.normE (fun k => Cert.Spec.zE a' w g' b p' k) (fun k => γ (ix2 0 k)) (fun k => β (ix2 0 k)) (e' (ix2 p' q)) q
  rw [hz, he q]

end Cert.KCo

end
-- ==== Proof.KCoCombinePay.lean ====
/-
  What the combine kernel stores, entry by entry.

  The kernel's body loads a block of 5000 rows of a, g and e, the whole weight matrix and the three rows b, γ, β, and
  stores one block: max (d · rsqrt (v + ε) · γ + β) 0 + e with z = a·W + g + b, d = z − mean z, v = mean (d·d),
  each mean taken along a row of 128 entries.  The stored value is, operation by operation, the chain of vector
  operations whose value at an entry was computed for any number of rows; so entry (p,q) of the stored block is the
  specification's combine step of the loaded blocks at (p,q).  The three regions that run this kernel differ only in
  their index, and the same statement holds for each.
-/
import proofs.«108119_j38019050504554_2_alg».proof.Proof.Gen.KernelIdeal.Skeleton
import proofs.«108119_j38019050504554_2_alg».proof.Proof.KCoCombineChain

noncomputable section

namespace Cert.KCo

open Cert.KernelIdeal Cert.KernelIdeal.Gen Idealize.ShloMosaic Idealize.ShloMosaic.ValueIdx

/-- The offsets of a whole-buffer access are zero on both axes. -/
theorem zero_offsets : (![0, 0] : Fin 2 → Nat) = fun _ => 0 := funext fun a => by fin_cases a <;> rfl

/-- The combine step at one row of a block against one row of the whole arrays: the row-shaped operands agree on the
    row, the weight matrix and the three rows b, γ, β are the same arrays. -/
theorem combine_row_congr {R R' : ℕ} (a g e : FVec Ideal ⟨2, ![R, 128]⟩ .f32) (a' g' e' : FVec Ideal ⟨2, ![R', 128]⟩ .f32)
    (w w' : FVec Ideal ⟨2, ![128, 128]⟩ .f32) (b b' γ γ' β β' : FVec Ideal ⟨2, ![1, 128]⟩ .f32)
    (hw : w = w') (hb : b = b') (hγ : γ = γ') (hβ : β = β') (p : Fin R) (p' : Fin R')
    (ha : ∀ k : Fin 128, a (ix2 p k) = a' (ix2 p' k)) (hg : ∀ k : Fin 128, g (ix2 p k) = g' (ix2 p' k))
    (he : ∀ k : Fin 128, e (ix2 p k) = e' (ix2 p' k)) (q : Fin 128) :
    Cert.Spec.combine a g e w b γ β (ix2 p q) = Cert.Spec.combine a' g' e' w' b' γ' β' (ix2 p' q) := by
  subst hw hb hγ hβ
  exact combine_row a g e a' g' e' w b γ β p p' ha hg he q

/-- The product's dimension record is the plain one: rows of the left operand against columns of the right. -/
theorem plain_dims : dot_S5000x128_S128x128_S5000x128_1_0_0_1_n_n = DotDims.plain 5000 128 128 := rfl

/-- The two payloads of the store of region 2's kernel, composed, are literally the normalised block of the
    pre-normalisation block: the same operations in the same order. -/
theorem k2_pay_eq (v0 v7 v40 : Vec Ideal S5000x128 .f32) (v3 : Vec Ideal S128x128 .f32) (v10 v30 v34 : Vec Ideal S1x128 .f32) :
    k2_pay1 (k2_pay2 v0 v3 v7 v10 v30 v34) v40
      = normblock (R := 5000)
          (zblock dot_S5000x128_S128x128_S5000x128_1_0_0_1_n_n bitsLt_bf16_f32 shapeCasts_S5000x128_S5000x128
            shapeCasts_S128x128_S128x128 shapeCasts_S1x128_S1x128 broadcasts_S1x128_S5000x128 v0 v7 v3 v10)
          v40 v30 v34 0x00000000#32 reduces_S5000x128_S5000 (.inl rfl) rfl shapeCasts_S5000_S5000x1 broadcasts_S5000x1_S5000x128
          shapeCasts_S5000x128_S5000x128 shapeCasts_S1x128_S1x128 broadcasts_S1x128_S5000x128 := rfl

/-- What region 2's kernel stores at entry (p,q) of its block of 5000 rows: the combine step of the loaded blocks. -/
theorem k2_pay_apply (v0 v7 v40 : Vec Ideal S5000x128 .f32) (v3 : Vec Ideal S128x128 .f32) (v10 v30 v34 : Vec Ideal S1x128 .f32)
    (p : Fin 5000) (q : Fin 128) :
    k2_pay1 (k2_pay2 v0 v3 v7 v10 v30 v34) v40 (ix2 p q) = Cert.Spec.combine v0 v7 v40 v3 v10 v30 v34 (ix2 p q) := by
  rw [k2_pay_eq]
  exact combineChain_apply (R := 5000) dot_S5000x128_S128x128_S5000x128_1_0_0_1_n_n plain_dims bitsLt_bf16_f32
    shapeCasts_S5000x128_S5000x128 shapeCasts_S128x128_S128x128 shapeCasts_S1x128_S1x128 broadcasts_S1x128_S5000x128
    0x00000000#32 reduces_S5000x128_S5000 (.inl rfl) rfl shapeCasts_S5000_S5000x1 broadcasts_S5000x1_S5000x128
    v0 v7 v40 v3 v10 v30 v34 p q

/-- The two payloads of the store of region 4's kernel, composed, are literally the normalised block of the
    pre-normalisation block: the same operations in the same order. -/
theorem k4_pay_eq (v0 v7 v40 : Vec Ideal S5000x128 .f32) (v3 : Vec Ideal S128x128 .f32) (v10 v30 v34 : Vec Ideal S1x128 .f32) :
    k4_pay1 (k4_pay2 v0 v3 v7 v10 v30 v34) v40
      = normblock (R := 5000)
          (zblock dot_S5000x128_S128x128_S5000x128_1_0_0_1_n_n bitsLt_bf16_f32 shapeCasts_S5000x128_S5000x128
            shapeCasts_S128x128_S128x128 shapeCasts_S1x128_S1x128 broadcasts_S1x128_S5000x128 v0 v7 v3 v10)
          v40 v30 v34 0x00000000#32 reduces_S5000x128_S5000 (.inl rfl) rfl shapeCasts_S5000_S5000x1 broadcasts_S5000x1_S5000x128
          shapeCasts_S5000x128_S5000x128 shapeCasts_S1x128_S1x128 broadcasts_S1x128_S5000x128 := rfl

/-- What region 4's kernel stores at entry (p,q) of its block of 5000 rows: the combine step of the loaded blocks. -/
theorem k4_pay_apply (v0 v7 v40 : Vec Ideal S5000x128 .f32) (v3 : Vec Ideal S128x128 .f32) (v10 v30 v34 : Vec Ideal S1x128 .f32)
    (p : Fin 5000) (q : Fin 128) :
    k4_pay1 (k4_pay2 v0 v3 v7 v10 v30 v34) v40 (ix2 p q) = Cert.Spec.combine v0 v7 v40 v3 v10 v30 v34 (ix2 p q) := by
  rw [k4_pay_eq]
  exact combineChain_apply (R := 5000) dot_S5000x128_S128x128_S5000x128_1_0_0_1_n_n plain_dims bitsLt_bf16_f32
    shapeCasts_S5000x128_S5000x128 shapeCasts_S128x128_S128x128 shapeCasts_S1x128_S1x128 broadcasts_S1x128_S5000x128
    0x00000000#32 reduces_S5000x128_S5000 (.inl rfl) rfl shapeCasts_S5000_S5000x1 broadcasts_S5000x1_S5000x128
    v0 v7 v40 v3 v10 v30 v34 p q

/-- The two payloads of the store of region 6's kernel, composed, are literally the normalised block of the
    pre-normalisation block: the same operations in the same order. -/
theorem k6_pay_eq (v0 v7 v40 : Vec Ideal S5000x128 .f32) (v3 : Vec Ideal S128x128 .f32) (v10 v30 v34 : Vec Ideal S1x128 .f32) :
    k6_pay1 (k6_pay2 v0 v3 v7 v10 v30 v34) v40
      = normblock (R := 5000)
          (zblock dot_S5000x128_S128x128_S5000x128_1_0_0_1_n_n bitsLt_bf16_f32 shapeCasts_S5000x128_S5000x128
            shapeCasts_S128x128_S128x128 shapeCasts_S1x128_S1x128 broadcasts_S1x128_S5000x128 v0 v7 v3 v10)
          v40 v30 v34 0x00000000#32 reduces_S5000x128_S5000 (.inl rfl) rfl shapeCasts_S5000_S5000x1 broadcasts_S5000x1_S5000x128
          shapeCasts_S5000x128_S5000x128 shapeCasts_S1x128_S1x128 broadcasts_S1x128_S5000x128 := rfl

/-- What region 6's kernel stores at entry (p,q) of its block of 5000 rows: the combine step of the loaded blocks. -/
theorem k6_pay_apply (v0 v7 v40 : Vec Ideal S5000x128 .f32) (v3 : Vec Ideal S128x128 .f32) (v10 v30 v34 : Vec Ideal S1x128 .f32)
    (p : Fin 5000) (q : Fin 128) :
    k6_pay1 (k6_pay2 v0 v3 v7 v10 v30 v34) v40 (ix2 p q) = Cert.Spec.combine v0 v7 v40 v3 v10 v30 v34 (ix2 p q) := by
  rw [k6_pay_eq]
  exact combineChain_apply (R := 5000) dot_S5000x128_S128x128_S5000x128_1_0_0_1_n_n plain_dims bitsLt_bf16_f32
    shapeCasts_S5000x128_S5000x128 shapeCasts_S128x128_S128x128 shapeCasts_S1x128_S1x128 broadcasts_S1x128_S5000x128
    0x00000000#32 reduces_S5000x128_S5000 (.inl rfl) rfl shapeCasts_S5000_S5000x1 broadcasts_S5000x1_S5000x128
    v0 v7 v40 v3 v10 v30 v34 p q

end Cert.KCo

end
-- ==== Proof.KCoCombine2.lean ====
/-
  The combine step of region 2: the output array after the region is the combine step of the whole arrays.

  The region walks ten blocks of 5000 rows of arrays of 50000 rows.  At block t the three row-shaped operands are
  read at rows 5000·t … 5000·t + 4999, the weight matrix and the three rows b, γ, β are read whole, and the block
  written back holds rows 5000·t … 5000·t + 4999 of the result.  Entry (p,q) of what is written at block t is the
  combine step of the loaded blocks at (p,q); since the step at a row uses only that row of the row-shaped
  operands, it is the combine step of the WHOLE arrays at row 5000·t + p.  Every row r of the result lies in
  exactly the block r / 5000, so the ten written blocks cover the array and the array is the combine step of the
  whole arrays.
-/
import proofs.«108119_j38019050504554_2_alg».proof.Proof.Gen.KernelIdeal.Frame
import proofs.«108119_j38019050504554_2_alg».proof.Proof.KCoCombinePay
import Idealize.ShloMosaic.Lib.Pipeline.Value

noncomputable section

namespace Cert.KCo

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The combine step of the seven arrays region 2 reads, as it finds them. -/
abbrev G2 (c : Dev nD) : FVec Ideal S50000x128 .f32 :=
  Cert.Spec.combine (R := 50000) (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5)) (V c (Pipeline.arrRef spec2 6))

/-- The block indices at grid point t, decided over the ten points: the row-shaped windows (0, 1, 2 and the output 7)
    are at block row t, column block 0; the whole-array windows (3, 4, 5, 6) stay at block (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Row p of a row-shaped input block at point t is row 5000·t + p of its array. -/
theorem iblk2_0_apply (c : Dev nD) (t : Fin cfg2.N) (p : Fin 5000) (k : Fin 128) (P : Fin 50000) (hP : P.val = 5000 * t.val + p.val) :
    (iblk2 V c 0 t : Vec Ideal S5000x128 .f32) (ix2 p k) = (V c (Pipeline.arrRef spec2 0) : FVec Ideal S50000x128 .f32) (ix2 P k) := by
  obtain ⟨e0, e1, -⟩ := idx2 t
  show V c (Pipeline.arrRef spec2 0) (((cfg2.win 0).blk t).view.emb (ix2 p k)) = _
  refine congrArg _ ?_
  funext a; apply Fin.ext
  match a with
  | ⟨0, _⟩ => show win2_0.index t (0 : Fin 2) * 5000 + 1 * p.val = P.val; rw [e0, hP]; omega
  | ⟨1, _⟩ => show win2_0.index t (1 : Fin 2) * 128 + 1 * k.val = k.val; rw [e1]; omega

theorem iblk2_1_apply (c : Dev nD) (t : Fin cfg2.N) (p : Fin 5000) (k : Fin 128) (P : Fin 50000) (hP : P.val = 5000 * t.val + p.val) :
    (iblk2 V c 1 t : Vec Ideal S5000x128 .f32) (ix2 p k) = (V c (Pipeline.arrRef spec2 1) : FVec Ideal S50000x128 .f32) (ix2 P k) := by
  obtain ⟨-, -, e0, e1, -⟩ := idx2 t
  show V c (Pipeline.arrRef spec2 1) (((cfg2.win 1).blk t).view.emb (ix2 p k)) = _
  refine congrArg _ ?_
  funext a; apply Fin.ext
  match a with
  | ⟨0, _⟩ => show win2_1.index t (0 : Fin 2) * 5000 + 1 * p.val = P.val; rw [e0, hP]; omega
  | ⟨1, _⟩ => show win2_1.index t (1 : Fin 2) * 128 + 1 * k.val = k.val; rw [e1]; omega

theorem iblk2_2_apply (c : Dev nD) (t : Fin cfg2.N) (p : Fin 5000) (k : Fin 128) (P : Fin 50000) (hP : P.val = 5000 * t.val + p.val) :
    (iblk2 V c 2 t : Vec Ideal S5000x128 .f32) (ix2 p k) = (V c (Pipeline.arrRef spec2 2) : FVec Ideal S50000x128 .f32) (ix2 P k) := by
  obtain ⟨-, -, -, -, e0, e1, -⟩ := idx2 t
  show V c (Pipeline.arrRef spec2 2) (((cfg2.win 2).blk t).view.emb (ix2 p k)) = _
  refine congrArg _ ?_
  funext a; apply Fin.ext
  match a with
  | ⟨0, _⟩ => show win2_2.index t (0 : Fin 2) * 5000 + 1 * p.val = P.val; rw [e0, hP]; omega
  | ⟨1, _⟩ => show win2_2.index t (1 : Fin 2) * 128 + 1 * k.val = k.val; rw [e1]; omega

/-- A whole-array window's block at any point is its array. -/
theorem iblk2_3_eq (c : Dev nD) (t : Fin cfg2.N) :
    (iblk2 V c 3 t : Vec Ideal S128x128 .f32) = (V c (Pipeline.arrRef spec2 3) : FVec Ideal S128x128 .f32) := by
  obtain ⟨-, -, -, -, -, -, e0, e1, -⟩ := idx2 t
  funext y
  show V c (Pipeline.arrRef spec2 3) (((cfg2.win 3).blk t).view.emb y) = V c (Pipeline.arrRef spec2 3) y
  refine congrArg _ ?_
  funext a; apply Fin.ext
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

theorem iblk2_4_eq (c : Dev nD) (t : Fin cfg2.N) :
    (iblk2 V c 4 t : Vec Ideal S1x128 .f32) = (V c (Pipeline.arrRef spec2 4) : FVec Ideal S1x128 .f32) := by
  obtain ⟨-, -, -, -, -, -, -, -, e0, e1, -⟩ := idx2 t
  funext y
  show V c (Pipeline.arrRef spec2 4) (((cfg2.win 4).blk t).view.emb y) = V c (Pipeline.arrRef spec2 4) y
  refine congrArg _ ?_
  funext a; apply Fin.ext
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

theorem iblk2_5_eq (c : Dev nD) (t : Fin cfg2.N) :
    (iblk2 V c 5 t : Vec Ideal S1x128 .f32) = (V c (Pipeline.arrRef spec2 5) : FVec Ideal S1x128 .f32) := by
  obtain ⟨-, -, -, -, -, -, -, -, -, -, e0, e1, -⟩ := idx2 t
  funext y
  show V c (Pipeline.arrRef spec2 5) (((cfg2.win 5).blk t).view.emb y) = V c (Pipeline.arrRef spec2 5) y
  refine congrArg _ ?_
  funext a; apply Fin.ext
  match a with
  | ⟨0, _⟩ => show win2_5.index t (0 : Fin 2) * 1 + 1 * (y 0).val = (y 0).val; rw [e0]; omega
  | ⟨1, _⟩ => show win2_5.index t (1 : Fin 2) * 128 + 1 * (y 1).val = (y 1).val; rw [e1]; omega

theorem iblk2_6_eq (c : Dev nD) (t : Fin cfg2.N) :
    (iblk2 V c 6 t : Vec Ideal S1x128 .f32) = (V c (Pipeline.arrRef spec2 6) : FVec Ideal S1x128 .f32) := by
  obtain ⟨-, -, -, -, -, -, -, -, -, -, -, -, e0, e1, -⟩ := idx2 t
  funext y
  show V c (Pipeline.arrRef spec2 6) (((cfg2.win 6).blk t).view.emb y) = V c (Pipeline.arrRef spec2 6) y
  refine congrArg _ ?_
  funext a; apply Fin.ext
  match a with
  | ⟨0, _⟩ => show win2_6.index t (0 : Fin 2) * 1 + 1 * (y 0).val = (y 0).val; rw [e0]; omega
  | ⟨1, _⟩ => show win2_6.index t (1 : Fin 2) * 128 + 1 * (y 1).val = (y 1).val; rw [e1]; omega

/-- Entry (p,q) of what the body computes from the blocks at point t is the combine step of the whole arrays at the
    entry of the output array that (p,q) of block t is written to. -/
theorem entry2 (c : Dev nD) (t : Fin cfg2.N) (p : Fin 5000) (q : Fin 128) :
    k2_pay1 (k2_pay2 (iblk2 V c 0 t) (iblk2 V c 3 t) (iblk2 V c 1 t) (iblk2 V c 4 t) (iblk2 V c 5 t) (iblk2 V c 6 t)) (iblk2 V c 2 t) (ix2 p q)
      = G2 V c (((cfg2.win 7).blk t).view.emb (ix2 p q)) := by
  have ht : t.val < 10 := lt_of_lt_of_eq t.isLt (N_2 : cfg2.N = 10)
  have hp : 5000 * t.val + p.val < 50000 := by have := p.isLt; omega
  have hemb : ((cfg2.win 7).blk t).view.emb (ix2 p q) = ix2 (⟨5000 * t.val + p.val, hp⟩ : Fin 50000) q := by
    obtain ⟨-, -, -, -, -, -, -, -, -, -, -, -, -, -, e0, e1⟩ := idx2 t
    funext a; apply Fin.ext
    match a with
    | ⟨0, _⟩ => show win2_7.index t (0 : Fin 2) * 5000 + 1 * p.val = 5000 * t.val + p.val; rw [e0]; omega
    | ⟨1, _⟩ => show win2_7.index t (1 : Fin 2) * 128 + 1 * q.val = q.val; rw [e1]; omega
  rw [hemb]
  refine (k2_pay_apply (iblk2 V c 0 t) (iblk2 V c 1 t) (iblk2 V c 2 t) (iblk2 V c 3 t) (iblk2 V c 4 t) (iblk2 V c 5 t) (iblk2 V c 6 t) p q).trans ?_
  exact combine_row_congr (iblk2 V c 0 t) (iblk2 V c 1 t) (iblk2 V c 2 t)
    (V c (Pipeline.arrRef spec2 0)) (V c (Pipeline.arrRef spec2 1)) (V c (Pipeline.arrRef spec2 2))
    (iblk2 V c 3 t) (V c (Pipeline.arrRef spec2 3)) (iblk2 V c 4 t) (V c (Pipeline.arrRef spec2 4))
    (iblk2 V c 5 t) (V c (Pipeline.arrRef spec2 5)) (iblk2 V c 6 t) (V c (Pipeline.arrRef spec2 6))
    (iblk2_3_eq V c t) (iblk2_4_eq V c t) (iblk2_5_eq V c t) (iblk2_6_eq V c t) p ⟨5000 * t.val + p.val, hp⟩
    (fun k => iblk2_0_apply V c t p k _ rfl) (fun k => iblk2_1_apply V c t p k _ rfl) (fun k => iblk2_2_apply V c t p k _ rfl) q

/-- What point t writes back is block t of the combine step of the whole arrays. -/
theorem flushed2_7_eq (c : Dev nD) (t : Fin cfg2.N) :
    (dat2 V c).flushed 7 t = ((cfg2.win 7).blk t).view.read (Elt Ideal) (G2 V c) := by
  show (cfg2.win 7).cut (grid2.coords t) ((dat2 V c).after 7 t) = _
  rw [after2_7]
  unfold out2_7
  rw [View.canon_unit_zero zero_offsets]
  simp only [View.ld_unit_zero (S := S5000x128) zero_offsets, View.ld_unit_zero (S := S128x128) zero_offsets,
    View.ld_unit_zero (S := S1x128) zero_offsets]
  refine funext fun (j : S5000x128.Idx) => ?_
  obtain ⟨p, q, rfl⟩ : ∃ (p : Fin 5000) (q : Fin 128), j = ix2 p q := ⟨j 0, j 1, eq_ix2 j⟩
  exact entry2 V c t p q

/-- An index of the output array is in point t's block iff each coordinate is in the block's range on its axis. -/
theorem mem_blk2_7 (t : Fin cfg2.N) (i : S50000x128.Idx) :
    i ∈ ((cfg2.win 7).blk t).view.set ↔ ∀ a : Fin 2, win2_7.index t a * S5000x128.size a ≤ (i a).val
      ∧ (i a).val < win2_7.index t a * S5000x128.size a + S5000x128.size a := by
  show i ∈ ((View.whole main_v85).slice (win2_7.rect t)).set ↔ _
  rw [View.set_slice_whole, Rect.mem_set_unit]
  exact Iff.rfl

/-- Every entry of the output array is written: row r by the point r / 5000. -/
theorem covered2_7 (i : S50000x128.Idx) :
    ∃ t : Fin cfg2.N, (cfg2.win 7).flush t = true ∧ i ∈ ((cfg2.win 7).blk t).view.set := by
  have hi0 : (i 0).val < 50000 := (i 0).isLt
  have hi1 : (i 1).val < 128 := (i 1).isLt
  have hN : cfg2.N = 10 := N_2
  have hlt : (i 0).val / 5000 < cfg2.N := by rw [hN]; omega
  refine ⟨⟨(i 0).val / 5000, hlt⟩, flush2_7 _, ?_⟩
  rw [mem_blk2_7]
  obtain ⟨-, -, -, -, -, -, -, -, -, -, -, -, -, -, e0, e1⟩ := idx2 ⟨(i 0).val / 5000, hlt⟩
  intro a
  match a with
  | ⟨0, _⟩ =>
    show win2_7.index ⟨(i 0).val / 5000, hlt⟩ (0 : Fin 2) * 5000 ≤ (i 0).val
      ∧ (i 0).val < win2_7.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win2_7.index ⟨(i 0).val / 5000, hlt⟩ (1 : Fin 2) * 128 ≤ (i 1).val
      ∧ (i 1).val < win2_7.index ⟨(i 0).val / 5000, hlt⟩ (1 : Fin 2) * 128 + 128
    rw [e1]; omega

/-- The output array after region 2 is the combine step of the arrays the region reads, as it finds them. -/
theorem final2_7 (c : Dev nD) :
    (dat2 V c).arrAt 7 cfg2.N
      = Cert.Spec.combine (R := 50000) (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) (V c (Pipeline.arrRef spec2 6)) :=
  (dat2 V c).arrAt_eq_of_cover 7 (G2 V c) (fun t _ => flushed2_7_eq V c t) (fun i => covered2_7 i)

end Cert.KCo

end
-- ==== Proof.KCoCombine4.lean ====
/-
  The combine step of region 4: the output array after the region is the combine step of the whole arrays.

  The region walks ten blocks of 5000 rows of arrays of 50000 rows.  At block t the three row-shaped operands are
  read at rows 5000·t … 5000·t + 4999, the weight matrix and the three rows b, γ, β are read whole, and the block
  written back holds rows 5000·t … 5000·t + 4999 of the result.  Entry (p,q) of what is written at block t is the
  combine step of the loaded blocks at (p,q); since the step at a row uses only that row of the row-shaped
  operands, it is the combine step of the WHOLE arrays at row 5000·t + p.  Every row r of the result lies in
  exactly the block r / 5000, so the ten written blocks cover the array and the array is the combine step of the
  whole arrays.
-/
import proofs.«108119_j38019050504554_2_alg».proof.Proof.Gen.KernelIdeal.Frame
import proofs.«108119_j38019050504554_2_alg».proof.Proof.KCoCombinePay
import Idealize.ShloMosaic.Lib.Pipeline.Value

noncomputable section

namespace Cert.KCo

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The combine step of the seven arrays region 4 reads, as it finds them. -/
abbrev G4 (c : Dev nD) : FVec Ideal S50000x128 .f32 :=
  Cert.Spec.combine (R := 50000) (V c (Pipeline.arrRef spec4 0)) (V c (Pipeline.arrRef spec4 1)) (V c (Pipeline.arrRef spec4 2))
    (V c (Pipeline.arrRef spec4 3)) (V c (Pipeline.arrRef spec4 4)) (V c (Pipeline.arrRef spec4 5)) (V c (Pipeline.arrRef spec4 6))

/-- The block indices at grid point t, decided over the ten points: the row-shaped windows (0, 1, 2 and the output 7)
    are at block row t, column block 0; the whole-array windows (3, 4, 5, 6) stay at block (0, 0). -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- Row p of a row-shaped input block at point t is row 5000·t + p of its array. -/
theorem iblk4_0_apply (c : Dev nD) (t : Fin cfg4.N) (p : Fin 5000) (k : Fin 128) (P : Fin 50000) (hP : P.val = 5000 * t.val + p.val) :
    (iblk4 V c 0 t : Vec Ideal S5000x128 .f32) (ix2 p k) = (V c (Pipeline.arrRef spec4 0) : FVec Ideal S50000x128 .f32) (ix2 P k) := by
  obtain ⟨e0, e1, -⟩ := idx4 t
  show V c (Pipeline.arrRef spec4 0) (((cfg4.win 0).blk t).view.emb (ix2 p k)) = _
  refine congrArg _ ?_
  funext a; apply Fin.ext
  match a with
  | ⟨0, _⟩ => show win4_0.index t (0 : Fin 2) * 5000 + 1 * p.val = P.val; rw [e0, hP]; omega
  | ⟨1, _⟩ => show win4_0.index t (1 : Fin 2) * 128 + 1 * k.val = k.val; rw [e1]; omega

theorem iblk4_1_apply (c : Dev nD) (t : Fin cfg4.N) (p : Fin 5000) (k : Fin 128) (P : Fin 50000) (hP : P.val = 5000 * t.val + p.val) :
    (iblk4 V c 1 t : Vec Ideal S5000x128 .f32) (ix2 p k) = (V c (Pipeline.arrRef spec4 1) : FVec Ideal S50000x128 .f32) (ix2 P k) := by
  obtain ⟨-, -, e0, e1, -⟩ := idx4 t
  show V c (Pipeline.arrRef spec4 1) (((cfg4.win 1).blk t).view.emb (ix2 p k)) = _
  refine congrArg _ ?_
  funext a; apply Fin.ext
  match a with
  | ⟨0, _⟩ => show win4_1.index t (0 : Fin 2) * 5000 + 1 * p.val = P.val; rw [e0, hP]; omega
  | ⟨1, _⟩ => show win4_1.index t (1 : Fin 2) * 128 + 1 * k.val = k.val; rw [e1]; omega

theorem iblk4_2_apply (c : Dev nD) (t : Fin cfg4.N) (p : Fin 5000) (k : Fin 128) (P : Fin 50000) (hP : P.val = 5000 * t.val + p.val) :
    (iblk4 V c 2 t : Vec Ideal S5000x128 .f32) (ix2 p k) = (V c (Pipeline.arrRef spec4 2) : FVec Ideal S50000x128 .f32) (ix2 P k) := by
  obtain ⟨-, -, -, -, e0, e1, -⟩ := idx4 t
  show V c (Pipeline.arrRef spec4 2) (((cfg4.win 2).blk t).view.emb (ix2 p k)) = _
  refine congrArg _ ?_
  funext a; apply Fin.ext
  match a with
  | ⟨0, _⟩ => show win4_2.index t (0 : Fin 2) * 5000 + 1 * p.val = P.val; rw [e0, hP]; omega
  | ⟨1, _⟩ => show win4_2.index t (1 : Fin 2) * 128 + 1 * k.val = k.val; rw [e1]; omega

/-- A whole-array window's block at any point is its array. -/
theorem iblk4_3_eq (c : Dev nD) (t : Fin cfg4.N) :
    (iblk4 V c 3 t : Vec Ideal S128x128 .f32) = (V c (Pipeline.arrRef spec4 3) : FVec Ideal S128x128 .f32) := by
  obtain ⟨-, -, -, -, -, -, e0, e1, -⟩ := idx4 t
  funext y
  show V c (Pipeline.arrRef spec4 3) (((cfg4.win 3).blk t).view.emb y) = V c (Pipeline.arrRef spec4 3) y
  refine congrArg _ ?_
  funext a; apply Fin.ext
  match a with
  | ⟨0, _⟩ => show win4_3.index t (0 : Fin 2) * 128 + 1 * (y 0).val = (y 0).val; rw [e0]; omega
  | ⟨1, _⟩ => show win4_3.index t (1 : Fin 2) * 128 + 1 * (y 1).val = (y 1).val; rw [e1]; omega

theorem iblk4_4_eq (c : Dev nD) (t : Fin cfg4.N) :
    (iblk4 V c 4 t : Vec Ideal S1x128 .f32) = (V c (Pipeline.arrRef spec4 4) : FVec Ideal S1x128 .f32) := by
  obtain ⟨-, -, -, -, -, -, -, -, e0, e1, -⟩ := idx4 t
  funext y
  show V c (Pipeline.arrRef spec4 4) (((cfg4.win 4).blk t).view.emb y) = V c (Pipeline.arrRef spec4 4) y
  refine congrArg _ ?_
  funext a; apply Fin.ext
  match a with
  | ⟨0, _⟩ => show win4_4.index t (0 : Fin 2) * 1 + 1 * (y 0).val = (y 0).val; rw [e0]; omega
  | ⟨1, _⟩ => show win4_4.index t (1 : Fin 2) * 128 + 1 * (y 1).val = (y 1).val; rw [e1]; omega

theorem iblk4_5_eq (c : Dev nD) (t : Fin cfg4.N) :
    (iblk4 V c 5 t : Vec Ideal S1x128 .f32) = (V c (Pipeline.arrRef spec4 5) : FVec Ideal S1x128 .f32) := by
  obtain ⟨-, -, -, -, -, -, -, -, -, -, e0, e1, -⟩ := idx4 t
  funext y
  show V c (Pipeline.arrRef spec4 5) (((cfg4.win 5).blk t).view.emb y) = V c (Pipeline.arrRef spec4 5) y
  refine congrArg _ ?_
  funext a; apply Fin.ext
  match a with
  | ⟨0, _⟩ => show win4_5.index t (0 : Fin 2) * 1 + 1 * (y 0).val = (y 0).val; rw [e0]; omega
  | ⟨1, _⟩ => show win4_5.index t (1 : Fin 2) * 128 + 1 * (y 1).val = (y 1).val; rw [e1]; omega

theorem iblk4_6_eq (c : Dev nD) (t : Fin cfg4.N) :
    (iblk4 V c 6 t : Vec Ideal S1x128 .f32) = (V c (Pipeline.arrRef spec4 6) : FVec Ideal S1x128 .f32) := by
  obtain ⟨-, -, -, -, -, -, -, -, -, -, -, -, e0, e1, -⟩ := idx4 t
  funext y
  show V c (Pipeline.arrRef spec4 6) (((cfg4.win 6).blk t).view.emb y) = V c (Pipeline.arrRef spec4 6) y
  refine congrArg _ ?_
  funext a; apply Fin.ext
  match a with
  | ⟨0, _⟩ => show win4_6.index t (0 : Fin 2) * 1 + 1 * (y 0).val = (y 0).val; rw [e0]; omega
  | ⟨1, _⟩ => show win4_6.index t (1 : Fin 2) * 128 + 1 * (y 1).val = (y 1).val; rw [e1]; omega

/-- Entry (p,q) of what the body computes from the blocks at point t is the combine step of the whole arrays at the
    entry of the output array that (p,q) of block t is written to. -/
theorem entry4 (c : Dev nD) (t : Fin cfg4.N) (p : Fin 5000) (q : Fin 128) :
    k4_pay1 (k4_pay2 (iblk4 V c 0 t) (iblk4 V c 3 t) (iblk4 V c 1 t) (iblk4 V c 4 t) (iblk4 V c 5 t) (iblk4 V c 6 t)) (iblk4 V c 2 t) (ix2 p q)
      = G4 V c (((cfg4.win 7).blk t).view.emb (ix2 p q)) := by
  have ht : t.val < 10 := lt_of_lt_of_eq t.isLt (N_4 : cfg4.N = 10)
  have hp : 5000 * t.val + p.val < 50000 := by have := p.isLt; omega
  have hemb : ((cfg4.win 7).blk t).view.emb (ix2 p q) = ix2 (⟨5000 * t.val + p.val, hp⟩ : Fin 50000) q := by
    obtain ⟨-, -, -, -, -, -, -, -, -, -, -, -, -, -, e0, e1⟩ := idx4 t
    funext a; apply Fin.ext
    match a with
    | ⟨0, _⟩ => show win4_7.index t (0 : Fin 2) * 5000 + 1 * p.val = 5000 * t.val + p.val; rw [e0]; omega
    | ⟨1, _⟩ => show win4_7.index t (1 : Fin 2) * 128 + 1 * q.val = q.val; rw [e1]; omega
  rw [hemb]
  refine (k4_pay_apply (iblk4 V c 0 t) (iblk4 V c 1 t) (iblk4 V c 2 t) (iblk4 V c 3 t) (iblk4 V c 4 t) (iblk4 V c 5 t) (iblk4 V c 6 t) p q).trans ?_
  exact combine_row_congr (iblk4 V c 0 t) (iblk4 V c 1 t) (iblk4 V c 2 t)
    (V c (Pipeline.arrRef spec4 0)) (V c (Pipeline.arrRef spec4 1)) (V c (Pipeline.arrRef spec4 2))
    (iblk4 V c 3 t) (V c (Pipeline.arrRef spec4 3)) (iblk4 V c 4 t) (V c (Pipeline.arrRef spec4 4))
    (iblk4 V c 5 t) (V c (Pipeline.arrRef spec4 5)) (iblk4 V c 6 t) (V c (Pipeline.arrRef spec4 6))
    (iblk4_3_eq V c t) (iblk4_4_eq V c t) (iblk4_5_eq V c t) (iblk4_6_eq V c t) p ⟨5000 * t.val + p.val, hp⟩
    (fun k => iblk4_0_apply V c t p k _ rfl) (fun k => iblk4_1_apply V c t p k _ rfl) (fun k => iblk4_2_apply V c t p k _ rfl) q

/-- What point t writes back is block t of the combine step of the whole arrays. -/
theorem flushed4_7_eq (c : Dev nD) (t : Fin cfg4.N) :
    (dat4 V c).flushed 7 t = ((cfg4.win 7).blk t).view.read (Elt Ideal) (G4 V c) := by
  show (cfg4.win 7).cut (grid4.coords t) ((dat4 V c).after 7 t) = _
  rw [after4_7]
  unfold out4_7
  rw [View.canon_unit_zero zero_offsets]
  simp only [View.ld_unit_zero (S := S5000x128) zero_offsets, View.ld_unit_zero (S := S128x128) zero_offsets,
    View.ld_unit_zero (S := S1x128) zero_offsets]
  refine funext fun (j : S5000x128.Idx) => ?_
  obtain ⟨p, q, rfl⟩ : ∃ (p : Fin 5000) (q : Fin 128), j = ix2 p q := ⟨j 0, j 1, eq_ix2 j⟩
  exact entry4 V c t p q

/-- An index of the output array is in point t's block iff each coordinate is in the block's range on its axis. -/
theorem mem_blk4_7 (t : Fin cfg4.N) (i : S50000x128.Idx) :
    i ∈ ((cfg4.win 7).blk t).view.set ↔ ∀ a : Fin 2, win4_7.index t a * S5000x128.size a ≤ (i a).val
      ∧ (i a).val < win4_7.index t a * S5000x128.size a + S5000x128.size a := by
  show i ∈ ((View.whole main_v164).slice (win4_7.rect t)).set ↔ _
  rw [View.set_slice_whole, Rect.mem_set_unit]
  exact Iff.rfl

/-- Every entry of the output array is written: row r by the point r / 5000. -/
theorem covered4_7 (i : S50000x128.Idx) :
    ∃ t : Fin cfg4.N, (cfg4.win 7).flush t = true ∧ i ∈ ((cfg4.win 7).blk t).view.set := by
  have hi0 : (i 0).val < 50000 := (i 0).isLt
  have hi1 : (i 1).val < 128 := (i 1).isLt
  have hN : cfg4.N = 10 := N_4
  have hlt : (i 0).val / 5000 < cfg4.N := by rw [hN]; omega
  refine ⟨⟨(i 0).val / 5000, hlt⟩, flush4_7 _, ?_⟩
  rw [mem_blk4_7]
  obtain ⟨-, -, -, -, -, -, -, -, -, -, -, -, -, -, e0, e1⟩ := idx4 ⟨(i 0).val / 5000, hlt⟩
  intro a
  match a with
  | ⟨0, _⟩ =>
    show win4_7.index ⟨(i 0).val / 5000, hlt⟩ (0 : Fin 2) * 5000 ≤ (i 0).val
      ∧ (i 0).val < win4_7.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win4_7.index ⟨(i 0).val / 5000, hlt⟩ (1 : Fin 2) * 128 ≤ (i 1).val
      ∧ (i 1).val < win4_7.index ⟨(i 0).val / 5000, hlt⟩ (1 : Fin 2) * 128 + 128
    rw [e1]; omega

/-- The output array after region 4 is the combine step of the arrays the region reads, as it finds them. -/
theorem final4_7 (c : Dev nD) :
    (dat4 V c).arrAt 7 cfg4.N
      = Cert.Spec.combine (R := 50000) (V c (Pipeline.arrRef spec4 0)) (V c (Pipeline.arrRef spec4 1)) (V c (Pipeline.arrRef spec4 2))
          (V c (Pipeline.arrRef spec4 3)) (V c (Pipeline.arrRef spec4 4)) (V c (Pipeline.arrRef spec4 5)) (V c (Pipeline.arrRef spec4 6)) :=
  (dat4 V c).arrAt_eq_of_cover 7 (G4 V c) (fun t _ => flushed4_7_eq V c t) (fun i => covered4_7 i)

end Cert.KCo

end
-- ==== Proof.KCoCombine6.lean ====
/-
  The combine step of region 6: the output array after the region is the combine step of the whole arrays.

  The region walks ten blocks of 5000 rows of arrays of 50000 rows.  At block t the three row-shaped operands are
  read at rows 5000·t … 5000·t + 4999, the weight matrix and the three rows b, γ, β are read whole, and the block
  written back holds rows 5000·t … 5000·t + 4999 of the result.  Entry (p,q) of what is written at block t is the
  combine step of the loaded blocks at (p,q); since the step at a row uses only that row of the row-shaped
  operands, it is the combine step of the WHOLE arrays at row 5000·t + p.  Every row r of the result lies in
  exactly the block r / 5000, so the ten written blocks cover the array and the array is the combine step of the
  whole arrays.
-/
import proofs.«108119_j38019050504554_2_alg».proof.Proof.Gen.KernelIdeal.Frame
import proofs.«108119_j38019050504554_2_alg».proof.Proof.KCoCombinePay
import Idealize.ShloMosaic.Lib.Pipeline.Value

noncomputable section

namespace Cert.KCo

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The combine step of the seven arrays region 6 reads, as it finds them. -/
abbrev G6 (c : Dev nD) : FVec Ideal S50000x128 .f32 :=
  Cert.Spec.combine (R := 50000) (V c (Pipeline.arrRef spec6 0)) (V c (Pipeline.arrRef spec6 1)) (V c (Pipeline.arrRef spec6 2))
    (V c (Pipeline.arrRef spec6 3)) (V c (Pipeline.arrRef spec6 4)) (V c (Pipeline.arrRef spec6 5)) (V c (Pipeline.arrRef spec6 6))

/-- The block indices at grid point t, decided over the ten points: the row-shaped windows (0, 1, 2 and the output 7)
    are at block row t, column block 0; the whole-array windows (3, 4, 5, 6) stay at block (0, 0). -/
theorem idx6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0 :=
  (by decide +kernel : ∀ t : Fin grid6.N, _)

/-- Row p of a row-shaped input block at point t is row 5000·t + p of its array. -/
theorem iblk6_0_apply (c : Dev nD) (t : Fin cfg6.N) (p : Fin 5000) (k : Fin 128) (P : Fin 50000) (hP : P.val = 5000 * t.val + p.val) :
    (iblk6 V c 0 t : Vec Ideal S5000x128 .f32) (ix2 p k) = (V c (Pipeline.arrRef spec6 0) : FVec Ideal S50000x128 .f32) (ix2 P k) := by
  obtain ⟨e0, e1, -⟩ := idx6 t
  show V c (Pipeline.arrRef spec6 0) (((cfg6.win 0).blk t).view.emb (ix2 p k)) = _
  refine congrArg _ ?_
  funext a; apply Fin.ext
  match a with
  | ⟨0, _⟩ => show win6_0.index t (0 : Fin 2) * 5000 + 1 * p.val = P.val; rw [e0, hP]; omega
  | ⟨1, _⟩ => show win6_0.index t (1 : Fin 2) * 128 + 1 * k.val = k.val; rw [e1]; omega

theorem iblk6_1_apply (c : Dev nD) (t : Fin cfg6.N) (p : Fin 5000) (k : Fin 128) (P : Fin 50000) (hP : P.val = 5000 * t.val + p.val) :
    (iblk6 V c 1 t : Vec Ideal S5000x128 .f32) (ix2 p k) = (V c (Pipeline.arrRef spec6 1) : FVec Ideal S50000x128 .f32) (ix2 P k) := by
  obtain ⟨-, -, e0, e1, -⟩ := idx6 t
  show V c (Pipeline.arrRef spec6 1) (((cfg6.win 1).blk t).view.emb (ix2 p k)) = _
  refine congrArg _ ?_
  funext a; apply Fin.ext
  match a with
  | ⟨0, _⟩ => show win6_1.index t (0 : Fin 2) * 5000 + 1 * p.val = P.val; rw [e0, hP]; omega
  | ⟨1, _⟩ => show win6_1.index t (1 : Fin 2) * 128 + 1 * k.val = k.val; rw [e1]; omega

theorem iblk6_2_apply (c : Dev nD) (t : Fin cfg6.N) (p : Fin 5000) (k : Fin 128) (P : Fin 50000) (hP : P.val = 5000 * t.val + p.val) :
    (iblk6 V c 2 t : Vec Ideal S5000x128 .f32) (ix2 p k) = (V c (Pipeline.arrRef spec6 2) : FVec Ideal S50000x128 .f32) (ix2 P k) := by
  obtain ⟨-, -, -, -, e0, e1, -⟩ := idx6 t
  show V c (Pipeline.arrRef spec6 2) (((cfg6.win 2).blk t).view.emb (ix2 p k)) = _
  refine congrArg _ ?_
  funext a; apply Fin.ext
  match a with
  | ⟨0, _⟩ => show win6_2.index t (0 : Fin 2) * 5000 + 1 * p.val = P.val; rw [e0, hP]; omega
  | ⟨1, _⟩ => show win6_2.index t (1 : Fin 2) * 128 + 1 * k.val = k.val; rw [e1]; omega

/-- A whole-array window's block at any point is its array. -/
theorem iblk6_3_eq (c : Dev nD) (t : Fin cfg6.N) :
    (iblk6 V c 3 t : Vec Ideal S128x128 .f32) = (V c (Pipeline.arrRef spec6 3) : FVec Ideal S128x128 .f32) := by
  obtain ⟨-, -, -, -, -, -, e0, e1, -⟩ := idx6 t
  funext y
  show V c (Pipeline.arrRef spec6 3) (((cfg6.win 3).blk t).view.emb y) = V c (Pipeline.arrRef spec6 3) y
  refine congrArg _ ?_
  funext a; apply Fin.ext
  match a with
  | ⟨0, _⟩ => show win6_3.index t (0 : Fin 2) * 128 + 1 * (y 0).val = (y 0).val; rw [e0]; omega
  | ⟨1, _⟩ => show win6_3.index t (1 : Fin 2) * 128 + 1 * (y 1).val = (y 1).val; rw [e1]; omega

theorem iblk6_4_eq (c : Dev nD) (t : Fin cfg6.N) :
    (iblk6 V c 4 t : Vec Ideal S1x128 .f32) = (V c (Pipeline.arrRef spec6 4) : FVec Ideal S1x128 .f32) := by
  obtain ⟨-, -, -, -, -, -, -, -, e0, e1, -⟩ := idx6 t
  funext y
  show V c (Pipeline.arrRef spec6 4) (((cfg6.win 4).blk t).view.emb y) = V c (Pipeline.arrRef spec6 4) y
  refine congrArg _ ?_
  funext a; apply Fin.ext
  match a with
  | ⟨0, _⟩ => show win6_4.index t (0 : Fin 2) * 1 + 1 * (y 0).val = (y 0).val; rw [e0]; omega
  | ⟨1, _⟩ => show win6_4.index t (1 : Fin 2) * 128 + 1 * (y 1).val = (y 1).val; rw [e1]; omega

theorem iblk6_5_eq (c : Dev nD) (t : Fin cfg6.N) :
    (iblk6 V c 5 t : Vec Ideal S1x128 .f32) = (V c (Pipeline.arrRef spec6 5) : FVec Ideal S1x128 .f32) := by
  obtain ⟨-, -, -, -, -, -, -, -, -, -, e0, e1, -⟩ := idx6 t
  funext y
  show V c (Pipeline.arrRef spec6 5) (((cfg6.win 5).blk t).view.emb y) = V c (Pipeline.arrRef spec6 5) y
  refine congrArg _ ?_
  funext a; apply Fin.ext
  match a with
  | ⟨0, _⟩ => show win6_5.index t (0 : Fin 2) * 1 + 1 * (y 0).val = (y 0).val; rw [e0]; omega
  | ⟨1, _⟩ => show win6_5.index t (1 : Fin 2) * 128 + 1 * (y 1).val = (y 1).val; rw [e1]; omega

theorem iblk6_6_eq (c : Dev nD) (t : Fin cfg6.N) :
    (iblk6 V c 6 t : Vec Ideal S1x128 .f32) = (V c (Pipeline.arrRef spec6 6) : FVec Ideal S1x128 .f32) := by
  obtain ⟨-, -, -, -, -, -, -, -, -, -, -, -, e0, e1, -⟩ := idx6 t
  funext y
  show V c (Pipeline.arrRef spec6 6) (((cfg6.win 6).blk t).view.emb y) = V c (Pipeline.arrRef spec6 6) y
  refine congrArg _ ?_
  funext a; apply Fin.ext
  match a with
  | ⟨0, _⟩ => show win6_6.index t (0 : Fin 2) * 1 + 1 * (y 0).val = (y 0).val; rw [e0]; omega
  | ⟨1, _⟩ => show win6_6.index t (1 : Fin 2) * 128 + 1 * (y 1).val = (y 1).val; rw [e1]; omega

/-- Entry (p,q) of what the body computes from the blocks at point t is the combine step of the whole arrays at the
    entry of the output array that (p,q) of block t is written to. -/
theorem entry6 (c : Dev nD) (t : Fin cfg6.N) (p : Fin 5000) (q : Fin 128) :
    k6_pay1 (k6_pay2 (iblk6 V c 0 t) (iblk6 V c 3 t) (iblk6 V c 1 t) (iblk6 V c 4 t) (iblk6 V c 5 t) (iblk6 V c 6 t)) (iblk6 V c 2 t) (ix2 p q)
      = G6 V c (((cfg6.win 7).blk t).view.emb (ix2 p q)) := by
  have ht : t.val < 10 := lt_of_lt_of_eq t.isLt (N_6 : cfg6.N = 10)
  have hp : 5000 * t.val + p.val < 50000 := by have := p.isLt; omega
  have hemb : ((cfg6.win 7).blk t).view.emb (ix2 p q) = ix2 (⟨5000 * t.val + p.val, hp⟩ : Fin 50000) q := by
    obtain ⟨-, -, -, -, -, -, -, -, -, -, -, -, -, -, e0, e1⟩ := idx6 t
    funext a; apply Fin.ext
    match a with
    | ⟨0, _⟩ => show win6_7.index t (0 : Fin 2) * 5000 + 1 * p.val = 5000 * t.val + p.val; rw [e0]; omega
    | ⟨1, _⟩ => show win6_7.index t (1 : Fin 2) * 128 + 1 * q.val = q.val; rw [e1]; omega
  rw [hemb]
  refine (k6_pay_apply (iblk6 V c 0 t) (iblk6 V c 1 t) (iblk6 V c 2 t) (iblk6 V c 3 t) (iblk6 V c 4 t) (iblk6 V c 5 t) (iblk6 V c 6 t) p q).trans ?_
  exact combine_row_congr (iblk6 V c 0 t) (iblk6 V c 1 t) (iblk6 V c 2 t)
    (V c (Pipeline.arrRef spec6 0)) (V c (Pipeline.arrRef spec6 1)) (V c (Pipeline.arrRef spec6 2))
    (iblk6 V c 3 t) (V c (Pipeline.arrRef spec6 3)) (iblk6 V c 4 t) (V c (Pipeline.arrRef spec6 4))
    (iblk6 V c 5 t) (V c (Pipeline.arrRef spec6 5)) (iblk6 V c 6 t) (V c (Pipeline.arrRef spec6 6))
    (iblk6_3_eq V c t) (iblk6_4_eq V c t) (iblk6_5_eq V c t) (iblk6_6_eq V c t) p ⟨5000 * t.val + p.val, hp⟩
    (fun k => iblk6_0_apply V c t p k _ rfl) (fun k => iblk6_1_apply V c t p k _ rfl) (fun k => iblk6_2_apply V c t p k _ rfl) q

/-- What point t writes back is block t of the combine step of the whole arrays. -/
theorem flushed6_7_eq (c : Dev nD) (t : Fin cfg6.N) :
    (dat6 V c).flushed 7 t = ((cfg6.win 7).blk t).view.read (Elt Ideal) (G6 V c) := by
  show (cfg6.win 7).cut (grid6.coords t) ((dat6 V c).after 7 t) = _
  rw [after6_7]
  unfold out6_7
  rw [View.canon_unit_zero zero_offsets]
  simp only [View.ld_unit_zero (S := S5000x128) zero_offsets, View.ld_unit_zero (S := S128x128) zero_offsets,
    View.ld_unit_zero (S := S1x128) zero_offsets]
  refine funext fun (j : S5000x128.Idx) => ?_
  obtain ⟨p, q, rfl⟩ : ∃ (p : Fin 5000) (q : Fin 128), j = ix2 p q := ⟨j 0, j 1, eq_ix2 j⟩
  exact entry6 V c t p q

/-- An index of the output array is in point t's block iff each coordinate is in the block's range on its axis. -/
theorem mem_blk6_7 (t : Fin cfg6.N) (i : S50000x128.Idx) :
    i ∈ ((cfg6.win 7).blk t).view.set ↔ ∀ a : Fin 2, win6_7.index t a * S5000x128.size a ≤ (i a).val
      ∧ (i a).val < win6_7.index t a * S5000x128.size a + S5000x128.size a := by
  show i ∈ ((View.whole main_v243).slice (win6_7.rect t)).set ↔ _
  rw [View.set_slice_whole, Rect.mem_set_unit]
  exact Iff.rfl

/-- Every entry of the output array is written: row r by the point r / 5000. -/
theorem covered6_7 (i : S50000x128.Idx) :
    ∃ t : Fin cfg6.N, (cfg6.win 7).flush t = true ∧ i ∈ ((cfg6.win 7).blk t).view.set := by
  have hi0 : (i 0).val < 50000 := (i 0).isLt
  have hi1 : (i 1).val < 128 := (i 1).isLt
  have hN : cfg6.N = 10 := N_6
  have hlt : (i 0).val / 5000 < cfg6.N := by rw [hN]; omega
  refine ⟨⟨(i 0).val / 5000, hlt⟩, flush6_7 _, ?_⟩
  rw [mem_blk6_7]
  obtain ⟨-, -, -, -, -, -, -, -, -, -, -, -, -, -, e0, e1⟩ := idx6 ⟨(i 0).val / 5000, hlt⟩
  intro a
  match a with
  | ⟨0, _⟩ =>
    show win6_7.index ⟨(i 0).val / 5000, hlt⟩ (0 : Fin 2) * 5000 ≤ (i 0).val
      ∧ (i 0).val < win6_7.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win6_7.index ⟨(i 0).val / 5000, hlt⟩ (1 : Fin 2) * 128 ≤ (i 1).val
      ∧ (i 1).val < win6_7.index ⟨(i 0).val / 5000, hlt⟩ (1 : Fin 2) * 128 + 128
    rw [e1]; omega

/-- The output array after region 6 is the combine step of the arrays the region reads, as it finds them. -/
theorem final6_7 (c : Dev nD) :
    (dat6 V c).arrAt 7 cfg6.N
      = Cert.Spec.combine (R := 50000) (V c (Pipeline.arrRef spec6 0)) (V c (Pipeline.arrRef spec6 1)) (V c (Pipeline.arrRef spec6 2))
          (V c (Pipeline.arrRef spec6 3)) (V c (Pipeline.arrRef spec6 4)) (V c (Pipeline.arrRef spec6 5)) (V c (Pipeline.arrRef spec6 6)) :=
  (dat6 V c).arrAt_eq_of_cover 7 (G6 V c) (fun t _ => flushed6_7_eq V c t) (fun i => covered6_7 i)

end Cert.KCo

end
-- ==== Proof.RefOpsStages.lean ====
/- The reference's stages, each the composed term of its operations over its operands, and the
   list lemmas the run of the reference is assembled with. -/
import proofs.«108119_j38019050504554_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Lists of operations -/

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A property of every operation of two lists holds of every operation of their concatenation. -/
theorem forall_mem_append {α : Type} {p : α → Prop} {l₁ l₂ : List α} (h₁ : ∀ x ∈ l₁, p x) (h₂ : ∀ x ∈ l₂, p x) :
    ∀ x ∈ l₁ ++ l₂, p x := fun x hx => (List.mem_append.mp hx).elim (h₁ x) (h₂ x)

/-- An operation whose one written buffer is a reference of the list writes inside the list. -/
theorem writes_sub_of_mem {W : List (Ref sig .tc)} {op : HloOp τ sig (Elt F)} {y : Ref sig .tc}
    (h : op.writes = {Proc.devRef .tc y}) (hy : y ∈ W) :
    op.writes ⊆ (W.map (Proc.devRef (τ := τ) .tc)).toFinset := by
  rw [h, Finset.singleton_subset_iff, List.mem_toFinset]
  exact List.mem_map_of_mem hy

/-- A line whose written references all lie in W leaves every other reference as it was
    (the reference un-indexed, so that the lemma rewrites at any literal reference). -/
theorem after_frame {W : List (Ref sig .tc)} (ops : List (HloOp τ sig (Elt F)))
    (hW : ops.Forall fun op => op.writes ⊆ (W.map (Proc.devRef (τ := τ) .tc)).toFinset)
    (V : Valuation τ sig (Elt F)) {r : Ref sig .tc} (hr : r ∉ W) :
    after ops V (no_index (Proc.devRef .tc r)) = V (Proc.devRef .tc r) :=
  after_of_writes_sub ops V hW hr

/-! ## The stages -/

/-- The edges' source nodes: row 0 of the edge list. -/
def src (e : Vec F S2x625000 .i32) : Vec F S625000 .i32 :=
  shapeCast S625000 (extractStridedSlice S1x625000 ![0, 0] e slices_S2x625000_S1x625000_0_0) shapeCasts_S1x625000_S625000

/-- The edges' target nodes: row 1 of the edge list. -/
def dst (e : Vec F S2x625000 .i32) : Vec F S625000 .i32 :=
  shapeCast S625000 (extractStridedSlice S1x625000 ![1, 0] e slices_S2x625000_S1x625000_1_0) shapeCasts_S1x625000_S625000

/-- The node embedding: max(x · wᵀ + b, 0). -/
def emb (x : Vec F S50000x128 .f32) (w : Vec F S128x128 .f32) (b : Vec F S128 .f32) : Vec F S50000x128 .f32 :=
  maximumf
    (addf
      (Host.dotGeneral dot_S50000x128_S128x128_S50000x128_1_0_0_1_n_n none x
        (transpose S128x128 [1, 0] w transposes_S128x128_S128x128_1_0))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

/-- A layer's scores, one per node: h · wᵀ + c, with w the layer's [1,1,128] slice of the score weights
    and c its [1,1] slice of the score bias. -/
def scores (h : Vec F S50000x128 .f32) (w : Vec F S1x1x128 .f32) (c : Vec F S1x1 .f32) : Vec F S50000x1 .f32 :=
  addf
    (Host.dotGeneral dot_S50000x128_S128x1_S50000x1_1_0_0_1_n_n none h
      (transpose S128x1 [1, 0] (shapeCast S1x128 w shapeCasts_S1x1x128_S1x128) transposes_S1x128_S128x1_1_0))
    (broadcastInDim S50000x1 ![0, 1] bcast_S1x1_S50000x1_0_1
      (broadcastInDim S1x1 ![1] bcast_S1_S1x1_1 (shapeCast S1 c shapeCasts_S1x1_S1)))

/-- The forward messages: h · wᵀ, with w the layer's [1,128,128] slice. -/
def hfwd (h : Vec F S50000x128 .f32) (w : Vec F S1x128x128 .f32) : Vec F S50000x128 .f32 :=
  Host.dotGeneral dot_S50000x128_S128x128_S50000x128_1_0_0_1_n_n none h
    (transpose S128x128 [1, 0] (shapeCast S128x128 w shapeCasts_S1x128x128_S128x128) transposes_S128x128_S128x128_1_0)

/-- The backward messages: h · wᵀ, with w the layer's [1,128,128] slice. -/
def hbwd (h : Vec F S50000x128 .f32) (w : Vec F S1x128x128 .f32) : Vec F S50000x128 .f32 :=
  Host.dotGeneral dot_S50000x128_S128x128_S50000x128_1_0_0_1_n_n none h
    (transpose S128x128 [1, 0] (shapeCast S128x128 w shapeCasts_S1x128x128_S128x128) transposes_S128x128_S128x128_1_0)

/-- The self term: h · wᵀ + b, with w the layer's [1,128,128] slice and b its [1,128] slice. -/
def hself (h : Vec F S50000x128 .f32) (w : Vec F S1x128x128 .f32) (b : Vec F S1x128 .f32) : Vec F S50000x128 .f32 :=
  addf
    (Host.dotGeneral dot_S50000x128_S128x128_S50000x128_1_0_0_1_n_n none h
      (transpose S128x128 [1, 0] (shapeCast S128x128 w shapeCasts_S1x128x128_S128x128) transposes_S128x128_S128x128_1_0))
    (broadcastInDim S50000x128 ![0, 1] bcast_S1x128_S50000x128_0_1
      (broadcastInDim S1x128 ![1] bcast_S128_S1x128_1 (shapeCast S128 b shapeCasts_S1x128_S128)))

/-- An index vector as a gather's [E,1] start indices: a negative entry is moved up by the number of nodes. -/
def wrapIdx (ix : Vec F S625000 .i32) : Vec F S625000x1 .i32 :=
  broadcastInDim S625000x1 ![0] bcast_S625000_S625000x1_0
    (select (cmpi .slt ix (broadcastInDim S625000 ![] bcast_S_S625000 (constantI S_ 32 0#32)))
      (addi ix (broadcastInDim S625000 ![] bcast_S_S625000 (constantI S_ 32 50000#32)))
      ix)

/-- The edge gates: 1 / (1 + exp (-(s[src] - s[dst]))). -/
def alpha (s : Vec F S50000x1 .f32) (sr ds : Vec F S625000 .i32) : Vec F S625000x1 .f32 :=
  Host.divf (broadcastInDim S625000x1 ![] bcast_S_S625000x1 (constant S_ .f32 0x3F800000#32))
    (addf (broadcastInDim S625000x1 ![] bcast_S_S625000x1 (constant S_ .f32 0x3F800000#32))
      (Host.exp (Host.negf (subf
        (Host.gather gather_S50000x1_S625000x1_S625000x1_1_0_n_n_0_1_11 s (wrapIdx sr))
        (Host.gather gather_S50000x1_S625000x1_S625000x1_1_0_n_n_0_1_11 s (wrapIdx ds))))))

/-- The forward aggregate: the rows hf[src] · alpha summed into their target rows. -/
def aggF (hf : Vec F S50000x128 .f32) (a : Vec F S625000x1 .f32) (sr ds : Vec F S625000 .i32) : Vec F S50000x128 .f32 :=
  Host.scatterAdd scatter_S50000x128_S625000x1_S625000x128_1_0_0_1
    (broadcastInDim S50000x128 ![] bcast_S_S50000x128 (constant S_ .f32 0x00000000#32))
    (broadcastInDim S625000x1 ![0] bcast_S625000_S625000x1_0 ds)
    (mulf (Host.gather gather_S50000x128_S625000x1_S625000x128_1_0_n_n_0_1_1128 hf (wrapIdx sr))
      (broadcastInDim S625000x128 ![0, 1] bcast_S625000x1_S625000x128_0_1 a))

/-- The backward aggregate: the rows hb[src] · (1 - alpha) summed into their target rows. -/
def aggB (hb : Vec F S50000x128 .f32) (a : Vec F S625000x1 .f32) (sr ds : Vec F S625000 .i32) : Vec F S50000x128 .f32 :=
  Host.scatterAdd scatter_S50000x128_S625000x1_S625000x128_1_0_0_1
    (broadcastInDim S50000x128 ![] bcast_S_S50000x128 (constant S_ .f32 0x00000000#32))
    (broadcastInDim S625000x1 ![0] bcast_S625000_S625000x1_0 ds)
    (mulf (Host.gather gather_S50000x128_S625000x1_S625000x128_1_0_n_n_0_1_1128 hb (wrapIdx sr))
      (broadcastInDim S625000x128 ![0, 1] bcast_S625000x1_S625000x128_0_1
        (subf (broadcastInDim S625000x1 ![] bcast_S_S625000x1 (constant S_ .f32 0x3F800000#32)) a)))

/-- The combination: [hs | af | ab] · wᵀ + b, with w the layer's [1,128,384] slice and b its [1,128] slice. -/
def z (hs af ab : Vec F S50000x128 .f32) (w : Vec F S1x128x384 .f32) (b : Vec F S1x128 .f32) : Vec F S50000x128 .f32 :=
  addf
    (Host.dotGeneral dot_S50000x384_S384x128_S50000x128_1_0_0_1_n_n none
      (concatenate S50000x384 1 [⟨S50000x128, hs⟩, ⟨S50000x128, af⟩, ⟨S50000x128, ab⟩]
        concatenates_S50000x128_S50000x128_S50000x128_S50000x384_d1)
      (transpose S384x128 [1, 0] (shapeCast S128x384 w shapeCasts_S1x128x384_S128x384) transposes_S128x384_S384x128_1_0))
    (broadcastInDim S50000x128 ![0, 1] bcast_S1x128_S50000x128_0_1
      (broadcastInDim S1x128 ![1] bcast_S128_S1x128_1 (shapeCast S128 b shapeCasts_S1x128_S128)))

/-- The row means: the row sums over 128. -/
def mu (x : Vec F S50000x128 .f32) : Vec F S50000x1 .f32 :=
  Host.divf
    (broadcastInDim S50000x1 ![0] bcast_S50000_S50000x1_0
      (Host.reduceAdd x (constant S_ .f32 0x00000000#32) reducesTo_S50000x128_S50000_d1 h_S_))
    (broadcastInDim S50000x1 ![] bcast_S_S50000x1 (constant S_ .f32 0x43000000#32))

/-- The variance's divisor: 128 minus the correction 0, as a float. -/
def varDen : Vec F S_ .f32 :=
  subf (constant S_ .f32 0x43000000#32) (sitofp .f32 (constantI S_ 32 0#32))

/-- The row variances: the rows' squared deviations from their means, summed, over the divisor where
    that is positive, not-a-number elsewhere. -/
def var (x : Vec F S50000x128 .f32) : Vec F S50000x1 .f32 :=
  select (broadcastInDim S50000x1 ![] bcast_S_S50000x1 (cmpf .ogt (varDen (F := F)) (constant S_ .f32 0x00000000#32)))
    (Host.divf
      (broadcastInDim S50000x1 ![0] bcast_S50000_S50000x1_0
        (Host.reduceAdd
          (mulf (subf x (broadcastInDim S50000x128 ![0, 1] bcast_S50000x1_S50000x128_0_1 (mu x)))
            (subf x (broadcastInDim S50000x128 ![0, 1] bcast_S50000x1_S50000x128_0_1 (mu x))))
          (constant S_ .f32 0x00000000#32) reducesTo_S50000x128_S50000_d1 h_S_))
      (broadcastInDim S50000x1 ![] bcast_S_S50000x1 (varDen (F := F))))
    (broadcastInDim S50000x1 ![] bcast_S_S50000x1 (id (constant S_ .f32 0x7FC00000#32)))

/-- The layer's result: max((x - m) · rsqrt(v + ε) · g + b, 0) + h, with g, b the layer's [1,128] slices. -/
def hnext (x : Vec F S50000x128 .f32) (m v : Vec F S50000x1 .f32) (g b : Vec F S1x128 .f32)
    (h : Vec F S50000x128 .f32) : Vec F S50000x128 .f32 :=
  addf
    (maximumf
      (addf
        (mulf
          (mulf (subf x (broadcastInDim S50000x128 ![0, 1] bcast_S50000x1_S50000x128_0_1 m))
            (broadcastInDim S50000x128 ![0, 1] bcast_S50000x1_S50000x128_0_1
              (Host.rsqrt (addf v (broadcastInDim S50000x1 ![] bcast_S_S50000x1 (constant S_ .f32 0x3727C5AC#32))))))
          (broadcastInDim S50000x128 ![0, 1] bcast_S1x128_S50000x128_0_1
            (broadcastInDim S1x128 ![1] bcast_S128_S1x128_1 (shapeCast S128 g shapeCasts_S1x128_S128))))
        (broadcastInDim S50000x128 ![0, 1] bcast_S1x128_S50000x128_0_1
          (broadcastInDim S1x128 ![1] bcast_S128_S1x128_1 (shapeCast S128 b shapeCasts_S1x128_S128))))
      (broadcastInDim S50000x128 ![] bcast_S_S50000x128 (constant S_ .f32 0x00000000#32)))
    h

/-- The pooled quotient: the rows of h summed per graph, over the graph's node count or 1. -/
def pooled (h : Vec F S50000x128 .f32) (batch : Vec F S50000 .i32) : Vec F S64x128 .f32 :=
  Host.divf
    (Host.scatterAdd scatter_S64x128_S50000x1_S50000x128_1_0_0_1
      (broadcastInDim S64x128 ![] bcast_S_S64x128 (constant S_ .f32 0x00000000#32))
      (broadcastInDim S50000x1 ![0] bcast_S50000_S50000x1_0 batch) h)
    (broadcastInDim S64x128 ![0, 1] bcast_S64x1_S64x128_0_1
      (broadcastInDim S64x1 ![0] bcast_S64_S64x1_0
        (maximumf
          (Host.scatterAdd scatter_S64_S50000x1_S50000_n_0_0_1
            (broadcastInDim S64 ![] bcast_S_S64 (constant S_ .f32 0x00000000#32))
            (broadcastInDim S50000x1 ![0] bcast_S50000_S50000x1_0 batch)
            (broadcastInDim S50000 ![] bcast_S_S50000 (constant S_ .f32 0x3F800000#32)))
          (broadcastInDim S64 ![] bcast_S_S64 (constant S_ .f32 0x3F800000#32)))))

/-! ## A layer, and the whole -/

/-- A layer's combination from its input, the edges and its sliced parameters. -/
def layerZ (h : Vec F S50000x128 .f32) (sr ds : Vec F S625000 .i32) (ws : Vec F S1x1x128 .f32) (cs : Vec F S1x1 .f32)
    (wf wb wh : Vec F S1x128x128 .f32) (bh : Vec F S1x128 .f32) (wc : Vec F S1x128x384 .f32) (bc : Vec F S1x128 .f32) :
    Vec F S50000x128 .f32 :=
  z (hself h wh bh) (aggF (hfwd h wf) (alpha (scores h ws cs) sr ds) sr ds)
    (aggB (hbwd h wb) (alpha (scores h ws cs) sr ds) sr ds) wc bc

/-- A layer: its combination normalized per row, scaled, shifted, clipped at 0, plus its input. -/
def layer (h : Vec F S50000x128 .f32) (sr ds : Vec F S625000 .i32) (ws : Vec F S1x1x128 .f32) (cs : Vec F S1x1 .f32)
    (wf wb wh : Vec F S1x128x128 .f32) (bh : Vec F S1x128 .f32) (wc : Vec F S1x128x384 .f32) (bc g b : Vec F S1x128 .f32) :
    Vec F S50000x128 .f32 :=
  hnext (layerZ h sr ds ws cs wf wb wh bh wc bc) (mu (layerZ h sr ds ws cs wf wb wh bh wc bc))
    (var (layerZ h sr ds ws cs wf wb wh bh wc bc)) g b h

/-- Layer 0: the layer at the parameters' slices that start at 0. -/
def layer0 (h : Vec F S50000x128 .f32) (sr ds : Vec F S625000 .i32) (a5 : Vec F S3x1x128 .f32) (a6 : Vec F S3x1 .f32)
    (a7 a8 a9 : Vec F S3x128x128 .f32) (a10 : Vec F S3x128 .f32) (a11 : Vec F S3x128x384 .f32) (a12 a13 a14 : Vec F S3x128 .f32) :
    Vec F S50000x128 .f32 :=
  layer h sr ds
    (extractStridedSlice S1x1x128 ![0, 0, 0] a5 slices_S3x1x128_S1x1x128_0_0_0)
    (extractStridedSlice S1x1 ![0, 0] a6 slices_S3x1_S1x1_0_0)
    (extractStridedSlice S1x128x128 ![0, 0, 0] a7 slices_S3x128x128_S1x128x128_0_0_0)
    (extractStridedSlice S1x128x128 ![0, 0, 0] a8 slices_S3x128x128_S1x128x128_0_0_0)
    (extractStridedSlice S1x128x128 ![0, 0, 0] a9 slices_S3x128x128_S1x128x128_0_0_0)
    (extractStridedSlice S1x128 ![0, 0] a10 slices_S3x128_S1x128_0_0)
    (extractStridedSlice S1x128x384 ![0, 0, 0] a11 slices_S3x128x384_S1x128x384_0_0_0)
    (extractStridedSlice S1x128 ![0, 0] a12 slices_S3x128_S1x128_0_0)
    (extractStridedSlice S1x128 ![0, 0] a13 slices_S3x128_S1x128_0_0)
    (extractStridedSlice S1x128 ![0, 0] a14 slices_S3x128_S1x128_0_0)

/-- Layer 1: the layer at the parameters' slices that start at 1. -/
def layer1 (h : Vec F S50000x128 .f32) (sr ds : Vec F S625000 .i32) (a5 : Vec F S3x1x128 .f32) (a6 : Vec F S3x1 .f32)
    (a7 a8 a9 : Vec F S3x128x128 .f32) (a10 : Vec F S3x128 .f32) (a11 : Vec F S3x128x384 .f32) (a12 a13 a14 : Vec F S3x128 .f32) :
    Vec F S50000x128 .f32 :=
  layer h sr ds
    (extractStridedSlice S1x1x128 ![1, 0, 0] a5 slices_S3x1x128_S1x1x128_1_0_0)
    (extractStridedSlice S1x1 ![1, 0] a6 slices_S3x1_S1x1_1_0)
    (extractStridedSlice S1x128x128 ![1, 0, 0] a7 slices_S3x128x128_S1x128x128_1_0_0)
    (extractStridedSlice S1x128x128 ![1, 0, 0] a8 slices_S3x128x128_S1x128x128_1_0_0)
    (extractStridedSlice S1x128x128 ![1, 0, 0] a9 slices_S3x128x128_S1x128x128_1_0_0)
    (extractStridedSlice S1x128 ![1, 0] a10 slices_S3x128_S1x128_1_0)
    (extractStridedSlice S1x128x384 ![1, 0, 0] a11 slices_S3x128x384_S1x128x384_1_0_0)
    (extractStridedSlice S1x128 ![1, 0] a12 slices_S3x128_S1x128_1_0)
    (extractStridedSlice S1x128 ![1, 0] a13 slices_S3x128_S1x128_1_0)
    (extractStridedSlice S1x128 ![1, 0] a14 slices_S3x128_S1x128_1_0)

/-- Layer 2: the layer at the parameters' slices that start at 2. -/
def layer2 (h : Vec F S50000x128 .f32) (sr ds : Vec F S625000 .i32) (a5 : Vec F S3x1x128 .f32) (a6 : Vec F S3x1 .f32)
    (a7 a8 a9 : Vec F S3x128x128 .f32) (a10 : Vec F S3x128 .f32) (a11 : Vec F S3x128x384 .f32) (a12 a13 a14 : Vec F S3x128 .f32) :
    Vec F S50000x128 .f32 :=
  layer h sr ds
    (extractStridedSlice S1x1x128 ![2, 0, 0] a5 slices_S3x1x128_S1x1x128_2_0_0)
    (extractStridedSlice S1x1 ![2, 0] a6 slices_S3x1_S1x1_2_0)
    (extractStridedSlice S1x128x128 ![2, 0, 0] a7 slices_S3x128x128_S1x128x128_2_0_0)
    (extractStridedSlice S1x128x128 ![2, 0, 0] a8 slices_S3x128x128_S1x128x128_2_0_0)
    (extractStridedSlice S1x128x128 ![2, 0, 0] a9 slices_S3x128x128_S1x128x128_2_0_0)
    (extractStridedSlice S1x128 ![2, 0] a10 slices_S3x128_S1x128_2_0)
    (extractStridedSlice S1x128x384 ![2, 0, 0] a11 slices_S3x128x384_S1x128x384_2_0_0)
    (extractStridedSlice S1x128 ![2, 0] a12 slices_S3x128_S1x128_2_0)
    (extractStridedSlice S1x128 ![2, 0] a13 slices_S3x128_S1x128_2_0)
    (extractStridedSlice S1x128 ![2, 0] a14 slices_S3x128_S1x128_2_0)

/-- The reference's result as a function of its fifteen arguments. -/
def out (a0 : Vec F S50000x128 .f32) (a1 : Vec F S2x625000 .i32) (a2 : Vec F S50000 .i32) (a3 : Vec F S128x128 .f32)
    (a4 : Vec F S128 .f32) (a5 : Vec F S3x1x128 .f32) (a6 : Vec F S3x1 .f32) (a7 a8 a9 : Vec F S3x128x128 .f32)
    (a10 : Vec F S3x128 .f32) (a11 : Vec F S3x128x384 .f32) (a12 a13 a14 : Vec F S3x128 .f32) : Vec F S64x128 .f32 :=
  pooled
    (layer2
      (layer1 (layer0 (emb a0 a3 a4) (src a1) (dst a1) a5 a6 a7 a8 a9 a10 a11 a12 a13 a14)
        (src a1) (dst a1) a5 a6 a7 a8 a9 a10 a11 a12 a13 a14)
      (src a1) (dst a1) a5 a6 a7 a8 a9 a10 a11 a12 a13 a14)
    a2

end Cert.ReferenceIdeal.RefRun

end
-- ==== Proof.RefOps0.lean ====
/- Window 0 of the reference's @main as lists of its operations in order, one list per stage (a stage cut by
   the window's end continues in the next window), a called function's operations inline at each call site over
   that call's buffers; what each list touches, writes and leaves alone; and the window as the line of its lists. -/
import proofs.«108119_j38019050504554_2_alg».proof.Proof.RefOpsStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations of the two index vectors. -/
abbrev P_idx : List (HloOp τ sig (Elt F)) :=
  [ StableHlo.unary main_arg1 main_v0 ((extractStridedSlice S1x625000 ![0, 0] · slices_S2x625000_S1x625000_0_0) : (⟨S2x625000, .i32⟩ : BufTy).Contents (Elt F) → (⟨S1x625000, .i32⟩ : BufTy).Contents (Elt F)),
    StableHlo.reshape main_v0 main_v1 rfl shapeCasts_S1x625000_S625000,
    StableHlo.unary main_arg1 main_v2 ((extractStridedSlice S1x625000 ![1, 0] · slices_S2x625000_S1x625000_1_0) : (⟨S2x625000, .i32⟩ : BufTy).Contents (Elt F) → (⟨S1x625000, .i32⟩ : BufTy).Contents (Elt F)),
    StableHlo.reshape main_v2 main_v3 rfl shapeCasts_S1x625000_S625000 ]

/-- The references it writes. -/
abbrev P_idx_W : List (Ref sig .tc) := [main_v0, main_v1, main_v2, main_v3]

theorem P_idx_sub : ∀ op ∈ (P_idx : List (HloOp τ sig (Elt F))), op.bufs ⊆ tcRefs τ sig :=
  List.forall_iff_forall_mem.mp ⟨unary_bufs_sub .., reshape_bufs_sub .., unary_bufs_sub .., reshape_bufs_sub ..⟩

theorem P_idx_fresh : ∀ op ∈ (P_idx : List (HloOp τ sig (Elt F))), op.fresh = ∅ :=
  List.forall_iff_forall_mem.mp ⟨rfl, rfl, rfl, rfl⟩

theorem P_idx_writes : (P_idx : List (HloOp τ sig (Elt F))).Forall fun op => op.writes ⊆ (P_idx_W.map (Proc.devRef (τ := τ) .tc)).toFinset :=
  ⟨writes_sub_of_mem rfl (by decide), writes_sub_of_mem rfl (by decide), writes_sub_of_mem rfl (by decide), writes_sub_of_mem rfl (by decide)⟩

/-- A reference it does not write keeps its contents. -/
theorem P_idx_frame : ∀ (V : Valuation τ sig (Elt F)) (r : Ref sig .tc), r ∉ P_idx_W →
    after P_idx V (no_index (Proc.devRef .tc r)) = V (Proc.devRef .tc r) :=
  fun V _ hr => after_frame P_idx P_idx_writes V hr

/-- Operations of the embedding. -/
abbrev P_emb : List (HloOp τ sig (Elt F)) :=
  [ StableHlo.unary main_arg3 main_v4 ((transpose S128x128 [1, 0] · transposes_S128x128_S128x128_1_0) : (⟨S128x128, .f32⟩ : BufTy).Contents (Elt F) → (⟨S128x128, .f32⟩ : BufTy).Contents (Elt F)),
    StableHlo.binary main_arg0 main_v4 main_v5 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v6 (broadcastInDim S1x128 ![1] bcast_S128_S1x128_1 : (⟨S128, .f32⟩ : BufTy).Contents (Elt F) → (⟨S1x128, .f32⟩ : BufTy).Contents (Elt F)),
    StableHlo.unary main_v6 main_v7 (broadcastInDim S50000x128 ![0, 1] bcast_S1x128_S50000x128_0_1 : (⟨S1x128, .f32⟩ : BufTy).Contents (Elt F) → (⟨S50000x128, .f32⟩ : BufTy).Contents (Elt F)),
    StableHlo.binary main_v5 main_v7 main_v8 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (.of main_v8) main_call0.v0 main_call0.v1 maximumf ]

/-- The references it writes. -/
abbrev P_emb_W : List (Ref sig .tc) := [main_v4, main_v5, main_v6, main_v7, main_v8, main_call0_cst, main_call0_v0, main_v9]

theorem P_emb_sub : ∀ op ∈ (P_emb : List (HloOp τ sig (Elt F))), op.bufs ⊆ tcRefs τ sig :=
  List.forall_iff_forall_mem.mp ⟨unary_bufs_sub .., binary_bufs_sub .., unary_bufs_sub .., unary_bufs_sub .., binary_bufs_sub .., nullary_bufs_sub .., unary_bufs_sub .., binary_bufs_sub ..⟩

theorem P_emb_fresh : ∀ op ∈ (P_emb : List (HloOp τ sig (Elt F))), op.fresh = ∅ :=
  List.forall_iff_forall_mem.mp ⟨rfl, rfl, rfl, rfl, rfl, rfl, rfl, rfl⟩

theorem P_emb_writes : (P_emb : List (HloOp τ sig (Elt F))).Forall fun op => op.writes ⊆ (P_emb_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A reference it does not write keeps its contents. -/
theorem P_emb_frame : ∀ (V : Valuation τ sig (Elt F)) (r : Ref sig .tc), r ∉ P_emb_W →
    after P_emb V (no_index (Proc.devRef .tc r)) = V (Proc.devRef .tc r) :=
  fun V _ hr => after_frame P_emb P_emb_writes V hr

/-- Operations of the scores of layer 0. -/
abbrev L0_scores : List (HloOp τ sig (Elt F)) :=
  [ StableHlo.unary main_arg5 main_v10 ((extractStridedSlice S1x1x128 ![0, 0, 0] · slices_S3x1x128_S1x1x128_0_0_0) : (⟨S3x1x128, .f32⟩ : BufTy).Contents (Elt F) → (⟨S1x1x128, .f32⟩ : BufTy).Contents (Elt F)),
    StableHlo.reshape main_v10 main_v11 rfl shapeCasts_S1x1x128_S1x128,
    StableHlo.unary main_v11 main_v12 ((transpose S128x1 [1, 0] · transposes_S1x128_S128x1_1_0) : (⟨S1x128, .f32⟩ : BufTy).Contents (Elt F) → (⟨S128x1, .f32⟩ : BufTy).Contents (Elt F)),
    StableHlo.binary main_v9 main_v12 main_v13 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    StableHlo.unary main_arg6 main_v14 ((extractStridedSlice S1x1 ![0, 0] · slices_S3x1_S1x1_0_0) : (⟨S3x1, .f32⟩ : BufTy).Contents (Elt F) → (⟨S1x1, .f32⟩ : BufTy).Contents (Elt F)),
    StableHlo.reshape main_v14 main_v15 rfl shapeCasts_S1x1_S1,
    StableHlo.unary main_v15 main_v16 (broadcastInDim S1x1 ![1] bcast_S1_S1x1_1 : (⟨S1, .f32⟩ : BufTy).Contents (Elt F) → (⟨S1x1, .f32⟩ : BufTy).Contents (Elt F)),
    StableHlo.unary main_v16 main_v17 (broadcastInDim S50000x1 ![0, 1] bcast_S1x1_S50000x1_0_1 : (⟨S1x1, .f32⟩ : BufTy).Contents (Elt F) → (⟨S50000x1, .f32⟩ : BufTy).Contents (Elt F)),
    StableHlo.binary main_v13 main_v17 main_v18 (addf : (⟨S50000x1, .f32⟩ : BufTy).Contents (Elt F) → (⟨S50000x1, .f32⟩ : BufTy).Contents (Elt F) → (⟨S50000x1, .f32⟩ : BufTy).Contents (Elt F)) ]

/-- The references it writes. -/
abbrev L0_scores_W : List (Ref sig .tc) := [main_v10, main_v11, main_v12, main_v13, main_v14, main_v15, main_v16, main_v17, main_v18]

theorem L0_scores_sub : ∀ op ∈ (L0_scores : List (HloOp τ sig (Elt F))), op.bufs ⊆ tcRefs τ sig :=
  List.forall_iff_forall_mem.mp ⟨unary_bufs_sub .., reshape_bufs_sub .., unary_bufs_sub .., binary_bufs_sub .., unary_bufs_sub .., reshape_bufs_sub .., unary_bufs_sub .., unary_bufs_sub .., binary_bufs_sub ..⟩

theorem L0_scores_fresh : ∀ op ∈ (L0_scores : List (HloOp τ sig (Elt F))), op.fresh = ∅ :=
  List.forall_iff_forall_mem.mp ⟨rfl, rfl, rfl, rfl, rfl, rfl, rfl, rfl, rfl⟩

theorem L0_scores_writes : (L0_scores : List (HloOp τ sig (Elt F))).Forall fun op => op.writes ⊆ (L0_scores_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A reference it does not write keeps its contents. -/
theorem L0_scores_frame : ∀ (V : Valuation τ sig (Elt F)) (r : Ref sig .tc), r ∉ L0_scores_W →
    after L0_scores V (no_index (Proc.devRef .tc r)) = V (Proc.devRef .tc r) :=
  fun V _ hr => after_frame L0_scores L0_scores_writes V hr

/-- Operations of the forward messages of layer 0. -/
abbrev L0_hfwd : List (HloOp τ sig (Elt F)) :=
  [ StableHlo.unary main_arg7 main_v19 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v19 main_v20 rfl shapeCasts_S1x128x128_S128x128,
    StableHlo.unary main_v20 main_v21 ((transpose S128x128 [1, 0] · transposes_S128x128_S128x128_1_0) : (⟨S128x128, .f32⟩ : BufTy).Contents (Elt F) → (⟨S128x128, .f32⟩ : BufTy).Contents (Elt F)),
    StableHlo.binary main_v9 main_v21 main_v22 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The references it writes. -/
abbrev L0_hfwd_W : List (Ref sig .tc) := [main_v19, main_v20, main_v21, main_v22]

theorem L0_hfwd_sub : ∀ op ∈ (L0_hfwd : List (HloOp τ sig (Elt F))), op.bufs ⊆ tcRefs τ sig :=
  List.forall_iff_forall_mem.mp ⟨unary_bufs_sub .., reshape_bufs_sub .., unary_bufs_sub .., binary_bufs_sub ..⟩

theorem L0_hfwd_fresh : ∀ op ∈ (L0_hfwd : List (HloOp τ sig (Elt F))), op.fresh = ∅ :=
  List.forall_iff_forall_mem.mp ⟨rfl, rfl, rfl, rfl⟩

theorem L0_hfwd_writes : (L0_hfwd : List (HloOp τ sig (Elt F))).Forall fun op => op.writes ⊆ (L0_hfwd_W.map (Proc.devRef (τ := τ) .tc)).toFinset :=
  ⟨writes_sub_of_mem rfl (by decide), writes_sub_of_mem rfl (by decide), writes_sub_of_mem rfl (by decide), writes_sub_of_mem rfl (by decide)⟩

/-- A reference it does not write keeps its contents. -/
theorem L0_hfwd_frame : ∀ (V : Valuation τ sig (Elt F)) (r : Ref sig .tc), r ∉ L0_hfwd_W →
    after L0_hfwd V (no_index (Proc.devRef .tc r)) = V (Proc.devRef .tc r) :=
  fun V _ hr => after_frame L0_hfwd L0_hfwd_writes V hr

/-- Operations of the backward messages of layer 0. -/
abbrev L0_hbwd : List (HloOp τ sig (Elt F)) :=
  [ StableHlo.unary main_arg8 main_v23 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v23 main_v24 rfl shapeCasts_S1x128x128_S128x128,
    StableHlo.unary main_v24 main_v25 ((transpose S128x128 [1, 0] · transposes_S128x128_S128x128_1_0) : (⟨S128x128, .f32⟩ : BufTy).Contents (Elt F) → (⟨S128x128, .f32⟩ : BufTy).Contents (Elt F)),
    StableHlo.binary main_v9 main_v25 main_v26 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The references it writes. -/
abbrev L0_hbwd_W : List (Ref sig .tc) := [main_v23, main_v24, main_v25, main_v26]

theorem L0_hbwd_sub : ∀ op ∈ (L0_hbwd : List (HloOp τ sig (Elt F))), op.bufs ⊆ tcRefs τ sig :=
  List.forall_iff_forall_mem.mp ⟨unary_bufs_sub .., reshape_bufs_sub .., unary_bufs_sub .., binary_bufs_sub ..⟩

theorem L0_hbwd_fresh : ∀ op ∈ (L0_hbwd : List (HloOp τ sig (Elt F))), op.fresh = ∅ :=
  List.forall_iff_forall_mem.mp ⟨rfl, rfl, rfl, rfl⟩

theorem L0_hbwd_writes : (L0_hbwd : List (HloOp τ sig (Elt F))).Forall fun op => op.writes ⊆ (L0_hbwd_W.map (Proc.devRef (τ := τ) .tc)).toFinset :=
  ⟨writes_sub_of_mem rfl (by decide), writes_sub_of_mem rfl (by decide), writes_sub_of_mem rfl (by decide), writes_sub_of_mem rfl (by decide)⟩

/-- A reference it does not write keeps its contents. -/
theorem L0_hbwd_frame : ∀ (V : Valuation τ sig (Elt F)) (r : Ref sig .tc), r ∉ L0_hbwd_W →
    after L0_hbwd V (no_index (Proc.devRef .tc r)) = V (Proc.devRef .tc r) :=
  fun V _ hr => after_frame L0_hbwd L0_hbwd_writes V hr

/-- Operations of the self term of layer 0. -/
abbrev L0_hself : List (HloOp τ sig (Elt F)) :=
  [ StableHlo.unary main_arg9 main_v27 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v27 main_v28 rfl shapeCasts_S1x128x128_S128x128,
    StableHlo.unary main_v28 main_v29 ((transpose S128x128 [1, 0] · transposes_S128x128_S128x128_1_0) : (⟨S128x128, .f32⟩ : BufTy).Contents (Elt F) → (⟨S128x128, .f32⟩ : BufTy).Contents (Elt F)),
    StableHlo.binary main_v9 main_v29 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg10 main_v31 ((extractStridedSlice S1x128 ![0, 0] · slices_S3x128_S1x128_0_0) : (⟨S3x128, .f32⟩ : BufTy).Contents (Elt F) → (⟨S1x128, .f32⟩ : BufTy).Contents (Elt F)),
    StableHlo.reshape main_v31 main_v32 rfl shapeCasts_S1x128_S128,
    StableHlo.unary main_v32 main_v33 (broadcastInDim S1x128 ![1] bcast_S128_S1x128_1 : (⟨S128, .f32⟩ : BufTy).Contents (Elt F) → (⟨S1x128, .f32⟩ : BufTy).Contents (Elt F)),
    StableHlo.unary main_v33 main_v34 (broadcastInDim S50000x128 ![0, 1] bcast_S1x128_S50000x128_0_1 : (⟨S1x128, .f32⟩ : BufTy).Contents (Elt F) → (⟨S50000x128, .f32⟩ : BufTy).Contents (Elt F)),
    StableHlo.binary main_v30 main_v34 main_v35 (addf : (⟨S50000x128, .f32⟩ : BufTy).Contents (Elt F) → (⟨S50000x128, .f32⟩ : BufTy).Contents (Elt F) → (⟨S50000x128, .f32⟩ : BufTy).Contents (Elt F)) ]

/-- The references it writes. -/
abbrev L0_hself_W : List (Ref sig .tc) := [main_v27, main_v28, main_v29, main_v30, main_v31, main_v32, main_v33, main_v34, main_v35]

theorem L0_hself_sub : ∀ op ∈ (L0_hself : List (HloOp τ sig (Elt F))), op.bufs ⊆ tcRefs τ sig :=
  List.forall_iff_forall_mem.mp ⟨unary_bufs_sub .., reshape_bufs_sub .., unary_bufs_sub .., binary_bufs_sub .., unary_bufs_sub .., reshape_bufs_sub .., unary_bufs_sub .., unary_bufs_sub .., binary_bufs_sub ..⟩

theorem L0_hself_fresh : ∀ op ∈ (L0_hself : List (HloOp τ sig (Elt F))), op.fresh = ∅ :=
  List.forall_iff_forall_mem.mp ⟨rfl, rfl, rfl, rfl, rfl, rfl, rfl, rfl, rfl⟩

theorem L0_hself_writes : (L0_hself : List (HloOp τ sig (Elt F))).Forall fun op => op.writes ⊆ (L0_hself_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A reference it does not write keeps its contents. -/
theorem L0_hself_frame : ∀ (V : Valuation τ sig (Elt F)) (r : Ref sig .tc), r ∉ L0_hself_W →
    after L0_hself V (no_index (Proc.devRef .tc r)) = V (Proc.devRef .tc r) :=
  fun V _ hr => after_frame L0_hself L0_hself_writes V hr

/-- Operations of the gates of layer 0 (first part). -/
abbrev L0_alpha_a : List (HloOp τ sig (Elt F)) :=
  [ StableHlo.nullary main_c (constantI S_ 32 0#32),
    StableHlo.unary main_c main_v36 (broadcastInDim S625000 ![] bcast_S_S625000 : (⟨S_, .i32⟩ : BufTy).Contents (Elt F) → (⟨S625000, .i32⟩ : BufTy).Contents (Elt F)),
    StableHlo.binary main_v1 main_v36 main_v37 (cmpi .slt : (⟨S625000, .i32⟩ : BufTy).Contents (Elt F) → (⟨S625000, .i32⟩ : BufTy).Contents (Elt F) → (⟨S625000, .i1⟩ : BufTy).Contents (Elt F)),
    StableHlo.nullary main_c_0 (constantI S_ 32 50000#32),
    StableHlo.unary main_c_0 main_v38 (broadcastInDim S625000 ![] bcast_S_S625000 : (⟨S_, .i32⟩ : BufTy).Contents (Elt F) → (⟨S625000, .i32⟩ : BufTy).Contents (Elt F)),
    StableHlo.binary main_v1 main_v38 main_v39 (addi : (⟨S625000, .i32⟩ : BufTy).Contents (Elt F) → (⟨S625000, .i32⟩ : BufTy).Contents (Elt F) → (⟨S625000, .i32⟩ : BufTy).Contents (Elt F)),
    StableHlo.ternary main_v37 main_v39 main_v1 main_v40 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    StableHlo.unary main_v40 main_v41 (broadcastInDim S625000x1 ![0] bcast_S625000_S625000x1_0 : (⟨S625000, .i32⟩ : BufTy).Contents (Elt F) → (⟨S625000x1, .i32⟩ : BufTy).Contents (Elt F)),
    StableHlo.binary main_v18 main_v41 main_v42 ((fun x i => Host.gather gather_S50000x1_S625000x1_S625000x1_1_0_n_n_0_1_11 x i) : (⟨S50000x1, .f32⟩ : BufTy).Contents (Elt F) → (⟨S625000x1, .i32⟩ : BufTy).Contents (Elt F) → (⟨S625000x1, .f32⟩ : BufTy).Contents (Elt F)),
    StableHlo.nullary main_c_1 (constantI S_ 32 0#32),
    StableHlo.unary main_c_1 main_v43 (broadcastInDim S625000 ![] bcast_S_S625000 : (⟨S_, .i32⟩ : BufTy).Contents (Elt F) → (⟨S625000, .i32⟩ : BufTy).Contents (Elt F)),
    StableHlo.binary main_v3 main_v43 main_v44 (cmpi .slt : (⟨S625000, .i32⟩ : BufTy).Contents (Elt F) → (⟨S625000, .i32⟩ : BufTy).Contents (Elt F) → (⟨S625000, .i1⟩ : BufTy).Contents (Elt F)),
    StableHlo.nullary main_c_2 (constantI S_ 32 50000#32),
    StableHlo.unary main_c_2 main_v45 (broadcastInDim S625000 ![] bcast_S_S625000 : (⟨S_, .i32⟩ : BufTy).Contents (Elt F) → (⟨S625000, .i32⟩ : BufTy).Contents (Elt F)),
    StableHlo.binary main_v3 main_v45 main_v46 (addi : (⟨S625000, .i32⟩ : BufTy).Contents (Elt F) → (⟨S625000, .i32⟩ : BufTy).Contents (Elt F) → (⟨S625000, .i32⟩ : BufTy).Contents (Elt F)),
    StableHlo.ternary main_v44 main_v46 main_v3 main_v47 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    StableHlo.unary main_v47 main_v48 (broadcastInDim S625000x1 ![0] bcast_S625000_S625000x1_0 : (⟨S625000, .i32⟩ : BufTy).Contents (Elt F) → (⟨S625000x1, .i32⟩ : BufTy).Contents (Elt F)),
    StableHlo.binary main_v18 main_v48 main_v49 ((fun x i => Host.gather gather_S50000x1_S625000x1_S625000x1_1_0_n_n_0_1_11 x i) : (⟨S50000x1, .f32⟩ : BufTy).Contents (Elt F) → (⟨S625000x1, .i32⟩ : BufTy).Contents (Elt F) → (⟨S625000x1, .f32⟩ : BufTy).Contents (Elt F)),
    StableHlo.binary main_v42 main_v49 main_v50 (subf : (⟨S625000x1, .f32⟩ : BufTy).Contents (Elt F) → (⟨S625000x1, .f32⟩ : BufTy).Contents (Elt F) → (⟨S625000x1, .f32⟩ : BufTy).Contents (Elt F)),
    StableHlo.unary main_v50 main_v51 (Host.negf : (⟨S625000x1, .f32⟩ : BufTy).Contents (Elt F) → (⟨S625000x1, .f32⟩ : BufTy).Contents (Elt F)),
    StableHlo.unary main_v51 main_v52 (Host.exp : (⟨S625000x1, .f32⟩ : BufTy).Contents (Elt F) → (⟨S625000x1, .f32⟩ : BufTy).Contents (Elt F)),
    StableHlo.nullary main_cst (constant S_ .f32 0x3F800000#32),
    StableHlo.unary main_cst main_v53 (broadcastInDim S625000x1 ![] bcast_S_S625000x1 : (⟨S_, .f32⟩ : BufTy).Contents (Elt F) → (⟨S625000x1, .f32⟩ : BufTy).Contents (Elt F)),
    StableHlo.binary main_v53 main_v52 main_v54 (addf : (⟨S625000x1, .f32⟩ : BufTy).Contents (Elt F) → (⟨S625000x1, .f32⟩ : BufTy).Contents (Elt F) → (⟨S625000x1, .f32⟩ : BufTy).Contents (Elt F)) ]

/-- The references it writes. -/
abbrev L0_alpha_a_W : List (Ref sig .tc) := [main_c, main_v36, main_v37, main_c_0, main_v38, main_v39, main_v40, main_v41, main_v42, main_c_1, main_v43, main_v44, main_c_2, main_v45, main_v46, main_v47, main_v48, main_v49, main_v50, main_v51, main_v52, main_cst, main_v53, main_v54]

theorem L0_alpha_a_sub : ∀ op ∈ (L0_alpha_a : List (HloOp τ sig (Elt F))), op.bufs ⊆ tcRefs τ sig :=
  List.forall_iff_forall_mem.mp ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., nullary_bufs_sub .., unary_bufs_sub .., binary_bufs_sub ..⟩

theorem L0_alpha_a_fresh : ∀ op ∈ (L0_alpha_a : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl⟩

theorem L0_alpha_a_writes : (L0_alpha_a : List (HloOp τ sig (Elt F))).Forall fun op => op.writes ⊆ (L0_alpha_a_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A reference it does not write keeps its contents. -/
theorem L0_alpha_a_frame : ∀ (V : Valuation τ sig (Elt F)) (r : Ref sig .tc), r ∉ L0_alpha_a_W →
    after L0_alpha_a V (no_index (Proc.devRef .tc r)) = V (Proc.devRef .tc r) :=
  fun V _ hr => after_frame L0_alpha_a L0_alpha_a_writes V hr

/-- Window 0's operations, in order. -/
abbrev W0 : List (HloOp τ sig (Elt F)) := P_idx ++ (P_emb ++ (L0_scores ++ (L0_hfwd ++ (L0_hbwd ++ (L0_hself ++ (L0_alpha_a))))))

/-- The references window 0 writes. -/
abbrev W0_W : List (Ref sig .tc) := P_idx_W ++ (P_emb_W ++ (L0_scores_W ++ (L0_hfwd_W ++ (L0_hbwd_W ++ (L0_hself_W ++ (L0_alpha_a_W))))))

theorem W0_sub : ∀ op ∈ (W0 : List (HloOp τ sig (Elt F))), op.bufs ⊆ tcRefs τ sig :=
  forall_mem_append P_idx_sub (forall_mem_append P_emb_sub (forall_mem_append L0_scores_sub (forall_mem_append L0_hfwd_sub (forall_mem_append L0_hbwd_sub (forall_mem_append L0_hself_sub (L0_alpha_a_sub))))))

theorem W0_fresh : ∀ op ∈ (W0 : List (HloOp τ sig (Elt F))), op.fresh = ∅ :=
  forall_mem_append P_idx_fresh (forall_mem_append P_emb_fresh (forall_mem_append L0_scores_fresh (forall_mem_append L0_hfwd_fresh (forall_mem_append L0_hbwd_fresh (forall_mem_append L0_hself_fresh (L0_alpha_a_fresh))))))

-- the window's binds re-associated one by one: the rewriting recurses once per statement
set_option maxRecDepth 8192 in
set_option maxHeartbeats 1000000 in
/-- The window is that line: the called functions unfolded at their calls, both sides are one chain of steps
    once sequencing is re-associated. -/
theorem part0_eq (c : Dev nD) : main_part0 (F := F) c = seq W0 := by
  simp only [main_part0, fn_relu.body, fn_var.body, fn_where.body, seq_append, seq, bind_assoc, pure_bind, bind_pure_unit] <;> rfl

end Cert.ReferenceIdeal.RefRun

end
-- ==== Proof.RefOps1.lean ====
/- Window 1 of the reference's @main as lists of its operations in order, one list per stage (a stage cut by
   the window's end continues in the next window), a called function's operations inline at each call site over
   that call's buffers; what each list touches, writes and leaves alone; and the window as the line of its lists. -/
import proofs.«108119_j38019050504554_2_alg».proof.Proof.RefOpsStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations of the gates of layer 0 (second part). -/
abbrev L0_alpha_b : List (HloOp τ sig (Elt F)) :=
  [ StableHlo.nullary main_cst_3 (constant S_ .f32 0x3F800000#32),
    StableHlo.unary main_cst_3 main_v55 (broadcastInDim S625000x1 ![] bcast_S_S625000x1 : (⟨S_, .f32⟩ : BufTy).Contents (Elt F) → (⟨S625000x1, .f32⟩ : BufTy).Contents (Elt F)),
    StableHlo.binary main_v55 main_v54 main_v56 (Host.divf : (⟨S625000x1, .f32⟩ : BufTy).Contents (Elt F) → (⟨S625000x1, .f32⟩ : BufTy).Contents (Elt F) → (⟨S625000x1, .f32⟩ : BufTy).Contents (Elt F)) ]

/-- The references it writes. -/
abbrev L0_alpha_b_W : List (Ref sig .tc) := [main_cst_3, main_v55, main_v56]

theorem L0_alpha_b_sub : ∀ op ∈ (L0_alpha_b : List (HloOp τ sig (Elt F))), op.bufs ⊆ tcRefs τ sig :=
  List.forall_iff_forall_mem.mp ⟨nullary_bufs_sub .., unary_bufs_sub .., binary_bufs_sub ..⟩

theorem L0_alpha_b_fresh : ∀ op ∈ (L0_alpha_b : List (HloOp τ sig (Elt F))), op.fresh = ∅ :=
  List.forall_iff_forall_mem.mp ⟨rfl, rfl, rfl⟩

theorem L0_alpha_b_writes : (L0_alpha_b : List (HloOp τ sig (Elt F))).Forall fun op => op.writes ⊆ (L0_alpha_b_W.map (Proc.devRef (τ := τ) .tc)).toFinset :=
  ⟨writes_sub_of_mem rfl (by decide), writes_sub_of_mem rfl (by decide), writes_sub_of_mem rfl (by decide)⟩

/-- A reference it does not write keeps its contents. -/
theorem L0_alpha_b_frame : ∀ (V : Valuation τ sig (Elt F)) (r : Ref sig .tc), r ∉ L0_alpha_b_W →
    after L0_alpha_b V (no_index (Proc.devRef .tc r)) = V (Proc.devRef .tc r) :=
  fun V _ hr => after_frame L0_alpha_b L0_alpha_b_writes V hr

/-- Operations of the forward aggregate of layer 0. -/
abbrev L0_aggF : List (HloOp τ sig (Elt F)) :=
  [ StableHlo.nullary main_c_4 (constantI S_ 32 0#32),
    StableHlo.unary main_c_4 main_v57 (broadcastInDim S625000 ![] bcast_S_S625000 : (⟨S_, .i32⟩ : BufTy).Contents (Elt F) → (⟨S625000, .i32⟩ : BufTy).Contents (Elt F)),
    StableHlo.binary main_v1 main_v57 main_v58 (cmpi .slt : (⟨S625000, .i32⟩ : BufTy).Contents (Elt F) → (⟨S625000, .i32⟩ : BufTy).Contents (Elt F) → (⟨S625000, .i1⟩ : BufTy).Contents (Elt F)),
    StableHlo.nullary main_c_5 (constantI S_ 32 50000#32),
    StableHlo.unary main_c_5 main_v59 (broadcastInDim S625000 ![] bcast_S_S625000 : (⟨S_, .i32⟩ : BufTy).Contents (Elt F) → (⟨S625000, .i32⟩ : BufTy).Contents (Elt F)),
    StableHlo.binary main_v1 main_v59 main_v60 (addi : (⟨S625000, .i32⟩ : BufTy).Contents (Elt F) → (⟨S625000, .i32⟩ : BufTy).Contents (Elt F) → (⟨S625000, .i32⟩ : BufTy).Contents (Elt F)),
    StableHlo.ternary main_v58 main_v60 main_v1 main_v61 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    StableHlo.unary main_v61 main_v62 (broadcastInDim S625000x1 ![0] bcast_S625000_S625000x1_0 : (⟨S625000, .i32⟩ : BufTy).Contents (Elt F) → (⟨S625000x1, .i32⟩ : BufTy).Contents (Elt F)),
    StableHlo.binary main_v22 main_v62 main_v63 ((fun x i => Host.gather gather_S50000x128_S625000x1_S625000x128_1_0_n_n_0_1_1128 x i) : (⟨S50000x128, .f32⟩ : BufTy).Contents (Elt F) → (⟨S625000x1, .i32⟩ : BufTy).Contents (Elt F) → (⟨S625000x128, .f32⟩ : BufTy).Contents (Elt F)),
    StableHlo.unary main_v56 main_v64 (broadcastInDim S625000x128 ![0, 1] bcast_S625000x1_S625000x128_0_1 : (⟨S625000x1, .f32⟩ : BufTy).Contents (Elt F) → (⟨S625000x128, .f32⟩ : BufTy).Contents (Elt F)),
    StableHlo.binary main_v63 main_v64 main_v65 (mulf : (⟨S625000x128, .f32⟩ : BufTy).Contents (Elt F) → (⟨S625000x128, .f32⟩ : BufTy).Contents (Elt F) → (⟨S625000x128, .f32⟩ : BufTy).Contents (Elt F)),
    StableHlo.nullary main_cst_6 (constant S_ .f32 0x00000000#32),
    StableHlo.unary main_cst_6 main_v66 (broadcastInDim S50000x128 ![] bcast_S_S50000x128 : (⟨S_, .f32⟩ : BufTy).Contents (Elt F) → (⟨S50000x128, .f32⟩ : BufTy).Contents (Elt F)),
    StableHlo.unary main_v3 main_v67 (broadcastInDim S625000x1 ![0] bcast_S625000_S625000x1_0 : (⟨S625000, .i32⟩ : BufTy).Contents (Elt F) → (⟨S625000x1, .i32⟩ : BufTy).Contents (Elt F)),
    StableHlo.ternary main_v66 main_v67 main_v65 main_v68 ((fun x i u => Host.scatterAdd scatter_S50000x128_S625000x1_S625000x128_1_0_0_1 x i u) : (⟨S50000x128, .f32⟩ : BufTy).Contents (Elt F) → (⟨S625000x1, .i32⟩ : BufTy).Contents (Elt F) → (⟨S625000x128, .f32⟩ : BufTy).Contents (Elt F) → (⟨S50000x128, .f32⟩ : BufTy).Contents (Elt F)) ]

/-- The references it writes. -/
abbrev L0_aggF_W : List (Ref sig .tc) := [main_c_4, main_v57, main_v58, main_c_5, main_v59, main_v60, main_v61, main_v62, main_v63, main_v64, main_v65, main_cst_6, main_v66, main_v67, main_v68]

theorem L0_aggF_sub : ∀ op ∈ (L0_aggF : List (HloOp τ sig (Elt F))), op.bufs ⊆ tcRefs τ sig :=
  List.forall_iff_forall_mem.mp ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩

theorem L0_aggF_fresh : ∀ op ∈ (L0_aggF : List (HloOp τ sig (Elt F))), op.fresh = ∅ :=
  List.forall_iff_forall_mem.mp ⟨rfl, rfl, rfl, rfl, rfl, rfl, rfl, rfl, rfl, rfl, rfl, rfl, rfl, rfl, rfl⟩

theorem L0_aggF_writes : (L0_aggF : List (HloOp τ sig (Elt F))).Forall fun op => op.writes ⊆ (L0_aggF_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A reference it does not write keeps its contents. -/
theorem L0_aggF_frame : ∀ (V : Valuation τ sig (Elt F)) (r : Ref sig .tc), r ∉ L0_aggF_W →
    after L0_aggF V (no_index (Proc.devRef .tc r)) = V (Proc.devRef .tc r) :=
  fun V _ hr => after_frame L0_aggF L0_aggF_writes V hr

/-- Operations of the backward aggregate of layer 0. -/
abbrev L0_aggB : List (HloOp τ sig (Elt F)) :=
  [ StableHlo.nullary main_c_7 (constantI S_ 32 0#32),
    StableHlo.unary main_c_7 main_v69 (broadcastInDim S625000 ![] bcast_S_S625000 : (⟨S_, .i32⟩ : BufTy).Contents (Elt F) → (⟨S625000, .i32⟩ : BufTy).Contents (Elt F)),
    StableHlo.binary main_v1 main_v69 main_v70 (cmpi .slt : (⟨S625000, .i32⟩ : BufTy).Contents (Elt F) → (⟨S625000, .i32⟩ : BufTy).Contents (Elt F) → (⟨S625000, .i1⟩ : BufTy).Contents (Elt F)),
    StableHlo.nullary main_c_8 (constantI S_ 32 50000#32),
    StableHlo.unary main_c_8 main_v71 (broadcastInDim S625000 ![] bcast_S_S625000 : (⟨S_, .i32⟩ : BufTy).Contents (Elt F) → (⟨S625000, .i32⟩ : BufTy).Contents (Elt F)),
    StableHlo.binary main_v1 main_v71 main_v72 (addi : (⟨S625000, .i32⟩ : BufTy).Contents (Elt F) → (⟨S625000, .i32⟩ : BufTy).Contents (Elt F) → (⟨S625000, .i32⟩ : BufTy).Contents (Elt F)),
    StableHlo.ternary main_v70 main_v72 main_v1 main_v73 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    StableHlo.unary main_v73 main_v74 (broadcastInDim S625000x1 ![0] bcast_S625000_S625000x1_0 : (⟨S625000, .i32⟩ : BufTy).Contents (Elt F) → (⟨S625000x1, .i32⟩ : BufTy).Contents (Elt F)),
    StableHlo.binary main_v26 main_v74 main_v75 ((fun x i => Host.gather gather_S50000x128_S625000x1_S625000x128_1_0_n_n_0_1_1128 x i) : (⟨S50000x128, .f32⟩ : BufTy).Contents (Elt F) → (⟨S625000x1, .i32⟩ : BufTy).Contents (Elt F) → (⟨S625000x128, .f32⟩ : BufTy).Contents (Elt F)),
    StableHlo.nullary main_cst_9 (constant S_ .f32 0x3F800000#32),
    StableHlo.unary main_cst_9 main_v76 (broadcastInDim S625000x1 ![] bcast_S_S625000x1 : (⟨S_, .f32⟩ : BufTy).Contents (Elt F) → (⟨S625000x1, .f32⟩ : BufTy).Contents (Elt F)),
    StableHlo.binary main_v76 main_v56 main_v77 (subf : (⟨S625000x1, .f32⟩ : BufTy).Contents (Elt F) → (⟨S625000x1, .f32⟩ : BufTy).Contents (Elt F) → (⟨S625000x1, .f32⟩ : BufTy).Contents (Elt F)),
    StableHlo.unary main_v77 main_v78 (broadcastInDim S625000x128 ![0, 1] bcast_S625000x1_S625000x128_0_1 : (⟨S625000x1, .f32⟩ : BufTy).Contents (Elt F) → (⟨S625000x128, .f32⟩ : BufTy).Contents (Elt F)),
    StableHlo.binary main_v75 main_v78 main_v79 (mulf : (⟨S625000x128, .f32⟩ : BufTy).Contents (Elt F) → (⟨S625000x128, .f32⟩ : BufTy).Contents (Elt F) → (⟨S625000x128, .f32⟩ : BufTy).Contents (Elt F)),
    StableHlo.nullary main_cst_10 (constant S_ .f32 0x00000000#32),
    StableHlo.unary main_cst_10 main_v80 (broadcastInDim S50000x128 ![] bcast_S_S50000x128 : (⟨S_, .f32⟩ : BufTy).Contents (Elt F) → (⟨S50000x128, .f32⟩ : BufTy).Contents (Elt F)),
    StableHlo.unary main_v3 main_v81 (broadcastInDim S625000x1 ![0] bcast_S625000_S625000x1_0 : (⟨S625000, .i32⟩ : BufTy).Contents (Elt F) → (⟨S625000x1, .i32⟩ : BufTy).Contents (Elt F)),
    StableHlo.ternary main_v80 main_v81 main_v79 main_v82 ((fun x i u => Host.scatterAdd scatter_S50000x128_S625000x1_S625000x128_1_0_0_1 x i u) : (⟨S50000x128, .f32⟩ : BufTy).Contents (Elt F) → (⟨S625000x1, .i32⟩ : BufTy).Contents (Elt F) → (⟨S625000x128, .f32⟩ : BufTy).Contents (Elt F) → (⟨S50000x128, .f32⟩ : BufTy).Contents (Elt F)) ]

/-- The references it writes. -/
abbrev L0_aggB_W : List (Ref sig .tc) := [main_c_7, main_v69, main_v70, main_c_8, main_v71, main_v72, main_v73, main_v74, main_v75, main_cst_9, main_v76, main_v77, main_v78, main_v79, main_cst_10, main_v80, main_v81, main_v82]

theorem L0_aggB_sub : ∀ op ∈ (L0_aggB : List (HloOp τ sig (Elt F))), op.bufs ⊆ tcRefs τ sig :=
  List.forall_iff_forall_mem.mp ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., binary_bufs_sub .., nullary_bufs_sub .., unary_bufs_sub .., unary_bufs_sub .., ternary_bufs_sub ..⟩

theorem L0_aggB_fresh : ∀ op ∈ (L0_aggB : List (HloOp τ sig (Elt F))), op.fresh = ∅ :=
  List.forall_iff_forall_mem.mp ⟨rfl, rfl, rfl, rfl, rfl, rfl, rfl, rfl, rfl, rfl, rfl, rfl, rfl, rfl, rfl, rfl, rfl, rfl⟩

theorem L0_aggB_writes : (L0_aggB : List (HloOp τ sig (Elt F))).Forall fun op => op.writes ⊆ (L0_aggB_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A reference it does not write keeps its contents. -/
theorem L0_aggB_frame : ∀ (V : Valuation τ sig (Elt F)) (r : Ref sig .tc), r ∉ L0_aggB_W →
    after L0_aggB V (no_index (Proc.devRef .tc r)) = V (Proc.devRef .tc r) :=
  fun V _ hr => after_frame L0_aggB L0_aggB_writes V hr

/-- Operations of the combination of layer 0. -/
abbrev L0_z : List (HloOp τ sig (Elt F)) :=
  [ StableHlo.nary ![main_v35, main_v68, main_v82] main_v83 (fun u => concatenate S50000x384 1 [⟨S50000x128, u 0⟩, ⟨S50000x128, u 1⟩, ⟨S50000x128, u 2⟩] concatenates_S50000x128_S50000x128_S50000x128_S50000x384_d1),
    StableHlo.unary main_arg11 main_v84 ((extractStridedSlice S1x128x384 ![0, 0, 0] · slices_S3x128x384_S1x128x384_0_0_0) : (⟨S3x128x384, .f32⟩ : BufTy).Contents (Elt F) → (⟨S1x128x384, .f32⟩ : BufTy).Contents (Elt F)),
    StableHlo.reshape main_v84 main_v85 rfl shapeCasts_S1x128x384_S128x384,
    StableHlo.unary main_v85 main_v86 ((transpose S384x128 [1, 0] · transposes_S128x384_S384x128_1_0) : (⟨S128x384, .f32⟩ : BufTy).Contents (Elt F) → (⟨S384x128, .f32⟩ : BufTy).Contents (Elt F)),
    StableHlo.binary main_v83 main_v86 main_v87 ((fun l r => Host.dotGeneral dot_S50000x384_S384x128_S50000x128_1_0_0_1_n_n none l r) : (⟨S50000x384, .f32⟩ : BufTy).Contents (Elt F) → (⟨S384x128, .f32⟩ : BufTy).Contents (Elt F) → (⟨S50000x128, .f32⟩ : BufTy).Contents (Elt F)),
    StableHlo.unary main_arg12 main_v88 ((extractStridedSlice S1x128 ![0, 0] · slices_S3x128_S1x128_0_0) : (⟨S3x128, .f32⟩ : BufTy).Contents (Elt F) → (⟨S1x128, .f32⟩ : BufTy).Contents (Elt F)),
    StableHlo.reshape main_v88 main_v89 rfl shapeCasts_S1x128_S128,
    StableHlo.unary main_v89 main_v90 (broadcastInDim S1x128 ![1] bcast_S128_S1x128_1 : (⟨S128, .f32⟩ : BufTy).Contents (Elt F) → (⟨S1x128, .f32⟩ : BufTy).Contents (Elt F)),
    StableHlo.unary main_v90 main_v91 (broadcastInDim S50000x128 ![0, 1] bcast_S1x128_S50000x128_0_1 : (⟨S1x128, .f32⟩ : BufTy).Contents (Elt F) → (⟨S50000x128, .f32⟩ : BufTy).Contents (Elt F)),
    StableHlo.binary main_v87 main_v91 main_v92 (addf : (⟨S50000x128, .f32⟩ : BufTy).Contents (Elt F) → (⟨S50000x128, .f32⟩ : BufTy).Contents (Elt F) → (⟨S50000x128, .f32⟩ : BufTy).Contents (Elt F)) ]

/-- The references it writes. -/
abbrev L0_z_W : List (Ref sig .tc) := [main_v83, main_v84, main_v85, main_v86, main_v87, main_v88, main_v89, main_v90, main_v91, main_v92]

theorem L0_z_sub : ∀ op ∈ (L0_z : List (HloOp τ sig (Elt F))), op.bufs ⊆ tcRefs τ sig :=
  List.forall_iff_forall_mem.mp ⟨nary_bufs_sub .., unary_bufs_sub .., reshape_bufs_sub .., unary_bufs_sub .., binary_bufs_sub .., unary_bufs_sub .., reshape_bufs_sub .., unary_bufs_sub .., unary_bufs_sub .., binary_bufs_sub ..⟩

theorem L0_z_fresh : ∀ op ∈ (L0_z : List (HloOp τ sig (Elt F))), op.fresh = ∅ :=
  List.forall_iff_forall_mem.mp ⟨rfl, rfl, rfl, rfl, rfl, rfl, rfl, rfl, rfl, rfl⟩

theorem L0_z_writes : (L0_z : List (HloOp τ sig (Elt F))).Forall fun op => op.writes ⊆ (L0_z_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A reference it does not write keeps its contents. -/
theorem L0_z_frame : ∀ (V : Valuation τ sig (Elt F)) (r : Ref sig .tc), r ∉ L0_z_W →
    after L0_z V (no_index (Proc.devRef .tc r)) = V (Proc.devRef .tc r) :=
  fun V _ hr => after_frame L0_z L0_z_writes V hr

/-- Operations of the row means of layer 0. -/
abbrev L0_mu : List (HloOp τ sig (Elt F)) :=
  [ StableHlo.nullary main_cst_11 (constant S_ .f32 0x00000000#32),
    StableHlo.binary main_v92 main_cst_11 main_v93 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v93 main_v94 (broadcastInDim S50000x1 ![0] bcast_S50000_S50000x1_0 : (⟨S50000, .f32⟩ : BufTy).Contents (Elt F) → (⟨S50000x1, .f32⟩ : BufTy).Contents (Elt F)),
    StableHlo.nullary main_cst_12 (constant S_ .f32 0x43000000#32),
    StableHlo.unary main_cst_12 main_v95 (broadcastInDim S50000x1 ![] bcast_S_S50000x1 : (⟨S_, .f32⟩ : BufTy).Contents (Elt F) → (⟨S50000x1, .f32⟩ : BufTy).Contents (Elt F)),
    StableHlo.binary main_v94 main_v95 main_v96 (Host.divf : (⟨S50000x1, .f32⟩ : BufTy).Contents (Elt F) → (⟨S50000x1, .f32⟩ : BufTy).Contents (Elt F) → (⟨S50000x1, .f32⟩ : BufTy).Contents (Elt F)) ]

/-- The references it writes. -/
abbrev L0_mu_W : List (Ref sig .tc) := [main_cst_11, main_v93, main_v94, main_cst_12, main_v95, main_v96]

theorem L0_mu_sub : ∀ op ∈ (L0_mu : List (HloOp τ sig (Elt F))), op.bufs ⊆ tcRefs τ sig :=
  List.forall_iff_forall_mem.mp ⟨nullary_bufs_sub .., binary_bufs_sub .., unary_bufs_sub .., nullary_bufs_sub .., unary_bufs_sub .., binary_bufs_sub ..⟩

theorem L0_mu_fresh : ∀ op ∈ (L0_mu : List (HloOp τ sig (Elt F))), op.fresh = ∅ :=
  List.forall_iff_forall_mem.mp ⟨rfl, rfl, rfl, rfl, rfl, rfl⟩

theorem L0_mu_writes : (L0_mu : List (HloOp τ sig (Elt F))).Forall fun op => op.writes ⊆ (L0_mu_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide)⟩

/-- A reference it does not write keeps its contents. -/
theorem L0_mu_frame : ∀ (V : Valuation τ sig (Elt F)) (r : Ref sig .tc), r ∉ L0_mu_W →
    after L0_mu V (no_index (Proc.devRef .tc r)) = V (Proc.devRef .tc r) :=
  fun V _ hr => after_frame L0_mu L0_mu_writes V hr

/-- Operations of the row variances of layer 0. -/
abbrev L0_var : List (HloOp τ sig (Elt F)) :=
  [ StableHlo.nullary main_c_13 (constantI S_ 32 0#32),
    StableHlo.TRef.nullary main_call1.cst (constant S_ .f32 0x00000000#32),
    StableHlo.TRef.binary (.of main_v92) main_call1.cst main_call1.v0 (fun x v => Host.reduceAdd x v reducesTo_S50000x128_S50000_d1 h_S_),
    StableHlo.TRef.unary main_call1.v0 main_call1.v1 (broadcastInDim S50000x1 ![0] bcast_S50000_S50000x1_0),
    StableHlo.TRef.nullary main_call1.cst_0 (constant S_ .f32 0x43000000#32),
    StableHlo.TRef.unary main_call1.cst_0 main_call1.v2 (broadcastInDim S50000x1 ![] bcast_S_S50000x1),
    StableHlo.TRef.binary main_call1.v1 main_call1.v2 main_call1.v3 Host.divf,
    StableHlo.TRef.unary main_call1.v3 main_call1.v4 (broadcastInDim S50000x128 ![0, 1] bcast_S50000x1_S50000x128_0_1),
    StableHlo.TRef.binary (.of main_v92) main_call1.v4 main_call1.v5 subf,
    StableHlo.TRef.binary main_call1.v5 main_call1.v5 main_call1.v6 mulf,
    StableHlo.TRef.unary (.of main_c_13) main_call1.v7 (sitofp .f32),
    StableHlo.TRef.nullary main_call1.cst_1 (constant S_ .f32 0x43000000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S50000_d1 h_S_),
    StableHlo.TRef.unary main_call1.v9 main_call1.v10 (broadcastInDim S50000x1 ![0] bcast_S50000_S50000x1_0),
    StableHlo.TRef.unary main_call1.v8 main_call1.v11 (broadcastInDim S50000x1 ![] bcast_S_S50000x1),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S50000x1 ![] bcast_S_S50000x1),
    StableHlo.TRef.ternary main_call1.v13 main_call1.v12 main_call1.call0.v1 main_call1.call0.v2 (fun p a b => select (broadcastInDim S50000x1 ![] bcast_S_S50000x1 p) a b) ]

/-- The references it writes. -/
abbrev L0_var_W : List (Ref sig .tc) := [main_c_13, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v97]

theorem L0_var_sub : ∀ op ∈ (L0_var : List (HloOp τ sig (Elt F))), op.bufs ⊆ tcRefs τ sig :=
  List.forall_iff_forall_mem.mp ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩

theorem L0_var_fresh : ∀ op ∈ (L0_var : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl⟩

theorem L0_var_writes : (L0_var : List (HloOp τ sig (Elt F))).Forall fun op => op.writes ⊆ (L0_var_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A reference it does not write keeps its contents. -/
theorem L0_var_frame : ∀ (V : Valuation τ sig (Elt F)) (r : Ref sig .tc), r ∉ L0_var_W →
    after L0_var V (no_index (Proc.devRef .tc r)) = V (Proc.devRef .tc r) :=
  fun V _ hr => after_frame L0_var L0_var_writes V hr

/-- Operations of the layer's result of layer 0 (first part). -/
abbrev L0_hnext_a : List (HloOp τ sig (Elt F)) :=
  [ StableHlo.unary main_v96 main_v98 (broadcastInDim S50000x128 ![0, 1] bcast_S50000x1_S50000x128_0_1 : (⟨S50000x1, .f32⟩ : BufTy).Contents (Elt F) → (⟨S50000x128, .f32⟩ : BufTy).Contents (Elt F)),
    StableHlo.binary main_v92 main_v98 main_v99 (subf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x3727C5AC#32),
    StableHlo.unary main_cst_14 main_v100 (broadcastInDim S50000x1 ![] bcast_S_S50000x1 : (⟨S_, .f32⟩ : BufTy).Contents (Elt F) → (⟨S50000x1, .f32⟩ : BufTy).Contents (Elt F)),
    StableHlo.binary main_v97 main_v100 main_v101 (addf : (⟨S50000x1, .f32⟩ : BufTy).Contents (Elt F) → (⟨S50000x1, .f32⟩ : BufTy).Contents (Elt F) → (⟨S50000x1, .f32⟩ : BufTy).Contents (Elt F)),
    StableHlo.unary main_v101 main_v102 (Host.rsqrt : (⟨S50000x1, .f32⟩ : BufTy).Contents (Elt F) → (⟨S50000x1, .f32⟩ : BufTy).Contents (Elt F)) ]

/-- The references it writes. -/
abbrev L0_hnext_a_W : List (Ref sig .tc) := [main_v98, main_v99, main_cst_14, main_v100, main_v101, main_v102]

theorem L0_hnext_a_sub : ∀ op ∈ (L0_hnext_a : List (HloOp τ sig (Elt F))), op.bufs ⊆ tcRefs τ sig :=
  List.forall_iff_forall_mem.mp ⟨unary_bufs_sub .., binary_bufs_sub .., nullary_bufs_sub .., unary_bufs_sub .., binary_bufs_sub .., unary_bufs_sub ..⟩

theorem L0_hnext_a_fresh : ∀ op ∈ (L0_hnext_a : List (HloOp τ sig (Elt F))), op.fresh = ∅ :=
  List.forall_iff_forall_mem.mp ⟨rfl, rfl, rfl, rfl, rfl, rfl⟩

theorem L0_hnext_a_writes : (L0_hnext_a : List (HloOp τ sig (Elt F))).Forall fun op => op.writes ⊆ (L0_hnext_a_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide)⟩

/-- A reference it does not write keeps its contents. -/
theorem L0_hnext_a_frame : ∀ (V : Valuation τ sig (Elt F)) (r : Ref sig .tc), r ∉ L0_hnext_a_W →
    after L0_hnext_a V (no_index (Proc.devRef .tc r)) = V (Proc.devRef .tc r) :=
  fun V _ hr => after_frame L0_hnext_a L0_hnext_a_writes V hr

/-- Window 1's operations, in order. -/
abbrev W1 : List (HloOp τ sig (Elt F)) := L0_alpha_b ++ (L0_aggF ++ (L0_aggB ++ (L0_z ++ (L0_mu ++ (L0_var ++ (L0_hnext_a))))))

/-- The references window 1 writes. -/
abbrev W1_W : List (Ref sig .tc) := L0_alpha_b_W ++ (L0_aggF_W ++ (L0_aggB_W ++ (L0_z_W ++ (L0_mu_W ++ (L0_var_W ++ (L0_hnext_a_W))))))

theorem W1_sub : ∀ op ∈ (W1 : List (HloOp τ sig (Elt F))), op.bufs ⊆ tcRefs τ sig :=
  forall_mem_append L0_alpha_b_sub (forall_mem_append L0_aggF_sub (forall_mem_append L0_aggB_sub (forall_mem_append L0_z_sub (forall_mem_append L0_mu_sub (forall_mem_append L0_var_sub (L0_hnext_a_sub))))))

theorem W1_fresh : ∀ op ∈ (W1 : List (HloOp τ sig (Elt F))), op.fresh = ∅ :=
  forall_mem_append L0_alpha_b_fresh (forall_mem_append L0_aggF_fresh (forall_mem_append L0_aggB_fresh (forall_mem_append L0_z_fresh (forall_mem_append L0_mu_fresh (forall_mem_append L0_var_fresh (L0_hnext_a_fresh))))))

-- the window's binds re-associated one by one: the rewriting recurses once per statement
set_option maxRecDepth 8192 in
set_option maxHeartbeats 1000000 in
/-- The window is that line: the called functions unfolded at their calls, both sides are one chain of steps
    once sequencing is re-associated. -/
theorem part1_eq (c : Dev nD) : main_part1 (F := F) c = seq W1 := by
  simp only [main_part1, fn_relu.body, fn_var.body, fn_where.body, seq_append, seq, bind_assoc, pure_bind, bind_pure_unit] <;> rfl

end Cert.ReferenceIdeal.RefRun

end
-- ==== Proof.RefOps2.lean ====
/- Window 2 of the reference's @main as lists of its operations in order, one list per stage (a stage cut by
   the window's end continues in the next window), a called function's operations inline at each call site over
   that call's buffers; what each list touches, writes and leaves alone; and the window as the line of its lists. -/
import proofs.«108119_j38019050504554_2_alg».proof.Proof.RefOpsStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations of the layer's result of layer 0 (second part). -/
abbrev L0_hnext_b : List (HloOp τ sig (Elt F)) :=
  [ StableHlo.unary main_v102 main_v103 (broadcastInDim S50000x128 ![0, 1] bcast_S50000x1_S50000x128_0_1 : (⟨S50000x1, .f32⟩ : BufTy).Contents (Elt F) → (⟨S50000x128, .f32⟩ : BufTy).Contents (Elt F)),
    StableHlo.binary main_v99 main_v103 main_v104 (mulf : (⟨S50000x128, .f32⟩ : BufTy).Contents (Elt F) → (⟨S50000x128, .f32⟩ : BufTy).Contents (Elt F) → (⟨S50000x128, .f32⟩ : BufTy).Contents (Elt F)),
    StableHlo.unary main_arg13 main_v105 ((extractStridedSlice S1x128 ![0, 0] · slices_S3x128_S1x128_0_0) : (⟨S3x128, .f32⟩ : BufTy).Contents (Elt F) → (⟨S1x128, .f32⟩ : BufTy).Contents (Elt F)),
    StableHlo.reshape main_v105 main_v106 rfl shapeCasts_S1x128_S128,
    StableHlo.unary main_v106 main_v107 (broadcastInDim S1x128 ![1] bcast_S128_S1x128_1 : (⟨S128, .f32⟩ : BufTy).Contents (Elt F) → (⟨S1x128, .f32⟩ : BufTy).Contents (Elt F)),
    StableHlo.unary main_v107 main_v108 (broadcastInDim S50000x128 ![0, 1] bcast_S1x128_S50000x128_0_1 : (⟨S1x128, .f32⟩ : BufTy).Contents (Elt F) → (⟨S50000x128, .f32⟩ : BufTy).Contents (Elt F)),
    StableHlo.binary main_v104 main_v108 main_v109 (mulf : (⟨S50000x128, .f32⟩ : BufTy).Contents (Elt F) → (⟨S50000x128, .f32⟩ : BufTy).Contents (Elt F) → (⟨S50000x128, .f32⟩ : BufTy).Contents (Elt F)),
    StableHlo.unary main_arg14 main_v110 ((extractStridedSlice S1x128 ![0, 0] · slices_S3x128_S1x128_0_0) : (⟨S3x128, .f32⟩ : BufTy).Contents (Elt F) → (⟨S1x128, .f32⟩ : BufTy).Contents (Elt F)),
    StableHlo.reshape main_v110 main_v111 rfl shapeCasts_S1x128_S128,
    StableHlo.unary main_v111 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S50000x128 ![0, 1] bcast_S1x128_S50000x128_0_1 : (⟨S1x128, .f32⟩ : BufTy).Contents (Elt F) → (⟨S50000x128, .f32⟩ : BufTy).Contents (Elt F)),
    StableHlo.binary main_v109 main_v113 main_v114 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v114) main_call2.v0 main_call2.v1 maximumf,
    StableHlo.binary main_v115 main_v9 main_v116 (addf : (⟨S50000x128, .f32⟩ : BufTy).Contents (Elt F) → (⟨S50000x128, .f32⟩ : BufTy).Contents (Elt F) → (⟨S50000x128, .f32⟩ : BufTy).Contents (Elt F)) ]

/-- The references it writes. -/
abbrev L0_hnext_b_W : List (Ref sig .tc) := [main_v103, main_v104, main_v105, main_v106, main_v107, main_v108, main_v109, main_v110, main_v111, main_v112, main_v113, main_v114, main_call2_cst, main_call2_v0, main_v115, main_v116]

theorem L0_hnext_b_sub : ∀ op ∈ (L0_hnext_b : List (HloOp τ sig (Elt F))), op.bufs ⊆ tcRefs τ sig :=
  List.forall_iff_forall_mem.mp ⟨unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem L0_hnext_b_fresh : ∀ op ∈ (L0_hnext_b : List (HloOp τ sig (Elt F))), op.fresh = ∅ :=
  List.forall_iff_forall_mem.mp ⟨rfl, rfl, rfl, rfl, rfl, rfl, rfl, rfl, rfl, rfl, rfl, rfl, rfl, rfl, rfl, rfl⟩

theorem L0_hnext_b_writes : (L0_hnext_b : List (HloOp τ sig (Elt F))).Forall fun op => op.writes ⊆ (L0_hnext_b_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A reference it does not write keeps its contents. -/
theorem L0_hnext_b_frame : ∀ (V : Valuation τ sig (Elt F)) (r : Ref sig .tc), r ∉ L0_hnext_b_W →
    after L0_hnext_b V (no_index (Proc.devRef .tc r)) = V (Proc.devRef .tc r) :=
  fun V _ hr => after_frame L0_hnext_b L0_hnext_b_writes V hr

/-- Operations of the scores of layer 1. -/
abbrev L1_scores : List (HloOp τ sig (Elt F)) :=
  [ StableHlo.unary main_arg5 main_v117 ((extractStridedSlice S1x1x128 ![1, 0, 0] · slices_S3x1x128_S1x1x128_1_0_0) : (⟨S3x1x128, .f32⟩ : BufTy).Contents (Elt F) → (⟨S1x1x128, .f32⟩ : BufTy).Contents (Elt F)),
    StableHlo.reshape main_v117 main_v118 rfl shapeCasts_S1x1x128_S1x128,
    StableHlo.unary main_v118 main_v119 ((transpose S128x1 [1, 0] · transposes_S1x128_S128x1_1_0) : (⟨S1x128, .f32⟩ : BufTy).Contents (Elt F) → (⟨S128x1, .f32⟩ : BufTy).Contents (Elt F)),
    StableHlo.binary main_v116 main_v119 main_v120 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    StableHlo.unary main_arg6 main_v121 ((extractStridedSlice S1x1 ![1, 0] · slices_S3x1_S1x1_1_0) : (⟨S3x1, .f32⟩ : BufTy).Contents (Elt F) → (⟨S1x1, .f32⟩ : BufTy).Contents (Elt F)),
    StableHlo.reshape main_v121 main_v122 rfl shapeCasts_S1x1_S1,
    StableHlo.unary main_v122 main_v123 (broadcastInDim S1x1 ![1] bcast_S1_S1x1_1 : (⟨S1, .f32⟩ : BufTy).Contents (Elt F) → (⟨S1x1, .f32⟩ : BufTy).Contents (Elt F)),
    StableHlo.unary main_v123 main_v124 (broadcastInDim S50000x1 ![0, 1] bcast_S1x1_S50000x1_0_1 : (⟨S1x1, .f32⟩ : BufTy).Contents (Elt F) → (⟨S50000x1, .f32⟩ : BufTy).Contents (Elt F)),
    StableHlo.binary main_v120 main_v124 main_v125 (addf : (⟨S50000x1, .f32⟩ : BufTy).Contents (Elt F) → (⟨S50000x1, .f32⟩ : BufTy).Contents (Elt F) → (⟨S50000x1, .f32⟩ : BufTy).Contents (Elt F)) ]

/-- The references it writes. -/
abbrev L1_scores_W : List (Ref sig .tc) := [main_v117, main_v118, main_v119, main_v120, main_v121, main_v122, main_v123, main_v124, main_v125]

theorem L1_scores_sub : ∀ op ∈ (L1_scores : List (HloOp τ sig (Elt F))), op.bufs ⊆ tcRefs τ sig :=
  List.forall_iff_forall_mem.mp ⟨unary_bufs_sub .., reshape_bufs_sub .., unary_bufs_sub .., binary_bufs_sub .., unary_bufs_sub .., reshape_bufs_sub .., unary_bufs_sub .., unary_bufs_sub .., binary_bufs_sub ..⟩

theorem L1_scores_fresh : ∀ op ∈ (L1_scores : List (HloOp τ sig (Elt F))), op.fresh = ∅ :=
  List.forall_iff_forall_mem.mp ⟨rfl, rfl, rfl, rfl, rfl, rfl, rfl, rfl, rfl⟩

theorem L1_scores_writes : (L1_scores : List (HloOp τ sig (Elt F))).Forall fun op => op.writes ⊆ (L1_scores_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A reference it does not write keeps its contents. -/
theorem L1_scores_frame : ∀ (V : Valuation τ sig (Elt F)) (r : Ref sig .tc), r ∉ L1_scores_W →
    after L1_scores V (no_index (Proc.devRef .tc r)) = V (Proc.devRef .tc r) :=
  fun V _ hr => after_frame L1_scores L1_scores_writes V hr

/-- Operations of the forward messages of layer 1. -/
abbrev L1_hfwd : List (HloOp τ sig (Elt F)) :=
  [ StableHlo.unary main_arg7 main_v126 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v126 main_v127 rfl shapeCasts_S1x128x128_S128x128,
    StableHlo.unary main_v127 main_v128 ((transpose S128x128 [1, 0] · transposes_S128x128_S128x128_1_0) : (⟨S128x128, .f32⟩ : BufTy).Contents (Elt F) → (⟨S128x128, .f32⟩ : BufTy).Contents (Elt F)),
    StableHlo.binary main_v116 main_v128 main_v129 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The references it writes. -/
abbrev L1_hfwd_W : List (Ref sig .tc) := [main_v126, main_v127, main_v128, main_v129]

theorem L1_hfwd_sub : ∀ op ∈ (L1_hfwd : List (HloOp τ sig (Elt F))), op.bufs ⊆ tcRefs τ sig :=
  List.forall_iff_forall_mem.mp ⟨unary_bufs_sub .., reshape_bufs_sub .., unary_bufs_sub .., binary_bufs_sub ..⟩

theorem L1_hfwd_fresh : ∀ op ∈ (L1_hfwd : List (HloOp τ sig (Elt F))), op.fresh = ∅ :=
  List.forall_iff_forall_mem.mp ⟨rfl, rfl, rfl, rfl⟩

theorem L1_hfwd_writes : (L1_hfwd : List (HloOp τ sig (Elt F))).Forall fun op => op.writes ⊆ (L1_hfwd_W.map (Proc.devRef (τ := τ) .tc)).toFinset :=
  ⟨writes_sub_of_mem rfl (by decide), writes_sub_of_mem rfl (by decide), writes_sub_of_mem rfl (by decide), writes_sub_of_mem rfl (by decide)⟩

/-- A reference it does not write keeps its contents. -/
theorem L1_hfwd_frame : ∀ (V : Valuation τ sig (Elt F)) (r : Ref sig .tc), r ∉ L1_hfwd_W →
    after L1_hfwd V (no_index (Proc.devRef .tc r)) = V (Proc.devRef .tc r) :=
  fun V _ hr => after_frame L1_hfwd L1_hfwd_writes V hr

/-- Operations of the backward messages of layer 1. -/
abbrev L1_hbwd : List (HloOp τ sig (Elt F)) :=
  [ StableHlo.unary main_arg8 main_v130 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v130 main_v131 rfl shapeCasts_S1x128x128_S128x128,
    StableHlo.unary main_v131 main_v132 ((transpose S128x128 [1, 0] · transposes_S128x128_S128x128_1_0) : (⟨S128x128, .f32⟩ : BufTy).Contents (Elt F) → (⟨S128x128, .f32⟩ : BufTy).Contents (Elt F)),
    StableHlo.binary main_v116 main_v132 main_v133 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The references it writes. -/
abbrev L1_hbwd_W : List (Ref sig .tc) := [main_v130, main_v131, main_v132, main_v133]

theorem L1_hbwd_sub : ∀ op ∈ (L1_hbwd : List (HloOp τ sig (Elt F))), op.bufs ⊆ tcRefs τ sig :=
  List.forall_iff_forall_mem.mp ⟨unary_bufs_sub .., reshape_bufs_sub .., unary_bufs_sub .., binary_bufs_sub ..⟩

theorem L1_hbwd_fresh : ∀ op ∈ (L1_hbwd : List (HloOp τ sig (Elt F))), op.fresh = ∅ :=
  List.forall_iff_forall_mem.mp ⟨rfl, rfl, rfl, rfl⟩

theorem L1_hbwd_writes : (L1_hbwd : List (HloOp τ sig (Elt F))).Forall fun op => op.writes ⊆ (L1_hbwd_W.map (Proc.devRef (τ := τ) .tc)).toFinset :=
  ⟨writes_sub_of_mem rfl (by decide), writes_sub_of_mem rfl (by decide), writes_sub_of_mem rfl (by decide), writes_sub_of_mem rfl (by decide)⟩

/-- A reference it does not write keeps its contents. -/
theorem L1_hbwd_frame : ∀ (V : Valuation τ sig (Elt F)) (r : Ref sig .tc), r ∉ L1_hbwd_W →
    after L1_hbwd V (no_index (Proc.devRef .tc r)) = V (Proc.devRef .tc r) :=
  fun V _ hr => after_frame L1_hbwd L1_hbwd_writes V hr

/-- Operations of the self term of layer 1. -/
abbrev L1_hself : List (HloOp τ sig (Elt F)) :=
  [ StableHlo.unary main_arg9 main_v134 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v134 main_v135 rfl shapeCasts_S1x128x128_S128x128,
    StableHlo.unary main_v135 main_v136 ((transpose S128x128 [1, 0] · transposes_S128x128_S128x128_1_0) : (⟨S128x128, .f32⟩ : BufTy).Contents (Elt F) → (⟨S128x128, .f32⟩ : BufTy).Contents (Elt F)),
    StableHlo.binary main_v116 main_v136 main_v137 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg10 main_v138 ((extractStridedSlice S1x128 ![1, 0] · slices_S3x128_S1x128_1_0) : (⟨S3x128, .f32⟩ : BufTy).Contents (Elt F) → (⟨S1x128, .f32⟩ : BufTy).Contents (Elt F)),
    StableHlo.reshape main_v138 main_v139 rfl shapeCasts_S1x128_S128,
    StableHlo.unary main_v139 main_v140 (broadcastInDim S1x128 ![1] bcast_S128_S1x128_1 : (⟨S128, .f32⟩ : BufTy).Contents (Elt F) → (⟨S1x128, .f32⟩ : BufTy).Contents (Elt F)),
    StableHlo.unary main_v140 main_v141 (broadcastInDim S50000x128 ![0, 1] bcast_S1x128_S50000x128_0_1 : (⟨S1x128, .f32⟩ : BufTy).Contents (Elt F) → (⟨S50000x128, .f32⟩ : BufTy).Contents (Elt F)),
    StableHlo.binary main_v137 main_v141 main_v142 (addf : (⟨S50000x128, .f32⟩ : BufTy).Contents (Elt F) → (⟨S50000x128, .f32⟩ : BufTy).Contents (Elt F) → (⟨S50000x128, .f32⟩ : BufTy).Contents (Elt F)) ]

/-- The references it writes. -/
abbrev L1_hself_W : List (Ref sig .tc) := [main_v134, main_v135, main_v136, main_v137, main_v138, main_v139, main_v140, main_v141, main_v142]

theorem L1_hself_sub : ∀ op ∈ (L1_hself : List (HloOp τ sig (Elt F))), op.bufs ⊆ tcRefs τ sig :=
  List.forall_iff_forall_mem.mp ⟨unary_bufs_sub .., reshape_bufs_sub .., unary_bufs_sub .., binary_bufs_sub .., unary_bufs_sub .., reshape_bufs_sub .., unary_bufs_sub .., unary_bufs_sub .., binary_bufs_sub ..⟩

theorem L1_hself_fresh : ∀ op ∈ (L1_hself : List (HloOp τ sig (Elt F))), op.fresh = ∅ :=
  List.forall_iff_forall_mem.mp ⟨rfl, rfl, rfl, rfl, rfl, rfl, rfl, rfl, rfl⟩

theorem L1_hself_writes : (L1_hself : List (HloOp τ sig (Elt F))).Forall fun op => op.writes ⊆ (L1_hself_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A reference it does not write keeps its contents. -/
theorem L1_hself_frame : ∀ (V : Valuation τ sig (Elt F)) (r : Ref sig .tc), r ∉ L1_hself_W →
    after L1_hself V (no_index (Proc.devRef .tc r)) = V (Proc.devRef .tc r) :=
  fun V _ hr => after_frame L1_hself L1_hself_writes V hr

/-- Operations of the gates of layer 1 (first part). -/
abbrev L1_alpha_a : List (HloOp τ sig (Elt F)) :=
  [ StableHlo.nullary main_c_15 (constantI S_ 32 0#32),
    StableHlo.unary main_c_15 main_v143 (broadcastInDim S625000 ![] bcast_S_S625000 : (⟨S_, .i32⟩ : BufTy).Contents (Elt F) → (⟨S625000, .i32⟩ : BufTy).Contents (Elt F)),
    StableHlo.binary main_v1 main_v143 main_v144 (cmpi .slt : (⟨S625000, .i32⟩ : BufTy).Contents (Elt F) → (⟨S625000, .i32⟩ : BufTy).Contents (Elt F) → (⟨S625000, .i1⟩ : BufTy).Contents (Elt F)),
    StableHlo.nullary main_c_16 (constantI S_ 32 50000#32),
    StableHlo.unary main_c_16 main_v145 (broadcastInDim S625000 ![] bcast_S_S625000 : (⟨S_, .i32⟩ : BufTy).Contents (Elt F) → (⟨S625000, .i32⟩ : BufTy).Contents (Elt F)),
    StableHlo.binary main_v1 main_v145 main_v146 (addi : (⟨S625000, .i32⟩ : BufTy).Contents (Elt F) → (⟨S625000, .i32⟩ : BufTy).Contents (Elt F) → (⟨S625000, .i32⟩ : BufTy).Contents (Elt F)),
    StableHlo.ternary main_v144 main_v146 main_v1 main_v147 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    StableHlo.unary main_v147 main_v148 (broadcastInDim S625000x1 ![0] bcast_S625000_S625000x1_0 : (⟨S625000, .i32⟩ : BufTy).Contents (Elt F) → (⟨S625000x1, .i32⟩ : BufTy).Contents (Elt F)),
    StableHlo.binary main_v125 main_v148 main_v149 ((fun x i => Host.gather gather_S50000x1_S625000x1_S625000x1_1_0_n_n_0_1_11 x i) : (⟨S50000x1, .f32⟩ : BufTy).Contents (Elt F) → (⟨S625000x1, .i32⟩ : BufTy).Contents (Elt F) → (⟨S625000x1, .f32⟩ : BufTy).Contents (Elt F)),
    StableHlo.nullary main_c_17 (constantI S_ 32 0#32),
    StableHlo.unary main_c_17 main_v150 (broadcastInDim S625000 ![] bcast_S_S625000 : (⟨S_, .i32⟩ : BufTy).Contents (Elt F) → (⟨S625000, .i32⟩ : BufTy).Contents (Elt F)),
    StableHlo.binary main_v3 main_v150 main_v151 (cmpi .slt : (⟨S625000, .i32⟩ : BufTy).Contents (Elt F) → (⟨S625000, .i32⟩ : BufTy).Contents (Elt F) → (⟨S625000, .i1⟩ : BufTy).Contents (Elt F)),
    StableHlo.nullary main_c_18 (constantI S_ 32 50000#32),
    StableHlo.unary main_c_18 main_v152 (broadcastInDim S625000 ![] bcast_S_S625000 : (⟨S_, .i32⟩ : BufTy).Contents (Elt F) → (⟨S625000, .i32⟩ : BufTy).Contents (Elt F)),
    StableHlo.binary main_v3 main_v152 main_v153 (addi : (⟨S625000, .i32⟩ : BufTy).Contents (Elt F) → (⟨S625000, .i32⟩ : BufTy).Contents (Elt F) → (⟨S625000, .i32⟩ : BufTy).Contents (Elt F)),
    StableHlo.ternary main_v151 main_v153 main_v3 main_v154 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    StableHlo.unary main_v154 main_v155 (broadcastInDim S625000x1 ![0] bcast_S625000_S625000x1_0 : (⟨S625000, .i32⟩ : BufTy).Contents (Elt F) → (⟨S625000x1, .i32⟩ : BufTy).Contents (Elt F)),
    StableHlo.binary main_v125 main_v155 main_v156 ((fun x i => Host.gather gather_S50000x1_S625000x1_S625000x1_1_0_n_n_0_1_11 x i) : (⟨S50000x1, .f32⟩ : BufTy).Contents (Elt F) → (⟨S625000x1, .i32⟩ : BufTy).Contents (Elt F) → (⟨S625000x1, .f32⟩ : BufTy).Contents (Elt F)),
    StableHlo.binary main_v149 main_v156 main_v157 (subf : (⟨S625000x1, .f32⟩ : BufTy).Contents (Elt F) → (⟨S625000x1, .f32⟩ : BufTy).Contents (Elt F) → (⟨S625000x1, .f32⟩ : BufTy).Contents (Elt F)),
    StableHlo.unary main_v157 main_v158 (Host.negf : (⟨S625000x1, .f32⟩ : BufTy).Contents (Elt F) → (⟨S625000x1, .f32⟩ : BufTy).Contents (Elt F)) ]

/-- The references it writes. -/
abbrev L1_alpha_a_W : List (Ref sig .tc) := [main_c_15, main_v143, main_v144, main_c_16, main_v145, main_v146, main_v147, main_v148, main_v149, main_c_17, main_v150, main_v151, main_c_18, main_v152, main_v153, main_v154, main_v155, main_v156, main_v157, main_v158]

theorem L1_alpha_a_sub : ∀ op ∈ (L1_alpha_a : List (HloOp τ sig (Elt F))), op.bufs ⊆ tcRefs τ sig :=
  List.forall_iff_forall_mem.mp ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub ..⟩

theorem L1_alpha_a_fresh : ∀ op ∈ (L1_alpha_a : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl⟩

theorem L1_alpha_a_writes : (L1_alpha_a : List (HloOp τ sig (Elt F))).Forall fun op => op.writes ⊆ (L1_alpha_a_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A reference it does not write keeps its contents. -/
theorem L1_alpha_a_frame : ∀ (V : Valuation τ sig (Elt F)) (r : Ref sig .tc), r ∉ L1_alpha_a_W →
    after L1_alpha_a V (no_index (Proc.devRef .tc r)) = V (Proc.devRef .tc r) :=
  fun V _ hr => after_frame L1_alpha_a L1_alpha_a_writes V hr

/-- Window 2's operations, in order. -/
abbrev W2 : List (HloOp τ sig (Elt F)) := L0_hnext_b ++ (L1_scores ++ (L1_hfwd ++ (L1_hbwd ++ (L1_hself ++ (L1_alpha_a)))))

/-- The references window 2 writes. -/
abbrev W2_W : List (Ref sig .tc) := L0_hnext_b_W ++ (L1_scores_W ++ (L1_hfwd_W ++ (L1_hbwd_W ++ (L1_hself_W ++ (L1_alpha_a_W)))))

theorem W2_sub : ∀ op ∈ (W2 : List (HloOp τ sig (Elt F))), op.bufs ⊆ tcRefs τ sig :=
  forall_mem_append L0_hnext_b_sub (forall_mem_append L1_scores_sub (forall_mem_append L1_hfwd_sub (forall_mem_append L1_hbwd_sub (forall_mem_append L1_hself_sub (L1_alpha_a_sub)))))

theorem W2_fresh : ∀ op ∈ (W2 : List (HloOp τ sig (Elt F))), op.fresh = ∅ :=
  forall_mem_append L0_hnext_b_fresh (forall_mem_append L1_scores_fresh (forall_mem_append L1_hfwd_fresh (forall_mem_append L1_hbwd_fresh (forall_mem_append L1_hself_fresh (L1_alpha_a_fresh)))))

-- the window's binds re-associated one by one: the rewriting recurses once per statement
set_option maxRecDepth 8192 in
set_option maxHeartbeats 1000000 in
/-- The window is that line: the called functions unfolded at their calls, both sides are one chain of steps
    once sequencing is re-associated. -/
theorem part2_eq (c : Dev nD) : main_part2 (F := F) c = seq W2 := by
  simp only [main_part2, fn_relu.body, fn_var.body, fn_where.body, seq_append, seq, bind_assoc, pure_bind, bind_pure_unit] <;> rfl

end Cert.ReferenceIdeal.RefRun

end
-- ==== Proof.RefOps3.lean ====
/- Window 3 of the reference's @main as lists of its operations in order, one list per stage (a stage cut by
   the window's end continues in the next window), a called function's operations inline at each call site over
   that call's buffers; what each list touches, writes and leaves alone; and the window as the line of its lists. -/
import proofs.«108119_j38019050504554_2_alg».proof.Proof.RefOpsStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations of the gates of layer 1 (second part). -/
abbrev L1_alpha_b : List (HloOp τ sig (Elt F)) :=
  [ StableHlo.unary main_v158 main_v159 (Host.exp : (⟨S625000x1, .f32⟩ : BufTy).Contents (Elt F) → (⟨S625000x1, .f32⟩ : BufTy).Contents (Elt F)),
    StableHlo.nullary main_cst_19 (constant S_ .f32 0x3F800000#32),
    StableHlo.unary main_cst_19 main_v160 (broadcastInDim S625000x1 ![] bcast_S_S625000x1 : (⟨S_, .f32⟩ : BufTy).Contents (Elt F) → (⟨S625000x1, .f32⟩ : BufTy).Contents (Elt F)),
    StableHlo.binary main_v160 main_v159 main_v161 (addf : (⟨S625000x1, .f32⟩ : BufTy).Contents (Elt F) → (⟨S625000x1, .f32⟩ : BufTy).Contents (Elt F) → (⟨S625000x1, .f32⟩ : BufTy).Contents (Elt F)),
    StableHlo.nullary main_cst_20 (constant S_ .f32 0x3F800000#32),
    StableHlo.unary main_cst_20 main_v162 (broadcastInDim S625000x1 ![] bcast_S_S625000x1 : (⟨S_, .f32⟩ : BufTy).Contents (Elt F) → (⟨S625000x1, .f32⟩ : BufTy).Contents (Elt F)),
    StableHlo.binary main_v162 main_v161 main_v163 (Host.divf : (⟨S625000x1, .f32⟩ : BufTy).Contents (Elt F) → (⟨S625000x1, .f32⟩ : BufTy).Contents (Elt F) → (⟨S625000x1, .f32⟩ : BufTy).Contents (Elt F)) ]

/-- The references it writes. -/
abbrev L1_alpha_b_W : List (Ref sig .tc) := [main_v159, main_cst_19, main_v160, main_v161, main_cst_20, main_v162, main_v163]

theorem L1_alpha_b_sub : ∀ op ∈ (L1_alpha_b : List (HloOp τ sig (Elt F))), op.bufs ⊆ tcRefs τ sig :=
  List.forall_iff_forall_mem.mp ⟨unary_bufs_sub .., nullary_bufs_sub .., unary_bufs_sub .., binary_bufs_sub .., nullary_bufs_sub .., unary_bufs_sub .., binary_bufs_sub ..⟩

theorem L1_alpha_b_fresh : ∀ op ∈ (L1_alpha_b : List (HloOp τ sig (Elt F))), op.fresh = ∅ :=
  List.forall_iff_forall_mem.mp ⟨rfl, rfl, rfl, rfl, rfl, rfl, rfl⟩

theorem L1_alpha_b_writes : (L1_alpha_b : List (HloOp τ sig (Elt F))).Forall fun op => op.writes ⊆ (L1_alpha_b_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A reference it does not write keeps its contents. -/
theorem L1_alpha_b_frame : ∀ (V : Valuation τ sig (Elt F)) (r : Ref sig .tc), r ∉ L1_alpha_b_W →
    after L1_alpha_b V (no_index (Proc.devRef .tc r)) = V (Proc.devRef .tc r) :=
  fun V _ hr => after_frame L1_alpha_b L1_alpha_b_writes V hr

/-- Operations of the forward aggregate of layer 1. -/
abbrev L1_aggF : List (HloOp τ sig (Elt F)) :=
  [ StableHlo.nullary main_c_21 (constantI S_ 32 0#32),
    StableHlo.unary main_c_21 main_v164 (broadcastInDim S625000 ![] bcast_S_S625000 : (⟨S_, .i32⟩ : BufTy).Contents (Elt F) → (⟨S625000, .i32⟩ : BufTy).Contents (Elt F)),
    StableHlo.binary main_v1 main_v164 main_v165 (cmpi .slt : (⟨S625000, .i32⟩ : BufTy).Contents (Elt F) → (⟨S625000, .i32⟩ : BufTy).Contents (Elt F) → (⟨S625000, .i1⟩ : BufTy).Contents (Elt F)),
    StableHlo.nullary main_c_22 (constantI S_ 32 50000#32),
    StableHlo.unary main_c_22 main_v166 (broadcastInDim S625000 ![] bcast_S_S625000 : (⟨S_, .i32⟩ : BufTy).Contents (Elt F) → (⟨S625000, .i32⟩ : BufTy).Contents (Elt F)),
    StableHlo.binary main_v1 main_v166 main_v167 (addi : (⟨S625000, .i32⟩ : BufTy).Contents (Elt F) → (⟨S625000, .i32⟩ : BufTy).Contents (Elt F) → (⟨S625000, .i32⟩ : BufTy).Contents (Elt F)),
    StableHlo.ternary main_v165 main_v167 main_v1 main_v168 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    StableHlo.unary main_v168 main_v169 (broadcastInDim S625000x1 ![0] bcast_S625000_S625000x1_0 : (⟨S625000, .i32⟩ : BufTy).Contents (Elt F) → (⟨S625000x1, .i32⟩ : BufTy).Contents (Elt F)),
    StableHlo.binary main_v129 main_v169 main_v170 ((fun x i => Host.gather gather_S50000x128_S625000x1_S625000x128_1_0_n_n_0_1_1128 x i) : (⟨S50000x128, .f32⟩ : BufTy).Contents (Elt F) → (⟨S625000x1, .i32⟩ : BufTy).Contents (Elt F) → (⟨S625000x128, .f32⟩ : BufTy).Contents (Elt F)),
    StableHlo.unary main_v163 main_v171 (broadcastInDim S625000x128 ![0, 1] bcast_S625000x1_S625000x128_0_1 : (⟨S625000x1, .f32⟩ : BufTy).Contents (Elt F) → (⟨S625000x128, .f32⟩ : BufTy).Contents (Elt F)),
    StableHlo.binary main_v170 main_v171 main_v172 (mulf : (⟨S625000x128, .f32⟩ : BufTy).Contents (Elt F) → (⟨S625000x128, .f32⟩ : BufTy).Contents (Elt F) → (⟨S625000x128, .f32⟩ : BufTy).Contents (Elt F)),
    StableHlo.nullary main_cst_23 (constant S_ .f32 0x00000000#32),
    StableHlo.unary main_cst_23 main_v173 (broadcastInDim S50000x128 ![] bcast_S_S50000x128 : (⟨S_, .f32⟩ : BufTy).Contents (Elt F) → (⟨S50000x128, .f32⟩ : BufTy).Contents (Elt F)),
    StableHlo.unary main_v3 main_v174 (broadcastInDim S625000x1 ![0] bcast_S625000_S625000x1_0 : (⟨S625000, .i32⟩ : BufTy).Contents (Elt F) → (⟨S625000x1, .i32⟩ : BufTy).Contents (Elt F)),
    StableHlo.ternary main_v173 main_v174 main_v172 main_v175 ((fun x i u => Host.scatterAdd scatter_S50000x128_S625000x1_S625000x128_1_0_0_1 x i u) : (⟨S50000x128, .f32⟩ : BufTy).Contents (Elt F) → (⟨S625000x1, .i32⟩ : BufTy).Contents (Elt F) → (⟨S625000x128, .f32⟩ : BufTy).Contents (Elt F) → (⟨S50000x128, .f32⟩ : BufTy).Contents (Elt F)) ]

/-- The references it writes. -/
abbrev L1_aggF_W : List (Ref sig .tc) := [main_c_21, main_v164, main_v165, main_c_22, main_v166, main_v167, main_v168, main_v169, main_v170, main_v171, main_v172, main_cst_23, main_v173, main_v174, main_v175]

theorem L1_aggF_sub : ∀ op ∈ (L1_aggF : List (HloOp τ sig (Elt F))), op.bufs ⊆ tcRefs τ sig :=
  List.forall_iff_forall_mem.mp ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩

theorem L1_aggF_fresh : ∀ op ∈ (L1_aggF : List (HloOp τ sig (Elt F))), op.fresh = ∅ :=
  List.forall_iff_forall_mem.mp ⟨rfl, rfl, rfl, rfl, rfl, rfl, rfl, rfl, rfl, rfl, rfl, rfl, rfl, rfl, rfl⟩

theorem L1_aggF_writes : (L1_aggF : List (HloOp τ sig (Elt F))).Forall fun op => op.writes ⊆ (L1_aggF_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A reference it does not write keeps its contents. -/
theorem L1_aggF_frame : ∀ (V : Valuation τ sig (Elt F)) (r : Ref sig .tc), r ∉ L1_aggF_W →
    after L1_aggF V (no_index (Proc.devRef .tc r)) = V (Proc.devRef .tc r) :=
  fun V _ hr => after_frame L1_aggF L1_aggF_writes V hr

/-- Operations of the backward aggregate of layer 1. -/
abbrev L1_aggB : List (HloOp τ sig (Elt F)) :=
  [ StableHlo.nullary main_c_24 (constantI S_ 32 0#32),
    StableHlo.unary main_c_24 main_v176 (broadcastInDim S625000 ![] bcast_S_S625000 : (⟨S_, .i32⟩ : BufTy).Contents (Elt F) → (⟨S625000, .i32⟩ : BufTy).Contents (Elt F)),
    StableHlo.binary main_v1 main_v176 main_v177 (cmpi .slt : (⟨S625000, .i32⟩ : BufTy).Contents (Elt F) → (⟨S625000, .i32⟩ : BufTy).Contents (Elt F) → (⟨S625000, .i1⟩ : BufTy).Contents (Elt F)),
    StableHlo.nullary main_c_25 (constantI S_ 32 50000#32),
    StableHlo.unary main_c_25 main_v178 (broadcastInDim S625000 ![] bcast_S_S625000 : (⟨S_, .i32⟩ : BufTy).Contents (Elt F) → (⟨S625000, .i32⟩ : BufTy).Contents (Elt F)),
    StableHlo.binary main_v1 main_v178 main_v179 (addi : (⟨S625000, .i32⟩ : BufTy).Contents (Elt F) → (⟨S625000, .i32⟩ : BufTy).Contents (Elt F) → (⟨S625000, .i32⟩ : BufTy).Contents (Elt F)),
    StableHlo.ternary main_v177 main_v179 main_v1 main_v180 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    StableHlo.unary main_v180 main_v181 (broadcastInDim S625000x1 ![0] bcast_S625000_S625000x1_0 : (⟨S625000, .i32⟩ : BufTy).Contents (Elt F) → (⟨S625000x1, .i32⟩ : BufTy).Contents (Elt F)),
    StableHlo.binary main_v133 main_v181 main_v182 ((fun x i => Host.gather gather_S50000x128_S625000x1_S625000x128_1_0_n_n_0_1_1128 x i) : (⟨S50000x128, .f32⟩ : BufTy).Contents (Elt F) → (⟨S625000x1, .i32⟩ : BufTy).Contents (Elt F) → (⟨S625000x128, .f32⟩ : BufTy).Contents (Elt F)),
    StableHlo.nullary main_cst_26 (constant S_ .f32 0x3F800000#32),
    StableHlo.unary main_cst_26 main_v183 (broadcastInDim S625000x1 ![] bcast_S_S625000x1 : (⟨S_, .f32⟩ : BufTy).Contents (Elt F) → (⟨S625000x1, .f32⟩ : BufTy).Contents (Elt F)),
    StableHlo.binary main_v183 main_v163 main_v184 (subf : (⟨S625000x1, .f32⟩ : BufTy).Contents (Elt F) → (⟨S625000x1, .f32⟩ : BufTy).Contents (Elt F) → (⟨S625000x1, .f32⟩ : BufTy).Contents (Elt F)),
    StableHlo.unary main_v184 main_v185 (broadcastInDim S625000x128 ![0, 1] bcast_S625000x1_S625000x128_0_1 : (⟨S625000x1, .f32⟩ : BufTy).Contents (Elt F) → (⟨S625000x128, .f32⟩ : BufTy).Contents (Elt F)),
    StableHlo.binary main_v182 main_v185 main_v186 (mulf : (⟨S625000x128, .f32⟩ : BufTy).Contents (Elt F) → (⟨S625000x128, .f32⟩ : BufTy).Contents (Elt F) → (⟨S625000x128, .f32⟩ : BufTy).Contents (Elt F)),
    StableHlo.nullary main_cst_27 (constant S_ .f32 0x00000000#32),
    StableHlo.unary main_cst_27 main_v187 (broadcastInDim S50000x128 ![] bcast_S_S50000x128 : (⟨S_, .f32⟩ : BufTy).Contents (Elt F) → (⟨S50000x128, .f32⟩ : BufTy).Contents (Elt F)),
    StableHlo.unary main_v3 main_v188 (broadcastInDim S625000x1 ![0] bcast_S625000_S625000x1_0 : (⟨S625000, .i32⟩ : BufTy).Contents (Elt F) → (⟨S625000x1, .i32⟩ : BufTy).Contents (Elt F)),
    StableHlo.ternary main_v187 main_v188 main_v186 main_v189 ((fun x i u => Host.scatterAdd scatter_S50000x128_S625000x1_S625000x128_1_0_0_1 x i u) : (⟨S50000x128, .f32⟩ : BufTy).Contents (Elt F) → (⟨S625000x1, .i32⟩ : BufTy).Contents (Elt F) → (⟨S625000x128, .f32⟩ : BufTy).Contents (Elt F) → (⟨S50000x128, .f32⟩ : BufTy).Contents (Elt F)) ]

/-- The references it writes. -/
abbrev L1_aggB_W : List (Ref sig .tc) := [main_c_24, main_v176, main_v177, main_c_25, main_v178, main_v179, main_v180, main_v181, main_v182, main_cst_26, main_v183, main_v184, main_v185, main_v186, main_cst_27, main_v187, main_v188, main_v189]

theorem L1_aggB_sub : ∀ op ∈ (L1_aggB : List (HloOp τ sig (Elt F))), op.bufs ⊆ tcRefs τ sig :=
  List.forall_iff_forall_mem.mp ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., binary_bufs_sub .., nullary_bufs_sub .., unary_bufs_sub .., unary_bufs_sub .., ternary_bufs_sub ..⟩

theorem L1_aggB_fresh : ∀ op ∈ (L1_aggB : List (HloOp τ sig (Elt F))), op.fresh = ∅ :=
  List.forall_iff_forall_mem.mp ⟨rfl, rfl, rfl, rfl, rfl, rfl, rfl, rfl, rfl, rfl, rfl, rfl, rfl, rfl, rfl, rfl, rfl, rfl⟩

theorem L1_aggB_writes : (L1_aggB : List (HloOp τ sig (Elt F))).Forall fun op => op.writes ⊆ (L1_aggB_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A reference it does not write keeps its contents. -/
theorem L1_aggB_frame : ∀ (V : Valuation τ sig (Elt F)) (r : Ref sig .tc), r ∉ L1_aggB_W →
    after L1_aggB V (no_index (Proc.devRef .tc r)) = V (Proc.devRef .tc r) :=
  fun V _ hr => after_frame L1_aggB L1_aggB_writes V hr

/-- Operations of the combination of layer 1. -/
abbrev L1_z : List (HloOp τ sig (Elt F)) :=
  [ StableHlo.nary ![main_v142, main_v175, main_v189] main_v190 (fun u => concatenate S50000x384 1 [⟨S50000x128, u 0⟩, ⟨S50000x128, u 1⟩, ⟨S50000x128, u 2⟩] concatenates_S50000x128_S50000x128_S50000x128_S50000x384_d1),
    StableHlo.unary main_arg11 main_v191 ((extractStridedSlice S1x128x384 ![1, 0, 0] · slices_S3x128x384_S1x128x384_1_0_0) : (⟨S3x128x384, .f32⟩ : BufTy).Contents (Elt F) → (⟨S1x128x384, .f32⟩ : BufTy).Contents (Elt F)),
    StableHlo.reshape main_v191 main_v192 rfl shapeCasts_S1x128x384_S128x384,
    StableHlo.unary main_v192 main_v193 ((transpose S384x128 [1, 0] · transposes_S128x384_S384x128_1_0) : (⟨S128x384, .f32⟩ : BufTy).Contents (Elt F) → (⟨S384x128, .f32⟩ : BufTy).Contents (Elt F)),
    StableHlo.binary main_v190 main_v193 main_v194 ((fun l r => Host.dotGeneral dot_S50000x384_S384x128_S50000x128_1_0_0_1_n_n none l r) : (⟨S50000x384, .f32⟩ : BufTy).Contents (Elt F) → (⟨S384x128, .f32⟩ : BufTy).Contents (Elt F) → (⟨S50000x128, .f32⟩ : BufTy).Contents (Elt F)),
    StableHlo.unary main_arg12 main_v195 ((extractStridedSlice S1x128 ![1, 0] · slices_S3x128_S1x128_1_0) : (⟨S3x128, .f32⟩ : BufTy).Contents (Elt F) → (⟨S1x128, .f32⟩ : BufTy).Contents (Elt F)),
    StableHlo.reshape main_v195 main_v196 rfl shapeCasts_S1x128_S128,
    StableHlo.unary main_v196 main_v197 (broadcastInDim S1x128 ![1] bcast_S128_S1x128_1 : (⟨S128, .f32⟩ : BufTy).Contents (Elt F) → (⟨S1x128, .f32⟩ : BufTy).Contents (Elt F)),
    StableHlo.unary main_v197 main_v198 (broadcastInDim S50000x128 ![0, 1] bcast_S1x128_S50000x128_0_1 : (⟨S1x128, .f32⟩ : BufTy).Contents (Elt F) → (⟨S50000x128, .f32⟩ : BufTy).Contents (Elt F)),
    StableHlo.binary main_v194 main_v198 main_v199 (addf : (⟨S50000x128, .f32⟩ : BufTy).Contents (Elt F) → (⟨S50000x128, .f32⟩ : BufTy).Contents (Elt F) → (⟨S50000x128, .f32⟩ : BufTy).Contents (Elt F)) ]

/-- The references it writes. -/
abbrev L1_z_W : List (Ref sig .tc) := [main_v190, main_v191, main_v192, main_v193, main_v194, main_v195, main_v196, main_v197, main_v198, main_v199]

theorem L1_z_sub : ∀ op ∈ (L1_z : List (HloOp τ sig (Elt F))), op.bufs ⊆ tcRefs τ sig :=
  List.forall_iff_forall_mem.mp ⟨nary_bufs_sub .., unary_bufs_sub .., reshape_bufs_sub .., unary_bufs_sub .., binary_bufs_sub .., unary_bufs_sub .., reshape_bufs_sub .., unary_bufs_sub .., unary_bufs_sub .., binary_bufs_sub ..⟩

theorem L1_z_fresh : ∀ op ∈ (L1_z : List (HloOp τ sig (Elt F))), op.fresh = ∅ :=
  List.forall_iff_forall_mem.mp ⟨rfl, rfl, rfl, rfl, rfl, rfl, rfl, rfl, rfl, rfl⟩

theorem L1_z_writes : (L1_z : List (HloOp τ sig (Elt F))).Forall fun op => op.writes ⊆ (L1_z_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A reference it does not write keeps its contents. -/
theorem L1_z_frame : ∀ (V : Valuation τ sig (Elt F)) (r : Ref sig .tc), r ∉ L1_z_W →
    after L1_z V (no_index (Proc.devRef .tc r)) = V (Proc.devRef .tc r) :=
  fun V _ hr => after_frame L1_z L1_z_writes V hr

/-- Operations of the row means of layer 1. -/
abbrev L1_mu : List (HloOp τ sig (Elt F)) :=
  [ StableHlo.nullary main_cst_28 (constant S_ .f32 0x00000000#32),
    StableHlo.binary main_v199 main_cst_28 main_v200 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v200 main_v201 (broadcastInDim S50000x1 ![0] bcast_S50000_S50000x1_0 : (⟨S50000, .f32⟩ : BufTy).Contents (Elt F) → (⟨S50000x1, .f32⟩ : BufTy).Contents (Elt F)),
    StableHlo.nullary main_cst_29 (constant S_ .f32 0x43000000#32),
    StableHlo.unary main_cst_29 main_v202 (broadcastInDim S50000x1 ![] bcast_S_S50000x1 : (⟨S_, .f32⟩ : BufTy).Contents (Elt F) → (⟨S50000x1, .f32⟩ : BufTy).Contents (Elt F)),
    StableHlo.binary main_v201 main_v202 main_v203 (Host.divf : (⟨S50000x1, .f32⟩ : BufTy).Contents (Elt F) → (⟨S50000x1, .f32⟩ : BufTy).Contents (Elt F) → (⟨S50000x1, .f32⟩ : BufTy).Contents (Elt F)) ]

/-- The references it writes. -/
abbrev L1_mu_W : List (Ref sig .tc) := [main_cst_28, main_v200, main_v201, main_cst_29, main_v202, main_v203]

theorem L1_mu_sub : ∀ op ∈ (L1_mu : List (HloOp τ sig (Elt F))), op.bufs ⊆ tcRefs τ sig :=
  List.forall_iff_forall_mem.mp ⟨nullary_bufs_sub .., binary_bufs_sub .., unary_bufs_sub .., nullary_bufs_sub .., unary_bufs_sub .., binary_bufs_sub ..⟩

theorem L1_mu_fresh : ∀ op ∈ (L1_mu : List (HloOp τ sig (Elt F))), op.fresh = ∅ :=
  List.forall_iff_forall_mem.mp ⟨rfl, rfl, rfl, rfl, rfl, rfl⟩

theorem L1_mu_writes : (L1_mu : List (HloOp τ sig (Elt F))).Forall fun op => op.writes ⊆ (L1_mu_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide)⟩

/-- A reference it does not write keeps its contents. -/
theorem L1_mu_frame : ∀ (V : Valuation τ sig (Elt F)) (r : Ref sig .tc), r ∉ L1_mu_W →
    after L1_mu V (no_index (Proc.devRef .tc r)) = V (Proc.devRef .tc r) :=
  fun V _ hr => after_frame L1_mu L1_mu_writes V hr

/-- Operations of the row variances of layer 1. -/
abbrev L1_var : List (HloOp τ sig (Elt F)) :=
  [ StableHlo.nullary main_c_30 (constantI S_ 32 0#32),
    StableHlo.TRef.nullary main_call3.cst (constant S_ .f32 0x00000000#32),
    StableHlo.TRef.binary (.of main_v199) main_call3.cst main_call3.v0 (fun x v => Host.reduceAdd x v reducesTo_S50000x128_S50000_d1 h_S_),
    StableHlo.TRef.unary main_call3.v0 main_call3.v1 (broadcastInDim S50000x1 ![0] bcast_S50000_S50000x1_0),
    StableHlo.TRef.nullary main_call3.cst_0 (constant S_ .f32 0x43000000#32),
    StableHlo.TRef.unary main_call3.cst_0 main_call3.v2 (broadcastInDim S50000x1 ![] bcast_S_S50000x1),
    StableHlo.TRef.binary main_call3.v1 main_call3.v2 main_call3.v3 Host.divf,
    StableHlo.TRef.unary main_call3.v3 main_call3.v4 (broadcastInDim S50000x128 ![0, 1] bcast_S50000x1_S50000x128_0_1),
    StableHlo.TRef.binary (.of main_v199) main_call3.v4 main_call3.v5 subf,
    StableHlo.TRef.binary main_call3.v5 main_call3.v5 main_call3.v6 mulf,
    StableHlo.TRef.unary (.of main_c_30) main_call3.v7 (sitofp .f32),
    StableHlo.TRef.nullary main_call3.cst_1 (constant S_ .f32 0x43000000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S50000x128_S50000_d1 h_S_),
    StableHlo.TRef.unary main_call3.v9 main_call3.v10 (broadcastInDim S50000x1 ![0] bcast_S50000_S50000x1_0),
    StableHlo.TRef.unary main_call3.v8 main_call3.v11 (broadcastInDim S50000x1 ![] bcast_S_S50000x1),
    StableHlo.TRef.binary main_call3.v10 main_call3.v11 main_call3.v12 Host.divf,
    StableHlo.TRef.nullary main_call3.cst_3 (constant S_ .f32 0x00000000#32),
    StableHlo.TRef.binary main_call3.v8 main_call3.cst_3 main_call3.v13 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S50000x1 ![] bcast_S_S50000x1),
    StableHlo.TRef.ternary main_call3.v13 main_call3.v12 main_call3.call0.v1 main_call3.call0.v2 (fun p a b => select (broadcastInDim S50000x1 ![] bcast_S_S50000x1 p) a b) ]

/-- The references it writes. -/
abbrev L1_var_W : List (Ref sig .tc) := [main_c_30, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v204]

theorem L1_var_sub : ∀ op ∈ (L1_var : List (HloOp τ sig (Elt F))), op.bufs ⊆ tcRefs τ sig :=
  List.forall_iff_forall_mem.mp ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩

theorem L1_var_fresh : ∀ op ∈ (L1_var : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl⟩

theorem L1_var_writes : (L1_var : List (HloOp τ sig (Elt F))).Forall fun op => op.writes ⊆ (L1_var_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A reference it does not write keeps its contents. -/
theorem L1_var_frame : ∀ (V : Valuation τ sig (Elt F)) (r : Ref sig .tc), r ∉ L1_var_W →
    after L1_var V (no_index (Proc.devRef .tc r)) = V (Proc.devRef .tc r) :=
  fun V _ hr => after_frame L1_var L1_var_writes V hr

/-- Operations of the layer's result of layer 1 (first part). -/
abbrev L1_hnext_a : List (HloOp τ sig (Elt F)) :=
  [ StableHlo.unary main_v203 main_v205 (broadcastInDim S50000x128 ![0, 1] bcast_S50000x1_S50000x128_0_1 : (⟨S50000x1, .f32⟩ : BufTy).Contents (Elt F) → (⟨S50000x128, .f32⟩ : BufTy).Contents (Elt F)),
    StableHlo.binary main_v199 main_v205 main_v206 (subf : (⟨S50000x128, .f32⟩ : BufTy).Contents (Elt F) → (⟨S50000x128, .f32⟩ : BufTy).Contents (Elt F) → (⟨S50000x128, .f32⟩ : BufTy).Contents (Elt F)) ]

/-- The references it writes. -/
abbrev L1_hnext_a_W : List (Ref sig .tc) := [main_v205, main_v206]

theorem L1_hnext_a_sub : ∀ op ∈ (L1_hnext_a : List (HloOp τ sig (Elt F))), op.bufs ⊆ tcRefs τ sig :=
  List.forall_iff_forall_mem.mp ⟨unary_bufs_sub .., binary_bufs_sub ..⟩

theorem L1_hnext_a_fresh : ∀ op ∈ (L1_hnext_a : List (HloOp τ sig (Elt F))), op.fresh = ∅ :=
  List.forall_iff_forall_mem.mp ⟨rfl, rfl⟩

theorem L1_hnext_a_writes : (L1_hnext_a : List (HloOp τ sig (Elt F))).Forall fun op => op.writes ⊆ (L1_hnext_a_W.map (Proc.devRef (τ := τ) .tc)).toFinset :=
  ⟨writes_sub_of_mem rfl (by decide), writes_sub_of_mem rfl (by decide)⟩

/-- A reference it does not write keeps its contents. -/
theorem L1_hnext_a_frame : ∀ (V : Valuation τ sig (Elt F)) (r : Ref sig .tc), r ∉ L1_hnext_a_W →
    after L1_hnext_a V (no_index (Proc.devRef .tc r)) = V (Proc.devRef .tc r) :=
  fun V _ hr => after_frame L1_hnext_a L1_hnext_a_writes V hr

/-- Window 3's operations, in order. -/
abbrev W3 : List (HloOp τ sig (Elt F)) := L1_alpha_b ++ (L1_aggF ++ (L1_aggB ++ (L1_z ++ (L1_mu ++ (L1_var ++ (L1_hnext_a))))))

/-- The references window 3 writes. -/
abbrev W3_W : List (Ref sig .tc) := L1_alpha_b_W ++ (L1_aggF_W ++ (L1_aggB_W ++ (L1_z_W ++ (L1_mu_W ++ (L1_var_W ++ (L1_hnext_a_W))))))

theorem W3_sub : ∀ op ∈ (W3 : List (HloOp τ sig (Elt F))), op.bufs ⊆ tcRefs τ sig :=
  forall_mem_append L1_alpha_b_sub (forall_mem_append L1_aggF_sub (forall_mem_append L1_aggB_sub (forall_mem_append L1_z_sub (forall_mem_append L1_mu_sub (forall_mem_append L1_var_sub (L1_hnext_a_sub))))))

theorem W3_fresh : ∀ op ∈ (W3 : List (HloOp τ sig (Elt F))), op.fresh = ∅ :=
  forall_mem_append L1_alpha_b_fresh (forall_mem_append L1_aggF_fresh (forall_mem_append L1_aggB_fresh (forall_mem_append L1_z_fresh (forall_mem_append L1_mu_fresh (forall_mem_append L1_var_fresh (L1_hnext_a_fresh))))))

-- the window's binds re-associated one by one: the rewriting recurses once per statement
set_option maxRecDepth 8192 in
set_option maxHeartbeats 1000000 in
/-- The window is that line: the called functions unfolded at their calls, both sides are one chain of steps
    once sequencing is re-associated. -/
theorem part3_eq (c : Dev nD) : main_part3 (F := F) c = seq W3 := by
  simp only [main_part3, fn_relu.body, fn_var.body, fn_where.body, seq_append, seq, bind_assoc, pure_bind, bind_pure_unit] <;> rfl

end Cert.ReferenceIdeal.RefRun

end
-- ==== Proof.RefOps4.lean ====
/- Window 4 of the reference's @main as lists of its operations in order, one list per stage (a stage cut by
   the window's end continues in the next window), a called function's operations inline at each call site over
   that call's buffers; what each list touches, writes and leaves alone; and the window as the line of its lists. -/
import proofs.«108119_j38019050504554_2_alg».proof.Proof.RefOpsStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations of the layer's result of layer 1 (second part). -/
abbrev L1_hnext_b : List (HloOp τ sig (Elt F)) :=
  [ StableHlo.nullary main_cst_31 (constant S_ .f32 0x3727C5AC#32),
    StableHlo.unary main_cst_31 main_v207 (broadcastInDim S50000x1 ![] bcast_S_S50000x1 : (⟨S_, .f32⟩ : BufTy).Contents (Elt F) → (⟨S50000x1, .f32⟩ : BufTy).Contents (Elt F)),
    StableHlo.binary main_v204 main_v207 main_v208 (addf : (⟨S50000x1, .f32⟩ : BufTy).Contents (Elt F) → (⟨S50000x1, .f32⟩ : BufTy).Contents (Elt F) → (⟨S50000x1, .f32⟩ : BufTy).Contents (Elt F)),
    StableHlo.unary main_v208 main_v209 (Host.rsqrt : (⟨S50000x1, .f32⟩ : BufTy).Contents (Elt F) → (⟨S50000x1, .f32⟩ : BufTy).Contents (Elt F)),
    StableHlo.unary main_v209 main_v210 (broadcastInDim S50000x128 ![0, 1] bcast_S50000x1_S50000x128_0_1 : (⟨S50000x1, .f32⟩ : BufTy).Contents (Elt F) → (⟨S50000x128, .f32⟩ : BufTy).Contents (Elt F)),
    StableHlo.binary main_v206 main_v210 main_v211 (mulf : (⟨S50000x128, .f32⟩ : BufTy).Contents (Elt F) → (⟨S50000x128, .f32⟩ : BufTy).Contents (Elt F) → (⟨S50000x128, .f32⟩ : BufTy).Contents (Elt F)),
    StableHlo.unary main_arg13 main_v212 ((extractStridedSlice S1x128 ![1, 0] · slices_S3x128_S1x128_1_0) : (⟨S3x128, .f32⟩ : BufTy).Contents (Elt F) → (⟨S1x128, .f32⟩ : BufTy).Contents (Elt F)),
    StableHlo.reshape main_v212 main_v213 rfl shapeCasts_S1x128_S128,
    StableHlo.unary main_v213 main_v214 (broadcastInDim S1x128 ![1] bcast_S128_S1x128_1 : (⟨S128, .f32⟩ : BufTy).Contents (Elt F) → (⟨S1x128, .f32⟩ : BufTy).Contents (Elt F)),
    StableHlo.unary main_v214 main_v215 (broadcastInDim S50000x128 ![0, 1] bcast_S1x128_S50000x128_0_1 : (⟨S1x128, .f32⟩ : BufTy).Contents (Elt F) → (⟨S50000x128, .f32⟩ : BufTy).Contents (Elt F)),
    StableHlo.binary main_v211 main_v215 main_v216 (mulf : (⟨S50000x128, .f32⟩ : BufTy).Contents (Elt F) → (⟨S50000x128, .f32⟩ : BufTy).Contents (Elt F) → (⟨S50000x128, .f32⟩ : BufTy).Contents (Elt F)),
    StableHlo.unary main_arg14 main_v217 ((extractStridedSlice S1x128 ![1, 0] · slices_S3x128_S1x128_1_0) : (⟨S3x128, .f32⟩ : BufTy).Contents (Elt F) → (⟨S1x128, .f32⟩ : BufTy).Contents (Elt F)),
    StableHlo.reshape main_v217 main_v218 rfl shapeCasts_S1x128_S128,
    StableHlo.unary main_v218 main_v219 (broadcastInDim S1x128 ![1] bcast_S128_S1x128_1 : (⟨S128, .f32⟩ : BufTy).Contents (Elt F) → (⟨S1x128, .f32⟩ : BufTy).Contents (Elt F)),
    StableHlo.unary main_v219 main_v220 (broadcastInDim S50000x128 ![0, 1] bcast_S1x128_S50000x128_0_1 : (⟨S1x128, .f32⟩ : BufTy).Contents (Elt F) → (⟨S50000x128, .f32⟩ : BufTy).Contents (Elt F)),
    StableHlo.binary main_v216 main_v220 main_v221 (addf : (⟨S50000x128, .f32⟩ : BufTy).Contents (Elt F) → (⟨S50000x128, .f32⟩ : BufTy).Contents (Elt F) → (⟨S50000x128, .f32⟩ : BufTy).Contents (Elt F)),
    StableHlo.TRef.nullary main_call4.cst (constant S_ .f32 0x00000000#32),
    StableHlo.TRef.unary main_call4.cst main_call4.v0 (broadcastInDim S50000x128 ![] bcast_S_S50000x128),
    StableHlo.TRef.binary (.of main_v221) main_call4.v0 main_call4.v1 maximumf,
    StableHlo.binary main_v222 main_v116 main_v223 (addf : (⟨S50000x128, .f32⟩ : BufTy).Contents (Elt F) → (⟨S50000x128, .f32⟩ : BufTy).Contents (Elt F) → (⟨S50000x128, .f32⟩ : BufTy).Contents (Elt F)) ]

/-- The references it writes. -/
abbrev L1_hnext_b_W : List (Ref sig .tc) := [main_cst_31, main_v207, main_v208, main_v209, main_v210, main_v211, main_v212, main_v213, main_v214, main_v215, main_v216, main_v217, main_v218, main_v219, main_v220, main_v221, main_call4_cst, main_call4_v0, main_v222, main_v223]

theorem L1_hnext_b_sub : ∀ op ∈ (L1_hnext_b : List (HloOp τ sig (Elt F))), op.bufs ⊆ tcRefs τ sig :=
  List.forall_iff_forall_mem.mp ⟨nullary_bufs_sub .., unary_bufs_sub .., binary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem L1_hnext_b_fresh : ∀ op ∈ (L1_hnext_b : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl⟩

theorem L1_hnext_b_writes : (L1_hnext_b : List (HloOp τ sig (Elt F))).Forall fun op => op.writes ⊆ (L1_hnext_b_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A reference it does not write keeps its contents. -/
theorem L1_hnext_b_frame : ∀ (V : Valuation τ sig (Elt F)) (r : Ref sig .tc), r ∉ L1_hnext_b_W →
    after L1_hnext_b V (no_index (Proc.devRef .tc r)) = V (Proc.devRef .tc r) :=
  fun V _ hr => after_frame L1_hnext_b L1_hnext_b_writes V hr

/-- Operations of the scores of layer 2. -/
abbrev L2_scores : List (HloOp τ sig (Elt F)) :=
  [ StableHlo.unary main_arg5 main_v224 ((extractStridedSlice S1x1x128 ![2, 0, 0] · slices_S3x1x128_S1x1x128_2_0_0) : (⟨S3x1x128, .f32⟩ : BufTy).Contents (Elt F) → (⟨S1x1x128, .f32⟩ : BufTy).Contents (Elt F)),
    StableHlo.reshape main_v224 main_v225 rfl shapeCasts_S1x1x128_S1x128,
    StableHlo.unary main_v225 main_v226 ((transpose S128x1 [1, 0] · transposes_S1x128_S128x1_1_0) : (⟨S1x128, .f32⟩ : BufTy).Contents (Elt F) → (⟨S128x1, .f32⟩ : BufTy).Contents (Elt F)),
    StableHlo.binary main_v223 main_v226 main_v227 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    StableHlo.unary main_arg6 main_v228 ((extractStridedSlice S1x1 ![2, 0] · slices_S3x1_S1x1_2_0) : (⟨S3x1, .f32⟩ : BufTy).Contents (Elt F) → (⟨S1x1, .f32⟩ : BufTy).Contents (Elt F)),
    StableHlo.reshape main_v228 main_v229 rfl shapeCasts_S1x1_S1,
    StableHlo.unary main_v229 main_v230 (broadcastInDim S1x1 ![1] bcast_S1_S1x1_1 : (⟨S1, .f32⟩ : BufTy).Contents (Elt F) → (⟨S1x1, .f32⟩ : BufTy).Contents (Elt F)),
    StableHlo.unary main_v230 main_v231 (broadcastInDim S50000x1 ![0, 1] bcast_S1x1_S50000x1_0_1 : (⟨S1x1, .f32⟩ : BufTy).Contents (Elt F) → (⟨S50000x1, .f32⟩ : BufTy).Contents (Elt F)),
    StableHlo.binary main_v227 main_v231 main_v232 (addf : (⟨S50000x1, .f32⟩ : BufTy).Contents (Elt F) → (⟨S50000x1, .f32⟩ : BufTy).Contents (Elt F) → (⟨S50000x1, .f32⟩ : BufTy).Contents (Elt F)) ]

/-- The references it writes. -/
abbrev L2_scores_W : List (Ref sig .tc) := [main_v224, main_v225, main_v226, main_v227, main_v228, main_v229, main_v230, main_v231, main_v232]

theorem L2_scores_sub : ∀ op ∈ (L2_scores : List (HloOp τ sig (Elt F))), op.bufs ⊆ tcRefs τ sig :=
  List.forall_iff_forall_mem.mp ⟨unary_bufs_sub .., reshape_bufs_sub .., unary_bufs_sub .., binary_bufs_sub .., unary_bufs_sub .., reshape_bufs_sub .., unary_bufs_sub .., unary_bufs_sub .., binary_bufs_sub ..⟩

theorem L2_scores_fresh : ∀ op ∈ (L2_scores : List (HloOp τ sig (Elt F))), op.fresh = ∅ :=
  List.forall_iff_forall_mem.mp ⟨rfl, rfl, rfl, rfl, rfl, rfl, rfl, rfl, rfl⟩

theorem L2_scores_writes : (L2_scores : List (HloOp τ sig (Elt F))).Forall fun op => op.writes ⊆ (L2_scores_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A reference it does not write keeps its contents. -/
theorem L2_scores_frame : ∀ (V : Valuation τ sig (Elt F)) (r : Ref sig .tc), r ∉ L2_scores_W →
    after L2_scores V (no_index (Proc.devRef .tc r)) = V (Proc.devRef .tc r) :=
  fun V _ hr => after_frame L2_scores L2_scores_writes V hr

/-- Operations of the forward messages of layer 2. -/
abbrev L2_hfwd : List (HloOp τ sig (Elt F)) :=
  [ StableHlo.unary main_arg7 main_v233 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v233 main_v234 rfl shapeCasts_S1x128x128_S128x128,
    StableHlo.unary main_v234 main_v235 ((transpose S128x128 [1, 0] · transposes_S128x128_S128x128_1_0) : (⟨S128x128, .f32⟩ : BufTy).Contents (Elt F) → (⟨S128x128, .f32⟩ : BufTy).Contents (Elt F)),
    StableHlo.binary main_v223 main_v235 main_v236 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The references it writes. -/
abbrev L2_hfwd_W : List (Ref sig .tc) := [main_v233, main_v234, main_v235, main_v236]

theorem L2_hfwd_sub : ∀ op ∈ (L2_hfwd : List (HloOp τ sig (Elt F))), op.bufs ⊆ tcRefs τ sig :=
  List.forall_iff_forall_mem.mp ⟨unary_bufs_sub .., reshape_bufs_sub .., unary_bufs_sub .., binary_bufs_sub ..⟩

theorem L2_hfwd_fresh : ∀ op ∈ (L2_hfwd : List (HloOp τ sig (Elt F))), op.fresh = ∅ :=
  List.forall_iff_forall_mem.mp ⟨rfl, rfl, rfl, rfl⟩

theorem L2_hfwd_writes : (L2_hfwd : List (HloOp τ sig (Elt F))).Forall fun op => op.writes ⊆ (L2_hfwd_W.map (Proc.devRef (τ := τ) .tc)).toFinset :=
  ⟨writes_sub_of_mem rfl (by decide), writes_sub_of_mem rfl (by decide), writes_sub_of_mem rfl (by decide), writes_sub_of_mem rfl (by decide)⟩

/-- A reference it does not write keeps its contents. -/
theorem L2_hfwd_frame : ∀ (V : Valuation τ sig (Elt F)) (r : Ref sig .tc), r ∉ L2_hfwd_W →
    after L2_hfwd V (no_index (Proc.devRef .tc r)) = V (Proc.devRef .tc r) :=
  fun V _ hr => after_frame L2_hfwd L2_hfwd_writes V hr

/-- Operations of the backward messages of layer 2. -/
abbrev L2_hbwd : List (HloOp τ sig (Elt F)) :=
  [ StableHlo.unary main_arg8 main_v237 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v237 main_v238 rfl shapeCasts_S1x128x128_S128x128,
    StableHlo.unary main_v238 main_v239 ((transpose S128x128 [1, 0] · transposes_S128x128_S128x128_1_0) : (⟨S128x128, .f32⟩ : BufTy).Contents (Elt F) → (⟨S128x128, .f32⟩ : BufTy).Contents (Elt F)),
    StableHlo.binary main_v223 main_v239 main_v240 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The references it writes. -/
abbrev L2_hbwd_W : List (Ref sig .tc) := [main_v237, main_v238, main_v239, main_v240]

theorem L2_hbwd_sub : ∀ op ∈ (L2_hbwd : List (HloOp τ sig (Elt F))), op.bufs ⊆ tcRefs τ sig :=
  List.forall_iff_forall_mem.mp ⟨unary_bufs_sub .., reshape_bufs_sub .., unary_bufs_sub .., binary_bufs_sub ..⟩

theorem L2_hbwd_fresh : ∀ op ∈ (L2_hbwd : List (HloOp τ sig (Elt F))), op.fresh = ∅ :=
  List.forall_iff_forall_mem.mp ⟨rfl, rfl, rfl, rfl⟩

theorem L2_hbwd_writes : (L2_hbwd : List (HloOp τ sig (Elt F))).Forall fun op => op.writes ⊆ (L2_hbwd_W.map (Proc.devRef (τ := τ) .tc)).toFinset :=
  ⟨writes_sub_of_mem rfl (by decide), writes_sub_of_mem rfl (by decide), writes_sub_of_mem rfl (by decide), writes_sub_of_mem rfl (by decide)⟩

/-- A reference it does not write keeps its contents. -/
theorem L2_hbwd_frame : ∀ (V : Valuation τ sig (Elt F)) (r : Ref sig .tc), r ∉ L2_hbwd_W →
    after L2_hbwd V (no_index (Proc.devRef .tc r)) = V (Proc.devRef .tc r) :=
  fun V _ hr => after_frame L2_hbwd L2_hbwd_writes V hr

/-- Operations of the self term of layer 2. -/
abbrev L2_hself : List (HloOp τ sig (Elt F)) :=
  [ StableHlo.unary main_arg9 main_v241 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v241 main_v242 rfl shapeCasts_S1x128x128_S128x128,
    StableHlo.unary main_v242 main_v243 ((transpose S128x128 [1, 0] · transposes_S128x128_S128x128_1_0) : (⟨S128x128, .f32⟩ : BufTy).Contents (Elt F) → (⟨S128x128, .f32⟩ : BufTy).Contents (Elt F)),
    StableHlo.binary main_v223 main_v243 main_v244 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg10 main_v245 ((extractStridedSlice S1x128 ![2, 0] · slices_S3x128_S1x128_2_0) : (⟨S3x128, .f32⟩ : BufTy).Contents (Elt F) → (⟨S1x128, .f32⟩ : BufTy).Contents (Elt F)),
    StableHlo.reshape main_v245 main_v246 rfl shapeCasts_S1x128_S128,
    StableHlo.unary main_v246 main_v247 (broadcastInDim S1x128 ![1] bcast_S128_S1x128_1 : (⟨S128, .f32⟩ : BufTy).Contents (Elt F) → (⟨S1x128, .f32⟩ : BufTy).Contents (Elt F)),
    StableHlo.unary main_v247 main_v248 (broadcastInDim S50000x128 ![0, 1] bcast_S1x128_S50000x128_0_1 : (⟨S1x128, .f32⟩ : BufTy).Contents (Elt F) → (⟨S50000x128, .f32⟩ : BufTy).Contents (Elt F)),
    StableHlo.binary main_v244 main_v248 main_v249 (addf : (⟨S50000x128, .f32⟩ : BufTy).Contents (Elt F) → (⟨S50000x128, .f32⟩ : BufTy).Contents (Elt F) → (⟨S50000x128, .f32⟩ : BufTy).Contents (Elt F)) ]

/-- The references it writes. -/
abbrev L2_hself_W : List (Ref sig .tc) := [main_v241, main_v242, main_v243, main_v244, main_v245, main_v246, main_v247, main_v248, main_v249]

theorem L2_hself_sub : ∀ op ∈ (L2_hself : List (HloOp τ sig (Elt F))), op.bufs ⊆ tcRefs τ sig :=
  List.forall_iff_forall_mem.mp ⟨unary_bufs_sub .., reshape_bufs_sub .., unary_bufs_sub .., binary_bufs_sub .., unary_bufs_sub .., reshape_bufs_sub .., unary_bufs_sub .., unary_bufs_sub .., binary_bufs_sub ..⟩

theorem L2_hself_fresh : ∀ op ∈ (L2_hself : List (HloOp τ sig (Elt F))), op.fresh = ∅ :=
  List.forall_iff_forall_mem.mp ⟨rfl, rfl, rfl, rfl, rfl, rfl, rfl, rfl, rfl⟩

theorem L2_hself_writes : (L2_hself : List (HloOp τ sig (Elt F))).Forall fun op => op.writes ⊆ (L2_hself_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A reference it does not write keeps its contents. -/
theorem L2_hself_frame : ∀ (V : Valuation τ sig (Elt F)) (r : Ref sig .tc), r ∉ L2_hself_W →
    after L2_hself V (no_index (Proc.devRef .tc r)) = V (Proc.devRef .tc r) :=
  fun V _ hr => after_frame L2_hself L2_hself_writes V hr

/-- Operations of the gates of layer 2 (first part). -/
abbrev L2_alpha_a : List (HloOp τ sig (Elt F)) :=
  [ StableHlo.nullary main_c_32 (constantI S_ 32 0#32),
    StableHlo.unary main_c_32 main_v250 (broadcastInDim S625000 ![] bcast_S_S625000 : (⟨S_, .i32⟩ : BufTy).Contents (Elt F) → (⟨S625000, .i32⟩ : BufTy).Contents (Elt F)),
    StableHlo.binary main_v1 main_v250 main_v251 (cmpi .slt : (⟨S625000, .i32⟩ : BufTy).Contents (Elt F) → (⟨S625000, .i32⟩ : BufTy).Contents (Elt F) → (⟨S625000, .i1⟩ : BufTy).Contents (Elt F)),
    StableHlo.nullary main_c_33 (constantI S_ 32 50000#32),
    StableHlo.unary main_c_33 main_v252 (broadcastInDim S625000 ![] bcast_S_S625000 : (⟨S_, .i32⟩ : BufTy).Contents (Elt F) → (⟨S625000, .i32⟩ : BufTy).Contents (Elt F)),
    StableHlo.binary main_v1 main_v252 main_v253 (addi : (⟨S625000, .i32⟩ : BufTy).Contents (Elt F) → (⟨S625000, .i32⟩ : BufTy).Contents (Elt F) → (⟨S625000, .i32⟩ : BufTy).Contents (Elt F)),
    StableHlo.ternary main_v251 main_v253 main_v1 main_v254 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    StableHlo.unary main_v254 main_v255 (broadcastInDim S625000x1 ![0] bcast_S625000_S625000x1_0 : (⟨S625000, .i32⟩ : BufTy).Contents (Elt F) → (⟨S625000x1, .i32⟩ : BufTy).Contents (Elt F)),
    StableHlo.binary main_v232 main_v255 main_v256 ((fun x i => Host.gather gather_S50000x1_S625000x1_S625000x1_1_0_n_n_0_1_11 x i) : (⟨S50000x1, .f32⟩ : BufTy).Contents (Elt F) → (⟨S625000x1, .i32⟩ : BufTy).Contents (Elt F) → (⟨S625000x1, .f32⟩ : BufTy).Contents (Elt F)),
    StableHlo.nullary main_c_34 (constantI S_ 32 0#32),
    StableHlo.unary main_c_34 main_v257 (broadcastInDim S625000 ![] bcast_S_S625000 : (⟨S_, .i32⟩ : BufTy).Contents (Elt F) → (⟨S625000, .i32⟩ : BufTy).Contents (Elt F)),
    StableHlo.binary main_v3 main_v257 main_v258 (cmpi .slt : (⟨S625000, .i32⟩ : BufTy).Contents (Elt F) → (⟨S625000, .i32⟩ : BufTy).Contents (Elt F) → (⟨S625000, .i1⟩ : BufTy).Contents (Elt F)),
    StableHlo.nullary main_c_35 (constantI S_ 32 50000#32),
    StableHlo.unary main_c_35 main_v259 (broadcastInDim S625000 ![] bcast_S_S625000 : (⟨S_, .i32⟩ : BufTy).Contents (Elt F) → (⟨S625000, .i32⟩ : BufTy).Contents (Elt F)),
    StableHlo.binary main_v3 main_v259 main_v260 (addi : (⟨S625000, .i32⟩ : BufTy).Contents (Elt F) → (⟨S625000, .i32⟩ : BufTy).Contents (Elt F) → (⟨S625000, .i32⟩ : BufTy).Contents (Elt F)),
    StableHlo.ternary main_v258 main_v260 main_v3 main_v261 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)) ]

/-- The references it writes. -/
abbrev L2_alpha_a_W : List (Ref sig .tc) := [main_c_32, main_v250, main_v251, main_c_33, main_v252, main_v253, main_v254, main_v255, main_v256, main_c_34, main_v257, main_v258, main_c_35, main_v259, main_v260, main_v261]

theorem L2_alpha_a_sub : ∀ op ∈ (L2_alpha_a : List (HloOp τ sig (Elt F))), op.bufs ⊆ tcRefs τ sig :=
  List.forall_iff_forall_mem.mp ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub ..⟩

theorem L2_alpha_a_fresh : ∀ op ∈ (L2_alpha_a : List (HloOp τ sig (Elt F))), op.fresh = ∅ :=
  List.forall_iff_forall_mem.mp ⟨rfl, rfl, rfl, rfl, rfl, rfl, rfl, rfl, rfl, rfl, rfl, rfl, rfl, rfl, rfl, rfl⟩

theorem L2_alpha_a_writes : (L2_alpha_a : List (HloOp τ sig (Elt F))).Forall fun op => op.writes ⊆ (L2_alpha_a_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A reference it does not write keeps its contents. -/
theorem L2_alpha_a_frame : ∀ (V : Valuation τ sig (Elt F)) (r : Ref sig .tc), r ∉ L2_alpha_a_W →
    after L2_alpha_a V (no_index (Proc.devRef .tc r)) = V (Proc.devRef .tc r) :=
  fun V _ hr => after_frame L2_alpha_a L2_alpha_a_writes V hr

/-- Window 4's operations, in order. -/
abbrev W4 : List (HloOp τ sig (Elt F)) := L1_hnext_b ++ (L2_scores ++ (L2_hfwd ++ (L2_hbwd ++ (L2_hself ++ (L2_alpha_a)))))

/-- The references window 4 writes. -/
abbrev W4_W : List (Ref sig .tc) := L1_hnext_b_W ++ (L2_scores_W ++ (L2_hfwd_W ++ (L2_hbwd_W ++ (L2_hself_W ++ (L2_alpha_a_W)))))

theorem W4_sub : ∀ op ∈ (W4 : List (HloOp τ sig (Elt F))), op.bufs ⊆ tcRefs τ sig :=
  forall_mem_append L1_hnext_b_sub (forall_mem_append L2_scores_sub (forall_mem_append L2_hfwd_sub (forall_mem_append L2_hbwd_sub (forall_mem_append L2_hself_sub (L2_alpha_a_sub)))))

theorem W4_fresh : ∀ op ∈ (W4 : List (HloOp τ sig (Elt F))), op.fresh = ∅ :=
  forall_mem_append L1_hnext_b_fresh (forall_mem_append L2_scores_fresh (forall_mem_append L2_hfwd_fresh (forall_mem_append L2_hbwd_fresh (forall_mem_append L2_hself_fresh (L2_alpha_a_fresh)))))

-- the window's binds re-associated one by one: the rewriting recurses once per statement
set_option maxRecDepth 8192 in
set_option maxHeartbeats 1000000 in
/-- The window is that line: the called functions unfolded at their calls, both sides are one chain of steps
    once sequencing is re-associated. -/
theorem part4_eq (c : Dev nD) : main_part4 (F := F) c = seq W4 := by
  simp only [main_part4, fn_relu.body, fn_var.body, fn_where.body, seq_append, seq, bind_assoc, pure_bind, bind_pure_unit] <;> rfl

end Cert.ReferenceIdeal.RefRun

end
-- ==== Proof.RefOps5.lean ====
/- Window 5 of the reference's @main as lists of its operations in order, one list per stage (a stage cut by
   the window's end continues in the next window), a called function's operations inline at each call site over
   that call's buffers; what each list touches, writes and leaves alone; and the window as the line of its lists. -/
import proofs.«108119_j38019050504554_2_alg».proof.Proof.RefOpsStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations of the gates of layer 2 (second part). -/
abbrev L2_alpha_b : List (HloOp τ sig (Elt F)) :=
  [ StableHlo.unary main_v261 main_v262 (broadcastInDim S625000x1 ![0] bcast_S625000_S625000x1_0 : (⟨S625000, .i32⟩ : BufTy).Contents (Elt F) → (⟨S625000x1, .i32⟩ : BufTy).Contents (Elt F)),
    StableHlo.binary main_v232 main_v262 main_v263 ((fun x i => Host.gather gather_S50000x1_S625000x1_S625000x1_1_0_n_n_0_1_11 x i) : (⟨S50000x1, .f32⟩ : BufTy).Contents (Elt F) → (⟨S625000x1, .i32⟩ : BufTy).Contents (Elt F) → (⟨S625000x1, .f32⟩ : BufTy).Contents (Elt F)),
    StableHlo.binary main_v256 main_v263 main_v264 (subf : (⟨S625000x1, .f32⟩ : BufTy).Contents (Elt F) → (⟨S625000x1, .f32⟩ : BufTy).Contents (Elt F) → (⟨S625000x1, .f32⟩ : BufTy).Contents (Elt F)),
    StableHlo.unary main_v264 main_v265 (Host.negf : (⟨S625000x1, .f32⟩ : BufTy).Contents (Elt F) → (⟨S625000x1, .f32⟩ : BufTy).Contents (Elt F)),
    StableHlo.unary main_v265 main_v266 (Host.exp : (⟨S625000x1, .f32⟩ : BufTy).Contents (Elt F) → (⟨S625000x1, .f32⟩ : BufTy).Contents (Elt F)),
    StableHlo.nullary main_cst_36 (constant S_ .f32 0x3F800000#32),
    StableHlo.unary main_cst_36 main_v267 (broadcastInDim S625000x1 ![] bcast_S_S625000x1 : (⟨S_, .f32⟩ : BufTy).Contents (Elt F) → (⟨S625000x1, .f32⟩ : BufTy).Contents (Elt F)),
    StableHlo.binary main_v267 main_v266 main_v268 (addf : (⟨S625000x1, .f32⟩ : BufTy).Contents (Elt F) → (⟨S625000x1, .f32⟩ : BufTy).Contents (Elt F) → (⟨S625000x1, .f32⟩ : BufTy).Contents (Elt F)),
    StableHlo.nullary main_cst_37 (constant S_ .f32 0x3F800000#32),
    StableHlo.unary main_cst_37 main_v269 (broadcastInDim S625000x1 ![] bcast_S_S625000x1 : (⟨S_, .f32⟩ : BufTy).Contents (Elt F) → (⟨S625000x1, .f32⟩ : BufTy).Contents (Elt F)),
    StableHlo.binary main_v269 main_v268 main_v270 (Host.divf : (⟨S625000x1, .f32⟩ : BufTy).Contents (Elt F) → (⟨S625000x1, .f32⟩ : BufTy).Contents (Elt F) → (⟨S625000x1, .f32⟩ : BufTy).Contents (Elt F)) ]

/-- The references it writes. -/
abbrev L2_alpha_b_W : List (Ref sig .tc) := [main_v262, main_v263, main_v264, main_v265, main_v266, main_cst_36, main_v267, main_v268, main_cst_37, main_v269, main_v270]

theorem L2_alpha_b_sub : ∀ op ∈ (L2_alpha_b : List (HloOp τ sig (Elt F))), op.bufs ⊆ tcRefs τ sig :=
  List.forall_iff_forall_mem.mp ⟨unary_bufs_sub .., binary_bufs_sub .., binary_bufs_sub .., unary_bufs_sub .., unary_bufs_sub .., nullary_bufs_sub .., unary_bufs_sub .., binary_bufs_sub .., nullary_bufs_sub .., unary_bufs_sub .., binary_bufs_sub ..⟩

theorem L2_alpha_b_fresh : ∀ op ∈ (L2_alpha_b : List (HloOp τ sig (Elt F))), op.fresh = ∅ :=
  List.forall_iff_forall_mem.mp ⟨rfl, rfl, rfl, rfl, rfl, rfl, rfl, rfl, rfl, rfl, rfl⟩

theorem L2_alpha_b_writes : (L2_alpha_b : List (HloOp τ sig (Elt F))).Forall fun op => op.writes ⊆ (L2_alpha_b_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A reference it does not write keeps its contents. -/
theorem L2_alpha_b_frame : ∀ (V : Valuation τ sig (Elt F)) (r : Ref sig .tc), r ∉ L2_alpha_b_W →
    after L2_alpha_b V (no_index (Proc.devRef .tc r)) = V (Proc.devRef .tc r) :=
  fun V _ hr => after_frame L2_alpha_b L2_alpha_b_writes V hr

/-- Operations of the forward aggregate of layer 2. -/
abbrev L2_aggF : List (HloOp τ sig (Elt F)) :=
  [ StableHlo.nullary main_c_38 (constantI S_ 32 0#32),
    StableHlo.unary main_c_38 main_v271 (broadcastInDim S625000 ![] bcast_S_S625000 : (⟨S_, .i32⟩ : BufTy).Contents (Elt F) → (⟨S625000, .i32⟩ : BufTy).Contents (Elt F)),
    StableHlo.binary main_v1 main_v271 main_v272 (cmpi .slt : (⟨S625000, .i32⟩ : BufTy).Contents (Elt F) → (⟨S625000, .i32⟩ : BufTy).Contents (Elt F) → (⟨S625000, .i1⟩ : BufTy).Contents (Elt F)),
    StableHlo.nullary main_c_39 (constantI S_ 32 50000#32),
    StableHlo.unary main_c_39 main_v273 (broadcastInDim S625000 ![] bcast_S_S625000 : (⟨S_, .i32⟩ : BufTy).Contents (Elt F) → (⟨S625000, .i32⟩ : BufTy).Contents (Elt F)),
    StableHlo.binary main_v1 main_v273 main_v274 (addi : (⟨S625000, .i32⟩ : BufTy).Contents (Elt F) → (⟨S625000, .i32⟩ : BufTy).Contents (Elt F) → (⟨S625000, .i32⟩ : BufTy).Contents (Elt F)),
    StableHlo.ternary main_v272 main_v274 main_v1 main_v275 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    StableHlo.unary main_v275 main_v276 (broadcastInDim S625000x1 ![0] bcast_S625000_S625000x1_0 : (⟨S625000, .i32⟩ : BufTy).Contents (Elt F) → (⟨S625000x1, .i32⟩ : BufTy).Contents (Elt F)),
    StableHlo.binary main_v236 main_v276 main_v277 ((fun x i => Host.gather gather_S50000x128_S625000x1_S625000x128_1_0_n_n_0_1_1128 x i) : (⟨S50000x128, .f32⟩ : BufTy).Contents (Elt F) → (⟨S625000x1, .i32⟩ : BufTy).Contents (Elt F) → (⟨S625000x128, .f32⟩ : BufTy).Contents (Elt F)),
    StableHlo.unary main_v270 main_v278 (broadcastInDim S625000x128 ![0, 1] bcast_S625000x1_S625000x128_0_1 : (⟨S625000x1, .f32⟩ : BufTy).Contents (Elt F) → (⟨S625000x128, .f32⟩ : BufTy).Contents (Elt F)),
    StableHlo.binary main_v277 main_v278 main_v279 (mulf : (⟨S625000x128, .f32⟩ : BufTy).Contents (Elt F) → (⟨S625000x128, .f32⟩ : BufTy).Contents (Elt F) → (⟨S625000x128, .f32⟩ : BufTy).Contents (Elt F)),
    StableHlo.nullary main_cst_40 (constant S_ .f32 0x00000000#32),
    StableHlo.unary main_cst_40 main_v280 (broadcastInDim S50000x128 ![] bcast_S_S50000x128 : (⟨S_, .f32⟩ : BufTy).Contents (Elt F) → (⟨S50000x128, .f32⟩ : BufTy).Contents (Elt F)),
    StableHlo.unary main_v3 main_v281 (broadcastInDim S625000x1 ![0] bcast_S625000_S625000x1_0 : (⟨S625000, .i32⟩ : BufTy).Contents (Elt F) → (⟨S625000x1, .i32⟩ : BufTy).Contents (Elt F)),
    StableHlo.ternary main_v280 main_v281 main_v279 main_v282 ((fun x i u => Host.scatterAdd scatter_S50000x128_S625000x1_S625000x128_1_0_0_1 x i u) : (⟨S50000x128, .f32⟩ : BufTy).Contents (Elt F) → (⟨S625000x1, .i32⟩ : BufTy).Contents (Elt F) → (⟨S625000x128, .f32⟩ : BufTy).Contents (Elt F) → (⟨S50000x128, .f32⟩ : BufTy).Contents (Elt F)) ]

/-- The references it writes. -/
abbrev L2_aggF_W : List (Ref sig .tc) := [main_c_38, main_v271, main_v272, main_c_39, main_v273, main_v274, main_v275, main_v276, main_v277, main_v278, main_v279, main_cst_40, main_v280, main_v281, main_v282]

theorem L2_aggF_sub : ∀ op ∈ (L2_aggF : List (HloOp τ sig (Elt F))), op.bufs ⊆ tcRefs τ sig :=
  List.forall_iff_forall_mem.mp ⟨nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩

theorem L2_aggF_fresh : ∀ op ∈ (L2_aggF : List (HloOp τ sig (Elt F))), op.fresh = ∅ :=
  List.forall_iff_forall_mem.mp ⟨rfl, rfl, rfl, rfl, rfl, rfl, rfl, rfl, rfl, rfl, rfl, rfl, rfl, rfl, rfl⟩

theorem L2_aggF_writes : (L2_aggF : List (HloOp τ sig (Elt F))).Forall fun op => op.writes ⊆ (L2_aggF_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A reference it does not write keeps its contents. -/
theorem L2_aggF_frame : ∀ (V : Valuation τ sig (Elt F)) (r : Ref sig .tc), r ∉ L2_aggF_W →
    after L2_aggF V (no_index (Proc.devRef .tc r)) = V (Proc.devRef .tc r) :=
  fun V _ hr => after_frame L2_aggF L2_aggF_writes V hr

/-- Operations of the backward aggregate of layer 2. -/
abbrev L2_aggB : List (HloOp τ sig (Elt F)) :=
  [ StableHlo.nullary main_c_41 (constantI S_ 32 0#32),
    StableHlo.unary main_c_41 main_v283 (broadcastInDim S625000 ![] bcast_S_S625000 : (⟨S_, .i32⟩ : BufTy).Contents (Elt F) → (⟨S625000, .i32⟩ : BufTy).Contents (Elt F)),
    StableHlo.binary main_v1 main_v283 main_v284 (cmpi .slt : (⟨S625000, .i32⟩ : BufTy).Contents (Elt F) → (⟨S625000, .i32⟩ : BufTy).Contents (Elt F) → (⟨S625000, .i1⟩ : BufTy).Contents (Elt F)),
    StableHlo.nullary main_c_42 (constantI S_ 32 50000#32),
    StableHlo.unary main_c_42 main_v285 (broadcastInDim S625000 ![] bcast_S_S625000 : (⟨S_, .i32⟩ : BufTy).Contents (Elt F) → (⟨S625000, .i32⟩ : BufTy).Contents (Elt F)),
    StableHlo.binary main_v1 main_v285 main_v286 (addi : (⟨S625000, .i32⟩ : BufTy).Contents (Elt F) → (⟨S625000, .i32⟩ : BufTy).Contents (Elt F) → (⟨S625000, .i32⟩ : BufTy).Contents (Elt F)),
    StableHlo.ternary main_v284 main_v286 main_v1 main_v287 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    StableHlo.unary main_v287 main_v288 (broadcastInDim S625000x1 ![0] bcast_S625000_S625000x1_0 : (⟨S625000, .i32⟩ : BufTy).Contents (Elt F) → (⟨S625000x1, .i32⟩ : BufTy).Contents (Elt F)),
    StableHlo.binary main_v240 main_v288 main_v289 ((fun x i => Host.gather gather_S50000x128_S625000x1_S625000x128_1_0_n_n_0_1_1128 x i) : (⟨S50000x128, .f32⟩ : BufTy).Contents (Elt F) → (⟨S625000x1, .i32⟩ : BufTy).Contents (Elt F) → (⟨S625000x128, .f32⟩ : BufTy).Contents (Elt F)),
    StableHlo.nullary main_cst_43 (constant S_ .f32 0x3F800000#32),
    StableHlo.unary main_cst_43 main_v290 (broadcastInDim S625000x1 ![] bcast_S_S625000x1 : (⟨S_, .f32⟩ : BufTy).Contents (Elt F) → (⟨S625000x1, .f32⟩ : BufTy).Contents (Elt F)),
    StableHlo.binary main_v290 main_v270 main_v291 (subf : (⟨S625000x1, .f32⟩ : BufTy).Contents (Elt F) → (⟨S625000x1, .f32⟩ : BufTy).Contents (Elt F) → (⟨S625000x1, .f32⟩ : BufTy).Contents (Elt F)),
    StableHlo.unary main_v291 main_v292 (broadcastInDim S625000x128 ![0, 1] bcast_S625000x1_S625000x128_0_1 : (⟨S625000x1, .f32⟩ : BufTy).Contents (Elt F) → (⟨S625000x128, .f32⟩ : BufTy).Contents (Elt F)),
    StableHlo.binary main_v289 main_v292 main_v293 (mulf : (⟨S625000x128, .f32⟩ : BufTy).Contents (Elt F) → (⟨S625000x128, .f32⟩ : BufTy).Contents (Elt F) → (⟨S625000x128, .f32⟩ : BufTy).Contents (Elt F)),
    StableHlo.nullary main_cst_44 (constant S_ .f32 0x00000000#32),
    StableHlo.unary main_cst_44 main_v294 (broadcastInDim S50000x128 ![] bcast_S_S50000x128 : (⟨S_, .f32⟩ : BufTy).Contents (Elt F) → (⟨S50000x128, .f32⟩ : BufTy).Contents (Elt F)),
    StableHlo.unary main_v3 main_v295 (broadcastInDim S625000x1 ![0] bcast_S625000_S625000x1_0 : (⟨S625000, .i32⟩ : BufTy).Contents (Elt F) → (⟨S625000x1, .i32⟩ : BufTy).Contents (Elt F)),
    StableHlo.ternary main_v294 main_v295 main_v293 main_v296 ((fun x i u => Host.scatterAdd scatter_S50000x128_S625000x1_S625000x128_1_0_0_1 x i u) : (⟨S50000x128, .f32⟩ : BufTy).Contents (Elt F) → (⟨S625000x1, .i32⟩ : BufTy).Contents (Elt F) → (⟨S625000x128, .f32⟩ : BufTy).Contents (Elt F) → (⟨S50000x128, .f32⟩ : BufTy).Contents (Elt F)) ]

/-- The references it writes. -/
abbrev L2_aggB_W : List (Ref sig .tc) := [main_c_41, main_v283, main_v284, main_c_42, main_v285, main_v286, main_v287, main_v288, main_v289, main_cst_43, main_v290, main_v291, main_v292, main_v293, main_cst_44, main_v294, main_v295, main_v296]

theorem L2_aggB_sub : ∀ op ∈ (L2_aggB : List (HloOp τ sig (Elt F))), op.bufs ⊆ tcRefs τ sig :=
  List.forall_iff_forall_mem.mp ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., binary_bufs_sub .., nullary_bufs_sub .., unary_bufs_sub .., unary_bufs_sub .., ternary_bufs_sub ..⟩

theorem L2_aggB_fresh : ∀ op ∈ (L2_aggB : List (HloOp τ sig (Elt F))), op.fresh = ∅ :=
  List.forall_iff_forall_mem.mp ⟨rfl, rfl, rfl, rfl, rfl, rfl, rfl, rfl, rfl, rfl, rfl, rfl, rfl, rfl, rfl, rfl, rfl, rfl⟩

theorem L2_aggB_writes : (L2_aggB : List (HloOp τ sig (Elt F))).Forall fun op => op.writes ⊆ (L2_aggB_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A reference it does not write keeps its contents. -/
theorem L2_aggB_frame : ∀ (V : Valuation τ sig (Elt F)) (r : Ref sig .tc), r ∉ L2_aggB_W →
    after L2_aggB V (no_index (Proc.devRef .tc r)) = V (Proc.devRef .tc r) :=
  fun V _ hr => after_frame L2_aggB L2_aggB_writes V hr

/-- Operations of the combination of layer 2. -/
abbrev L2_z : List (HloOp τ sig (Elt F)) :=
  [ StableHlo.nary ![main_v249, main_v282, main_v296] main_v297 (fun u => concatenate S50000x384 1 [⟨S50000x128, u 0⟩, ⟨S50000x128, u 1⟩, ⟨S50000x128, u 2⟩] concatenates_S50000x128_S50000x128_S50000x128_S50000x384_d1),
    StableHlo.unary main_arg11 main_v298 ((extractStridedSlice S1x128x384 ![2, 0, 0] · slices_S3x128x384_S1x128x384_2_0_0) : (⟨S3x128x384, .f32⟩ : BufTy).Contents (Elt F) → (⟨S1x128x384, .f32⟩ : BufTy).Contents (Elt F)),
    StableHlo.reshape main_v298 main_v299 rfl shapeCasts_S1x128x384_S128x384,
    StableHlo.unary main_v299 main_v300 ((transpose S384x128 [1, 0] · transposes_S128x384_S384x128_1_0) : (⟨S128x384, .f32⟩ : BufTy).Contents (Elt F) → (⟨S384x128, .f32⟩ : BufTy).Contents (Elt F)),
    StableHlo.binary main_v297 main_v300 main_v301 ((fun l r => Host.dotGeneral dot_S50000x384_S384x128_S50000x128_1_0_0_1_n_n none l r) : (⟨S50000x384, .f32⟩ : BufTy).Contents (Elt F) → (⟨S384x128, .f32⟩ : BufTy).Contents (Elt F) → (⟨S50000x128, .f32⟩ : BufTy).Contents (Elt F)),
    StableHlo.unary main_arg12 main_v302 ((extractStridedSlice S1x128 ![2, 0] · slices_S3x128_S1x128_2_0) : (⟨S3x128, .f32⟩ : BufTy).Contents (Elt F) → (⟨S1x128, .f32⟩ : BufTy).Contents (Elt F)),
    StableHlo.reshape main_v302 main_v303 rfl shapeCasts_S1x128_S128,
    StableHlo.unary main_v303 main_v304 (broadcastInDim S1x128 ![1] bcast_S128_S1x128_1 : (⟨S128, .f32⟩ : BufTy).Contents (Elt F) → (⟨S1x128, .f32⟩ : BufTy).Contents (Elt F)),
    StableHlo.unary main_v304 main_v305 (broadcastInDim S50000x128 ![0, 1] bcast_S1x128_S50000x128_0_1 : (⟨S1x128, .f32⟩ : BufTy).Contents (Elt F) → (⟨S50000x128, .f32⟩ : BufTy).Contents (Elt F)),
    StableHlo.binary main_v301 main_v305 main_v306 (addf : (⟨S50000x128, .f32⟩ : BufTy).Contents (Elt F) → (⟨S50000x128, .f32⟩ : BufTy).Contents (Elt F) → (⟨S50000x128, .f32⟩ : BufTy).Contents (Elt F)) ]

/-- The references it writes. -/
abbrev L2_z_W : List (Ref sig .tc) := [main_v297, main_v298, main_v299, main_v300, main_v301, main_v302, main_v303, main_v304, main_v305, main_v306]

theorem L2_z_sub : ∀ op ∈ (L2_z : List (HloOp τ sig (Elt F))), op.bufs ⊆ tcRefs τ sig :=
  List.forall_iff_forall_mem.mp ⟨nary_bufs_sub .., unary_bufs_sub .., reshape_bufs_sub .., unary_bufs_sub .., binary_bufs_sub .., unary_bufs_sub .., reshape_bufs_sub .., unary_bufs_sub .., unary_bufs_sub .., binary_bufs_sub ..⟩

theorem L2_z_fresh : ∀ op ∈ (L2_z : List (HloOp τ sig (Elt F))), op.fresh = ∅ :=
  List.forall_iff_forall_mem.mp ⟨rfl, rfl, rfl, rfl, rfl, rfl, rfl, rfl, rfl, rfl⟩

theorem L2_z_writes : (L2_z : List (HloOp τ sig (Elt F))).Forall fun op => op.writes ⊆ (L2_z_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A reference it does not write keeps its contents. -/
theorem L2_z_frame : ∀ (V : Valuation τ sig (Elt F)) (r : Ref sig .tc), r ∉ L2_z_W →
    after L2_z V (no_index (Proc.devRef .tc r)) = V (Proc.devRef .tc r) :=
  fun V _ hr => after_frame L2_z L2_z_writes V hr

/-- Operations of the row means of layer 2. -/
abbrev L2_mu : List (HloOp τ sig (Elt F)) :=
  [ StableHlo.nullary main_cst_45 (constant S_ .f32 0x00000000#32),
    StableHlo.binary main_v306 main_cst_45 main_v307 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v307 main_v308 (broadcastInDim S50000x1 ![0] bcast_S50000_S50000x1_0 : (⟨S50000, .f32⟩ : BufTy).Contents (Elt F) → (⟨S50000x1, .f32⟩ : BufTy).Contents (Elt F)),
    StableHlo.nullary main_cst_46 (constant S_ .f32 0x43000000#32),
    StableHlo.unary main_cst_46 main_v309 (broadcastInDim S50000x1 ![] bcast_S_S50000x1 : (⟨S_, .f32⟩ : BufTy).Contents (Elt F) → (⟨S50000x1, .f32⟩ : BufTy).Contents (Elt F)),
    StableHlo.binary main_v308 main_v309 main_v310 (Host.divf : (⟨S50000x1, .f32⟩ : BufTy).Contents (Elt F) → (⟨S50000x1, .f32⟩ : BufTy).Contents (Elt F) → (⟨S50000x1, .f32⟩ : BufTy).Contents (Elt F)) ]

/-- The references it writes. -/
abbrev L2_mu_W : List (Ref sig .tc) := [main_cst_45, main_v307, main_v308, main_cst_46, main_v309, main_v310]

theorem L2_mu_sub : ∀ op ∈ (L2_mu : List (HloOp τ sig (Elt F))), op.bufs ⊆ tcRefs τ sig :=
  List.forall_iff_forall_mem.mp ⟨nullary_bufs_sub .., binary_bufs_sub .., unary_bufs_sub .., nullary_bufs_sub .., unary_bufs_sub .., binary_bufs_sub ..⟩

theorem L2_mu_fresh : ∀ op ∈ (L2_mu : List (HloOp τ sig (Elt F))), op.fresh = ∅ :=
  List.forall_iff_forall_mem.mp ⟨rfl, rfl, rfl, rfl, rfl, rfl⟩

theorem L2_mu_writes : (L2_mu : List (HloOp τ sig (Elt F))).Forall fun op => op.writes ⊆ (L2_mu_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide)⟩

/-- A reference it does not write keeps its contents. -/
theorem L2_mu_frame : ∀ (V : Valuation τ sig (Elt F)) (r : Ref sig .tc), r ∉ L2_mu_W →
    after L2_mu V (no_index (Proc.devRef .tc r)) = V (Proc.devRef .tc r) :=
  fun V _ hr => after_frame L2_mu L2_mu_writes V hr

/-- Window 5's operations, in order. -/
abbrev W5 : List (HloOp τ sig (Elt F)) := L2_alpha_b ++ (L2_aggF ++ (L2_aggB ++ (L2_z ++ (L2_mu))))

/-- The references window 5 writes. -/
abbrev W5_W : List (Ref sig .tc) := L2_alpha_b_W ++ (L2_aggF_W ++ (L2_aggB_W ++ (L2_z_W ++ (L2_mu_W))))

theorem W5_sub : ∀ op ∈ (W5 : List (HloOp τ sig (Elt F))), op.bufs ⊆ tcRefs τ sig :=
  forall_mem_append L2_alpha_b_sub (forall_mem_append L2_aggF_sub (forall_mem_append L2_aggB_sub (forall_mem_append L2_z_sub (L2_mu_sub))))

theorem W5_fresh : ∀ op ∈ (W5 : List (HloOp τ sig (Elt F))), op.fresh = ∅ :=
  forall_mem_append L2_alpha_b_fresh (forall_mem_append L2_aggF_fresh (forall_mem_append L2_aggB_fresh (forall_mem_append L2_z_fresh (L2_mu_fresh))))

-- the window's binds re-associated one by one: the rewriting recurses once per statement
set_option maxRecDepth 8192 in
set_option maxHeartbeats 1000000 in
/-- The window is that line: the called functions unfolded at their calls, both sides are one chain of steps
    once sequencing is re-associated. -/
theorem part5_eq (c : Dev nD) : main_part5 (F := F) c = seq W5 := by
  simp only [main_part5, fn_relu.body, fn_var.body, fn_where.body, seq_append, seq, bind_assoc, pure_bind, bind_pure_unit] <;> rfl

end Cert.ReferenceIdeal.RefRun

end
-- ==== Proof.RefOps6.lean ====
/- Window 6 of the reference's @main as lists of its operations in order, one list per stage (a stage cut by
   the window's end continues in the next window), a called function's operations inline at each call site over
   that call's buffers; what each list touches, writes and leaves alone; and the window as the line of its lists. -/
import proofs.«108119_j38019050504554_2_alg».proof.Proof.RefOpsStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations of the row variances of layer 2. -/
abbrev L2_var : List (HloOp τ sig (Elt F)) :=
  [ StableHlo.nullary main_c_47 (constantI S_ 32 0#32),
    StableHlo.TRef.nullary main_call5.cst (constant S_ .f32 0x00000000#32),
    StableHlo.TRef.binary (.of main_v306) main_call5.cst main_call5.v0 (fun x v => Host.reduceAdd x v reducesTo_S50000x128_S50000_d1 h_S_),
    StableHlo.TRef.unary main_call5.v0 main_call5.v1 (broadcastInDim S50000x1 ![0] bcast_S50000_S50000x1_0),
    StableHlo.TRef.nullary main_call5.cst_0 (constant S_ .f32 0x43000000#32),
    StableHlo.TRef.unary main_call5.cst_0 main_call5.v2 (broadcastInDim S50000x1 ![] bcast_S_S50000x1),
    StableHlo.TRef.binary main_call5.v1 main_call5.v2 main_call5.v3 Host.divf,
    StableHlo.TRef.unary main_call5.v3 main_call5.v4 (broadcastInDim S50000x128 ![0, 1] bcast_S50000x1_S50000x128_0_1),
    StableHlo.TRef.binary (.of main_v306) main_call5.v4 main_call5.v5 subf,
    StableHlo.TRef.binary main_call5.v5 main_call5.v5 main_call5.v6 mulf,
    StableHlo.TRef.unary (.of main_c_47) main_call5.v7 (sitofp .f32),
    StableHlo.TRef.nullary main_call5.cst_1 (constant S_ .f32 0x43000000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S50000x128_S50000_d1 h_S_),
    StableHlo.TRef.unary main_call5.v9 main_call5.v10 (broadcastInDim S50000x1 ![0] bcast_S50000_S50000x1_0),
    StableHlo.TRef.unary main_call5.v8 main_call5.v11 (broadcastInDim S50000x1 ![] bcast_S_S50000x1),
    StableHlo.TRef.binary main_call5.v10 main_call5.v11 main_call5.v12 Host.divf,
    StableHlo.TRef.nullary main_call5.cst_3 (constant S_ .f32 0x00000000#32),
    StableHlo.TRef.binary main_call5.v8 main_call5.cst_3 main_call5.v13 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S50000x1 ![] bcast_S_S50000x1),
    StableHlo.TRef.ternary main_call5.v13 main_call5.v12 main_call5.call0.v1 main_call5.call0.v2 (fun p a b => select (broadcastInDim S50000x1 ![] bcast_S_S50000x1 p) a b) ]

/-- The references it writes. -/
abbrev L2_var_W : List (Ref sig .tc) := [main_c_47, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v311]

theorem L2_var_sub : ∀ op ∈ (L2_var : List (HloOp τ sig (Elt F))), op.bufs ⊆ tcRefs τ sig :=
  List.forall_iff_forall_mem.mp ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩

theorem L2_var_fresh : ∀ op ∈ (L2_var : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl, rfl, rfl⟩

theorem L2_var_writes : (L2_var : List (HloOp τ sig (Elt F))).Forall fun op => op.writes ⊆ (L2_var_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A reference it does not write keeps its contents. -/
theorem L2_var_frame : ∀ (V : Valuation τ sig (Elt F)) (r : Ref sig .tc), r ∉ L2_var_W →
    after L2_var V (no_index (Proc.devRef .tc r)) = V (Proc.devRef .tc r) :=
  fun V _ hr => after_frame L2_var L2_var_writes V hr

/-- Operations of the layer's result of layer 2. -/
abbrev L2_hnext : List (HloOp τ sig (Elt F)) :=
  [ StableHlo.unary main_v310 main_v312 (broadcastInDim S50000x128 ![0, 1] bcast_S50000x1_S50000x128_0_1 : (⟨S50000x1, .f32⟩ : BufTy).Contents (Elt F) → (⟨S50000x128, .f32⟩ : BufTy).Contents (Elt F)),
    StableHlo.binary main_v306 main_v312 main_v313 (subf : (⟨S50000x128, .f32⟩ : BufTy).Contents (Elt F) → (⟨S50000x128, .f32⟩ : BufTy).Contents (Elt F) → (⟨S50000x128, .f32⟩ : BufTy).Contents (Elt F)),
    StableHlo.nullary main_cst_48 (constant S_ .f32 0x3727C5AC#32),
    StableHlo.unary main_cst_48 main_v314 (broadcastInDim S50000x1 ![] bcast_S_S50000x1 : (⟨S_, .f32⟩ : BufTy).Contents (Elt F) → (⟨S50000x1, .f32⟩ : BufTy).Contents (Elt F)),
    StableHlo.binary main_v311 main_v314 main_v315 (addf : (⟨S50000x1, .f32⟩ : BufTy).Contents (Elt F) → (⟨S50000x1, .f32⟩ : BufTy).Contents (Elt F) → (⟨S50000x1, .f32⟩ : BufTy).Contents (Elt F)),
    StableHlo.unary main_v315 main_v316 (Host.rsqrt : (⟨S50000x1, .f32⟩ : BufTy).Contents (Elt F) → (⟨S50000x1, .f32⟩ : BufTy).Contents (Elt F)),
    StableHlo.unary main_v316 main_v317 (broadcastInDim S50000x128 ![0, 1] bcast_S50000x1_S50000x128_0_1 : (⟨S50000x1, .f32⟩ : BufTy).Contents (Elt F) → (⟨S50000x128, .f32⟩ : BufTy).Contents (Elt F)),
    StableHlo.binary main_v313 main_v317 main_v318 (mulf : (⟨S50000x128, .f32⟩ : BufTy).Contents (Elt F) → (⟨S50000x128, .f32⟩ : BufTy).Contents (Elt F) → (⟨S50000x128, .f32⟩ : BufTy).Contents (Elt F)),
    StableHlo.unary main_arg13 main_v319 ((extractStridedSlice S1x128 ![2, 0] · slices_S3x128_S1x128_2_0) : (⟨S3x128, .f32⟩ : BufTy).Contents (Elt F) → (⟨S1x128, .f32⟩ : BufTy).Contents (Elt F)),
    StableHlo.reshape main_v319 main_v320 rfl shapeCasts_S1x128_S128,
    StableHlo.unary main_v320 main_v321 (broadcastInDim S1x128 ![1] bcast_S128_S1x128_1 : (⟨S128, .f32⟩ : BufTy).Contents (Elt F) → (⟨S1x128, .f32⟩ : BufTy).Contents (Elt F)),
    StableHlo.unary main_v321 main_v322 (broadcastInDim S50000x128 ![0, 1] bcast_S1x128_S50000x128_0_1 : (⟨S1x128, .f32⟩ : BufTy).Contents (Elt F) → (⟨S50000x128, .f32⟩ : BufTy).Contents (Elt F)),
    StableHlo.binary main_v318 main_v322 main_v323 (mulf : (⟨S50000x128, .f32⟩ : BufTy).Contents (Elt F) → (⟨S50000x128, .f32⟩ : BufTy).Contents (Elt F) → (⟨S50000x128, .f32⟩ : BufTy).Contents (Elt F)),
    StableHlo.unary main_arg14 main_v324 ((extractStridedSlice S1x128 ![2, 0] · slices_S3x128_S1x128_2_0) : (⟨S3x128, .f32⟩ : BufTy).Contents (Elt F) → (⟨S1x128, .f32⟩ : BufTy).Contents (Elt F)),
    StableHlo.reshape main_v324 main_v325 rfl shapeCasts_S1x128_S128,
    StableHlo.unary main_v325 main_v326 (broadcastInDim S1x128 ![1] bcast_S128_S1x128_1 : (⟨S128, .f32⟩ : BufTy).Contents (Elt F) → (⟨S1x128, .f32⟩ : BufTy).Contents (Elt F)),
    StableHlo.unary main_v326 main_v327 (broadcastInDim S50000x128 ![0, 1] bcast_S1x128_S50000x128_0_1 : (⟨S1x128, .f32⟩ : BufTy).Contents (Elt F) → (⟨S50000x128, .f32⟩ : BufTy).Contents (Elt F)),
    StableHlo.binary main_v323 main_v327 main_v328 (addf : (⟨S50000x128, .f32⟩ : BufTy).Contents (Elt F) → (⟨S50000x128, .f32⟩ : BufTy).Contents (Elt F) → (⟨S50000x128, .f32⟩ : BufTy).Contents (Elt F)),
    StableHlo.TRef.nullary main_call6.cst (constant S_ .f32 0x00000000#32),
    StableHlo.TRef.unary main_call6.cst main_call6.v0 (broadcastInDim S50000x128 ![] bcast_S_S50000x128),
    StableHlo.TRef.binary (.of main_v328) main_call6.v0 main_call6.v1 maximumf,
    StableHlo.binary main_v329 main_v223 main_v330 (addf : (⟨S50000x128, .f32⟩ : BufTy).Contents (Elt F) → (⟨S50000x128, .f32⟩ : BufTy).Contents (Elt F) → (⟨S50000x128, .f32⟩ : BufTy).Contents (Elt F)) ]

/-- The references it writes. -/
abbrev L2_hnext_W : List (Ref sig .tc) := [main_v312, main_v313, main_cst_48, main_v314, main_v315, main_v316, main_v317, main_v318, main_v319, main_v320, main_v321, main_v322, main_v323, main_v324, main_v325, main_v326, main_v327, main_v328, main_call6_cst, main_call6_v0, main_v329, main_v330]

theorem L2_hnext_sub : ∀ op ∈ (L2_hnext : List (HloOp τ sig (Elt F))), op.bufs ⊆ tcRefs τ sig :=
  List.forall_iff_forall_mem.mp ⟨unary_bufs_sub .., binary_bufs_sub .., nullary_bufs_sub .., unary_bufs_sub .., binary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., binary_bufs_sub ..⟩

theorem L2_hnext_fresh : ∀ op ∈ (L2_hnext : List (HloOp τ sig (Elt F))), op.fresh = ∅ :=
  List.forall_iff_forall_mem.mp ⟨rfl, rfl, rfl, rfl, rfl, rfl, rfl, rfl, rfl, rfl, rfl, rfl, rfl, rfl, rfl, rfl, rfl, rfl, rfl, rfl, rfl, rfl⟩

theorem L2_hnext_writes : (L2_hnext : List (HloOp τ sig (Elt F))).Forall fun op => op.writes ⊆ (L2_hnext_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A reference it does not write keeps its contents. -/
theorem L2_hnext_frame : ∀ (V : Valuation τ sig (Elt F)) (r : Ref sig .tc), r ∉ L2_hnext_W →
    after L2_hnext V (no_index (Proc.devRef .tc r)) = V (Proc.devRef .tc r) :=
  fun V _ hr => after_frame L2_hnext L2_hnext_writes V hr

/-- Operations of the pooled quotient. -/
abbrev Q_pool : List (HloOp τ sig (Elt F)) :=
  [ StableHlo.nullary main_cst_49 (constant S_ .f32 0x00000000#32),
    StableHlo.unary main_cst_49 main_v331 (broadcastInDim S64x128 ![] bcast_S_S64x128 : (⟨S_, .f32⟩ : BufTy).Contents (Elt F) → (⟨S64x128, .f32⟩ : BufTy).Contents (Elt F)),
    StableHlo.unary main_arg2 main_v332 (broadcastInDim S50000x1 ![0] bcast_S50000_S50000x1_0 : (⟨S50000, .i32⟩ : BufTy).Contents (Elt F) → (⟨S50000x1, .i32⟩ : BufTy).Contents (Elt F)),
    StableHlo.ternary main_v331 main_v332 main_v330 main_v333 ((fun x i u => Host.scatterAdd scatter_S64x128_S50000x1_S50000x128_1_0_0_1 x i u) : (⟨S64x128, .f32⟩ : BufTy).Contents (Elt F) → (⟨S50000x1, .i32⟩ : BufTy).Contents (Elt F) → (⟨S50000x128, .f32⟩ : BufTy).Contents (Elt F) → (⟨S64x128, .f32⟩ : BufTy).Contents (Elt F)),
    StableHlo.nullary main_cst_50 (constant S_ .f32 0x3F800000#32),
    StableHlo.unary main_cst_50 main_v334 (broadcastInDim S50000 ![] bcast_S_S50000 : (⟨S_, .f32⟩ : BufTy).Contents (Elt F) → (⟨S50000, .f32⟩ : BufTy).Contents (Elt F)),
    StableHlo.nullary main_cst_51 (constant S_ .f32 0x00000000#32),
    StableHlo.unary main_cst_51 main_v335 (broadcastInDim S64 ![] bcast_S_S64 : (⟨S_, .f32⟩ : BufTy).Contents (Elt F) → (⟨S64, .f32⟩ : BufTy).Contents (Elt F)),
    StableHlo.unary main_arg2 main_v336 (broadcastInDim S50000x1 ![0] bcast_S50000_S50000x1_0 : (⟨S50000, .i32⟩ : BufTy).Contents (Elt F) → (⟨S50000x1, .i32⟩ : BufTy).Contents (Elt F)),
    StableHlo.ternary main_v335 main_v336 main_v334 main_v337 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    StableHlo.nullary main_cst_52 (constant S_ .f32 0x3F800000#32),
    StableHlo.unary main_cst_52 main_v338 (broadcastInDim S64 ![] bcast_S_S64 : (⟨S_, .f32⟩ : BufTy).Contents (Elt F) → (⟨S64, .f32⟩ : BufTy).Contents (Elt F)),
    StableHlo.binary main_v337 main_v338 main_v339 (maximumf : (⟨S64, .f32⟩ : BufTy).Contents (Elt F) → (⟨S64, .f32⟩ : BufTy).Contents (Elt F) → (⟨S64, .f32⟩ : BufTy).Contents (Elt F)),
    StableHlo.unary main_v339 main_v340 (broadcastInDim S64x1 ![0] bcast_S64_S64x1_0 : (⟨S64, .f32⟩ : BufTy).Contents (Elt F) → (⟨S64x1, .f32⟩ : BufTy).Contents (Elt F)),
    StableHlo.unary main_v340 main_v341 (broadcastInDim S64x128 ![0, 1] bcast_S64x1_S64x128_0_1 : (⟨S64x1, .f32⟩ : BufTy).Contents (Elt F) → (⟨S64x128, .f32⟩ : BufTy).Contents (Elt F)),
    StableHlo.binary main_v333 main_v341 main_v342 (Host.divf : (⟨S64x128, .f32⟩ : BufTy).Contents (Elt F) → (⟨S64x128, .f32⟩ : BufTy).Contents (Elt F) → (⟨S64x128, .f32⟩ : BufTy).Contents (Elt F)) ]

/-- The references it writes. -/
abbrev Q_pool_W : List (Ref sig .tc) := [main_cst_49, main_v331, main_v332, main_v333, main_cst_50, main_v334, main_cst_51, main_v335, main_v336, main_v337, main_cst_52, main_v338, main_v339, main_v340, main_v341, main_v342]

theorem Q_pool_sub : ∀ op ∈ (Q_pool : List (HloOp τ sig (Elt F))), op.bufs ⊆ tcRefs τ sig :=
  List.forall_iff_forall_mem.mp ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

theorem Q_pool_fresh : ∀ op ∈ (Q_pool : List (HloOp τ sig (Elt F))), op.fresh = ∅ :=
  List.forall_iff_forall_mem.mp ⟨rfl, rfl, rfl, rfl, rfl, rfl, rfl, rfl, rfl, rfl, rfl, rfl, rfl, rfl, rfl, rfl⟩

theorem Q_pool_writes : (Q_pool : List (HloOp τ sig (Elt F))).Forall fun op => op.writes ⊆ (Q_pool_W.map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩

/-- A reference it does not write keeps its contents. -/
theorem Q_pool_frame : ∀ (V : Valuation τ sig (Elt F)) (r : Ref sig .tc), r ∉ Q_pool_W →
    after Q_pool V (no_index (Proc.devRef .tc r)) = V (Proc.devRef .tc r) :=
  fun V _ hr => after_frame Q_pool Q_pool_writes V hr

/-- Window 6's operations, in order. -/
abbrev W6 : List (HloOp τ sig (Elt F)) := L2_var ++ (L2_hnext ++ (Q_pool))

/-- The references window 6 writes. -/
abbrev W6_W : List (Ref sig .tc) := L2_var_W ++ (L2_hnext_W ++ (Q_pool_W))

theorem W6_sub : ∀ op ∈ (W6 : List (HloOp τ sig (Elt F))), op.bufs ⊆ tcRefs τ sig :=
  forall_mem_append L2_var_sub (forall_mem_append L2_hnext_sub (Q_pool_sub))

theorem W6_fresh : ∀ op ∈ (W6 : List (HloOp τ sig (Elt F))), op.fresh = ∅ :=
  forall_mem_append L2_var_fresh (forall_mem_append L2_hnext_fresh (Q_pool_fresh))

-- the window's binds re-associated one by one: the rewriting recurses once per statement
set_option maxRecDepth 8192 in
set_option maxHeartbeats 1000000 in
/-- The window is that line: the called functions unfolded at their calls, both sides are one chain of steps
    once sequencing is re-associated. -/
theorem part6_eq (c : Dev nD) : main_part6 (F := F) c = seq W6 := by
  simp only [main_part6, fn_relu.body, fn_var.body, fn_where.body, seq_append, seq, bind_assoc, pure_bind, bind_pure_unit] <;> rfl

end Cert.ReferenceIdeal.RefRun

end
-- ==== Proof.RefOpsAppend.lean ====
/- Leaving a reference alone, for two lines run one after the other. -/
import proofs.«108119_j38019050504554_2_alg».proof.Proof.RefOpsStages

noncomputable section

namespace Cert.ReferenceIdeal.RefRun

open Cert.ReferenceIdeal Idealize.ShloMosaic Idealize.ShloMosaic.TcCoe Idealize.SL.Sem Idealize.ShloMosaic.StableHlo

variable {F : FTy → Type} [FloatOps F]

/-- If the first line leaves alone every reference outside W₁ and the second every reference outside W₂,
    the two in a row leave alone every reference outside both. -/
theorem frame_append {W₁ W₂ : List (Ref sig .tc)} {l₁ l₂ : List (HloOp τ sig (Elt F))}
    (h₁ : ∀ (V : Valuation τ sig (Elt F)) (r : Ref sig .tc), r ∉ W₁ →
      after l₁ V (no_index (Proc.devRef .tc r)) = V (Proc.devRef .tc r))
    (h₂ : ∀ (V : Valuation τ sig (Elt F)) (r : Ref sig .tc), r ∉ W₂ →
      after l₂ V (no_index (Proc.devRef .tc r)) = V (Proc.devRef .tc r)) :
    ∀ (V : Valuation τ sig (Elt F)) (r : Ref sig .tc), r ∉ W₁ ++ W₂ →
      after (l₁ ++ l₂) V (no_index (Proc.devRef .tc r)) = V (Proc.devRef .tc r) := fun V r hr => by
  rw [after_append, h₂ _ r (fun h => hr (List.mem_append_right _ h)), h₁ V r (fun h => hr (List.mem_append_left _ h))]

end Cert.ReferenceIdeal.RefRun

end
-- ==== Proof.RefOpsMain.lean ====
/- The reference's @main as one line of operations, its seven windows in order; that the line touches TensorCore
   references only and determines every result; that it leaves alone every reference none of its operations writes;
   its run, and the run's frame: the fifteen arguments end as they started. -/
import proofs.«108119_j38019050504554_2_alg».proof.Proof.RefOps0
import proofs.«108119_j38019050504554_2_alg».proof.Proof.RefOps1
import proofs.«108119_j38019050504554_2_alg».proof.Proof.RefOps2
import proofs.«108119_j38019050504554_2_alg».proof.Proof.RefOps3
import proofs.«108119_j38019050504554_2_alg».proof.Proof.RefOps4
import proofs.«108119_j38019050504554_2_alg».proof.Proof.RefOps5
import proofs.«108119_j38019050504554_2_alg».proof.Proof.RefOps6
import proofs.«108119_j38019050504554_2_alg».proof.Proof.RefOpsAppend

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in order. -/
abbrev allW : List (HloOp τ sig (Elt F)) := W0 ++ (W1 ++ (W2 ++ (W3 ++ (W4 ++ (W5 ++ (W6))))))

/-- The references @main writes. -/
abbrev allW_W : List (Ref sig .tc) := W0_W ++ (W1_W ++ (W2_W ++ (W3_W ++ (W4_W ++ (W5_W ++ (W6_W))))))

/-- @main is that line: each window is its own, and a concatenation runs as its parts in turn. -/
theorem main_eq (c : Dev nD) : main (F := F) c = seq allW := by
  simp only [main, part0_eq, part1_eq, part2_eq, part3_eq, part4_eq, part5_eq, part6_eq, seq_append]

theorem scopedRefs_eq : (Finset.univ.filter fun b : Ref sig .tc => b.isScoped) = ∅ := by decide
theorem scopedSems_eq : (Finset.univ.filter fun sm : SemLoc sig => sm.isScoped .tc) = ∅ := by decide

theorem allW_sub : (allW : List (HloOp τ sig (Elt F))).Forall fun op => op.bufs ⊆ tcRefs τ sig :=
  List.forall_iff_forall_mem.mpr (forall_mem_append W0_sub (forall_mem_append W1_sub (forall_mem_append W2_sub (forall_mem_append W3_sub (forall_mem_append W4_sub (forall_mem_append W5_sub (W6_sub)))))))

theorem allW_fresh : ∀ op ∈ (allW : List (HloOp τ sig (Elt F))), op.fresh = ∅ :=
  forall_mem_append W0_fresh (forall_mem_append W1_fresh (forall_mem_append W2_fresh (forall_mem_append W3_fresh (forall_mem_append W4_fresh (forall_mem_append W5_fresh (W6_fresh))))))

/-- A reference no operation of @main writes keeps its contents. -/
theorem allW_frame : ∀ (V : Valuation τ sig (Elt F)) (r : Ref sig .tc), r ∉ allW_W →
    after allW V (no_index (Proc.devRef .tc r)) = V (Proc.devRef .tc r) :=
  frame_append (frame_append P_idx_frame (frame_append P_emb_frame (frame_append L0_scores_frame (frame_append L0_hfwd_frame (frame_append L0_hbwd_frame (frame_append L0_hself_frame (L0_alpha_a_frame)))))))
    (frame_append (frame_append L0_alpha_b_frame (frame_append L0_aggF_frame (frame_append L0_aggB_frame (frame_append L0_z_frame (frame_append L0_mu_frame (frame_append L0_var_frame (L0_hnext_a_frame)))))))
    (frame_append (frame_append L0_hnext_b_frame (frame_append L1_scores_frame (frame_append L1_hfwd_frame (frame_append L1_hbwd_frame (frame_append L1_hself_frame (L1_alpha_a_frame))))))
    (frame_append (frame_append L1_alpha_b_frame (frame_append L1_aggF_frame (frame_append L1_aggB_frame (frame_append L1_z_frame (frame_append L1_mu_frame (frame_append L1_var_frame (L1_hnext_a_frame)))))))
    (frame_append (frame_append L1_hnext_b_frame (frame_append L2_scores_frame (frame_append L2_hfwd_frame (frame_append L2_hbwd_frame (frame_append L2_hself_frame (L2_alpha_a_frame))))))
    (frame_append (frame_append L2_alpha_b_frame (frame_append L2_aggF_frame (frame_append L2_aggB_frame (frame_append L2_z_frame (L2_mu_frame))))) ((frame_append L2_var_frame (frame_append L2_hnext_frame (Q_pool_frame)))))))))

/-- On every device, for any float values, from any memory with zero counters: every weakly fair execution of
    @main terminates, each TensorCore buffer at the line's fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after allW (launchContents m c) (Proc.devRef .tc b) :=
  run_seq scopedRefs_eq scopedSems_eq defs main (fun _ => allW) main_eq (fun _ => allW_sub) m ρ (fun _ => allW_fresh)

/-- The run's frame: every weakly fair execution terminates and the fifteen arguments end as they started
    (no operation writes an argument's buffer). -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c main_arg0).trans (allW_frame _ main_arg0 (by decide)),
      (h c main_arg1).trans (allW_frame _ main_arg1 (by decide)),
      (h c main_arg2).trans (allW_frame _ main_arg2 (by decide)),
      (h c main_arg3).trans (allW_frame _ main_arg3 (by decide)),
      (h c main_arg4).trans (allW_frame _ main_arg4 (by decide)),
      (h c main_arg5).trans (allW_frame _ main_arg5 (by decide)),
      (h c main_arg6).trans (allW_frame _ main_arg6 (by decide)),
      (h c main_arg7).trans (allW_frame _ main_arg7 (by decide)),
      (h c main_arg8).trans (allW_frame _ main_arg8 (by decide)),
      (h c main_arg9).trans (allW_frame _ main_arg9 (by decide)),
      (h c main_arg10).trans (allW_frame _ main_arg10 (by decide)),
      (h c main_arg11).trans (allW_frame _ main_arg11 (by decide)),
      (h c main_arg12).trans (allW_frame _ main_arg12 (by decide)),
      (h c main_arg13).trans (allW_frame _ main_arg13 (by decide)),
      (h c main_arg14).trans (allW_frame _ main_arg14 (by decide))⟩)
    (run_after m ρ)

end Cert.ReferenceIdeal.RefRun

end
-- ==== Proof.RefOpsPre.lean ====
/- The reference before its layers: what the operations of the two index vectors and of the embedding leave in
   their result buffers, as the stages' functions of the arguments. -/
import proofs.«108119_j38019050504554_2_alg».proof.Proof.RefOps0
import proofs.«108119_j38019050504554_2_alg».proof.Proof.RefOpsAppend

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- After the index operations the first result buffer holds row 0 of the edge list. -/
theorem P_src_eq (V : Valuation τ sig (Elt F)) :
    after P_idx V (no_index (main_v1 : DevRef τ sig)) = src (V (main_arg1 : DevRef τ sig)) := by
  after_results_simp
  rfl

set_option maxRecDepth 8192 in
/-- After the index operations the second result buffer holds row 1 of the edge list. -/
theorem P_dst_eq (V : Valuation τ sig (Elt F)) :
    after P_idx V (no_index (main_v3 : DevRef τ sig)) = dst (V (main_arg1 : DevRef τ sig)) := by
  after_results_simp
  rfl

set_option maxRecDepth 8192 in
/-- After the embedding's operations their result buffer holds the embedding of the arguments they read. -/
theorem P_emb_eq (V : Valuation τ sig (Elt F)) :
    after P_emb V (no_index (main_v9 : DevRef τ sig))
      = emb (V (main_arg0 : DevRef τ sig)) (V (main_arg3 : DevRef τ sig)) (V (main_arg4 : DevRef τ sig)) := by
  after_results_simp
  rfl

/-- The operations before the layers, in order. -/
def opsPre : List (HloOp τ sig (Elt F)) := P_idx ++ P_emb

/-- The references they write. -/
abbrev opsPre_W : List (Ref sig .tc) := P_idx_W ++ P_emb_W

/-- A reference they do not write keeps its contents. -/
theorem opsPre_frame : ∀ (V : Valuation τ sig (Elt F)) (r : Ref sig .tc), r ∉ opsPre_W →
    after opsPre V (no_index (Proc.devRef .tc r)) = V (Proc.devRef .tc r) :=
  frame_append P_idx_frame P_emb_frame

theorem opsPre_src (V : Valuation τ sig (Elt F)) :
    after opsPre V (no_index (main_v1 : DevRef τ sig)) = src (V (main_arg1 : DevRef τ sig)) := by
  rw [opsPre, after_append, P_emb_frame _ main_v1 (by decide)]
  exact P_src_eq V

theorem opsPre_dst (V : Valuation τ sig (Elt F)) :
    after opsPre V (no_index (main_v3 : DevRef τ sig)) = dst (V (main_arg1 : DevRef τ sig)) := by
  rw [opsPre, after_append, P_emb_frame _ main_v3 (by decide)]
  exact P_dst_eq V

theorem opsPre_emb (V : Valuation τ sig (Elt F)) :
    after opsPre V (no_index (main_v9 : DevRef τ sig))
      = emb (V (main_arg0 : DevRef τ sig)) (V (main_arg3 : DevRef τ sig)) (V (main_arg4 : DevRef τ sig)) := by
  rw [opsPre, after_append, P_emb_eq, P_idx_frame V main_arg0 (by decide), P_idx_frame V main_arg3 (by decide),
    P_idx_frame V main_arg4 (by decide)]

end Cert.ReferenceIdeal.RefRun

end
-- ==== Proof.RefOpsL0.lean ====
/- Layer 0 of the reference: what each stage's operations leave in the stage's result buffer, as the stage's
   function of what the buffers it reads held before; and the same for the layer's whole line. -/
import proofs.«108119_j38019050504554_2_alg».proof.Proof.RefOps0
import proofs.«108119_j38019050504554_2_alg».proof.Proof.RefOps1
import proofs.«108119_j38019050504554_2_alg».proof.Proof.RefOps2
import proofs.«108119_j38019050504554_2_alg».proof.Proof.RefOpsAppend

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- After the operations of the scores their result buffer holds the stage's function of the contents they read. -/
theorem L0_scores_eq (V : Valuation τ sig (Elt F)) :
    after L0_scores V (no_index (main_v18 : DevRef τ sig))
      = scores (V (main_v9 : DevRef τ sig))
        (extractStridedSlice S1x1x128 ![0, 0, 0] (V (main_arg5 : DevRef τ sig)) slices_S3x1x128_S1x1x128_0_0_0)
        (extractStridedSlice S1x1 ![0, 0] (V (main_arg6 : DevRef τ sig)) slices_S3x1_S1x1_0_0) := by
  after_results_simp
  rfl

set_option maxRecDepth 8192 in
/-- After the operations of the forward messages their result buffer holds the stage's function of the contents they read. -/
theorem L0_hfwd_eq (V : Valuation τ sig (Elt F)) :
    after L0_hfwd V (no_index (main_v22 : DevRef τ sig))
      = hfwd (V (main_v9 : DevRef τ sig))
        (extractStridedSlice S1x128x128 ![0, 0, 0] (V (main_arg7 : DevRef τ sig)) slices_S3x128x128_S1x128x128_0_0_0) := by
  after_results_simp
  rfl

set_option maxRecDepth 8192 in
/-- After the operations of the backward messages their result buffer holds the stage's function of the contents they read. -/
theorem L0_hbwd_eq (V : Valuation τ sig (Elt F)) :
    after L0_hbwd V (no_index (main_v26 : DevRef τ sig))
      = hbwd (V (main_v9 : DevRef τ sig))
        (extractStridedSlice S1x128x128 ![0, 0, 0] (V (main_arg8 : DevRef τ sig)) slices_S3x128x128_S1x128x128_0_0_0) := by
  after_results_simp
  rfl

set_option maxRecDepth 8192 in
/-- After the operations of the self term their result buffer holds the stage's function of the contents they read. -/
theorem L0_hself_eq (V : Valuation τ sig (Elt F)) :
    after L0_hself V (no_index (main_v35 : DevRef τ sig))
      = hself (V (main_v9 : DevRef τ sig))
        (extractStridedSlice S1x128x128 ![0, 0, 0] (V (main_arg9 : DevRef τ sig)) slices_S3x128x128_S1x128x128_0_0_0)
        (extractStridedSlice S1x128 ![0, 0] (V (main_arg10 : DevRef τ sig)) slices_S3x128_S1x128_0_0) := by
  after_results_simp
  rfl

set_option maxRecDepth 8192 in
/-- After the operations of the gates their result buffer holds the stage's function of the contents they read. -/
theorem L0_alpha_eq (V : Valuation τ sig (Elt F)) :
    after L0_alpha_b (after L0_alpha_a V) (no_index (main_v56 : DevRef τ sig))
      = alpha (V (main_v18 : DevRef τ sig)) (V (main_v1 : DevRef τ sig)) (V (main_v3 : DevRef τ sig)) := by
  after_results_simp
  rfl

set_option maxRecDepth 8192 in
/-- After the operations of the forward aggregate their result buffer holds the stage's function of the contents they read. -/
theorem L0_aggF_eq (V : Valuation τ sig (Elt F)) :
    after L0_aggF V (no_index (main_v68 : DevRef τ sig))
      = aggF (V (main_v22 : DevRef τ sig)) (V (main_v56 : DevRef τ sig)) (V (main_v1 : DevRef τ sig)) (V (main_v3 : DevRef τ sig)) := by
  after_results_simp
  rfl

set_option maxRecDepth 8192 in
/-- After the operations of the backward aggregate their result buffer holds the stage's function of the contents they read. -/
theorem L0_aggB_eq (V : Valuation τ sig (Elt F)) :
    after L0_aggB V (no_index (main_v82 : DevRef τ sig))
      = aggB (V (main_v26 : DevRef τ sig)) (V (main_v56 : DevRef τ sig)) (V (main_v1 : DevRef τ sig)) (V (main_v3 : DevRef τ sig)) := by
  after_results_simp
  rfl

set_option maxRecDepth 8192 in
/-- After the operations of the combination their result buffer holds the stage's function of the contents they read. -/
theorem L0_z_eq (V : Valuation τ sig (Elt F)) :
    after L0_z V (no_index (main_v92 : DevRef τ sig))
      = z (V (main_v35 : DevRef τ sig)) (V (main_v68 : DevRef τ sig)) (V (main_v82 : DevRef τ sig))
        (extractStridedSlice S1x128x384 ![0, 0, 0] (V (main_arg11 : DevRef τ sig)) slices_S3x128x384_S1x128x384_0_0_0)
        (extractStridedSlice S1x128 ![0, 0] (V (main_arg12 : DevRef τ sig)) slices_S3x128_S1x128_0_0) := by
  after_results_simp
  rfl

set_option maxRecDepth 8192 in
/-- After the operations of the row means their result buffer holds the stage's function of the contents they read. -/
theorem L0_mu_eq (V : Valuation τ sig (Elt F)) :
    after L0_mu V (no_index (main_v96 : DevRef τ sig))
      = mu (V (main_v92 : DevRef τ sig)) := by
  after_results_simp
  rfl

set_option maxRecDepth 8192 in
/-- After the operations of the row variances their result buffer holds the stage's function of the contents they read. -/
theorem L0_var_eq (V : Valuation τ sig (Elt F)) :
    after L0_var V (no_index (main_v97 : DevRef τ sig))
      = var (V (main_v92 : DevRef τ sig)) := by
  after_results_simp
  rfl

set_option maxRecDepth 8192 in
/-- After the operations of the layer's result their result buffer holds the stage's function of the contents they read. -/
theorem L0_hnext_eq (V : Valuation τ sig (Elt F)) :
    after L0_hnext_b (after L0_hnext_a V) (no_index (main_v116 : DevRef τ sig))
      = hnext (V (main_v92 : DevRef τ sig)) (V (main_v96 : DevRef τ sig)) (V (main_v97 : DevRef τ sig))
        (extractStridedSlice S1x128 ![0, 0] (V (main_arg13 : DevRef τ sig)) slices_S3x128_S1x128_0_0)
        (extractStridedSlice S1x128 ![0, 0] (V (main_arg14 : DevRef τ sig)) slices_S3x128_S1x128_0_0)
        (V (main_v9 : DevRef τ sig)) := by
  after_results_simp
  rfl

/-- Layer 0's operations, in order. -/
def opsL0 : List (HloOp τ sig (Elt F)) := L0_scores ++ (L0_hfwd ++ (L0_hbwd ++ (L0_hself ++ (L0_alpha_a ++ (L0_alpha_b ++ (L0_aggF ++ (L0_aggB ++ (L0_z ++ (L0_mu ++ (L0_var ++ (L0_hnext_a ++ (L0_hnext_b))))))))))))

/-- The references layer 0 writes. -/
abbrev opsL0_W : List (Ref sig .tc) := L0_scores_W ++ (L0_hfwd_W ++ (L0_hbwd_W ++ (L0_hself_W ++ (L0_alpha_a_W ++ (L0_alpha_b_W ++ (L0_aggF_W ++ (L0_aggB_W ++ (L0_z_W ++ (L0_mu_W ++ (L0_var_W ++ (L0_hnext_a_W ++ (L0_hnext_b_W))))))))))))

/-- A reference the layer does not write keeps its contents. -/
theorem opsL0_frame : ∀ (V : Valuation τ sig (Elt F)) (r : Ref sig .tc), r ∉ opsL0_W →
    after opsL0 V (no_index (Proc.devRef .tc r)) = V (Proc.devRef .tc r) :=
  frame_append L0_scores_frame (frame_append L0_hfwd_frame (frame_append L0_hbwd_frame (frame_append L0_hself_frame (frame_append L0_alpha_a_frame (frame_append L0_alpha_b_frame (frame_append L0_aggF_frame (frame_append L0_aggB_frame (frame_append L0_z_frame (frame_append L0_mu_frame (frame_append L0_var_frame (frame_append L0_hnext_a_frame (L0_hnext_b_frame))))))))))))

set_option maxRecDepth 8192 in
/-- After layer 0's operations its result buffer holds the layer's function of its input, the two index vectors
    and the ten parameter arrays: each stage's equation in turn, a buffer read through the lists that do not write it. -/
theorem opsL0_eq (V : Valuation τ sig (Elt F)) :
    after opsL0 V (no_index (main_v116 : DevRef τ sig))
      = layer0 (V (main_v9 : DevRef τ sig)) (V (main_v1 : DevRef τ sig)) (V (main_v3 : DevRef τ sig))
          (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  simp only [opsL0, after_append]
  simp (disch := decide) only [L0_hnext_eq, L0_var_eq, L0_mu_eq, L0_z_eq, L0_aggB_eq, L0_aggF_eq, L0_alpha_eq, L0_hself_eq, L0_hbwd_eq, L0_hfwd_eq, L0_scores_eq,
    L0_scores_frame, L0_hfwd_frame, L0_hbwd_frame, L0_hself_frame, L0_alpha_a_frame, L0_alpha_b_frame, L0_aggF_frame, L0_aggB_frame, L0_z_frame, L0_mu_frame, L0_var_frame, L0_hnext_a_frame, L0_hnext_b_frame]
  rfl

end Cert.ReferenceIdeal.RefRun

end
-- ==== Proof.RefOpsL1.lean ====
/- Layer 1 of the reference: what each stage's operations leave in the stage's result buffer, as the stage's
   function of what the buffers it reads held before; and the same for the layer's whole line. -/
import proofs.«108119_j38019050504554_2_alg».proof.Proof.RefOps2
import proofs.«108119_j38019050504554_2_alg».proof.Proof.RefOps3
import proofs.«108119_j38019050504554_2_alg».proof.Proof.RefOps4
import proofs.«108119_j38019050504554_2_alg».proof.Proof.RefOpsAppend

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- After the operations of the scores their result buffer holds the stage's function of the contents they read. -/
theorem L1_scores_eq (V : Valuation τ sig (Elt F)) :
    after L1_scores V (no_index (main_v125 : DevRef τ sig))
      = scores (V (main_v116 : DevRef τ sig))
        (extractStridedSlice S1x1x128 ![1, 0, 0] (V (main_arg5 : DevRef τ sig)) slices_S3x1x128_S1x1x128_1_0_0)
        (extractStridedSlice S1x1 ![1, 0] (V (main_arg6 : DevRef τ sig)) slices_S3x1_S1x1_1_0) := by
  after_results_simp
  rfl

set_option maxRecDepth 8192 in
/-- After the operations of the forward messages their result buffer holds the stage's function of the contents they read. -/
theorem L1_hfwd_eq (V : Valuation τ sig (Elt F)) :
    after L1_hfwd V (no_index (main_v129 : DevRef τ sig))
      = hfwd (V (main_v116 : DevRef τ sig))
        (extractStridedSlice S1x128x128 ![1, 0, 0] (V (main_arg7 : DevRef τ sig)) slices_S3x128x128_S1x128x128_1_0_0) := by
  after_results_simp
  rfl

set_option maxRecDepth 8192 in
/-- After the operations of the backward messages their result buffer holds the stage's function of the contents they read. -/
theorem L1_hbwd_eq (V : Valuation τ sig (Elt F)) :
    after L1_hbwd V (no_index (main_v133 : DevRef τ sig))
      = hbwd (V (main_v116 : DevRef τ sig))
        (extractStridedSlice S1x128x128 ![1, 0, 0] (V (main_arg8 : DevRef τ sig)) slices_S3x128x128_S1x128x128_1_0_0) := by
  after_results_simp
  rfl

set_option maxRecDepth 8192 in
/-- After the operations of the self term their result buffer holds the stage's function of the contents they read. -/
theorem L1_hself_eq (V : Valuation τ sig (Elt F)) :
    after L1_hself V (no_index (main_v142 : DevRef τ sig))
      = hself (V (main_v116 : DevRef τ sig))
        (extractStridedSlice S1x128x128 ![1, 0, 0] (V (main_arg9 : DevRef τ sig)) slices_S3x128x128_S1x128x128_1_0_0)
        (extractStridedSlice S1x128 ![1, 0] (V (main_arg10 : DevRef τ sig)) slices_S3x128_S1x128_1_0) := by
  after_results_simp
  rfl

set_option maxRecDepth 8192 in
/-- After the operations of the gates their result buffer holds the stage's function of the contents they read. -/
theorem L1_alpha_eq (V : Valuation τ sig (Elt F)) :
    after L1_alpha_b (after L1_alpha_a V) (no_index (main_v163 : DevRef τ sig))
      = alpha (V (main_v125 : DevRef τ sig)) (V (main_v1 : DevRef τ sig)) (V (main_v3 : DevRef τ sig)) := by
  after_results_simp
  rfl

set_option maxRecDepth 8192 in
/-- After the operations of the forward aggregate their result buffer holds the stage's function of the contents they read. -/
theorem L1_aggF_eq (V : Valuation τ sig (Elt F)) :
    after L1_aggF V (no_index (main_v175 : DevRef τ sig))
      = aggF (V (main_v129 : DevRef τ sig)) (V (main_v163 : DevRef τ sig)) (V (main_v1 : DevRef τ sig)) (V (main_v3 : DevRef τ sig)) := by
  after_results_simp
  rfl

set_option maxRecDepth 8192 in
/-- After the operations of the backward aggregate their result buffer holds the stage's function of the contents they read. -/
theorem L1_aggB_eq (V : Valuation τ sig (Elt F)) :
    after L1_aggB V (no_index (main_v189 : DevRef τ sig))
      = aggB (V (main_v133 : DevRef τ sig)) (V (main_v163 : DevRef τ sig)) (V (main_v1 : DevRef τ sig)) (V (main_v3 : DevRef τ sig)) := by
  after_results_simp
  rfl

set_option maxRecDepth 8192 in
/-- After the operations of the combination their result buffer holds the stage's function of the contents they read. -/
theorem L1_z_eq (V : Valuation τ sig (Elt F)) :
    after L1_z V (no_index (main_v199 : DevRef τ sig))
      = z (V (main_v142 : DevRef τ sig)) (V (main_v175 : DevRef τ sig)) (V (main_v189 : DevRef τ sig))
        (extractStridedSlice S1x128x384 ![1, 0, 0] (V (main_arg11 : DevRef τ sig)) slices_S3x128x384_S1x128x384_1_0_0)
        (extractStridedSlice S1x128 ![1, 0] (V (main_arg12 : DevRef τ sig)) slices_S3x128_S1x128_1_0) := by
  after_results_simp
  rfl

set_option maxRecDepth 8192 in
/-- After the operations of the row means their result buffer holds the stage's function of the contents they read. -/
theorem L1_mu_eq (V : Valuation τ sig (Elt F)) :
    after L1_mu V (no_index (main_v203 : DevRef τ sig))
      = mu (V (main_v199 : DevRef τ sig)) := by
  after_results_simp
  rfl

set_option maxRecDepth 8192 in
/-- After the operations of the row variances their result buffer holds the stage's function of the contents they read. -/
theorem L1_var_eq (V : Valuation τ sig (Elt F)) :
    after L1_var V (no_index (main_v204 : DevRef τ sig))
      = var (V (main_v199 : DevRef τ sig)) := by
  after_results_simp
  rfl

set_option maxRecDepth 8192 in
/-- After the operations of the layer's result their result buffer holds the stage's function of the contents they read. -/
theorem L1_hnext_eq (V : Valuation τ sig (Elt F)) :
    after L1_hnext_b (after L1_hnext_a V) (no_index (main_v223 : DevRef τ sig))
      = hnext (V (main_v199 : DevRef τ sig)) (V (main_v203 : DevRef τ sig)) (V (main_v204 : DevRef τ sig))
        (extractStridedSlice S1x128 ![1, 0] (V (main_arg13 : DevRef τ sig)) slices_S3x128_S1x128_1_0)
        (extractStridedSlice S1x128 ![1, 0] (V (main_arg14 : DevRef τ sig)) slices_S3x128_S1x128_1_0)
        (V (main_v116 : DevRef τ sig)) := by
  after_results_simp
  rfl

/-- Layer 1's operations, in order. -/
def opsL1 : List (HloOp τ sig (Elt F)) := L1_scores ++ (L1_hfwd ++ (L1_hbwd ++ (L1_hself ++ (L1_alpha_a ++ (L1_alpha_b ++ (L1_aggF ++ (L1_aggB ++ (L1_z ++ (L1_mu ++ (L1_var ++ (L1_hnext_a ++ (L1_hnext_b))))))))))))

/-- The references layer 1 writes. -/
abbrev opsL1_W : List (Ref sig .tc) := L1_scores_W ++ (L1_hfwd_W ++ (L1_hbwd_W ++ (L1_hself_W ++ (L1_alpha_a_W ++ (L1_alpha_b_W ++ (L1_aggF_W ++ (L1_aggB_W ++ (L1_z_W ++ (L1_mu_W ++ (L1_var_W ++ (L1_hnext_a_W ++ (L1_hnext_b_W))))))))))))

/-- A reference the layer does not write keeps its contents. -/
theorem opsL1_frame : ∀ (V : Valuation τ sig (Elt F)) (r : Ref sig .tc), r ∉ opsL1_W →
    after opsL1 V (no_index (Proc.devRef .tc r)) = V (Proc.devRef .tc r) :=
  frame_append L1_scores_frame (frame_append L1_hfwd_frame (frame_append L1_hbwd_frame (frame_append L1_hself_frame (frame_append L1_alpha_a_frame (frame_append L1_alpha_b_frame (frame_append L1_aggF_frame (frame_append L1_aggB_frame (frame_append L1_z_frame (frame_append L1_mu_frame (frame_append L1_var_frame (frame_append L1_hnext_a_frame (L1_hnext_b_frame))))))))))))

set_option maxRecDepth 8192 in
/-- After layer 1's operations its result buffer holds the layer's function of its input, the two index vectors
    and the ten parameter arrays: each stage's equation in turn, a buffer read through the lists that do not write it. -/
theorem opsL1_eq (V : Valuation τ sig (Elt F)) :
    after opsL1 V (no_index (main_v223 : DevRef τ sig))
      = layer1 (V (main_v116 : DevRef τ sig)) (V (main_v1 : DevRef τ sig)) (V (main_v3 : DevRef τ sig))
          (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  simp only [opsL1, after_append]
  simp (disch := decide) only [L1_hnext_eq, L1_var_eq, L1_mu_eq, L1_z_eq, L1_aggB_eq, L1_aggF_eq, L1_alpha_eq, L1_hself_eq, L1_hbwd_eq, L1_hfwd_eq, L1_scores_eq,
    L1_scores_frame, L1_hfwd_frame, L1_hbwd_frame, L1_hself_frame, L1_alpha_a_frame, L1_alpha_b_frame, L1_aggF_frame, L1_aggB_frame, L1_z_frame, L1_mu_frame, L1_var_frame, L1_hnext_a_frame, L1_hnext_b_frame]
  rfl

end Cert.ReferenceIdeal.RefRun

end
-- ==== Proof.RefOpsL2.lean ====
/- Layer 2 of the reference: what each stage's operations leave in the stage's result buffer, as the stage's
   function of what the buffers it reads held before; and the same for the layer's whole line. -/
import proofs.«108119_j38019050504554_2_alg».proof.Proof.RefOps4
import proofs.«108119_j38019050504554_2_alg».proof.Proof.RefOps5
import proofs.«108119_j38019050504554_2_alg».proof.Proof.RefOps6
import proofs.«108119_j38019050504554_2_alg».proof.Proof.RefOpsAppend

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- After the operations of the scores their result buffer holds the stage's function of the contents they read. -/
theorem L2_scores_eq (V : Valuation τ sig (Elt F)) :
    after L2_scores V (no_index (main_v232 : DevRef τ sig))
      = scores (V (main_v223 : DevRef τ sig))
        (extractStridedSlice S1x1x128 ![2, 0, 0] (V (main_arg5 : DevRef τ sig)) slices_S3x1x128_S1x1x128_2_0_0)
        (extractStridedSlice S1x1 ![2, 0] (V (main_arg6 : DevRef τ sig)) slices_S3x1_S1x1_2_0) := by
  after_results_simp
  rfl

set_option maxRecDepth 8192 in
/-- After the operations of the forward messages their result buffer holds the stage's function of the contents they read. -/
theorem L2_hfwd_eq (V : Valuation τ sig (Elt F)) :
    after L2_hfwd V (no_index (main_v236 : DevRef τ sig))
      = hfwd (V (main_v223 : DevRef τ sig))
        (extractStridedSlice S1x128x128 ![2, 0, 0] (V (main_arg7 : DevRef τ sig)) slices_S3x128x128_S1x128x128_2_0_0) := by
  after_results_simp
  rfl

set_option maxRecDepth 8192 in
/-- After the operations of the backward messages their result buffer holds the stage's function of the contents they read. -/
theorem L2_hbwd_eq (V : Valuation τ sig (Elt F)) :
    after L2_hbwd V (no_index (main_v240 : DevRef τ sig))
      = hbwd (V (main_v223 : DevRef τ sig))
        (extractStridedSlice S1x128x128 ![2, 0, 0] (V (main_arg8 : DevRef τ sig)) slices_S3x128x128_S1x128x128_2_0_0) := by
  after_results_simp
  rfl

set_option maxRecDepth 8192 in
/-- After the operations of the self term their result buffer holds the stage's function of the contents they read. -/
theorem L2_hself_eq (V : Valuation τ sig (Elt F)) :
    after L2_hself V (no_index (main_v249 : DevRef τ sig))
      = hself (V (main_v223 : DevRef τ sig))
        (extractStridedSlice S1x128x128 ![2, 0, 0] (V (main_arg9 : DevRef τ sig)) slices_S3x128x128_S1x128x128_2_0_0)
        (extractStridedSlice S1x128 ![2, 0] (V (main_arg10 : DevRef τ sig)) slices_S3x128_S1x128_2_0) := by
  after_results_simp
  rfl

set_option maxRecDepth 8192 in
/-- After the operations of the gates their result buffer holds the stage's function of the contents they read. -/
theorem L2_alpha_eq (V : Valuation τ sig (Elt F)) :
    after L2_alpha_b (after L2_alpha_a V) (no_index (main_v270 : DevRef τ sig))
      = alpha (V (main_v232 : DevRef τ sig)) (V (main_v1 : DevRef τ sig)) (V (main_v3 : DevRef τ sig)) := by
  after_results_simp
  rfl

set_option maxRecDepth 8192 in
/-- After the operations of the forward aggregate their result buffer holds the stage's function of the contents they read. -/
theorem L2_aggF_eq (V : Valuation τ sig (Elt F)) :
    after L2_aggF V (no_index (main_v282 : DevRef τ sig))
      = aggF (V (main_v236 : DevRef τ sig)) (V (main_v270 : DevRef τ sig)) (V (main_v1 : DevRef τ sig)) (V (main_v3 : DevRef τ sig)) := by
  after_results_simp
  rfl

set_option maxRecDepth 8192 in
/-- After the operations of the backward aggregate their result buffer holds the stage's function of the contents they read. -/
theorem L2_aggB_eq (V : Valuation τ sig (Elt F)) :
    after L2_aggB V (no_index (main_v296 : DevRef τ sig))
      = aggB (V (main_v240 : DevRef τ sig)) (V (main_v270 : DevRef τ sig)) (V (main_v1 : DevRef τ sig)) (V (main_v3 : DevRef τ sig)) := by
  after_results_simp
  rfl

set_option maxRecDepth 8192 in
/-- After the operations of the combination their result buffer holds the stage's function of the contents they read. -/
theorem L2_z_eq (V : Valuation τ sig (Elt F)) :
    after L2_z V (no_index (main_v306 : DevRef τ sig))
      = z (V (main_v249 : DevRef τ sig)) (V (main_v282 : DevRef τ sig)) (V (main_v296 : DevRef τ sig))
        (extractStridedSlice S1x128x384 ![2, 0, 0] (V (main_arg11 : DevRef τ sig)) slices_S3x128x384_S1x128x384_2_0_0)
        (extractStridedSlice S1x128 ![2, 0] (V (main_arg12 : DevRef τ sig)) slices_S3x128_S1x128_2_0) := by
  after_results_simp
  rfl

set_option maxRecDepth 8192 in
/-- After the operations of the row means their result buffer holds the stage's function of the contents they read. -/
theorem L2_mu_eq (V : Valuation τ sig (Elt F)) :
    after L2_mu V (no_index (main_v310 : DevRef τ sig))
      = mu (V (main_v306 : DevRef τ sig)) := by
  after_results_simp
  rfl

set_option maxRecDepth 8192 in
/-- After the operations of the row variances their result buffer holds the stage's function of the contents they read. -/
theorem L2_var_eq (V : Valuation τ sig (Elt F)) :
    after L2_var V (no_index (main_v311 : DevRef τ sig))
      = var (V (main_v306 : DevRef τ sig)) := by
  after_results_simp
  rfl

set_option maxRecDepth 8192 in
/-- After the operations of the layer's result their result buffer holds the stage's function of the contents they read. -/
theorem L2_hnext_eq (V : Valuation τ sig (Elt F)) :
    after L2_hnext V (no_index (main_v330 : DevRef τ sig))
      = hnext (V (main_v306 : DevRef τ sig)) (V (main_v310 : DevRef τ sig)) (V (main_v311 : DevRef τ sig))
        (extractStridedSlice S1x128 ![2, 0] (V (main_arg13 : DevRef τ sig)) slices_S3x128_S1x128_2_0)
        (extractStridedSlice S1x128 ![2, 0] (V (main_arg14 : DevRef τ sig)) slices_S3x128_S1x128_2_0)
        (V (main_v223 : DevRef τ sig)) := by
  after_results_simp
  rfl

/-- Layer 2's operations, in order. -/
def opsL2 : List (HloOp τ sig (Elt F)) := L2_scores ++ (L2_hfwd ++ (L2_hbwd ++ (L2_hself ++ (L2_alpha_a ++ (L2_alpha_b ++ (L2_aggF ++ (L2_aggB ++ (L2_z ++ (L2_mu ++ (L2_var ++ (L2_hnext)))))))))))

/-- The references layer 2 writes. -/
abbrev opsL2_W : List (Ref sig .tc) := L2_scores_W ++ (L2_hfwd_W ++ (L2_hbwd_W ++ (L2_hself_W ++ (L2_alpha_a_W ++ (L2_alpha_b_W ++ (L2_aggF_W ++ (L2_aggB_W ++ (L2_z_W ++ (L2_mu_W ++ (L2_var_W ++ (L2_hnext_W)))))))))))

/-- A reference the layer does not write keeps its contents. -/
theorem opsL2_frame : ∀ (V : Valuation τ sig (Elt F)) (r : Ref sig .tc), r ∉ opsL2_W →
    after opsL2 V (no_index (Proc.devRef .tc r)) = V (Proc.devRef .tc r) :=
  frame_append L2_scores_frame (frame_append L2_hfwd_frame (frame_append L2_hbwd_frame (frame_append L2_hself_frame (frame_append L2_alpha_a_frame (frame_append L2_alpha_b_frame (frame_append L2_aggF_frame (frame_append L2_aggB_frame (frame_append L2_z_frame (frame_append L2_mu_frame (frame_append L2_var_frame (L2_hnext_frame)))))))))))

set_option maxRecDepth 8192 in
/-- After layer 2's operations its result buffer holds the layer's function of its input, the two index vectors
    and the ten parameter arrays: each stage's equation in turn, a buffer read through the lists that do not write it. -/
theorem opsL2_eq (V : Valuation τ sig (Elt F)) :
    after opsL2 V (no_index (main_v330 : DevRef τ sig))
      = layer2 (V (main_v223 : DevRef τ sig)) (V (main_v1 : DevRef τ sig)) (V (main_v3 : DevRef τ sig))
          (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  simp only [opsL2, after_append]
  simp (disch := decide) only [L2_hnext_eq, L2_var_eq, L2_mu_eq, L2_z_eq, L2_aggB_eq, L2_aggF_eq, L2_alpha_eq, L2_hself_eq, L2_hbwd_eq, L2_hfwd_eq, L2_scores_eq,
    L2_scores_frame, L2_hfwd_frame, L2_hbwd_frame, L2_hself_frame, L2_alpha_a_frame, L2_alpha_b_frame, L2_aggF_frame, L2_aggB_frame, L2_z_frame, L2_mu_frame, L2_var_frame, L2_hnext_frame]
  rfl

end Cert.ReferenceIdeal.RefRun

end
-- ==== Proof.RefOpsPool.lean ====
/- The reference after its layers: what the pooling's operations leave in the result buffer, as the pooled
   quotient of the last layer's result and the graph assignment. -/
import proofs.«108119_j38019050504554_2_alg».proof.Proof.RefOps6

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- After the pooling's operations the result buffer holds the pooled quotient of the contents they read. -/
theorem Q_pool_eq (V : Valuation τ sig (Elt F)) :
    after Q_pool V (no_index (main_v342 : DevRef τ sig))
      = pooled (V (main_v330 : DevRef τ sig)) (V (main_arg2 : DevRef τ sig)) := by
  after_results_simp
  rfl

end Cert.ReferenceIdeal.RefRun

end
-- ==== Proof.RefRun.lean ====
/- The reference's run: every weakly fair execution of @main terminates with the result buffer at `out` of the
   fifteen arguments' launch contents — the composition of the named stages of RefOpsStages — and the arguments as
   they started. The line of operations is read in five parts: the operations before the layers, the three layers,
   the pooling; each part's equation rewrites its result buffer, a buffer a part does not write is read through it. -/
import proofs.«108119_j38019050504554_2_alg».proof.Proof.RefOpsMain
import proofs.«108119_j38019050504554_2_alg».proof.Proof.RefOpsPre
import proofs.«108119_j38019050504554_2_alg».proof.Proof.RefOpsL0
import proofs.«108119_j38019050504554_2_alg».proof.Proof.RefOpsL1
import proofs.«108119_j38019050504554_2_alg».proof.Proof.RefOpsL2
import proofs.«108119_j38019050504554_2_alg».proof.Proof.RefOpsPool

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in order, by parts. -/
abbrev allops : List (HloOp τ sig (Elt F)) := opsPre ++ (opsL0 ++ (opsL1 ++ (opsL2 ++ Q_pool)))

/-- The windows' line and the parts' line are the same list. -/
theorem allW_eq : (allW : List (HloOp τ sig (Elt F))) = allops := by
  simp only [allW, allops, W0, W1, W2, W3, W4, W5, W6, opsPre, opsL0, opsL1, opsL2, List.append_assoc]

set_option maxRecDepth 8192 in
/-- After @main's operations the result buffer holds `out` of the arguments' contents. -/
theorem out_eq (V : Valuation τ sig (Elt F)) :
    after allops V (no_index (main_v342 : DevRef τ sig))
      = out (V (main_arg0 : DevRef τ sig)) (V (main_arg1 : DevRef τ sig)) (V (main_arg2 : DevRef τ sig)) (V (main_arg3 : DevRef τ sig)) (V (main_arg4 : DevRef τ sig))
          (V (main_arg5 : DevRef τ sig)) (V (main_arg6 : DevRef τ sig)) (V (main_arg7 : DevRef τ sig)) (V (main_arg8 : DevRef τ sig)) (V (main_arg9 : DevRef τ sig))
          (V (main_arg10 : DevRef τ sig)) (V (main_arg11 : DevRef τ sig)) (V (main_arg12 : DevRef τ sig)) (V (main_arg13 : DevRef τ sig)) (V (main_arg14 : DevRef τ sig)) := by
  simp only [after_append]
  simp (disch := decide) only [Q_pool_eq, opsL2_eq, opsL1_eq, opsL0_eq, opsPre_emb, opsPre_src, opsPre_dst,
    opsL2_frame, opsL1_frame, opsL0_frame, opsPre_frame]
  rfl

/-- On every device, for any float values, from any memory with zero counters: every weakly fair execution of
    @main terminates with the result at `out` of the arguments and the arguments unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v342)
          = out (m ((c.tc : Thread nD τ).loc main_arg0)) (m ((c.tc : Thread nD τ).loc main_arg1)) (m ((c.tc : Thread nD τ).loc main_arg2)) (m ((c.tc : Thread nD τ).loc main_arg3))
              (m ((c.tc : Thread nD τ).loc main_arg4)) (m ((c.tc : Thread nD τ).loc main_arg5)) (m ((c.tc : Thread nD τ).loc main_arg6)) (m ((c.tc : Thread nD τ).loc main_arg7))
              (m ((c.tc : Thread nD τ).loc main_arg8)) (m ((c.tc : Thread nD τ).loc main_arg9)) (m ((c.tc : Thread nD τ).loc main_arg10)) (m ((c.tc : Thread nD τ).loc main_arg11))
              (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c main_v342).trans ((congrArg (fun l => after l (launchContents m c) (main_v342 : DevRef τ sig)) allW_eq).trans (out_eq (launchContents m c))),
      (h c main_arg0).trans (allW_frame _ main_arg0 (by decide)),
      (h c main_arg1).trans (allW_frame _ main_arg1 (by decide)),
      (h c main_arg2).trans (allW_frame _ main_arg2 (by decide)),
      (h c main_arg3).trans (allW_frame _ main_arg3 (by decide)),
      (h c main_arg4).trans (allW_frame _ main_arg4 (by decide)),
      (h c main_arg5).trans (allW_frame _ main_arg5 (by decide)),
      (h c main_arg6).trans (allW_frame _ main_arg6 (by decide)),
      (h c main_arg7).trans (allW_frame _ main_arg7 (by decide)),
      (h c main_arg8).trans (allW_frame _ main_arg8 (by decide)),
      (h c main_arg9).trans (allW_frame _ main_arg9 (by decide)),
      (h c main_arg10).trans (allW_frame _ main_arg10 (by decide)),
      (h c main_arg11).trans (allW_frame _ main_arg11 (by decide)),
      (h c main_arg12).trans (allW_frame _ main_arg12 (by decide)),
      (h c main_arg13).trans (allW_frame _ main_arg13 (by decide)),
      (h c main_arg14).trans (allW_frame _ main_arg14 (by decide))⟩)
    (run_after m ρ)

end Cert.ReferenceIdeal.RefRun

end
-- ==== Proof.LibRealEntries.lean ====
/-
  General facts about extended-real arrays whose entries are all real numbers. Nothing here mentions a program.

  * `AllReal v`: every entry of `v` is a real number (neither infinity). It is kept by finite sums and products, by a
    selection between two arrays, by the reciprocal square root of an entry raised to at least one, and — whatever the
    indices are — by a gather (an entry of the result is an entry of the operand) and by an accumulating scatter (an
    entry of the result is the operand's entry plus a finite sum of update entries).
  * The coercion of a finite real sum into the extended reals is the sum of the coercions.
  * The two forms of a variance agree on real columns: for n = the number of rows, n ≠ 0, and μ = (Σ h)/n,
        (Σ (h − μ)²)/n = (Σ h²)/n − μ² ,
    each quotient the host's division by the real n. With an infinite entry the two sides need not agree, which is
    why a certificate that meets both forms has to show its column real first.
-/
import Idealize.ShloMosaic.PureOps.Ideal
import Idealize.ShloMosaic.PureOps.Ideal.Laws

noncomputable section

namespace Cert.LibRealEntries

open Idealize.ShloMosaic

/-- `1.0` denotes the real 1. -/
theorem ofBits_one : Ideal.ofBits .f32 0x3F800000#32 = ((1 : ℝ) : EReal) := by
  simp [Ideal.ofBits, Ideal.ieee, -EReal.coe_mul]; norm_num

/-! ## Every entry a real number -/

/-- Every entry of the array is a real number (neither infinity). -/
def AllReal {S : Shape} (v : S.Idx → EReal) : Prop := ∀ i, ∃ r : ℝ, v i = (r : EReal)

/-! ## Finite sums, and the two forms of the variance -/

/-- The coercion of a finite real sum. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- For a column of real numbers h over n = card ι rows (n ≠ 0), with mean μ = (Σ h)/n:
    (Σ (h − μ)²)/n = (Σ h²)/n − μ².  Both quotients are the host's division by the real n. -/
theorem var_forms_eq {ι : Type} [Fintype ι] (h : ι → EReal) (hr : ∀ k, ∃ r : ℝ, h k = (r : EReal)) (n : ℝ)
    (hn : n = (Fintype.card ι : ℝ)) (hn0 : n ≠ 0) :
    Ideal.div (∑ k, (h k - Ideal.div (∑ k, h k) (n : EReal)) * (h k - Ideal.div (∑ k, h k) (n : EReal))) (n : EReal)
      = Ideal.div (∑ k, h k * h k) (n : EReal)
        - Ideal.div (∑ k, h k) (n : EReal) * Ideal.div (∑ k, h k) (n : EReal) := by
  choose r hr using hr
  have hh : h = fun k => (r k : EReal) := funext hr
  subst hh
  simp only [Ideal.div_coe hn0]
  simp only [← EReal.coe_mul, ← coe_sum, ← EReal.coe_sub]
  congr 1
  have hc : (∑ _k : ι, (1 : ℝ)) = n := by simp [hn]
  have hn1 : n * (1 / n) = 1 := by field_simp
  have e : ∀ k, (r k - (∑ k, r k) * (1 / n)) * (r k - (∑ k, r k) * (1 / n))
      = r k * r k - 2 * ((∑ k, r k) * (1 / n)) * r k + ((∑ k, r k) * (1 / n)) * ((∑ k, r k) * (1 / n)) * 1 := fun k => by ring
  simp only [e, Finset.sum_add_distrib, Finset.sum_sub_distrib, ← Finset.mul_sum, hc]
  have : ((∑ k, r k) * (1 / n)) * ((∑ k, r k) * (1 / n)) * n = (∑ k, r k) * (∑ k, r k) * (1 / n) * (n * (1 / n)) := by ring
  rw [this, hn1]; ring

/-! ## Real numbers are closed under what the layer does -/

/-- A real number plus a finite sum of real numbers is a real number. -/
theorem real_add_sum {ι : Type} (s : Finset ι) (a : EReal) (f : ι → EReal) (ha : ∃ r : ℝ, a = (r : EReal))
    (hf : ∀ j, ∃ r : ℝ, f j = (r : EReal)) : ∃ r : ℝ, a + ∑ j ∈ s, f j = (r : EReal) := by
  obtain ⟨ra, hra⟩ := ha
  choose rf hrf using hf
  refine ⟨ra + ∑ j ∈ s, rf j, ?_⟩
  rw [EReal.coe_add, coe_sum, hra]
  exact congrArg (fun t => (ra : EReal) + t) (Finset.sum_congr rfl fun j _ => hrf j)

/-- A finite sum of real numbers is a real number. -/
theorem real_sum {ι : Type} (s : Finset ι) (f : ι → EReal) (hf : ∀ j, ∃ r : ℝ, f j = (r : EReal)) :
    ∃ r : ℝ, ∑ j ∈ s, f j = (r : EReal) := by
  choose rf hrf using hf
  exact ⟨∑ j ∈ s, rf j, by rw [coe_sum]; exact Finset.sum_congr rfl fun j _ => hrf j⟩

/-- A product of two real numbers is a real number. -/
theorem real_mul {a b : EReal} (ha : ∃ r : ℝ, a = (r : EReal)) (hb : ∃ r : ℝ, b = (r : EReal)) :
    ∃ r : ℝ, a * b = (r : EReal) := by
  obtain ⟨ra, rfl⟩ := ha
  obtain ⟨rb, rfl⟩ := hb
  exact ⟨ra * rb, (EReal.coe_mul ra rb).symm⟩

/-- A sum of two real numbers is a real number. -/
theorem real_add {a b : EReal} (ha : ∃ r : ℝ, a = (r : EReal)) (hb : ∃ r : ℝ, b = (r : EReal)) :
    ∃ r : ℝ, a + b = (r : EReal) := by
  obtain ⟨ra, rfl⟩ := ha
  obtain ⟨rb, rfl⟩ := hb
  exact ⟨ra + rb, (EReal.coe_add ra rb).symm⟩

/-- The reciprocal square root of max(d, 1) is a real number when d is: max(d, 1) ≥ 1 is neither negative nor 0. -/
theorem real_rsqrt_max_one {d : EReal} (hd : ∃ r : ℝ, d = (r : EReal)) :
    ∃ r : ℝ, Ideal.rsqrt (max d ((1 : ℝ) : EReal)) = (r : EReal) := by
  obtain ⟨rd, rfl⟩ := hd
  have h1 : (1 : ℝ) ≤ max rd 1 := le_max_right rd 1
  refine ⟨(Real.sqrt (max rd 1))⁻¹, ?_⟩
  rw [← EReal.coe_strictMono.monotone.map_max, Ideal.rsqrt_coe, if_neg (by linarith), if_neg (by linarith)]

/-- A choice between two real numbers is a real number. -/
theorem real_select (c : BitVec 1) {a b : EReal} (ha : ∃ r : ℝ, a = (r : EReal)) (hb : ∃ r : ℝ, b = (r : EReal)) :
    ∃ r : ℝ, Scalar.select c a b = (r : EReal) := by
  unfold Scalar.select
  split
  · exact ha
  · exact hb

/-- The literal 0.0 is the real number 0. -/
theorem real_zero : ∃ r : ℝ, FloatOps.ofBits (F := Ideal) .f32 0x00000000#32 = (r : EReal) :=
  ⟨0, by rw [Ideal.ofBits_def, Ideal.ofBits_zero_f32]; rfl⟩

/-- The literal 1.0 is the real number 1. -/
theorem real_one : ∃ r : ℝ, FloatOps.ofBits (F := Ideal) .f32 0x3F800000#32 = (r : EReal) :=
  ⟨1, by rw [Ideal.ofBits_def, ofBits_one]⟩

/-! ## Gathers and accumulating scatters, whatever their indices -/

/-- An entry of a gathered array is an entry of its operand. -/
theorem allReal_gather {s si t : Shape} {w : Nat} (d : GatherDims s si t) (x : s.Idx → EReal) (idx : IVec si w)
    (hx : AllReal x) : AllReal (Host.gather d x idx) :=
  fun j => hx (d.operandIdx j idx)

/-- An entry of an accumulating scatter is the operand's entry plus a finite sum of update entries. -/
theorem allReal_scatterAdd {s si u : Shape} {w : Nat} (d : ScatterDims s si u) (x : FVec Ideal s .f32) (idx : IVec si w)
    (upd : FVec Ideal u .f32) (hx : AllReal x) (hu : AllReal upd) :
    AllReal (Host.scatterAdd (F := Ideal) d x idx upd) := by
  intro i
  show ∃ r : ℝ, FloatOps.hostScatterAdd d .single x idx upd i = (r : EReal)
  rw [Ideal.hostScatterAdd_def]
  exact real_add_sum _ (x i) upd (hx i) hu

end Cert.LibRealEntries

end
-- ==== Proof.PreReal.lean ====
/-
  From the precondition to real entries. The precondition says, of every float argument x, that all entries satisfy
  |x| < +∞; an extended real whose absolute value max x (−x) is below +∞ is neither infinity, so it is a real number.
  The printed predicate is a conjunction (a chain of twelve ands) of thirteen reductions-by-and over whole arrays,
  read at its one index.
-/
import proofs.«108119_j38019050504554_2_alg».proof.Pre_finite_inputs
import proofs.«108119_j38019050504554_2_alg».proof.Proof.LibRealEntries
import Idealize.ShloMosaic.Lib.ReduceAll
import Idealize.ShloMosaic.Lib.ValueIdx
import Idealize.ShloMosaic.Lib.Affine

noncomputable section

namespace Cert.PreReal

open Idealize.ShloMosaic Idealize.ShloMosaic.ValueIdx Cert.Pre_finite_inputs Cert.LibRealEntries

/-- |x| < +∞ makes x a real number: the two infinities have absolute value +∞. -/
theorem real_of_abs_lt (x : EReal) (h : Ideal.cmp .olt (max x (-x)) (Ideal.ofBits .f32 0x7F800000#32) = 1#1) :
    ∃ r : ℝ, x = (r : EReal) := by
  have hinf : Ideal.ofBits .f32 0x7F800000#32 = (⊤ : EReal) := by simp [Ideal.ofBits, Ideal.ieee]
  rw [hinf] at h
  induction x using EReal.rec with
  | bot => simp [Ideal.cmp] at h
  | coe r => exact ⟨r, rfl⟩
  | top => simp [Ideal.cmp] at h

instance : Subsingleton S_.Idx := ⟨fun a b => funext fun d => d.elim0⟩

/-- "All entries have absolute value below +∞", as the reduction-by-and of the entrywise comparison read at its
    one index, gives real entries. -/
theorem allReal_of_all {S : Shape} {axes : List (Fin S.rank)} (a : FVec Ideal S .f32)
    (hb : S_.BroadcastsInDim S (![] : Fin 0 → Fin S.rank)) (hr : S.ReducesTo axes S_) (hu : 0 < S_.numel) (init : IVec S_ 1)
    (e : Host.reduce IntOp.andi (cmpf .olt (Host.absf a) (broadcastInDim S ![] hb (constant S_ .f32 0x7F800000#32))) init hr hu ix0 = 1#1) :
    AllReal a := by
  intro i
  exact real_of_abs_lt (a i) (Host.reduce_andi_all _ init hr hu ix0 e i)

/-- Under the precondition every float argument has only real entries. -/
theorem reals_of_pre [Cert.Pre_finite_inputs.Facts] (a0 : FVec Ideal S50000x128 .f32) (a1 : IVec S2x625000 32) (a2 : IVec S50000 32) (a3 : FVec Ideal S128x128 .f32) (a4 : FVec Ideal S128 .f32) (a5 : FVec Ideal S3x1x128 .f32) (a6 : FVec Ideal S3x1 .f32) (a7 : FVec Ideal S3x128x128 .f32) (a8 : FVec Ideal S3x128x128 .f32) (a9 : FVec Ideal S3x128x128 .f32) (a10 : FVec Ideal S3x128 .f32) (a11 : FVec Ideal S3x128x384 .f32) (a12 : FVec Ideal S3x128 .f32) (a13 : FVec Ideal S3x128 .f32) (a14 : FVec Ideal S3x128 .f32)
    (h : Cert.Pre_finite_inputs.fn (F := Ideal) a0 a1 a2 a3 a4 a5 a6 a7 a8 a9 a10 a11 a12 a13 a14 = fun _ => 1#1) :
    AllReal a0 ∧ AllReal a3 ∧ AllReal a4 ∧ AllReal a5 ∧ AllReal a6 ∧ AllReal a7 ∧ AllReal a8 ∧ AllReal a9 ∧ AllReal a10 ∧ AllReal a11 ∧ AllReal a12 ∧ AllReal a13 ∧ AllReal a14 := by
  have h0 := congrFun h ix0
  dsimp only [fn, fn_part1, fn_part2, fn_part3] at h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨allReal_of_all a0 _ _ _ _ e0, allReal_of_all a3 _ _ _ _ e3, allReal_of_all a4 _ _ _ _ e4, allReal_of_all a5 _ _ _ _ e5, allReal_of_all a6 _ _ _ _ e6, allReal_of_all a7 _ _ _ _ e7, allReal_of_all a8 _ _ _ _ e8, allReal_of_all a9 _ _ _ _ e9, allReal_of_all a10 _ _ _ _ e10, allReal_of_all a11 _ _ _ _ e11, allReal_of_all a12 _ _ _ _ e12, allReal_of_all a13 _ _ _ _ e13, allReal_of_all a14 _ _ _ _ e14⟩

end Cert.PreReal

end
-- ==== Proof.LibRealReindex.lean ====
/-
  Real entries are kept by re-indexings, and a broadcast zero has real entries. Nothing here mentions a program.

  A reshape, a unit-stride slice and a broadcast along axes only re-index: an entry of the result is an entry of the
  operand, so an array all of whose entries are real numbers stays one. The scalar constant 0.0 broadcast to any
  shape has every entry the real number 0.
-/
import proofs.«108119_j38019050504554_2_alg».proof.Proof.LibRealEntries

noncomputable section

namespace Cert.LibRealReindex

open Idealize.ShloMosaic Cert.LibRealEntries

/-- A reshape of an array of real numbers: entry j is the operand's entry at the index with the same row-major position. -/
theorem allReal_shapeCast {s t : Shape} (x : s.Idx → EReal) (h : s.ShapeCasts t) (hx : AllReal x) :
    AllReal (shapeCast t x h) :=
  fun j => hx (Shape.reshapeEquiv h j)

/-- A unit-stride slice of an array of real numbers: entry j is the operand's entry at off + j. -/
theorem allReal_extractStridedSlice {s t : Shape} (off : Fin s.rank → Nat) (x : s.Idx → EReal) (h : s.Slices off t)
    (hx : AllReal x) : AllReal (extractStridedSlice t off x h) := by
  intro j
  unfold extractStridedSlice
  exact hx _

/-- A broadcast along axes of an array of real numbers: entry j is an entry of the operand. -/
theorem allReal_broadcastInDim {s t : Shape} (dims : Fin s.rank → Fin t.rank) (h : s.BroadcastsInDim t dims)
    (x : s.Idx → EReal) (hx : AllReal x) : AllReal (broadcastInDim t dims h x) := by
  intro j
  unfold broadcastInDim
  exact hx _

/-- The scalar constant 0.0 broadcast to any shape: every entry is the real number 0. -/
theorem allReal_zero {T : Shape} (h : (⟨0, ![]⟩ : Shape).BroadcastsInDim T ![]) :
    AllReal (broadcastInDim T ![] h (constant (F := Ideal) (⟨0, ![]⟩ : Shape) .f32 0x00000000#32)) := by
  intro j
  unfold broadcastInDim
  exact real_zero

end Cert.LibRealReindex

end
-- ==== Proof.LibRealSums.lean ====
/-
  Finite sums of products over the extended reals when every factor is a real number.

  On the extended reals multiplication does not distribute over addition at the infinities, so a factor cannot
  in general be moved across a sum. When every number involved is a real it can: the sums and products are then
  the coercions of the same sums and products of reals, where the ring laws hold. This file has the predicate
  "is a real number" with its closure under the operations that occur in a dense layer (sum, product, maximum,
  finite sum), and the one law a graph convolution needs: scaling source rows, summing them over the edges that
  reach a node, and then projecting with a matrix is the same as projecting every source row first and then
  scaling and summing —

      0 + ∑ₑ cₑ · (∑ₖ X(e,k) · W(k))  =  ∑ₖ (0 + ∑ₑ cₑ · X(e,k)) · W(k).

  Nothing here mentions a program.
-/
import Mathlib.Data.EReal.Basic
import Mathlib.Data.EReal.Operations
import Mathlib.Algebra.BigOperators.Ring.Finset
import Mathlib.Algebra.BigOperators.Group.Finset.Sigma

noncomputable section

namespace Cert.Lib.RealSums

open scoped BigOperators

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- Scale, sum over the edges, then project = project, then scale and sum over the edges, when the scales, the rows
    and the matrix column are real. The `0 +` on both sides is the zero the accumulation starts from. -/
theorem agg_project {ι κ : Type*} [Fintype κ] (s : Finset ι) (c : ι → EReal) (X : ι → κ → EReal) (W : κ → EReal)
    (hc : ∀ e, IsReal (c e)) (hX : ∀ e k, IsReal (X e k)) (hW : ∀ k, IsReal (W k)) :
    (0 + ∑ e ∈ s, c e * ∑ k, X e k * W k) = ∑ k, (0 + ∑ e ∈ s, c e * X e k) * W k := by
  choose c' hc' using hc
  choose X' hX' using hX
  choose W' hW' using hW
  simp only [hc', hX', hW', zero_add, ← EReal.coe_mul, ← coe_sum]
  refine congrArg _ ?_
  simp only [Finset.mul_sum, Finset.sum_mul]
  rw [Finset.sum_comm]
  refine Finset.sum_congr rfl fun k _ => Finset.sum_congr rfl fun e _ => ?_
  ring

end Cert.Lib.RealSums

end
-- ==== Proof.MathReal.lean ====
/-
  Real-ness of the quantities a layer computes, on the extended reals.

  The gate 1/(1 + e^{-x}) of a real x is a real: the denominator is a positive real. The mean of 128 reals is a real:
  the divisor is the real 128. The mean of 128 squared deviations is a real and is not negative; adding the positive
  real ε makes it positive, so its reciprocal square root is a real. Hence the normalised, scaled, shifted and clipped
  entry, plus a carried real, is a real. The three float words involved (1, 128, ε) are evaluated here once: 1 and 128
  exactly, ε only as far as "a positive real".
-/
import proofs.«108119_j38019050504554_2_alg».proof.Proof.LibRealSums
import proofs.«108119_j38019050504554_2_alg».proof.Proof.LibRealEntries
import proofs.«108119_j38019050504554_2_alg».proof.Proof.KSpec

noncomputable section

namespace Cert.Math

open Idealize.ShloMosaic Cert.Lib.RealSums Cert.Spec
open scoped BigOperators

/-! ## Two spellings of "is a real number" -/

/-- `IsReal x` is, by definition, "x is the coercion of some real". -/
theorem isReal_iff {x : EReal} : IsReal x ↔ ∃ r : ℝ, x = (r : EReal) := Iff.rfl

/-- An extended real is a real number exactly when it is neither infinity. -/
theorem isReal_iff_ne {x : EReal} : IsReal x ↔ x ≠ ⊥ ∧ x ≠ ⊤ := by
  constructor
  · rintro ⟨r, rfl⟩
    exact ⟨EReal.coe_ne_bot r, EReal.coe_ne_top r⟩
  · rintro ⟨hb, ht⟩
    induction x using EReal.rec with
    | bot => exact absurd rfl hb
    | coe r => exact ⟨r, rfl⟩
    | top => exact absurd rfl ht

/-- The negative of a real is a real. -/
theorem _root_.Cert.Lib.RealSums.IsReal.neg {x : EReal} (hx : IsReal x) : IsReal (-x) := by
  obtain ⟨a, rfl⟩ := hx; exact ⟨-a, (EReal.coe_neg a).symm⟩

/-- The difference of two reals is a real. -/
theorem _root_.Cert.Lib.RealSums.IsReal.sub {x y : EReal} (hx : IsReal x) (hy : IsReal y) : IsReal (x - y) := by
  obtain ⟨a, rfl⟩ := hx; obtain ⟨b, rfl⟩ := hy; exact ⟨a - b, (EReal.coe_sub a b).symm⟩

/-- Zero plus a finite sum of reals (an accumulation started from zero) is a real. -/
theorem isReal_zero_add_sum {ι : Type*} (s : Finset ι) (f : ι → EReal) (h : ∀ i ∈ s, IsReal (f i)) :
    IsReal (0 + ∑ i ∈ s, f i) := IsReal.zero.add (IsReal.sum s f h)

/-! ## The three float words -/

/-- The word of 1.0 is the extended real one. -/
theorem ofBits_one : Ideal.ofBits .f32 0x3F800000#32 = (1 : EReal) := by
  rw [Cert.LibRealEntries.ofBits_one, EReal.coe_one]

/-- The word of 128.0 is the real 128. -/
theorem ofBits_128 : Ideal.ofBits .f32 0x43000000#32 = ((128 : ℝ) : EReal) := by
  simp [Ideal.ofBits, Ideal.ieee, -EReal.coe_mul]; norm_num

/-- The word added under the square root is a positive real (sign bit clear, exponent field neither all zeros nor
    all ones: a positive normal number). -/
theorem ofBits_eps_pos : ∃ ε : ℝ, 0 < ε ∧ Ideal.ofBits .f32 0x3727C5AC#32 = (ε : EReal) := by
  simp [Ideal.ofBits, Ideal.ieee, -EReal.coe_mul]

/-! ## The gate 1 / (1 + e^{-x}) -/

/-- At a real x the gate is the real (1 + e^{-x})⁻¹. -/
theorem gate_coe (r : ℝ) : Ideal.div 1 (1 + Ideal.exp (-(r : EReal))) = (((1 + Real.exp (-r))⁻¹ : ℝ) : EReal) :=
  Ideal.logistic_coe r

/-- The gate of a real is a real. -/
theorem gate_real {x : EReal} (hx : IsReal x) : IsReal (Ideal.div 1 (1 + Ideal.exp (-x))) := by
  obtain ⟨r, rfl⟩ := hx
  exact ⟨_, gate_coe r⟩

/-- The same with the one written as its float word. -/
theorem gate_real_word {x : EReal} (hx : IsReal x) :
    IsReal (Ideal.div (Ideal.ofBits .f32 0x3F800000#32) (Ideal.ofBits .f32 0x3F800000#32 + Ideal.exp (-x))) := by
  rw [ofBits_one]; exact gate_real hx

/-- One minus a real gate is a real, the one written as its float word. -/
theorem one_sub_real_word {a : EReal} (ha : IsReal a) : IsReal (Ideal.ofBits .f32 0x3F800000#32 - a) := by
  rw [ofBits_one]; exact IsReal.one.sub ha

/-! ## The row mean, the row variance, the normalised entry -/

/-- The mean of a row of reals is the real (Σ f)/128. -/
theorem mean128_coe (f : Fin 128 → ℝ) : mean128 (fun q => (f q : EReal)) = (((∑ q, f q) * (1 / 128) : ℝ) : EReal) := by
  unfold mean128
  rw [show Ideal.ofBits .f32 w128 = ((128 : ℝ) : EReal) from ofBits_128, Ideal.div_coe (by norm_num : (128 : ℝ) ≠ 0),
    ← coe_sum, ← EReal.coe_mul]

/-- The mean of a row of reals is a real. -/
theorem mean128_real {z : Fin 128 → EReal} (hz : ∀ j, IsReal (z j)) : IsReal (mean128 z) := by
  choose f hf using hz
  rw [show z = fun q => (f q : EReal) from funext hf]
  exact ⟨_, mean128_coe f⟩

/-- The mean of the squared deviations of a real row from a real centre is a real, and it is not negative. -/
theorem var128_real_nonneg {z : Fin 128 → EReal} {μ : EReal} (hz : ∀ j, IsReal (z j)) (hμ : IsReal μ) :
    ∃ v : ℝ, 0 ≤ v ∧ mean128 (fun j => (z j - μ) * (z j - μ)) = (v : EReal) := by
  choose f hf using hz
  obtain ⟨m, rfl⟩ := hμ
  refine ⟨(∑ q, (f q - m) * (f q - m)) * (1 / 128),
    mul_nonneg (Finset.sum_nonneg fun q _ => mul_self_nonneg _) (by norm_num), ?_⟩
  rw [← mean128_coe]
  refine congrArg mean128 (funext fun j => ?_)
  rw [hf j, ← EReal.coe_sub, ← EReal.coe_mul]

/-- The reciprocal square root of a non-negative real plus the positive word is a real: the sum is positive. -/
theorem rsqrt_eps_real {v : ℝ} (hv : 0 ≤ v) : IsReal (Ideal.rsqrt ((v : EReal) + Ideal.ofBits .f32 wEps)) := by
  obtain ⟨ε, hε, he⟩ := ofBits_eps_pos
  rw [show Ideal.ofBits .f32 wEps = (ε : EReal) from he, ← EReal.coe_add, Ideal.rsqrt_coe, if_neg (by linarith),
    if_neg (by linarith)]
  exact ⟨_, rfl⟩

/-- The factor rsqrt (variance + ε) of a real row is a real. -/
theorem rstd128_real {z : Fin 128 → EReal} (hz : ∀ j, IsReal (z j)) :
    IsReal (Ideal.rsqrt (mean128 (fun j => (z j - mean128 z) * (z j - mean128 z)) + Ideal.ofBits .f32 wEps)) := by
  obtain ⟨v, hv, hv'⟩ := var128_real_nonneg hz (mean128_real hz)
  rw [hv']
  exact rsqrt_eps_real hv

/-- The normalised, scaled, shifted, clipped entry plus the carried entry is a real when the row, the scale, the
    shift and the carried entry are. -/
theorem normE_real {z γ β : Fin 128 → EReal} {e : EReal} (hz : ∀ j, IsReal (z j)) (hγ : ∀ j, IsReal (γ j))
    (hβ : ∀ j, IsReal (β j)) (he : IsReal e) (q : Fin 128) : IsReal (normE z γ β e q) := by
  unfold normE
  exact ((((((hz q).sub (mean128_real hz)).mul (rstd128_real hz)).mul (hγ q)).add (hβ q)).max IsReal.zero).add he

end Cert.Math

end
-- ==== Proof.KRealBasic.lean ====
/-
  Arrays of extended reals all of whose entries are real numbers, through the entrywise operations, the re-indexings
  and the plain matrix product: a sum, a difference, a product of two such arrays is one; a change of float format is
  the identity; a transpose and a concatenation read entries of their operands; an entry of a plain matrix product is
  a finite sum of products of entries.
-/
import proofs.«108119_j38019050504554_2_alg».proof.Proof.LibRealEntries
import proofs.«108119_j38019050504554_2_alg».proof.Proof.LibRealReindex
import proofs.«108119_j38019050504554_2_alg».proof.Proof.LibRealSums
import proofs.«108119_j38019050504554_2_alg».proof.Proof.MathReal
import proofs.«108119_j38019050504554_2_alg».proof.Proof.LibPlainDot
import Idealize.ShloMosaic.Lib.ValueIdx

noncomputable section

namespace Cert.KReal

open Idealize.ShloMosaic Idealize.ShloMosaic.ValueIdx Cert.Lib.RealSums Cert.LibRealEntries
open scoped BigOperators

variable {s : Shape} {φ : FTy}

/-- A sum of two arrays of reals. -/
theorem allReal_addf (a b : FVec Ideal s φ) (ha : AllReal (S := s) a) (hb : AllReal (S := s) b) :
    AllReal (S := s) (addf a b) :=
  fun i => IsReal.add (ha i) (hb i)

/-- A difference of two arrays of reals. -/
theorem allReal_subf (a b : FVec Ideal s φ) (ha : AllReal (S := s) a) (hb : AllReal (S := s) b) :
    AllReal (S := s) (subf a b) :=
  fun i => IsReal.sub (ha i) (hb i)

/-- A product of two arrays of reals. -/
theorem allReal_mulf (a b : FVec Ideal s φ) (ha : AllReal (S := s) a) (hb : AllReal (S := s) b) :
    AllReal (S := s) (mulf a b) :=
  fun i => IsReal.mul (ha i) (hb i)

/-- A widening of the float format is the identity on extended reals. -/
theorem allReal_extf {ψ : FTy} (a : FVec Ideal s φ) (h : φ.bits < ψ.bits) (ha : AllReal (S := s) a) :
    AllReal (S := s) (extf ψ a h : FVec Ideal s ψ) :=
  fun i => ha i

/-- A narrowing of the float format is the identity on extended reals. -/
theorem allReal_truncf {ψ : FTy} (a : FVec Ideal s φ) (h : ψ.bits < φ.bits) (ha : AllReal (S := s) a) :
    AllReal (S := s) (truncf ψ a h : FVec Ideal s ψ) :=
  fun i => ha i

/-- A transpose reads the operand at the permuted index. -/
theorem allReal_transpose {t : Shape} (perm : List (Fin s.rank)) (x : s.Idx → EReal) (h : s.Transposes perm t)
    (hx : AllReal x) : AllReal (transpose t perm x h) :=
  fun j => hx (h.src j)

/-- A concatenation reads, at every index, an entry of one of its pieces. -/
theorem allReal_concatenate {t : Shape} (a : Fin t.rank) (xs : List ((u : Shape) × (u.Idx → EReal)))
    (h : Shape.Concatenates (xs.map (·.1)) t a) (hx : ∀ p ∈ xs, AllReal p.2) : AllReal (concatenate t a xs h) := by
  intro j
  unfold concatenate
  exact hx _ (List.getElem_mem _) _

/-- An entry of a plain matrix product of two arrays of reals is a finite sum of products of reals. -/
theorem allReal_dot {M K N : ℕ} {φ₁ φ₂ : FTy} (d : DotDims ⟨2, ![M, K]⟩ ⟨2, ![K, N]⟩ ⟨2, ![M, N]⟩)
    (hd : d = DotDims.plain M K N) (l : FVec Ideal ⟨2, ![M, K]⟩ φ₁) (r : FVec Ideal ⟨2, ![K, N]⟩ φ₂)
    (hl : AllReal (S := ⟨2, ![M, K]⟩) l) (hr : AllReal (S := ⟨2, ![K, N]⟩) r) :
    AllReal (S := ⟨2, ![M, N]⟩) (Host.dotGeneral d none l r) := by
  intro j
  obtain ⟨p, q, rfl⟩ : ∃ p q, j = ix2 p q := ⟨j 0, j 1, eq_ix2 j⟩
  refine (congrArg IsReal (Cert.LibPlainDot.dotGeneral_apply d hd none _ l r p q)).mpr ?_
  exact IsReal.sum _ _ fun k _ => IsReal.mul (hl (ix2 p k)) (hr (ix2 k q))

end Cert.KReal

end
-- ==== Proof.KRealPrep.lean ====
/-
  A layer's prepared parameters have real entries when the layer's slices of the stacked parameter arrays do: each
  prepared array is a re-indexing of a slice (a reshape, a transpose, a column block), or a plain product of two such,
  or the concatenation of one product with the difference of two.
-/
import proofs.«108119_j38019050504554_2_alg».proof.Proof.KStage
import proofs.«108119_j38019050504554_2_alg».proof.Proof.KRealBasic

noncomputable section

namespace Cert.KReal

open Idealize.ShloMosaic Idealize.ShloMosaic.ValueIdx Cert.KernelIdeal Cert.KernelIdeal.Gen Cert.KStage
open Cert.Lib.RealSums Cert.LibRealEntries Cert.LibRealReindex

theorem scoreRow_real (s : FVec Ideal S1x1x128 .f32) (hs : AllReal (S := S1x1x128) s) :
    AllReal (S := S1x128) (scoreRow s) :=
  allReal_shapeCast s _ hs

theorem scoreOff_real (s : FVec Ideal S1x1 .f32) (hs : AllReal (S := S1x1) s) : AllReal (S := S1x1) (scoreOff s) :=
  allReal_shapeCast _ _ (allReal_shapeCast s shapeCasts_S1x1_S1 hs)

theorem row_real (s : FVec Ideal S1x128 .f32) (hs : AllReal (S := S1x128) s) : AllReal (S := S1x128) (row s) :=
  allReal_shapeCast _ _ (allReal_shapeCast s shapeCasts_S1x128_S128 hs)

theorem mat_real (s : FVec Ideal S1x128x128 .f32) (hs : AllReal (S := S1x128x128) s) : AllReal (S := S128x128) (mat s) :=
  allReal_shapeCast s _ hs

theorem matT_real (s : FVec Ideal S1x128x128 .f32) (hs : AllReal (S := S1x128x128) s) : AllReal (S := S128x128) (matT s) :=
  allReal_transpose _ _ _ (mat_real s hs)

theorem comb_real (s : FVec Ideal S1x128x384 .f32) (hs : AllReal (S := S1x128x384) s) : AllReal (S := S128x384) (comb s) :=
  allReal_shapeCast s _ hs

theorem combSelfT_real (s : FVec Ideal S1x128x384 .f32) (hs : AllReal (S := S1x128x384) s) :
    AllReal (S := S128x128) (combSelfT s) :=
  allReal_transpose _ _ _ (allReal_extractStridedSlice _ _ _ (comb_real s hs))

theorem combFwdT_real (s : FVec Ideal S1x128x384 .f32) (hs : AllReal (S := S1x128x384) s) :
    AllReal (S := S128x128) (combFwdT s) :=
  allReal_transpose _ _ _ (allReal_extractStridedSlice _ _ _ (comb_real s hs))

theorem combBwdT_real (s : FVec Ideal S1x128x384 .f32) (hs : AllReal (S := S1x128x384) s) :
    AllReal (S := S128x128) (combBwdT s) :=
  allReal_transpose _ _ _ (allReal_extractStridedSlice _ _ _ (comb_real s hs))

theorem fwdComp_real (sf : FVec Ideal S1x128x128 .f32) (sc : FVec Ideal S1x128x384 .f32)
    (hf : AllReal (S := S1x128x128) sf) (hc : AllReal (S := S1x128x384) sc) : AllReal (S := S128x128) (fwdComp sf sc) :=
  allReal_dot _ rfl _ _ (matT_real sf hf) (combFwdT_real sc hc)

theorem bwdComp_real (sb : FVec Ideal S1x128x128 .f32) (sc : FVec Ideal S1x128x384 .f32)
    (hb : AllReal (S := S1x128x128) sb) (hc : AllReal (S := S1x128x384) sc) : AllReal (S := S128x128) (bwdComp sb sc) :=
  allReal_dot _ rfl _ _ (matT_real sb hb) (combBwdT_real sc hc)

theorem tableW_real (sf sb : FVec Ideal S1x128x128 .f32) (sc : FVec Ideal S1x128x384 .f32)
    (hf : AllReal (S := S1x128x128) sf) (hb : AllReal (S := S1x128x128) sb) (hc : AllReal (S := S1x128x384) sc) :
    AllReal (S := S128x256) (tableW sf sb sc) := by
  unfold tableW
  refine allReal_truncf _ _ (allReal_concatenate _ _ _ ?_)
  intro p hp
  simp only [List.mem_cons, List.not_mem_nil, or_false] at hp
  rcases hp with rfl | rfl
  · exact bwdComp_real sb sc hb hc
  · exact allReal_subf _ _ (fwdComp_real sf sc hf hc) (bwdComp_real sb sc hb hc)

/-- The nine prepared arrays of a layer have real entries when its ten slices do. -/
theorem prep_real (s5 : FVec Ideal S1x1x128 .f32) (s6 : FVec Ideal S1x1 .f32) (s7 s8 s9 : FVec Ideal S1x128x128 .f32)
    (s10 : FVec Ideal S1x128 .f32) (s11 : FVec Ideal S1x128x384 .f32) (s12 s13 s14 : FVec Ideal S1x128 .f32)
    (h5 : AllReal (S := S1x1x128) s5) (h6 : AllReal (S := S1x1) s6) (h7 : AllReal (S := S1x128x128) s7)
    (h8 : AllReal (S := S1x128x128) s8) (h9 : AllReal (S := S1x128x128) s9) (h10 : AllReal (S := S1x128) s10)
    (h11 : AllReal (S := S1x128x384) s11) (h12 : AllReal (S := S1x128) s12) (h13 : AllReal (S := S1x128) s13)
    (h14 : AllReal (S := S1x128) s14) :
    AllReal (S := S1x128) (prep s5 s6 s7 s8 s9 s10 s11 s12 s13 s14).wscore
    ∧ AllReal (S := S1x1) (prep s5 s6 s7 s8 s9 s10 s11 s12 s13 s14).bscore
    ∧ AllReal (S := S128x128) (prep s5 s6 s7 s8 s9 s10 s11 s12 s13 s14).wselfT
    ∧ AllReal (S := S1x128) (prep s5 s6 s7 s8 s9 s10 s11 s12 s13 s14).bself
    ∧ AllReal (S := S128x256) (prep s5 s6 s7 s8 s9 s10 s11 s12 s13 s14).wtable
    ∧ AllReal (S := S128x128) (prep s5 s6 s7 s8 s9 s10 s11 s12 s13 s14).wself2
    ∧ AllReal (S := S1x128) (prep s5 s6 s7 s8 s9 s10 s11 s12 s13 s14).bcomb
    ∧ AllReal (S := S1x128) (prep s5 s6 s7 s8 s9 s10 s11 s12 s13 s14).gamma
    ∧ AllReal (S := S1x128) (prep s5 s6 s7 s8 s9 s10 s11 s12 s13 s14).beta :=
  ⟨scoreRow_real s5 h5, scoreOff_real s6 h6, matT_real s9 h9, row_real s10 h10, tableW_real s7 s8 s11 h7 h8 h11,
    combSelfT_real s11 h11, row_real s12 h12, row_real s13 h13, row_real s14 h14⟩

end Cert.KReal

end
-- ==== Proof.KRealEdge.lean ====
/-
  The edge aggregate has real entries when the score column and the edge table do: a gathered array reads entries of
  its operand; the gate 1 / (1 + exp (−x)) of a real x is a real; the message is a sum of a real and a product of
  reals; the scatter accumulates finitely many messages onto the real 0.
-/
import proofs.«108119_j38019050504554_2_alg».proof.Proof.KStage
import proofs.«108119_j38019050504554_2_alg».proof.Proof.KRealBasic

noncomputable section

namespace Cert.KReal

open Idealize.ShloMosaic Idealize.ShloMosaic.ValueIdx Cert.KernelIdeal Cert.KernelIdeal.Gen Cert.KStage
open Cert.Lib.RealSums Cert.LibRealEntries Cert.LibRealReindex Cert.Math

/-- The gate of every edge is a real when the scores are. -/
theorem gate_real (s d : IVec S625000 32) (sc : FVec Ideal S50000x1 .f32) (hsc : AllReal (S := S50000x1) sc) :
    AllReal (S := S625000x1) (gate s d sc) := by
  intro i
  have h1 := allReal_gather gather_S50000x1_S625000x1_S625000x1_1_0_n_n_0_1_11 sc (wrapIdx s) hsc i
  have h2 := allReal_gather gather_S50000x1_S625000x1_S625000x1_1_0_n_n_0_1_11 sc (wrapIdx d) hsc i
  exact gate_real_word (IsReal.sub h1 h2)

/-- The table row of every edge's source has real entries when the table does. -/
theorem tableAt_real (s : IVec S625000 32) (tb : FVec Ideal S50000x256 .bf16) (htb : AllReal (S := S50000x256) tb) :
    AllReal (S := S625000x256) (tableAt s tb) :=
  allReal_gather _ tb (wrapIdx s) htb

/-- The message of every edge has real entries when the scores and the table do. -/
theorem message_real (s d : IVec S625000 32) (sc : FVec Ideal S50000x1 .f32) (tb : FVec Ideal S50000x256 .bf16)
    (hsc : AllReal (S := S50000x1) sc) (htb : AllReal (S := S50000x256) tb) :
    AllReal (S := S625000x128) (message s d sc tb) :=
  allReal_addf _ _
    (allReal_extf _ _ (allReal_extractStridedSlice _ _ _ (tableAt_real s tb htb)))
    (allReal_mulf _ _ (allReal_broadcastInDim _ _ _ (gate_real s d sc hsc))
      (allReal_extf _ _ (allReal_extractStridedSlice _ _ _ (tableAt_real s tb htb))))

/-- The messages summed into their destination nodes, from the real 0. -/
theorem aggregate_real (s d : IVec S625000 32) (sc : FVec Ideal S50000x1 .f32) (tb : FVec Ideal S50000x256 .bf16)
    (hsc : AllReal (S := S50000x1) sc) (htb : AllReal (S := S50000x256) tb) :
    AllReal (S := S50000x128) (aggregate s d sc tb) :=
  allReal_scatterAdd _ _ _ _ (allReal_zero _) (message_real s d sc tb hsc htb)

/-- The edge aggregate has real entries when the score column and the table do. -/
theorem edge_real (sc : FVec Ideal S50000x1 .f32) (tb : FVec Ideal S50000x256 .bf16) (a1 : IVec S2x625000 32)
    (hsc : AllReal (S := S50000x1) sc) (htb : AllReal (S := S50000x256) tb) : AllReal (S := S50000x128) (edge sc tb a1) :=
  aggregate_real (src a1) (dst a1) sc tb hsc htb

end Cert.KReal

end
-- ==== Proof.MathSpecReal.lean ====
/-
  Real entries carried through the layer's dense steps.

  Each step of the specification reads, at an entry, finitely many entries of its operands and combines them by sums,
  products, maxima and, for the combine step, the row normalisation. When every operand entry is a real number, so is
  every entry of the result.
-/
import proofs.«108119_j38019050504554_2_alg».proof.Proof.KSpec
import proofs.«108119_j38019050504554_2_alg».proof.Proof.LibRealEntries
import proofs.«108119_j38019050504554_2_alg».proof.Proof.MathReal

noncomputable section

namespace Cert.Math

open Idealize.ShloMosaic Idealize.ShloMosaic.ValueIdx Cert.Lib.RealSums Cert.LibRealEntries Cert.Spec
open scoped BigOperators

variable {R : ℕ}

/-- "Every entry is the coercion of a real" and "every entry is a real" are, by definition, the same statement. -/
theorem allReal_iff {S : Shape} (v : S.Idx → EReal) : AllReal v ↔ ∀ i, IsReal (v i) := Iff.rfl

/-- An entry of a product of two real matrices is a real. -/
theorem dotE_real {N : ℕ} {φ₁ φ₂ : FTy} (a : FVec Ideal ⟨2, ![R, 128]⟩ φ₁) (w : FVec Ideal ⟨2, ![128, N]⟩ φ₂)
    (ha : AllReal (S := ⟨2, ![R, 128]⟩) a) (hw : AllReal (S := ⟨2, ![128, N]⟩) w) (p : Fin R) (q : Fin N) :
    IsReal (dotE a w p q) :=
  IsReal.sum _ _ fun k _ => IsReal.mul (ha (ix2 p k)) (hw (ix2 k q))

/-- max (x·W + b) 0 has real entries when x, W and b do. -/
theorem embed_allReal (x : FVec Ideal ⟨2, ![R, 128]⟩ .f32) (w : FVec Ideal ⟨2, ![128, 128]⟩ .f32)
    (b : FVec Ideal ⟨2, ![1, 128]⟩ .f32) (hx : AllReal x) (hw : AllReal w) (hb : AllReal b) : AllReal (embed x w b) :=
  fun i => ((dotE_real x w hx hw (i 0) (i 1)).add (hb (ix2 0 (i 1)))).max IsReal.zero

/-- h·W + b has real entries when h, W and b do. -/
theorem hself_allReal (h : FVec Ideal ⟨2, ![R, 128]⟩ .f32) (w : FVec Ideal ⟨2, ![128, 128]⟩ .f32)
    (b : FVec Ideal ⟨2, ![1, 128]⟩ .f32) (hh : AllReal h) (hw : AllReal w) (hb : AllReal b) : AllReal (hself h w b) :=
  fun i => (dotE_real h w hh hw (i 0) (i 1)).add (hb (ix2 0 (i 1)))

/-- h·T has real entries when h and T do. -/
theorem table_allReal (h : FVec Ideal ⟨2, ![R, 128]⟩ .f32) (t : FVec Ideal ⟨2, ![128, 256]⟩ .bf16)
    (hh : AllReal h) (ht : AllReal (S := ⟨2, ![128, 256]⟩) t) : AllReal (S := ⟨2, ![R, 256]⟩) (table h t) :=
  fun i => dotE_real h t hh ht (i 0) (i 1)

/-- The score column has real entries when h, the score row and the score offset do. -/
theorem scores_allReal (h : FVec Ideal ⟨2, ![R, 128]⟩ .f32) (w : FVec Ideal ⟨2, ![1, 128]⟩ .f32)
    (c : FVec Ideal ⟨2, ![1, 1]⟩ .f32) (hh : AllReal h) (hw : AllReal w) (hc : AllReal c) : AllReal (scores h w c) :=
  fun i => (IsReal.sum _ _ fun k _ => IsReal.mul (hh (ix2 (i 0) k)) (hw (ix2 0 k))).add (hc (ix2 0 0))

/-- The pre-normalisation value a·W + g + b is a real at every entry when a, W, g and b have real entries. -/
theorem zE_real (a : FVec Ideal ⟨2, ![R, 128]⟩ .f32) (w : FVec Ideal ⟨2, ![128, 128]⟩ .f32)
    (g : FVec Ideal ⟨2, ![R, 128]⟩ .f32) (b : FVec Ideal ⟨2, ![1, 128]⟩ .f32) (ha : AllReal a) (hw : AllReal w)
    (hg : AllReal g) (hb : AllReal b) (p : Fin R) (q : Fin 128) : IsReal (zE a w g b p q) :=
  ((dotE_real a w ha hw p q).add (hg (ix2 p q))).add (hb (ix2 0 q))

/-- The combine step has real entries when all seven operands do. -/
theorem combine_allReal (a g e : FVec Ideal ⟨2, ![R, 128]⟩ .f32) (w : FVec Ideal ⟨2, ![128, 128]⟩ .f32)
    (b γ β : FVec Ideal ⟨2, ![1, 128]⟩ .f32) (ha : AllReal a) (hg : AllReal g) (he : AllReal e) (hw : AllReal w)
    (hb : AllReal b) (hγ : AllReal γ) (hβ : AllReal β) : AllReal (combine a g e w b γ β) :=
  fun i => normE_real (fun q => zE_real a w g b ha hw hg hb (i 0) q) (fun q => hγ (ix2 0 q)) (fun q => hβ (ix2 0 q))
    (he i) (i 1)

end Cert.Math

end
-- ==== Proof.KRealLayer.lean ====
/-
  Real entries carried along the layers: a layer's result has real entries when its input and its ten slices do —
  the scores, the self projection and the edge table are sums of products of reals, the edge aggregate accumulates
  real messages, and the combine step normalises a real row by a positive real —; the embedding has real entries
  when its three operands do; hence the input of each of the three layers, and of the pooling, has real entries when
  the float arguments do.
-/
import proofs.«108119_j38019050504554_2_alg».proof.Proof.KStage
import proofs.«108119_j38019050504554_2_alg».proof.Proof.KRealPrep
import proofs.«108119_j38019050504554_2_alg».proof.Proof.KRealEdge
import proofs.«108119_j38019050504554_2_alg».proof.Proof.MathSpecReal

noncomputable section

namespace Cert.KReal

open Idealize.ShloMosaic Idealize.ShloMosaic.ValueIdx Cert.KernelIdeal Cert.KernelIdeal.Gen Cert.KStage
open Cert.Lib.RealSums Cert.LibRealEntries Cert.LibRealReindex Cert.Math Cert.Spec

/-- A layer's result has real entries when its input and its ten slices do. -/
theorem layer_real (h : FVec Ideal S50000x128 .f32) (a1 : IVec S2x625000 32)
    (s5 : FVec Ideal S1x1x128 .f32) (s6 : FVec Ideal S1x1 .f32) (s7 s8 s9 : FVec Ideal S1x128x128 .f32)
    (s10 : FVec Ideal S1x128 .f32) (s11 : FVec Ideal S1x128x384 .f32) (s12 s13 s14 : FVec Ideal S1x128 .f32)
    (hh : AllReal (S := S50000x128) h) (h5 : AllReal (S := S1x1x128) s5) (h6 : AllReal (S := S1x1) s6) (h7 : AllReal (S := S1x128x128) s7) (h8 : AllReal (S := S1x128x128) s8)
    (h9 : AllReal (S := S1x128x128) s9) (h10 : AllReal (S := S1x128) s10) (h11 : AllReal (S := S1x128x384) s11) (h12 : AllReal (S := S1x128) s12)
    (h13 : AllReal (S := S1x128) s13) (h14 : AllReal (S := S1x128) s14) :
    AllReal (S := S50000x128) (layer h a1 (prep s5 s6 s7 s8 s9 s10 s11 s12 s13 s14)) := by
  obtain ⟨p1, p2, p3, p4, p5, p6, p7, p8, p9⟩ := prep_real s5 s6 s7 s8 s9 s10 s11 s12 s13 s14 h5 h6 h7 h8 h9 h10 h11 h12 h13 h14
  unfold layer
  exact combine_allReal _ _ _ _ _ _ _ (hself_allReal h _ _ hh p3 p4)
    (edge_real _ _ a1 (scores_allReal h _ _ hh p1 p2) (table_allReal h _ hh p5)) hh p6 p7 p8 p9

/-- The embedded features have real entries when the features, the weight and the bias do. -/
theorem h0_real (a0 : FVec Ideal S50000x128 .f32) (a3 : FVec Ideal S128x128 .f32) (a4 : FVec Ideal S128 .f32)
    (h0' : AllReal (S := S50000x128) a0) (h3 : AllReal (S := S128x128) a3) (h4 : AllReal (S := S128) a4) :
    AllReal (S := S50000x128) (h0 a0 a3 a4) :=
  embed_allReal a0 _ _ h0' (allReal_transpose _ a3 _ h3) (allReal_shapeCast a4 _ h4)

/-- A layer at the stacks' slices that start at 0 has real entries when its input and the ten stacks do. -/
theorem layer_params0_real (h : FVec Ideal S50000x128 .f32) (a1 : IVec S2x625000 32)
    (a5 : FVec Ideal S3x1x128 .f32) (a6 : FVec Ideal S3x1 .f32) (a7 a8 a9 : FVec Ideal S3x128x128 .f32)
    (a10 : FVec Ideal S3x128 .f32) (a11 : FVec Ideal S3x128x384 .f32) (a12 a13 a14 : FVec Ideal S3x128 .f32)
    (hh : AllReal (S := S50000x128) h) (h5 : AllReal (S := S3x1x128) a5) (h6 : AllReal (S := S3x1) a6) (h7 : AllReal (S := S3x128x128) a7) (h8 : AllReal (S := S3x128x128) a8)
    (h9 : AllReal (S := S3x128x128) a9) (h10 : AllReal (S := S3x128) a10) (h11 : AllReal (S := S3x128x384) a11) (h12 : AllReal (S := S3x128) a12)
    (h13 : AllReal (S := S3x128) a13) (h14 : AllReal (S := S3x128) a14) :
    AllReal (S := S50000x128) (layer h a1 (params0 a5 a6 a7 a8 a9 a10 a11 a12 a13 a14)) :=
  layer_real h a1 _ _ _ _ _ _ _ _ _ _ hh
    (allReal_extractStridedSlice _ a5 _ h5)
    (allReal_extractStridedSlice _ a6 _ h6)
    (allReal_extractStridedSlice _ a7 _ h7)
    (allReal_extractStridedSlice _ a8 _ h8)
    (allReal_extractStridedSlice _ a9 _ h9)
    (allReal_extractStridedSlice _ a10 _ h10)
    (allReal_extractStridedSlice _ a11 _ h11)
    (allReal_extractStridedSlice _ a12 _ h12)
    (allReal_extractStridedSlice _ a13 _ h13)
    (allReal_extractStridedSlice _ a14 _ h14)

/-- A layer at the stacks' slices that start at 1 has real entries when its input and the ten stacks do. -/
theorem layer_params1_real (h : FVec Ideal S50000x128 .f32) (a1 : IVec S2x625000 32)
    (a5 : FVec Ideal S3x1x128 .f32) (a6 : FVec Ideal S3x1 .f32) (a7 a8 a9 : FVec Ideal S3x128x128 .f32)
    (a10 : FVec Ideal S3x128 .f32) (a11 : FVec Ideal S3x128x384 .f32) (a12 a13 a14 : FVec Ideal S3x128 .f32)
    (hh : AllReal (S := S50000x128) h) (h5 : AllReal (S := S3x1x128) a5) (h6 : AllReal (S := S3x1) a6) (h7 : AllReal (S := S3x128x128) a7) (h8 : AllReal (S := S3x128x128) a8)
    (h9 : AllReal (S := S3x128x128) a9) (h10 : AllReal (S := S3x128) a10) (h11 : AllReal (S := S3x128x384) a11) (h12 : AllReal (S := S3x128) a12)
    (h13 : AllReal (S := S3x128) a13) (h14 : AllReal (S := S3x128) a14) :
    AllReal (S := S50000x128) (layer h a1 (params1 a5 a6 a7 a8 a9 a10 a11 a12 a13 a14)) :=
  layer_real h a1 _ _ _ _ _ _ _ _ _ _ hh
    (allReal_extractStridedSlice _ a5 _ h5)
    (allReal_extractStridedSlice _ a6 _ h6)
    (allReal_extractStridedSlice _ a7 _ h7)
    (allReal_extractStridedSlice _ a8 _ h8)
    (allReal_extractStridedSlice _ a9 _ h9)
    (allReal_extractStridedSlice _ a10 _ h10)
    (allReal_extractStridedSlice _ a11 _ h11)
    (allReal_extractStridedSlice _ a12 _ h12)
    (allReal_extractStridedSlice _ a13 _ h13)
    (allReal_extractStridedSlice _ a14 _ h14)

/-- A layer at the stacks' slices that start at 2 has real entries when its input and the ten stacks do. -/
theorem layer_params2_real (h : FVec Ideal S50000x128 .f32) (a1 : IVec S2x625000 32)
    (a5 : FVec Ideal S3x1x128 .f32) (a6 : FVec Ideal S3x1 .f32) (a7 a8 a9 : FVec Ideal S3x128x128 .f32)
    (a10 : FVec Ideal S3x128 .f32) (a11 : FVec Ideal S3x128x384 .f32) (a12 a13 a14 : FVec Ideal S3x128 .f32)
    (hh : AllReal (S := S50000x128) h) (h5 : AllReal (S := S3x1x128) a5) (h6 : AllReal (S := S3x1) a6) (h7 : AllReal (S := S3x128x128) a7) (h8 : AllReal (S := S3x128x128) a8)
    (h9 : AllReal (S := S3x128x128) a9) (h10 : AllReal (S := S3x128) a10) (h11 : AllReal (S := S3x128x384) a11) (h12 : AllReal (S := S3x128) a12)
    (h13 : AllReal (S := S3x128) a13) (h14 : AllReal (S := S3x128) a14) :
    AllReal (S := S50000x128) (layer h a1 (params2 a5 a6 a7 a8 a9 a10 a11 a12 a13 a14)) :=
  layer_real h a1 _ _ _ _ _ _ _ _ _ _ hh
    (allReal_extractStridedSlice _ a5 _ h5)
    (allReal_extractStridedSlice _ a6 _ h6)
    (allReal_extractStridedSlice _ a7 _ h7)
    (allReal_extractStridedSlice _ a8 _ h8)
    (allReal_extractStridedSlice _ a9 _ h9)
    (allReal_extractStridedSlice _ a10 _ h10)
    (allReal_extractStridedSlice _ a11 _ h11)
    (allReal_extractStridedSlice _ a12 _ h12)
    (allReal_extractStridedSlice _ a13 _ h13)
    (allReal_extractStridedSlice _ a14 _ h14)

/-- Layer 1's input has real entries when the float arguments do. -/
theorem input1_real (a0 : FVec Ideal S50000x128 .f32) (a1 : IVec S2x625000 32) (a3 : FVec Ideal S128x128 .f32) (a4 : FVec Ideal S128 .f32)
    (a5 : FVec Ideal S3x1x128 .f32) (a6 : FVec Ideal S3x1 .f32) (a7 a8 a9 : FVec Ideal S3x128x128 .f32)
    (a10 : FVec Ideal S3x128 .f32) (a11 : FVec Ideal S3x128x384 .f32) (a12 a13 a14 : FVec Ideal S3x128 .f32)
    (h0' : AllReal (S := S50000x128) a0) (h3 : AllReal (S := S128x128) a3) (h4 : AllReal (S := S128) a4)
    (h5 : AllReal (S := S3x1x128) a5) (h6 : AllReal (S := S3x1) a6) (h7 : AllReal (S := S3x128x128) a7) (h8 : AllReal (S := S3x128x128) a8)
    (h9 : AllReal (S := S3x128x128) a9) (h10 : AllReal (S := S3x128) a10) (h11 : AllReal (S := S3x128x384) a11) (h12 : AllReal (S := S3x128) a12)
    (h13 : AllReal (S := S3x128) a13) (h14 : AllReal (S := S3x128) a14) :
    AllReal (S := S50000x128) (layer (h0 a0 a3 a4) a1 (params0 a5 a6 a7 a8 a9 a10 a11 a12 a13 a14)) :=
  layer_params0_real _ a1 a5 a6 a7 a8 a9 a10 a11 a12 a13 a14 (h0_real a0 a3 a4 h0' h3 h4) h5 h6 h7 h8 h9 h10 h11 h12 h13 h14

/-- Layer 2's input has real entries when the float arguments do. -/
theorem input2_real (a0 : FVec Ideal S50000x128 .f32) (a1 : IVec S2x625000 32) (a3 : FVec Ideal S128x128 .f32) (a4 : FVec Ideal S128 .f32)
    (a5 : FVec Ideal S3x1x128 .f32) (a6 : FVec Ideal S3x1 .f32) (a7 a8 a9 : FVec Ideal S3x128x128 .f32)
    (a10 : FVec Ideal S3x128 .f32) (a11 : FVec Ideal S3x128x384 .f32) (a12 a13 a14 : FVec Ideal S3x128 .f32)
    (h0' : AllReal (S := S50000x128) a0) (h3 : AllReal (S := S128x128) a3) (h4 : AllReal (S := S128) a4)
    (h5 : AllReal (S := S3x1x128) a5) (h6 : AllReal (S := S3x1) a6) (h7 : AllReal (S := S3x128x128) a7) (h8 : AllReal (S := S3x128x128) a8)
    (h9 : AllReal (S := S3x128x128) a9) (h10 : AllReal (S := S3x128) a10) (h11 : AllReal (S := S3x128x384) a11) (h12 : AllReal (S := S3x128) a12)
    (h13 : AllReal (S := S3x128) a13) (h14 : AllReal (S := S3x128) a14) :
    AllReal (S := S50000x128)
      (layer (layer (h0 a0 a3 a4) a1 (params0 a5 a6 a7 a8 a9 a10 a11 a12 a13 a14)) a1 (params1 a5 a6 a7 a8 a9 a10 a11 a12 a13 a14)) :=
  layer_params1_real _ a1 a5 a6 a7 a8 a9 a10 a11 a12 a13 a14 (input1_real a0 a1 a3 a4 a5 a6 a7 a8 a9 a10 a11 a12 a13 a14 h0' h3 h4 h5 h6 h7 h8 h9 h10 h11 h12 h13 h14) h5 h6 h7 h8 h9 h10 h11 h12 h13 h14

/-- The pooling's input, the last layer's result, has real entries when the float arguments do. -/
theorem input3_real (a0 : FVec Ideal S50000x128 .f32) (a1 : IVec S2x625000 32) (a3 : FVec Ideal S128x128 .f32) (a4 : FVec Ideal S128 .f32)
    (a5 : FVec Ideal S3x1x128 .f32) (a6 : FVec Ideal S3x1 .f32) (a7 a8 a9 : FVec Ideal S3x128x128 .f32)
    (a10 : FVec Ideal S3x128 .f32) (a11 : FVec Ideal S3x128x384 .f32) (a12 a13 a14 : FVec Ideal S3x128 .f32)
    (h0' : AllReal (S := S50000x128) a0) (h3 : AllReal (S := S128x128) a3) (h4 : AllReal (S := S128) a4)
    (h5 : AllReal (S := S3x1x128) a5) (h6 : AllReal (S := S3x1) a6) (h7 : AllReal (S := S3x128x128) a7) (h8 : AllReal (S := S3x128x128) a8)
    (h9 : AllReal (S := S3x128x128) a9) (h10 : AllReal (S := S3x128) a10) (h11 : AllReal (S := S3x128x384) a11) (h12 : AllReal (S := S3x128) a12)
    (h13 : AllReal (S := S3x128) a13) (h14 : AllReal (S := S3x128) a14) :
    AllReal (S := S50000x128)
      (layer (layer (layer (h0 a0 a3 a4) a1 (params0 a5 a6 a7 a8 a9 a10 a11 a12 a13 a14)) a1 (params1 a5 a6 a7 a8 a9 a10 a11 a12 a13 a14)) a1
        (params2 a5 a6 a7 a8 a9 a10 a11 a12 a13 a14)) :=
  layer_params2_real _ a1 a5 a6 a7 a8 a9 a10 a11 a12 a13 a14 (input2_real a0 a1 a3 a4 a5 a6 a7 a8 a9 a10 a11 a12 a13 a14 h0' h3 h4 h5 h6 h7 h8 h9 h10 h11 h12 h13 h14) h5 h6 h7 h8 h9 h10 h11 h12 h13 h14

end Cert.KReal

end
-- ==== Proof.LibStacked.lean ====
/-
  Layer l of a stacked parameter, read at an entry, for any sizes.
  A stack of three A×B matrices sliced at [l : l+1] and reshaped to A×B is the matrix at (l, ·, ·); a stack of three
  length-A vectors sliced and reshaped to a vector, a 1×A row or a 1×1 cell reads the stack at (l, ·); the transpose of a
  matrix reads it at the swapped entry; a block of columns [o : o+C] of a matrix reads it at column o + c.
-/
import Idealize.ShloMosaic.Lib.Pipeline.Value
import Idealize.ShloMosaic.Lib.ValueIdx

namespace Cert.LibStacked

open Idealize.ShloMosaic Idealize.ShloMosaic.ValueIdx

variable {α : Type} {A B C : ℕ}

/-- The slice [l : l+1] of a stack of three A×B matrices, reshaped to A×B, at (a, b), is the stack at (l, a, b). -/
theorem layer3_apply (x : (⟨3, ![3, A, B]⟩ : Shape).Idx → α) (l : ℕ) (hl : l < 3)
    (hs : (⟨3, ![3, A, B]⟩ : Shape).Slices ![l, 0, 0] ⟨3, ![1, A, B]⟩)
    (hc : (⟨3, ![1, A, B]⟩ : Shape).ShapeCasts ⟨2, ![A, B]⟩) (a : Fin A) (b : Fin B) :
    shapeCast ⟨2, ![A, B]⟩ (extractStridedSlice ⟨3, ![1, A, B]⟩ ![l, 0, 0] x hs) hc (ix2 a b) = x (ix3 ⟨l, hl⟩ a b) := by
  rw [shapeCast_dropUnit_apply]
  refine extractStridedSlice_apply _ x hs _ (ix3 ⟨l, hl⟩ a b) ?_
  intro d; match d with
  | ⟨0, _⟩ => exact (Nat.add_zero l).symm
  | ⟨1, _⟩ => exact (Nat.zero_add a.val).symm
  | ⟨2, _⟩ => exact (Nat.zero_add b.val).symm

/-- The transpose of an A×B matrix at (b, a) is the matrix at (a, b). -/
theorem transpose2_apply (x : (⟨2, ![A, B]⟩ : Shape).Idx → α) (h : (⟨2, ![A, B]⟩ : Shape).Transposes [1, 0] ⟨2, ![B, A]⟩)
    (b : Fin B) (a : Fin A) : transpose ⟨2, ![B, A]⟩ [1, 0] x h (ix2 b a) = x (ix2 a b) := by
  refine transpose_apply _ x h _ _ ?_
  intro d; match d with
  | ⟨0, _⟩ => rfl
  | ⟨1, _⟩ => rfl

/-- Columns [o : o+C] of an A×B matrix, at (a, c), is the matrix at (a, o + c). -/
theorem cols_apply (x : (⟨2, ![A, B]⟩ : Shape).Idx → α) (o : ℕ) (hs : (⟨2, ![A, B]⟩ : Shape).Slices ![0, o] ⟨2, ![A, C]⟩)
    (a : Fin A) (c : Fin C) (k : Fin B) (hk : k.val = o + c.val) :
    extractStridedSlice ⟨2, ![A, C]⟩ ![0, o] x hs (ix2 a c) = x (ix2 a k) := by
  refine extractStridedSlice_apply _ x hs _ _ ?_
  intro d; match d with
  | ⟨0, _⟩ => exact (Nat.zero_add a.val).symm
  | ⟨1, _⟩ => exact hk

end Cert.LibStacked
-- ==== Proof.LibBiasRow.lean ====
/-
  The bias of a layer, a length-N vector, as the 1×N row both programs add to every row of a product.  The kernel reshapes
  the vector to 1×N on the host and the body broadcasts that row over its block; the reference broadcasts the vector to
  1×N and then to M×N.  Either way entry (p, q) of what is added is entry q of the vector.
-/
import Idealize.ShloMosaic.PureOps.Ideal.Laws
import Idealize.ShloMosaic.Lib.ValueIdx
import Idealize.ShloMosaic.Lib.Pipeline.Value
import Idealize.ShloMosaic.Lib.KernelVsHost

noncomputable section

namespace Cert.Row

open Idealize.ShloMosaic Idealize.ShloMosaic.ValueIdx

variable {M N : ℕ}

/-- A length-N vector as a 1×N row. -/
def rowOf (b : FVec Ideal ⟨1, ![N]⟩ .f32) : FVec Ideal ⟨2, ![1, N]⟩ .f32 := fun j => b (ix1 (j 1))

/-- The reshape of the vector to 1×N is that row. -/
theorem shapeCast_row (b : FVec Ideal ⟨1, ![N]⟩ .f32) (h : (⟨1, ![N]⟩ : Shape).ShapeCasts ⟨2, ![1, N]⟩) :
    shapeCast ⟨2, ![1, N]⟩ b h = rowOf b := by
  funext j
  refine (shapeCast_addUnit_apply ![N] b h j).trans ?_
  unfold rowOf
  exact congrArg b (funext fun a => by match a with | ⟨0, _⟩ => rfl)

/-- The two broadcasts of the vector, to 1×N and then to M×N, read at (p, q): the row at (0, q). -/
theorem bcast_row_apply (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = rowOf b (ix2 0 q) := by
  rw [broadcastInDim_oneRow_apply]
  refine broadcastInDim_apply ![1] h1 b (ix2 (0 : Fin 1) q) (ix1 q) (fun a => ?_)
  match a with
  | ⟨0, _⟩ =>
    show q.val = if N = 1 then 0 else q.val
    split_ifs with hN
    · have := q.isLt; omega
    · rfl

end Cert.Row

end
-- ==== Proof.RefReads.lean ====
/-
  The reference's dense stages read at an entry, at the extended reals: a projection h·Wᵀ is the sum over the 128
  shared coordinates of h(n,i)·W(k,i) (W the layer's 1×128×128 slab); the self term adds the bias entry; a score is
  the sum of h(n,i)·w(i) plus the offset.
-/
import proofs.«108119_j38019050504554_2_alg».proof.Proof.RefOpsStages
import proofs.«108119_j38019050504554_2_alg».proof.Proof.LibPlainDot
import proofs.«108119_j38019050504554_2_alg».proof.Proof.LibStacked
import proofs.«108119_j38019050504554_2_alg».proof.Proof.LibBiasRow
import Idealize.ShloMosaic.Lib.Pipeline.Value

noncomputable section

namespace Cert.RefReads

open Idealize.ShloMosaic Idealize.ShloMosaic.ValueIdx Cert.ReferenceIdeal Cert.ReferenceIdeal.Gen Cert.ReferenceIdeal.RefRun
open scoped BigOperators

/-- A 1×A×B slab reshaped to A×B, at (a, b), is the slab at (0, a, b). -/
theorem slab_apply {α : Type} {A B : ℕ} (w : (⟨3, ![1, A, B]⟩ : Shape).Idx → α)
    (hc : (⟨3, ![1, A, B]⟩ : Shape).ShapeCasts ⟨2, ![A, B]⟩) (a : Fin A) (b : Fin B) :
    shapeCast ⟨2, ![A, B]⟩ w hc (ix2 a b) = w (ix3 (0 : Fin 1) a b) := by
  rw [shapeCast_dropUnit_apply]
  congr 1
  funext d; match d with | ⟨0, _⟩ => rfl | ⟨1, _⟩ => rfl | ⟨2, _⟩ => rfl

/-- A 1×A row reshaped to a length-A vector, at a, is the row at (0, a). -/
theorem rowvec_apply {α : Type} {A : ℕ} (w : (⟨2, ![1, A]⟩ : Shape).Idx → α)
    (hc : (⟨2, ![1, A]⟩ : Shape).ShapeCasts ⟨1, ![A]⟩) (a : Fin A) :
    shapeCast ⟨1, ![A]⟩ w hc (ix1 a) = w (ix2 (0 : Fin 1) a) := by
  rw [shapeCast_dropUnit_apply]
  congr 1
  funext d; match d with | ⟨0, _⟩ => rfl | ⟨1, _⟩ => rfl

/-- The layer's bias, from its 1×128 slice to every row: at (n, q) it is the slice at (0, q). -/
theorem bias_apply {M A : ℕ} (b : FVec Ideal ⟨2, ![1, A]⟩ .f32) (hc : (⟨2, ![1, A]⟩ : Shape).ShapeCasts ⟨1, ![A]⟩)
    (h1 : (⟨1, ![A]⟩ : Shape).BroadcastsInDim ⟨2, ![1, A]⟩ ![1]) (h2 : (⟨2, ![1, A]⟩ : Shape).BroadcastsInDim ⟨2, ![M, A]⟩ ![0, 1])
    (n : Fin M) (q : Fin A) :
    broadcastInDim ⟨2, ![M, A]⟩ ![0, 1] h2 (broadcastInDim ⟨2, ![1, A]⟩ ![1] h1 (shapeCast ⟨1, ![A]⟩ b hc)) (ix2 n q) = b (ix2 0 q) := by
  rw [Cert.Row.bcast_row_apply]
  exact rowvec_apply b hc q

/-- The forward projection at (n, k): the sum over i of h(n, i)·W(0, k, i). -/
theorem hfwd_apply (h : FVec Ideal S50000x128 .f32) (w : FVec Ideal S1x128x128 .f32) (n : Fin 50000) (k : Fin 128) :
    hfwd (F := Ideal) h w (ix2 n k) = ∑ i : Fin 128, h (ix2 n i) * w (ix3 (0 : Fin 1) k i) := by
  unfold hfwd
  refine (Cert.LibPlainDot.dotGeneral_apply _ rfl _ _ h _ n k).trans ?_
  refine Finset.sum_congr rfl fun i _ => ?_
  rw [Cert.LibStacked.transpose2_apply, slab_apply]

/-- The backward projection at (n, k). -/
theorem hbwd_apply (h : FVec Ideal S50000x128 .f32) (w : FVec Ideal S1x128x128 .f32) (n : Fin 50000) (k : Fin 128) :
    hbwd (F := Ideal) h w (ix2 n k) = ∑ i : Fin 128, h (ix2 n i) * w (ix3 (0 : Fin 1) k i) := hfwd_apply h w n k

/-- The self term at (n, q): the projection plus the bias entry. -/
theorem hself_apply (h : FVec Ideal S50000x128 .f32) (w : FVec Ideal S1x128x128 .f32) (b : FVec Ideal S1x128 .f32)
    (n : Fin 50000) (q : Fin 128) :
    hself (F := Ideal) h w b (ix2 n q) = (∑ i : Fin 128, h (ix2 n i) * w (ix3 (0 : Fin 1) q i)) + b (ix2 0 q) := by
  unfold hself
  show _ + _ = _
  congr 1
  · exact hfwd_apply h w n q
  · exact bias_apply b _ _ _ n q

/-- The score of node n: the sum over i of h(n, i)·w(0, 0, i), plus the offset. -/
theorem scores_apply (h : FVec Ideal S50000x128 .f32) (w : FVec Ideal S1x1x128 .f32) (c : FVec Ideal S1x1 .f32) (n : Fin 50000) :
    scores (F := Ideal) h w c (ix2 n 0) = (∑ i : Fin 128, h (ix2 n i) * w (ix3 (0 : Fin 1) (0 : Fin 1) i)) + c (ix2 0 0) := by
  unfold scores
  show _ + _ = _
  congr 1
  · refine (Cert.LibPlainDot.dotGeneral_apply _ rfl _ _ h _ n 0).trans ?_
    refine Finset.sum_congr rfl fun i _ => ?_
    rw [Cert.LibStacked.transpose2_apply, slab_apply]
  · exact bias_apply c _ _ _ n 0

end Cert.RefReads

end
-- ==== Proof.LibConcat2.lean ====
/-
  A two-operand concatenate along the column axis of rank-2 arrays (R×A and R×B into R×T, all extents general), read
  at an entry: a column inside the first piece reads the first piece there; a column A or more in reads the second
  piece at the column minus A.
-/
import Idealize.ShloMosaic.Lib.Pipeline.Value
import Idealize.ShloMosaic.Lib.ValueIdx

noncomputable section

namespace Cert.LibConcat2

open Idealize.ShloMosaic Idealize.ShloMosaic.ValueIdx

variable {α : Type} {R A B T : ℕ}

/-- A column inside the first piece. -/
theorem read_first (x : (⟨2, ![R, A]⟩ : Shape).Idx → α) (y : (⟨2, ![R, B]⟩ : Shape).Idx → α)
    (h : Shape.Concatenates [⟨2, ![R, A]⟩, ⟨2, ![R, B]⟩] ⟨2, ![R, T]⟩ 1)
    (r : Fin R) (c : Fin T) (a : Fin A) (hc : a.val = c.val) :
    concatenate ⟨2, ![R, T]⟩ 1 [⟨⟨2, ![R, A]⟩, x⟩, ⟨⟨2, ![R, B]⟩, y⟩] h (ix2 r c) = x (ix2 r a) :=
  concatenate_apply_piece 1 [⟨⟨2, ![R, A]⟩, x⟩, ⟨⟨2, ![R, B]⟩, y⟩] h (ix2 r c) 0 (by simp) _ x rfl rfl 0 rfl (ix2 r a)
    (fun b hb => by
      match b with
      | ⟨0, _⟩ => rfl
      | ⟨1, _⟩ => exact absurd rfl hb)
    (by show 0 + a.val = c.val; omega)

/-- A column inside the second piece, A columns in. -/
theorem read_second (x : (⟨2, ![R, A]⟩ : Shape).Idx → α) (y : (⟨2, ![R, B]⟩ : Shape).Idx → α)
    (h : Shape.Concatenates [⟨2, ![R, A]⟩, ⟨2, ![R, B]⟩] ⟨2, ![R, T]⟩ 1)
    (r : Fin R) (c : Fin T) (b : Fin B) (hc : A + b.val = c.val) :
    concatenate ⟨2, ![R, T]⟩ 1 [⟨⟨2, ![R, A]⟩, x⟩, ⟨⟨2, ![R, B]⟩, y⟩] h (ix2 r c) = y (ix2 r b) :=
  concatenate_apply_piece 1 [⟨⟨2, ![R, A]⟩, x⟩, ⟨⟨2, ![R, B]⟩, y⟩] h (ix2 r c) 1 (by simp) _ y rfl rfl A rfl (ix2 r b)
    (fun d hd => by
      match d with
      | ⟨0, _⟩ => rfl
      | ⟨1, _⟩ => exact absurd rfl hd)
    (by show A + b.val = c.val; exact hc)

end Cert.LibConcat2

end
-- ==== Proof.MathLayer.lean ====
/-
  One layer's combine step, for one node and one output column: the law that joins its two arrangements.

  A node gathers the rows of the nodes its incoming edges start from. One arrangement projects every gathered row
  twice (forward and backward, 128 outputs each), gates the forward projection by the edge's gate α and the backward
  one by 1 − α, sums over the edges, lays the node's own row and the two sums side by side as 384 columns, and
  combines them with 384 weights. The other arrangement folds the two projections into the combine weights first
  (128 folded weights each), so that an edge costs two dot products with its source row: the backward one, plus α
  times the difference of the two.

  When every number is a real the two agree, by distributivity and an exchange of finite sums. The law is proved over
  the reals, then carried to extended reals that are real numbers: on the extended reals multiplication does not
  distribute over addition at the infinities, so real-ness is a genuine hypothesis.
-/
import proofs.«108119_j38019050504554_2_alg».proof.Proof.LibRealSums
import Mathlib.Algebra.BigOperators.Fin
import Mathlib.Tactic.Ring

noncomputable section

namespace Cert.Math

open scoped BigOperators
open Cert.Lib.RealSums

/-- Column k of the first block of 128 among 384 columns. -/
def lo (k : Fin 128) : Fin 384 := ⟨k.val, by omega⟩
/-- Column k of the second block: 128 columns in. -/
def mid (k : Fin 128) : Fin 384 := ⟨128 + k.val, by omega⟩
/-- Column k of the third block: 128 + 128 columns in. -/
def hi (k : Fin 128) : Fin 384 := ⟨128 + 128 + k.val, by omega⟩

@[simp] theorem lo_val (k : Fin 128) : (lo k).val = k.val := rfl
@[simp] theorem mid_val (k : Fin 128) : (mid k).val = 128 + k.val := rfl
@[simp] theorem hi_val (k : Fin 128) : (hi k).val = 128 + 128 + k.val := rfl

/-- A sum over 384 columns is the sum of the sums over its three blocks of 128. -/
theorem sum_split3 {M : Type*} [AddCommMonoid M] (f : Fin 384 → M) :
    ∑ k, f k = ∑ k : Fin 128, f (lo k) + ∑ k : Fin 128, f (mid k) + ∑ k : Fin 128, f (hi k) := by
  have h1 : ∑ k : Fin (128 + 256), f k
      = ∑ k : Fin 128, f (Fin.castAdd 256 k) + ∑ k : Fin 256, f (Fin.natAdd 128 k) := Fin.sum_univ_add (a := 128) (b := 256) f
  have h2 : ∑ k : Fin (128 + 128), f (Fin.natAdd 128 k)
      = ∑ k : Fin 128, f (Fin.natAdd 128 (Fin.castAdd 128 k)) + ∑ k : Fin 128, f (Fin.natAdd 128 (Fin.natAdd 128 k)) :=
    Fin.sum_univ_add (a := 128) (b := 128) (fun k : Fin (128 + 128) => f (Fin.natAdd 128 k))
  rw [show (∑ k, f k) = ∑ k : Fin (128 + 256), f k from rfl, h1,
    show (∑ k : Fin 256, f (Fin.natAdd 128 k)) = ∑ k : Fin (128 + 128), f (Fin.natAdd 128 k) from rfl, h2, add_assoc]
  have e1 : ∀ k : Fin 128, (Fin.castAdd 256 k : Fin 384) = lo k := fun k => rfl
  have e2 : ∀ k : Fin 128, (Fin.natAdd 128 (Fin.castAdd 128 k) : Fin 384) = mid k := fun k => rfl
  have e3 : ∀ k : Fin 128, (Fin.natAdd 128 (Fin.natAdd 128 k) : Fin 384) = hi k := fun k => Fin.ext (by simp [Fin.natAdd]; omega)
  simp only [e1, e2, e3]

/-- Folding a projection into a weight column: Σᵢ xᵢ · (Σₖ W(k,i) · wₖ) = Σₖ (Σᵢ xᵢ · W(k,i)) · wₖ. -/
theorem fold_proj {κ ι : Type*} [Fintype κ] [Fintype ι] (x : ι → ℝ) (W : κ → ι → ℝ) (w : κ → ℝ) :
    ∑ i, x i * (∑ k, W k i * w k) = ∑ k, (∑ i, x i * W k i) * w k := by
  simp only [Finset.mul_sum, Finset.sum_mul]
  rw [Finset.sum_comm]
  exact Finset.sum_congr rfl fun k _ => Finset.sum_congr rfl fun i _ => by ring

/-- Gating and aggregating column by column, then combining, is combining edge by edge, then gating and summing. -/
theorem swap_gate {E κ : Type*} [Fintype κ] (S : Finset E) (A : E → κ → ℝ) (g : E → ℝ) (w : κ → ℝ) :
    ∑ k, (∑ e ∈ S, A e k * g e) * w k = ∑ e ∈ S, g e * ∑ k, A e k * w k := by
  simp only [Finset.sum_mul, Finset.mul_sum]
  rw [Finset.sum_comm]
  exact Finset.sum_congr rfl fun e _ => Finset.sum_congr rfl fun k _ => by ring

/-- THE LAW OVER THE REALS, with the 384 columns written as their three blocks. For one node and one output column:
    `S` the edges that land on the node, `X e` the source row of edge `e`, `α e` its gate, `s` the node's own row,
    `Wf`, `Wb` the forward and backward projections (`Wf k i`: output `k`, input `i`) and `Wc` the column's 384
    combine weights. Folding the two projections into the combine weights first and gating the difference is the
    same as projecting, gating forward by `α` and backward by `1 − α`, aggregating and combining block by block. -/
theorem layer_real_blocks {E : Type*} (S : Finset E) (X : E → Fin 128 → ℝ) (Wf Wb : Fin 128 → Fin 128 → ℝ)
    (Wc : Fin 384 → ℝ) (s : Fin 128 → ℝ) (α : E → ℝ) :
    (∑ k, s k * Wc (lo k))
        + ∑ e ∈ S, ((∑ i, X e i * (∑ k, Wb k i * Wc (hi k)))
            + α e * (∑ i, X e i * ((∑ k, Wf k i * Wc (mid k)) - (∑ k, Wb k i * Wc (hi k)))))
      = ∑ k, s k * Wc (lo k)
        + ∑ k, (∑ e ∈ S, (∑ i, X e i * Wf k i) * α e) * Wc (mid k)
        + ∑ k, (∑ e ∈ S, (∑ i, X e i * Wb k i) * (1 - α e)) * Wc (hi k) := by
  rw [add_assoc]
  congr 1
  rw [swap_gate S (fun e k => ∑ i, X e i * Wf k i) α (fun k => Wc (mid k)),
    swap_gate S (fun e k => ∑ i, X e i * Wb k i) (fun e => 1 - α e) (fun k => Wc (hi k)), ← Finset.sum_add_distrib]
  refine Finset.sum_congr rfl fun e _ => ?_
  simp only [mul_sub, Finset.sum_sub_distrib, fold_proj]
  ring

/-- THE LAW OVER THE REALS, against any 384-column row `cat` whose three blocks are the node's own row, the gated
    forward aggregate and the gated backward aggregate (each aggregate accumulated from zero). -/
theorem layer_real {E : Type*} (S : Finset E) (X : E → Fin 128 → ℝ) (Wf Wb : Fin 128 → Fin 128 → ℝ)
    (Wc : Fin 384 → ℝ) (s : Fin 128 → ℝ) (α : E → ℝ) (cat : Fin 384 → ℝ)
    (hlo : ∀ k, cat (lo k) = s k)
    (hmid : ∀ k, cat (mid k) = 0 + ∑ e ∈ S, (∑ i, X e i * Wf k i) * α e)
    (hhi : ∀ k, cat (hi k) = 0 + ∑ e ∈ S, (∑ i, X e i * Wb k i) * (1 - α e)) :
    (∑ k, s k * Wc (lo k))
        + (0 + ∑ e ∈ S, ((∑ i, X e i * (∑ k, Wb k i * Wc (hi k)))
            + α e * (∑ i, X e i * ((∑ k, Wf k i * Wc (mid k)) - (∑ k, Wb k i * Wc (hi k))))))
      = ∑ k, cat k * Wc k := by
  rw [sum_split3 (fun k => cat k * Wc k)]
  simp only [hlo, hmid, hhi, zero_add]
  exact layer_real_blocks S X Wf Wb Wc s α

/-- THE LAW ON THE EXTENDED REALS, for real data: the same statement as `layer_real`, every number an extended real
    that is a real number. -/
theorem layer {E : Type*} (S : Finset E) (X : E → Fin 128 → EReal) (Wf Wb : Fin 128 → Fin 128 → EReal)
    (Wc : Fin 384 → EReal) (s : Fin 128 → EReal) (α : E → EReal) (cat : Fin 384 → EReal)
    (hX : ∀ e i, IsReal (X e i)) (hWf : ∀ k i, IsReal (Wf k i)) (hWb : ∀ k i, IsReal (Wb k i))
    (hWc : ∀ k, IsReal (Wc k)) (hs : ∀ k, IsReal (s k)) (hα : ∀ e, IsReal (α e))
    (hlo : ∀ k, cat (lo k) = s k)
    (hmid : ∀ k, cat (mid k) = 0 + ∑ e ∈ S, (∑ i, X e i * Wf k i) * α e)
    (hhi : ∀ k, cat (hi k) = 0 + ∑ e ∈ S, (∑ i, X e i * Wb k i) * (1 - α e)) :
    (∑ k, s k * Wc (lo k))
        + (0 + ∑ e ∈ S, ((∑ i, X e i * (∑ k, Wb k i * Wc (hi k)))
            + α e * (∑ i, X e i * ((∑ k, Wf k i * Wc (mid k)) - (∑ k, Wb k i * Wc (hi k))))))
      = ∑ k, cat k * Wc k := by
  rw [sum_split3 (fun k => cat k * Wc k)]
  simp only [hlo, hmid, hhi, zero_add]
  choose X' hX' using hX
  choose Wf' hWf' using hWf
  choose Wb' hWb' using hWb
  choose Wc' hWc' using hWc
  choose s' hs' using hs
  choose α' hα' using hα
  simp only [hX', hWf', hWb', hWc', hs', hα', ← EReal.coe_one, ← EReal.coe_sub, ← EReal.coe_mul, ← coe_sum,
    ← EReal.coe_add]
  exact congrArg _ (layer_real_blocks S X' Wf' Wb' Wc' s' α')

end Cert.Math

end
-- ==== Proof.KPrepReads.lean ====
/-
  The kernel program's prepared layer parameters read at an entry, in terms of the layer's slices: a transposed slab
  reads the slab at the swapped coordinates; the three 128-column blocks of the combine weight, transposed, read the
  weight at (0, j, k), (0, j, 128 + k), (0, j, 256 + k); the composed forward / backward matrices are the sums over k of
  W(0, k, i)·Wc(0, j, 128 + k) resp. W(0, k, i)·Wc(0, j, 256 + k); the table weight's low half is the backward matrix and
  its high half the forward minus the backward one; a bias row or the score offset reshaped there and back is itself.
-/
import proofs.«108119_j38019050504554_2_alg».proof.Proof.KStage
import proofs.«108119_j38019050504554_2_alg».proof.Proof.RefReads
import proofs.«108119_j38019050504554_2_alg».proof.Proof.LibConcat2
import proofs.«108119_j38019050504554_2_alg».proof.Proof.MathLayer

noncomputable section

namespace Cert.KPrepReads

open Idealize.ShloMosaic Idealize.ShloMosaic.ValueIdx Cert.KernelIdeal Cert.KernelIdeal.Gen Cert.KStage Cert.Math
open scoped BigOperators

theorem scoreRow_apply (s : FVec Ideal S1x1x128 .f32) (i : Fin 128) : scoreRow s (ix2 0 i) = s (ix3 (0 : Fin 1) (0 : Fin 1) i) :=
  Cert.RefReads.slab_apply s _ 0 i

theorem scoreOff_eq (s : FVec Ideal S1x1 .f32) : scoreOff s = s := shapeCast_shapeCast s _ _

theorem row_eq (s : FVec Ideal S1x128 .f32) : row s = s := shapeCast_shapeCast s _ _

theorem matT_apply (s : FVec Ideal S1x128x128 .f32) (i q : Fin 128) : matT s (ix2 i q) = s (ix3 (0 : Fin 1) q i) := by
  unfold matT
  rw [Cert.LibStacked.transpose2_apply]
  exact Cert.RefReads.slab_apply s _ q i

theorem comb_apply (s : FVec Ideal S1x128x384 .f32) (j : Fin 128) (k : Fin 384) : comb s (ix2 j k) = s (ix3 (0 : Fin 1) j k) :=
  Cert.RefReads.slab_apply s _ j k

theorem combSelfT_apply (s : FVec Ideal S1x128x384 .f32) (k j : Fin 128) : combSelfT s (ix2 k j) = s (ix3 (0 : Fin 1) j (lo k)) := by
  unfold combSelfT
  rw [Cert.LibStacked.transpose2_apply, Cert.LibStacked.cols_apply (comb s) 0 _ j k (lo k) (by simp), comb_apply]

theorem combFwdT_apply (s : FVec Ideal S1x128x384 .f32) (k j : Fin 128) : combFwdT s (ix2 k j) = s (ix3 (0 : Fin 1) j (mid k)) := by
  unfold combFwdT
  rw [Cert.LibStacked.transpose2_apply, Cert.LibStacked.cols_apply (comb s) 128 _ j k (mid k) (by simp), comb_apply]

theorem combBwdT_apply (s : FVec Ideal S1x128x384 .f32) (k j : Fin 128) : combBwdT s (ix2 k j) = s (ix3 (0 : Fin 1) j (hi k)) := by
  unfold combBwdT
  rw [Cert.LibStacked.transpose2_apply, Cert.LibStacked.cols_apply (comb s) 256 _ j k (hi k) (by simp), comb_apply]

theorem fwdComp_apply (sf : FVec Ideal S1x128x128 .f32) (sc : FVec Ideal S1x128x384 .f32) (i j : Fin 128) :
    fwdComp sf sc (ix2 i j) = ∑ k : Fin 128, sf (ix3 (0 : Fin 1) k i) * sc (ix3 (0 : Fin 1) j (mid k)) := by
  unfold fwdComp
  refine (Cert.LibPlainDot.dotGeneral_apply _ rfl _ _ _ _ i j).trans ?_
  exact Finset.sum_congr rfl fun k _ => by rw [matT_apply, combFwdT_apply]

theorem bwdComp_apply (sb : FVec Ideal S1x128x128 .f32) (sc : FVec Ideal S1x128x384 .f32) (i j : Fin 128) :
    bwdComp sb sc (ix2 i j) = ∑ k : Fin 128, sb (ix3 (0 : Fin 1) k i) * sc (ix3 (0 : Fin 1) j (hi k)) := by
  unfold bwdComp
  refine (Cert.LibPlainDot.dotGeneral_apply _ rfl _ _ _ _ i j).trans ?_
  exact Finset.sum_congr rfl fun k _ => by rw [matT_apply, combBwdT_apply]

theorem tableW_lo (sf sb : FVec Ideal S1x128x128 .f32) (sc : FVec Ideal S1x128x384 .f32) (i j : Fin 128) (c : Fin 256) (hc : j.val = c.val) :
    tableW sf sb sc (ix2 i c) = bwdComp sb sc (ix2 i j) := by
  unfold tableW
  rw [truncf_apply]
  exact Cert.LibConcat2.read_first _ _ _ i c j hc

theorem tableW_hi (sf sb : FVec Ideal S1x128x128 .f32) (sc : FVec Ideal S1x128x384 .f32) (i j : Fin 128) (c : Fin 256) (hc : 128 + j.val = c.val) :
    tableW sf sb sc (ix2 i c) = fwdComp sf sc (ix2 i j) - bwdComp sb sc (ix2 i j) := by
  unfold tableW
  rw [truncf_apply]
  exact (Cert.LibConcat2.read_second _ _ _ i c j hc).trans (subf_apply _ _ _)

end Cert.KPrepReads

end
-- ==== Proof.RefReads2.lean ====
/-
  The reference's combine stages read at an entry: z is the 384-term product of the side-by-side row with row j of the
  combine weight plus the bias; the mean is (0 + the row sum) / 128; the variance the same of the squared centred
  row, over 128 − 0, under a comparison that holds; the next features are the normalised, scaled, shifted, clipped
  entry plus the carried entry.
-/
import proofs.«108119_j38019050504554_2_alg».proof.Proof.RefReads
import proofs.«108119_j38019050504554_2_alg».proof.Proof.LibRowOps
import Idealize.ShloMosaic.PureOps.Ideal.Laws
import Idealize.ShloMosaic.Lib.IdealHost

noncomputable section

namespace Cert.RefReads

open Idealize.ShloMosaic Idealize.ShloMosaic.ValueIdx Cert.ReferenceIdeal Cert.ReferenceIdeal.Gen Cert.ReferenceIdeal.RefRun
open scoped BigOperators

/-- A length-a vector broadcast to an a×1 column, at (i, u), is the vector at i. -/
theorem bcastCol_apply {α : Type} {a : ℕ} (v : (⟨1, ![a]⟩ : Shape).Idx → α) (h : (⟨1, ![a]⟩ : Shape).BroadcastsInDim ⟨2, ![a, 1]⟩ ![0])
    (i : Fin a) (u : Fin 1) : broadcastInDim ⟨2, ![a, 1]⟩ ![0] h v (ix2 i u) = v (ix1 i) := by
  refine broadcastInDim_apply _ h v _ _ ?_
  intro d; match d with
  | ⟨0, _⟩ =>
    show i.val = if a = 1 then 0 else i.val
    split
    · have := i.isLt; omega
    · rfl

/-- An a×1 column broadcast to a×b, at (i, j), is the column at (i, 0). -/
theorem bcastRowwise_apply {α : Type} {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i 0) := by
  refine broadcastInDim_apply _ h v _ _ ?_
  intro d; match d with
  | ⟨0, _⟩ =>
    show i.val = if a = 1 then 0 else i.val
    split
    · have := i.isLt; omega
    · rfl
  | ⟨1, _⟩ => rfl

/-- The host's sum over the columns of an R×D array from an initial value, at row n. -/
theorem hostRowSum_apply {R D : ℕ} (x : FVec Ideal ⟨2, ![R, D]⟩ .f32) (init : FVec Ideal ⟨0, ![]⟩ .f32)
    (h' : (⟨2, ![R, D]⟩ : Shape).ReducesTo [1] ⟨1, ![R]⟩) (h : (⟨2, ![R, D]⟩ : Shape).Reduces [1] ⟨1, ![R]⟩)
    (hu : 0 < (⟨0, ![]⟩ : Shape).numel) (n : Fin R) :
    Host.reduceAdd x init h' hu (ix1 n) = init (Shape.Idx.first hu) + ∑ k : Fin D, x (ix2 n k) := by
  refine (Ideal.hostReduceAdd_single h' h x _ (ix1 n)).trans ?_
  congr 1
  exact Finset.sum_congr rfl fun k _ => congrArg x (Cert.LibRowOps.lift_ix1 h n k)

theorem reduces_rows : (⟨2, ![50000, 128]⟩ : Shape).Reduces [1] ⟨1, ![50000]⟩ := by decide

/-- The side-by-side row of the three 128-column arrays. -/
def cat (hs af ab : FVec Ideal S50000x128 .f32) : FVec Ideal S50000x384 .f32 :=
  concatenate S50000x384 1 [⟨S50000x128, hs⟩, ⟨S50000x128, af⟩, ⟨S50000x128, ab⟩]
    concatenates_S50000x128_S50000x128_S50000x128_S50000x384_d1

/-- z at (n, j). -/
theorem z_apply (hs af ab : FVec Ideal S50000x128 .f32) (w : FVec Ideal S1x128x384 .f32) (b : FVec Ideal S1x128 .f32)
    (n : Fin 50000) (j : Fin 128) :
    z (F := Ideal) hs af ab w b (ix2 n j) = (∑ k : Fin 384, cat hs af ab (ix2 n k) * w (ix3 (0 : Fin 1) j k)) + b (ix2 0 j) := by
  unfold z
  rw [addf_apply, bias_apply b _ _ _ n j]
  congr 1
  refine (Cert.LibPlainDot.dotGeneral_apply _ rfl _ _ _ _ n j).trans ?_
  refine Finset.sum_congr rfl fun k _ => ?_
  rw [Cert.LibStacked.transpose2_apply, slab_apply, cat]

/-- The mean of row n. -/
theorem mu_apply (x : FVec Ideal S50000x128 .f32) (n : Fin 50000) :
    mu (F := Ideal) x (ix2 n 0) = Ideal.div (Ideal.ofBits .f32 0x00000000#32 + ∑ q : Fin 128, x (ix2 n q)) (Ideal.ofBits .f32 0x43000000#32) := by
  unfold mu
  rw [hostDivf_apply, bcastCol_apply, hostRowSum_apply x _ _ reduces_rows _ n]
  rfl

end Cert.RefReads

end
-- ==== Proof.BridgeDense.lean ====
/-
  The dense stages of the two programs are the same functions. With the prepared parameters read at their entries:
  the kernel's score column, self term and embedding are the reference's, entry by entry (the same sums in the same
  order — no finiteness is needed); an entry of the kernel's edge table is the sum over i of h(r,i) times the composed
  backward matrix (low half) or the composed forward minus backward matrix (high half).
-/
import proofs.«108119_j38019050504554_2_alg».proof.Proof.KPrepReads
import proofs.«108119_j38019050504554_2_alg».proof.Proof.RefReads2
import proofs.«108119_j38019050504554_2_alg».proof.Proof.KSpec
import Idealize.ShloMosaic.Lib.IdealHost

noncomputable section

namespace Cert.BridgeDense

open Idealize.ShloMosaic Idealize.ShloMosaic.ValueIdx Cert.KStage Cert.Math Cert.KPrepReads
open scoped BigOperators

local notation "R50" => (⟨2, ![50000, 128]⟩ : Shape)

/-- The kernel's score column is the reference's. -/
theorem scores_eq (h : FVec Ideal R50 .f32) (s5 : FVec Ideal ⟨3, ![1, 1, 128]⟩ .f32) (s6 : FVec Ideal ⟨2, ![1, 1]⟩ .f32) :
    Cert.Spec.scores h (scoreRow s5) (scoreOff s6) = Cert.ReferenceIdeal.RefRun.scores (F := Ideal) h s5 s6 := by
  funext i
  obtain ⟨n, u, rfl⟩ : ∃ (n : Fin 50000) (u : Fin 1), i = ix2 n u := ⟨i 0, i 1, eq_ix2 i⟩
  obtain rfl : u = 0 := Subsingleton.elim _ _
  rw [Cert.RefReads.scores_apply, scoreOff_eq]
  show (∑ k : Fin 128, h (ix2 n k) * scoreRow s5 (ix2 0 k)) + s6 (ix2 0 0) = _
  simp only [scoreRow_apply]

/-- The kernel's self term is the reference's. -/
theorem hself_eq (h : FVec Ideal R50 .f32) (s9 : FVec Ideal ⟨3, ![1, 128, 128]⟩ .f32) (s10 : FVec Ideal ⟨2, ![1, 128]⟩ .f32) :
    Cert.Spec.hself h (matT s9) (row s10) = Cert.ReferenceIdeal.RefRun.hself (F := Ideal) h s9 s10 := by
  funext i
  obtain ⟨n, q, rfl⟩ : ∃ (n : Fin 50000) (q : Fin 128), i = ix2 n q := ⟨i 0, i 1, eq_ix2 i⟩
  rw [Cert.RefReads.hself_apply, row_eq]
  show (∑ k : Fin 128, h (ix2 n k) * matT s9 (ix2 k q)) + s10 (ix2 0 q) = _
  simp only [matT_apply]

/-- An entry of the low half of the kernel's edge table. -/
theorem table_lo (h : FVec Ideal R50 .f32) (s7 s8 : FVec Ideal ⟨3, ![1, 128, 128]⟩ .f32) (s11 : FVec Ideal ⟨3, ![1, 128, 384]⟩ .f32)
    (r : Fin 50000) (j : Fin 128) (c : Fin 256) (hc : j.val = c.val) :
    Cert.Spec.table h (tableW s7 s8 s11) (ix2 r c)
      = ∑ i : Fin 128, h (ix2 r i) * (∑ k : Fin 128, s8 (ix3 (0 : Fin 1) k i) * s11 (ix3 (0 : Fin 1) j (hi k))) := by
  show (∑ i : Fin 128, h (ix2 r i) * tableW s7 s8 s11 (ix2 i c)) = _
  exact Finset.sum_congr rfl fun i _ => by rw [tableW_lo s7 s8 s11 i j c hc, bwdComp_apply]

/-- An entry of the high half of the kernel's edge table. -/
theorem table_hi (h : FVec Ideal R50 .f32) (s7 s8 : FVec Ideal ⟨3, ![1, 128, 128]⟩ .f32) (s11 : FVec Ideal ⟨3, ![1, 128, 384]⟩ .f32)
    (r : Fin 50000) (j : Fin 128) (c : Fin 256) (hc : 128 + j.val = c.val) :
    Cert.Spec.table h (tableW s7 s8 s11) (ix2 r c)
      = ∑ i : Fin 128, h (ix2 r i) * ((∑ k : Fin 128, s7 (ix3 (0 : Fin 1) k i) * s11 (ix3 (0 : Fin 1) j (mid k)))
          - (∑ k : Fin 128, s8 (ix3 (0 : Fin 1) k i) * s11 (ix3 (0 : Fin 1) j (hi k)))) := by
  show (∑ i : Fin 128, h (ix2 r i) * tableW s7 s8 s11 (ix2 i c)) = _
  exact Finset.sum_congr rfl fun i _ => by rw [tableW_hi s7 s8 s11 i j c hc, fwdComp_apply, bwdComp_apply]

/-- The kernel's embedding is the reference's. -/
theorem embed_eq (x : FVec Ideal R50 .f32) (a3 : FVec Ideal ⟨2, ![128, 128]⟩ .f32) (a4 : FVec Ideal ⟨1, ![128]⟩ .f32) :
    Cert.Spec.embed x (wembT a3) (biasRow a4) = Cert.ReferenceIdeal.RefRun.emb (F := Ideal) x a3 a4 := by
  funext i
  obtain ⟨n, q, rfl⟩ : ∃ (n : Fin 50000) (q : Fin 128), i = ix2 n q := ⟨i 0, i 1, eq_ix2 i⟩
  unfold Cert.ReferenceIdeal.RefRun.emb
  rw [maximumf_apply, addf_apply, Cert.Row.bcast_row_apply, broadcastInDim_scalar_apply]
  show max ((∑ k : Fin 128, x (ix2 n k) * wembT a3 (ix2 k q)) + biasRow a4 (ix2 0 q)) 0 = _
  congr 1
  · congr 1
    · refine Eq.trans ?_ (Cert.LibPlainDot.dotGeneral_apply _ rfl _ _ x _ n q).symm
      refine Finset.sum_congr rfl fun k _ => ?_
      unfold wembT
      rfl
    · unfold biasRow
      exact congrFun (Cert.Row.shapeCast_row a4 _) (ix2 0 q)
  · exact Ideal.ofBits_zero_f32.symm

end Cert.BridgeDense

end
-- ==== Proof.LibConcat3.lean ====
/-
  Three arrays side by side, read at one entry.

  Three arrays with the same number R of rows and with A, B and C columns, laid side by side along the column axis,
  make one array of R rows and T columns (T = A + B + C is part of the hypothesis that the pieces fit). Its entry at
  row r and column c is the first array's entry (r, c) when c < A, the second array's entry (r, c - A) when
  A ≤ c < A + B, and the third array's entry (r, c - A - B) from there on. Each case is stated with the column inside
  the piece given as an index of its own and one equation tying it to c, so that no case split on c is made here.
-/
import Idealize.ShloMosaic.Lib.Pipeline.Value
import Idealize.ShloMosaic.Lib.ValueIdx

noncomputable section

namespace Cert.LibConcat3

open Idealize.ShloMosaic Idealize.ShloMosaic.ValueIdx

variable {α : Type} {R A B C T : ℕ}

/-- A column inside the first piece: the side-by-side array reads the first piece there. -/
theorem read_first (x : (⟨2, ![R, A]⟩ : Shape).Idx → α) (y : (⟨2, ![R, B]⟩ : Shape).Idx → α)
    (z : (⟨2, ![R, C]⟩ : Shape).Idx → α)
    (h : Shape.Concatenates [⟨2, ![R, A]⟩, ⟨2, ![R, B]⟩, ⟨2, ![R, C]⟩] ⟨2, ![R, T]⟩ 1)
    (r : Fin R) (c : Fin T) (a : Fin A) (hc : a.val = c.val) :
    concatenate ⟨2, ![R, T]⟩ 1 [⟨⟨2, ![R, A]⟩, x⟩, ⟨⟨2, ![R, B]⟩, y⟩, ⟨⟨2, ![R, C]⟩, z⟩] h (ix2 r c) = x (ix2 r a) :=
  concatenate_apply_piece 1 [⟨⟨2, ![R, A]⟩, x⟩, ⟨⟨2, ![R, B]⟩, y⟩, ⟨⟨2, ![R, C]⟩, z⟩] h (ix2 r c) 0 (by simp) _ x rfl rfl 0 rfl (ix2 r a)
    (fun b hb => by
      match b with
      | ⟨0, _⟩ => rfl
      | ⟨1, _⟩ => exact absurd rfl hb)
    (by show 0 + a.val = c.val; omega)

/-- A column inside the second piece, A columns in: the side-by-side array reads the second piece there. -/
theorem read_second (x : (⟨2, ![R, A]⟩ : Shape).Idx → α) (y : (⟨2, ![R, B]⟩ : Shape).Idx → α)
    (z : (⟨2, ![R, C]⟩ : Shape).Idx → α)
    (h : Shape.Concatenates [⟨2, ![R, A]⟩, ⟨2, ![R, B]⟩, ⟨2, ![R, C]⟩] ⟨2, ![R, T]⟩ 1)
    (r : Fin R) (c : Fin T) (b : Fin B) (hc : A + b.val = c.val) :
    concatenate ⟨2, ![R, T]⟩ 1 [⟨⟨2, ![R, A]⟩, x⟩, ⟨⟨2, ![R, B]⟩, y⟩, ⟨⟨2, ![R, C]⟩, z⟩] h (ix2 r c) = y (ix2 r b) :=
  concatenate_apply_piece 1 [⟨⟨2, ![R, A]⟩, x⟩, ⟨⟨2, ![R, B]⟩, y⟩, ⟨⟨2, ![R, C]⟩, z⟩] h (ix2 r c) 1 (by simp) _ y rfl rfl A rfl (ix2 r b)
    (fun d hd => by
      match d with
      | ⟨0, _⟩ => rfl
      | ⟨1, _⟩ => exact absurd rfl hd)
    (by show A + b.val = c.val; exact hc)

/-- A column inside the third piece, A + B columns in: the side-by-side array reads the third piece there. -/
theorem read_third (x : (⟨2, ![R, A]⟩ : Shape).Idx → α) (y : (⟨2, ![R, B]⟩ : Shape).Idx → α)
    (z : (⟨2, ![R, C]⟩ : Shape).Idx → α)
    (h : Shape.Concatenates [⟨2, ![R, A]⟩, ⟨2, ![R, B]⟩, ⟨2, ![R, C]⟩] ⟨2, ![R, T]⟩ 1)
    (r : Fin R) (c : Fin T) (e : Fin C) (hc : A + B + e.val = c.val) :
    concatenate ⟨2, ![R, T]⟩ 1 [⟨⟨2, ![R, A]⟩, x⟩, ⟨⟨2, ![R, B]⟩, y⟩, ⟨⟨2, ![R, C]⟩, z⟩] h (ix2 r c) = z (ix2 r e) :=
  concatenate_apply_piece 1 [⟨⟨2, ![R, A]⟩, x⟩, ⟨⟨2, ![R, B]⟩, y⟩, ⟨⟨2, ![R, C]⟩, z⟩] h (ix2 r c) 2 (by simp) _ z rfl rfl (A + B) rfl (ix2 r e)
    (fun d hd => by
      match d with
      | ⟨0, _⟩ => rfl
      | ⟨1, _⟩ => exact absurd rfl hd)
    (by show A + B + e.val = c.val; exact hc)

end Cert.LibConcat3

end
-- ==== Proof.ZBridge.lean ====
/-
  The pre-normalisation value z of a layer is the same in the two programs, at every entry, when all data are real.
  The kernel adds, to the self term's product with the first 128 columns of the combine weight, one aggregate of
  messages t_lo(src e) + α(e)·t_hi(src e), where the table t = h·[B, F − B] holds the composed backward matrix and the
  composed forward minus backward matrix; the reference multiplies the side-by-side row [self, Σ α·fwd, Σ (1−α)·bwd]
  with the whole combine weight. The two agree by linearity of the sums over edges and over coordinates — which is
  where real (finite) entries are needed. The aggregates enter as hypotheses: each is 0 + the sum over the edges S
  landing on the node, with source row rowS e and gate α e.
-/
import proofs.«108119_j38019050504554_2_alg».proof.Proof.BridgeDense
import proofs.«108119_j38019050504554_2_alg».proof.Proof.LibConcat3
import proofs.«108119_j38019050504554_2_alg».proof.Proof.MathLayer
import proofs.«108119_j38019050504554_2_alg».proof.Proof.MathReal
import proofs.«108119_j38019050504554_2_alg».proof.Proof.LibRealEntries

noncomputable section

namespace Cert.ZBridge

open Idealize.ShloMosaic Idealize.ShloMosaic.ValueIdx Cert.KStage Cert.Math Cert.KPrepReads Cert.Lib.RealSums Cert.LibRealEntries
open scoped BigOperators

/-- The shape of the node features. -/
abbrev R50 : Shape := ⟨2, ![50000, 128]⟩

theorem z_eq {ι : Type} (S : Finset ι) (rowS : ι → Fin 50000) (α : ι → EReal)
    (h : FVec Ideal R50 .f32) (s7 s8 s9 : FVec Ideal ⟨3, ![1, 128, 128]⟩ .f32) (s10 s12 : FVec Ideal ⟨2, ![1, 128]⟩ .f32)
    (s11 : FVec Ideal ⟨3, ![1, 128, 384]⟩ .f32) (aggK aF aB : FVec Ideal R50 .f32) (n : Fin 50000) (j : Fin 128)
    (hh : AllReal h) (h7 : AllReal s7) (h8 : AllReal s8) (h9 : AllReal s9) (h10 : AllReal s10) (h11 : AllReal s11) (hα : ∀ e, IsReal (α e))
    (haggK : aggK (ix2 n j) = Ideal.ofBits FTy.f32 0x00000000#32 + ∑ e ∈ S,
        (Cert.Spec.table h (tableW s7 s8 s11) (ix2 (rowS e) (⟨j.val, by omega⟩ : Fin 256))
          + α e * Cert.Spec.table h (tableW s7 s8 s11) (ix2 (rowS e) (⟨128 + j.val, by omega⟩ : Fin 256))))
    (haggF : ∀ k : Fin 128, aF (ix2 n k) = Ideal.ofBits FTy.f32 0x00000000#32 + ∑ e ∈ S, Cert.ReferenceIdeal.RefRun.hfwd (F := Ideal) h s7 (ix2 (rowS e) k) * α e)
    (haggB : ∀ k : Fin 128, aB (ix2 n k) = Ideal.ofBits FTy.f32 0x00000000#32 + ∑ e ∈ S, Cert.ReferenceIdeal.RefRun.hbwd (F := Ideal) h s8 (ix2 (rowS e) k) * (Ideal.ofBits FTy.f32 0x3F800000#32 - α e)) :
    Cert.Spec.zE (Cert.Spec.hself h (matT s9) (row s10)) (combSelfT s11) aggK (row s12) n j
      = Cert.ReferenceIdeal.RefRun.z (F := Ideal) (Cert.ReferenceIdeal.RefRun.hself (F := Ideal) h s9 s10) aF aB s11 s12 (ix2 n j) := by
  rw [Cert.RefReads.z_apply, Cert.BridgeDense.hself_eq, row_eq]
  unfold Cert.Spec.zE
  congr 1
  have hs : ∀ k : Fin 128, IsReal (Cert.ReferenceIdeal.RefRun.hself (F := Ideal) h s9 s10 (ix2 n k)) := fun k => by
    rw [Cert.RefReads.hself_apply]
    exact IsReal.add (IsReal.sum _ _ fun i _ => IsReal.mul (hh _) (h9 _)) (h10 _)
  have key := Cert.Math.layer S (fun e i => h (ix2 (rowS e) i)) (fun k i => s7 (ix3 (0 : Fin 1) k i)) (fun k i => s8 (ix3 (0 : Fin 1) k i))
    (fun k => s11 (ix3 (0 : Fin 1) j k)) (fun k => Cert.ReferenceIdeal.RefRun.hself (F := Ideal) h s9 s10 (ix2 n k)) α
    (fun k => Cert.RefReads.cat (Cert.ReferenceIdeal.RefRun.hself (F := Ideal) h s9 s10) aF aB (ix2 n k))
    (fun e i => hh _) (fun k i => h7 _) (fun k i => h8 _) (fun k => h11 _) hs hα
    (fun k => Cert.LibConcat3.read_first _ _ _ _ n (lo k) k rfl)
    (fun k => by
      rw [Cert.RefReads.cat, Cert.LibConcat3.read_second _ _ _ _ n (mid k) k rfl, haggF k, Ideal.ofBits_zero_f32]
      simp only [Cert.RefReads.hfwd_apply])
    (fun k => by
      rw [Cert.RefReads.cat, Cert.LibConcat3.read_third _ _ _ _ n (hi k) k rfl, haggB k, Ideal.ofBits_zero_f32, Cert.Math.ofBits_one]
      simp only [Cert.RefReads.hbwd_apply])
  rw [haggK, Ideal.ofBits_zero_f32]
  simp only [fun r => Cert.BridgeDense.table_lo h s7 s8 s11 r j (⟨j.val, by omega⟩ : Fin 256) rfl,
    fun r => Cert.BridgeDense.table_hi h s7 s8 s11 r j (⟨128 + j.val, by omega⟩ : Fin 256) rfl]
  refine Eq.trans ?_ key
  congr 1
  show (∑ k : Fin 128, Cert.ReferenceIdeal.RefRun.hself (F := Ideal) h s9 s10 (ix2 n k) * combSelfT s11 (ix2 k j)) = _
  simp only [combSelfT_apply]

end Cert.ZBridge

end
-- ==== Proof.RefNorm.lean ====
/-
  The reference's layer normalisation read at an entry, on the extended reals.

  For a row z of 128 entries the reference computes the mean μ = (0 + Σ z)/128, the variance
  v = (0 + Σ (z − μ)²)/(128 − 0) — guarded by the comparison 128 − 0 > 0, which holds, so the guard always takes the
  quotient — and the entry max ((z − μ) · rsqrt (v + ε) · g + b) 0 + h.  A sum started from the zero word is the sum;
  the correction subtracted from 128 is the integer 0 read as the real 0, so the divisor is 128.  Hence each entry is
  the specification's normalised entry of the row.  No finiteness is needed: the same operations are applied to the
  same values on both sides.
-/
import proofs.«108119_j38019050504554_2_alg».proof.Proof.RefReads
import proofs.«108119_j38019050504554_2_alg».proof.Proof.LibRowOps
import Idealize.ShloMosaic.PureOps.Ideal.Laws
import proofs.«108119_j38019050504554_2_alg».proof.Proof.KSpec
import proofs.«108119_j38019050504554_2_alg».proof.Proof.MathReal
import Idealize.ShloMosaic.Lib.IdealHost

noncomputable section

namespace Cert.RefReads

open Idealize.ShloMosaic Idealize.ShloMosaic.ValueIdx Cert.ReferenceIdeal Cert.ReferenceIdeal.Gen Cert.ReferenceIdeal.RefRun
open scoped BigOperators

/-- The host's reciprocal square root read at an entry. -/
theorem hostRsqrt_apply {s : Shape} {φ : FTy} (x : FVec Ideal s φ) (i : s.Idx) : Host.rsqrt x i = Ideal.rsqrt (x i) := rfl

/-- A length-a vector stood up as an a×1 column, at (i, u), is the vector at i. -/
theorem colOfVec_apply {α : Type} {a : ℕ} (v : (⟨1, ![a]⟩ : Shape).Idx → α) (h : (⟨1, ![a]⟩ : Shape).BroadcastsInDim ⟨2, ![a, 1]⟩ ![0])
    (i : Fin a) (u : Fin 1) : broadcastInDim ⟨2, ![a, 1]⟩ ![0] h v (ix2 i u) = v (ix1 i) := by
  refine broadcastInDim_apply _ h v _ _ ?_
  intro d; match d with
  | ⟨0, _⟩ =>
    show i.val = if a = 1 then 0 else i.val
    split
    · have := i.isLt; omega
    · rfl

/-- An a×1 column spread over b columns, at (i, j), is the column at (i, 0). -/
theorem spreadCol_apply {α : Type} {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i 0) := by
  refine broadcastInDim_apply _ h v _ _ ?_
  intro d; match d with
  | ⟨0, _⟩ =>
    show i.val = if a = 1 then 0 else i.val
    split
    · have := i.isLt; omega
    · rfl
  | ⟨1, _⟩ => rfl

/-- The host's sum over the columns of an R×D array from an initial value, at row n: the initial value plus the sum
    of the row. -/
theorem hostSumRow_apply {R D : ℕ} (x : FVec Ideal ⟨2, ![R, D]⟩ .f32) (init : FVec Ideal ⟨0, ![]⟩ .f32)
    (h' : (⟨2, ![R, D]⟩ : Shape).ReducesTo [1] ⟨1, ![R]⟩) (h : (⟨2, ![R, D]⟩ : Shape).Reduces [1] ⟨1, ![R]⟩)
    (hu : 0 < (⟨0, ![]⟩ : Shape).numel) (n : Fin R) :
    Host.reduceAdd x init h' hu (ix1 n) = init (Shape.Idx.first hu) + ∑ k : Fin D, x (ix2 n k) := by
  refine (Ideal.hostReduceAdd_single h' h x _ (ix1 n)).trans ?_
  congr 1
  exact Finset.sum_congr rfl fun k _ => congrArg x (Cert.LibRowOps.lift_ix1 h n k)

/-- Summing a 50000×128 array over its columns leaves one entry per row. -/
theorem rows_reduce : (⟨2, ![50000, 128]⟩ : Shape).Reduces [1] ⟨1, ![50000]⟩ := by
  obtain ⟨h1, h2⟩ := reducesTo_S50000x128_S50000_d1
  exact ⟨h1, Nat.one_pos, h2⟩

/-- The mean of row n: zero plus the row's sum, over the word of 128. -/
theorem mu_entry (x : FVec Ideal S50000x128 .f32) (n : Fin 50000) :
    mu (F := Ideal) x (ix2 n 0)
      = Ideal.div (Ideal.ofBits .f32 0x00000000#32 + ∑ q : Fin 128, x (ix2 n q)) (Ideal.ofBits .f32 0x43000000#32) := by
  unfold mu
  rw [hostDivf_apply, broadcastInDim_scalar_apply, constant_apply, colOfVec_apply, hostSumRow_apply x _ _ rows_reduce _ n,
    constant_apply]

/-- The mean of row n is the specification's mean of the row: the sum started from the zero word is the sum. -/
theorem mu_norm (x : FVec Ideal S50000x128 .f32) (n : Fin 50000) :
    mu (F := Ideal) x (ix2 n 0) = Cert.Spec.mean128 (fun j => x (ix2 n j)) := by
  rw [mu_entry, Ideal.ofBits_zero_f32, zero_add]
  rfl

/-- The variance's divisor is the real 128: the word of 128 minus the integer 0 read as a real. -/
theorem varDen_eq (i : S_.Idx) : varDen (F := Ideal) i = Ideal.ofBits .f32 0x43000000#32 := by
  unfold varDen
  rw [subf_apply, constant_apply, sitofp_apply]
  have h0 : FloatOps.sitofp (F := Ideal) .f32 ((constantI S_ 32 0#32 : IVec S_ 32) i) = (0 : EReal) := by
    show (((0#32 : BitVec 32).toInt : ℝ) : EReal) = 0
    simp
  rw [h0, sub_zero]

/-- The guard of the variance holds: 128 is greater than 0. -/
theorem varDen_pos_bit (i : S_.Idx) :
    cmpf (F := Ideal) .ogt (varDen (F := Ideal)) (constant S_ .f32 0x00000000#32) i = 1#1 := by
  rw [cmpf_apply, varDen_eq, constant_apply, Ideal.ofBits_zero_f32, Cert.Math.ofBits_128]
  show Ideal.cmp .ogt ((128 : ℝ) : EReal) 0 = 1#1
  have h : (0 : EReal) < ((128 : ℝ) : EReal) := by exact_mod_cast (by norm_num : (0 : ℝ) < 128)
  simp [Ideal.cmp, h]

/-- The variance of row n is the specification's mean of the squared centred row. -/
theorem var_apply (x : FVec Ideal S50000x128 .f32) (n : Fin 50000) :
    var (F := Ideal) x (ix2 n 0)
      = Cert.Spec.mean128 (fun j => (x (ix2 n j) - Cert.Spec.mean128 (fun k => x (ix2 n k)))
          * (x (ix2 n j) - Cert.Spec.mean128 (fun k => x (ix2 n k)))) := by
  unfold var
  rw [select_apply, broadcastInDim_scalar_apply, varDen_pos_bit, select_one, hostDivf_apply, broadcastInDim_scalar_apply,
    varDen_eq, colOfVec_apply, hostSumRow_apply _ _ _ rows_reduce _ n, constant_apply, Ideal.ofBits_zero_f32, zero_add]
  unfold Cert.Spec.mean128
  refine congrArg (fun s => Ideal.div s (Ideal.ofBits .f32 0x43000000#32)) ?_
  refine Finset.sum_congr rfl fun k _ => ?_
  rw [mulf_apply, subf_apply, spreadCol_apply, mu_norm]
  rfl

/-- The layer's result at (n, q) is the specification's normalised entry of row n at column q. -/
theorem hnext_norm (x h : FVec Ideal S50000x128 .f32) (g b : FVec Ideal S1x128 .f32) (n : Fin 50000) (q : Fin 128) :
    hnext (F := Ideal) x (mu x) (var x) g b h (ix2 n q)
      = Cert.Spec.normE (fun j => x (ix2 n j)) (fun j => g (ix2 0 j)) (fun j => b (ix2 0 j)) (h (ix2 n q)) q := by
  unfold hnext
  rw [addf_apply, maximumf_apply, addf_apply, mulf_apply, mulf_apply, subf_apply, bias_apply, bias_apply,
    spreadCol_apply, spreadCol_apply, hostRsqrt_apply, addf_apply, broadcastInDim_scalar_apply, broadcastInDim_scalar_apply,
    constant_apply, constant_apply, mu_norm, var_apply, Ideal.ofBits_zero_f32]
  rfl

end Cert.RefReads

end
-- ==== Proof.LibRowGatherScatter.lean ====
/-
  The host's row gather and accumulating row scatter, each read at one entry, for any sizes.

  * The row gather `x[idx]` of an `[N, D]` array at `E` row indices (start indices `[E, 1]`, the operand's axis 0
    collapsed, slices `[1, D]`): entry `(e, q)` of the result is the operand's entry `(r, q)`, where `r` is the start
    word `idx[e, 0]` read as a signed integer and clamped into `[0, N − 1]`. The row `r` depends on the start word
    only: not on `D`, not on the operand.
  * The accumulating row scatter of `E` rows of width `D` into an `[N, D]` array (scatter indices `[E, 1]`, the
    operand's axis 0 inserted, update windows `[1, D]`), over the extended reals: entry `(n, q)` of the result is the
    operand's entry plus the sum of the updates' entries `(e, q)` over the rows `e` whose index word `idx[e, 0]`,
    read as a signed integer and NOT clamped, is `n`. The set of rows `e` landing on `n` depends on the index words
    only: not on `D`, the column, the operand or the updates.
-/
import Idealize.ShloMosaic.Lib.ValueIdx

noncomputable section

open scoped BigOperators

namespace Cert.Lib.RowGatherScatter

open Idealize.ShloMosaic Idealize.ShloMosaic.ValueIdx

/-! ## The row gather -/

/-- The dimension numbers of the row gather: operand `[N, D]`, start indices `[E, 1]`, result `[E, D]`; the result's
    axis 1 is the offset axis, the operand's axis 0 is collapsed and is the one the start index names, slices are
    `[1, D]`. Their conditions `wf` are decided on literal shapes. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row the gather reads for the start word `b`: `b` read as a signed integer and clamped into `[0, N − 1]`
    (a negative word reads row 0, a word beyond the last row reads the last row). -/
def srcRow (N : ℕ) (hN : 0 < N) {w : ℕ} (b : BitVec w) : Fin N := ⟨min b.toInt.toNat (N - 1), by omega⟩

/-- THE ROW GATHER READ AT `(e, q)`: the operand at row `srcRow (idx[e, 0])`, column `q`. -/
theorem gather_rows_apply {N E D w : ℕ} (hN : 0 < N)
    (wf : GatherDims.WF ⟨2, ![N, D]⟩ ⟨2, ![E, 1]⟩ ⟨2, ![E, D]⟩ [1] [0] [] [0] [] 1 ![1, D]) {α : Type}
    (x : (⟨2, ![N, D]⟩ : Shape).Idx → α) (idx : IVec ⟨2, ![E, 1]⟩ w) (e : Fin E) (q : Fin D) :
    Host.gather (rowGather N E D wf) x idx (ix2 e q) = x (ix2 (srcRow N hN (idx (ix2 e 0))) q) := by
  -- axis 0: collapsed, so no offset; the start is the clamped start word
  have h0 : (rowGather N E D wf).start (ix2 e q) idx 0 + (rowGather N E D wf).batchCoord (ix2 e q) 0
      + (rowGather N E D wf).offCoord (ix2 e q) 0 = (srcRow N hN (idx (ix2 e 0))).val := by
    rw [GatherDims.batchCoord_eq_zero _ _ _ List.not_mem_nil, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e q) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  -- axis 1: not named by the start index, so the start is 0; the offset is the column
  have h1 : (rowGather N E D wf).start (ix2 e q) idx 1 + (rowGather N E D wf).batchCoord (ix2 e q) 1
      + (rowGather N E D wf).offCoord (ix2 e q) 1 = q.val := by
    rw [GatherDims.batchCoord_eq_zero _ _ _ List.not_mem_nil]
    have hs : (rowGather N E D wf).start (ix2 e q) idx 1 = 0 := by
      unfold GatherDims.start
      exact dif_neg (fun h => absurd (List.mem_singleton.mp h) (show ¬ (1 : Fin 2) = 0 by decide))
    have ho : (rowGather N E D wf).offCoord (ix2 e q) 1 = q.val := by
      unfold GatherDims.offCoord
      rw [dif_pos ((GatherDims.mem_sKept _ _).mpr
        ⟨fun h => absurd (List.mem_singleton.mp h) (show ¬ (1 : Fin 2) = 0 by decide), List.not_mem_nil⟩)]
      rfl
    rw [hs, ho]; omega
  unfold Host.gather
  congr 1
  funext a
  refine Fin.ext ?_
  match a with
  | ⟨0, _⟩ => exact h0
  | ⟨1, _⟩ => exact h1

/-! ## The accumulating row scatter -/

/-- An update's result index is a given operand index exactly when, on every operand axis, the start (read signed,
    not clamped) plus the window coordinate is that index's coordinate: in particular the sum is then inside the
    operand on every axis, which is the condition for the update to land at all. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · rintro rfl a
      have := h a
      show d.start j idx a + (d.window j a : ℤ) = (((d.start j idx a + (d.window j a : ℤ)).toNat : ℕ) : ℤ)
      omega
    · intro h'
      funext a
      refine Fin.ext ?_
      have := h' a
      show (d.start j idx a + (d.window j a : ℤ)).toNat = (i a).val
      omega
  · rename_i h
    constructor
    · intro h'; cases h'
    · intro h'
      exfalso; apply h; intro a
      have := h' a
      have := (i a).isLt
      constructor <;> omega

/-- The dimension numbers of the accumulating row scatter: operand `[N, D]`, scatter indices `[E, 1]`, updates
    `[E, D]`; the updates' axis 1 is the window axis, the operand's axis 0 is inserted and is the one the scatter
    index names. Their conditions `wf` are decided on literal shapes. -/
abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section RowScatter
variable {N E D w : ℕ} (wf : ScatterDims.WF ⟨2, ![N, D]⟩ ⟨2, ![E, 1]⟩ ⟨2, ![E, D]⟩ [1] [0] [0] 1)
  (idx : IVec ⟨2, ![E, 1]⟩ w) (e : Fin E) (q' : Fin D)

/-- On the operand's axis 0 the start of update `(e, q')` is the index word `idx[e, 0]` read signed … -/
theorem rowScatter_start_row : (rowScatter N E D wf).start (ix2 e q') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e q') ⟨List.idxOf (0 : Fin 2)
      (rowScatter N E D wf).scatterDimsToOperandDims, List.idxOf_lt_length_iff.2 (List.mem_singleton.mpr rfl)⟩
      = ix2 e 0 := by
    funext b; refine Fin.ext ?_
    match b with
    | ⟨0, _⟩ => rfl
    | ⟨1, _⟩ => rfl
  rw [hsi]

/-- … and on axis 1, which the scatter index does not name, it is 0. -/
theorem rowScatter_start_col : (rowScatter N E D wf).start (ix2 e q') idx 1 = 0 := by
  unfold ScatterDims.start
  exact dif_neg (fun h => absurd (List.mem_singleton.mp h) (show ¬ (1 : Fin 2) = 0 by decide))

/-- The window coordinate of update `(e, q')` is 0 on the inserted axis 0 … -/
theorem rowScatter_window_row : (rowScatter N E D wf).window (ix2 e q') 0 = 0 := by
  unfold ScatterDims.window
  refine dif_neg (fun h => ?_)
  have h2 := of_decide_eq_true (List.mem_filter.mp h).2
  exact h2 (List.mem_singleton.mpr rfl)

/-- … and the update's column `q'` on axis 1. -/
theorem rowScatter_window_col : (rowScatter N E D wf).window (ix2 e q') 1 = q'.val := by
  unfold ScatterDims.window
  rw [dif_pos (show (1 : Fin 2) ∈ (rowScatter N E D wf).sKept from List.mem_filter.mpr ⟨List.mem_finRange _,
    decide_eq_true (fun h => absurd (List.mem_singleton.mp h) (show ¬ (1 : Fin 2) = 0 by decide))⟩)]
  rfl

/-- Update `(e, q')` lands on the operand's entry `(n, q)` exactly when the index word `idx[e, 0]`, read signed, is
    `n` and the columns agree. -/
theorem rowScatter_resultIdx?_iff (n : Fin N) (q : Fin D) :
    (rowScatter N E D wf).resultIdx? (ix2 e q') idx = some (ix2 n q)
      ↔ (idx (ix2 e 0)).toInt = (n.val : ℤ) ∧ q' = q := by
  rw [resultIdx?_eq_some_iff]
  constructor
  · intro h
    have h0 := h 0
    have h1 := h 1
    rw [rowScatter_start_row, rowScatter_window_row] at h0
    rw [rowScatter_start_col, rowScatter_window_col] at h1
    refine ⟨?_, Fin.ext ?_⟩
    · have : ((ix2 n q : (⟨2, ![N, D]⟩ : Shape).Idx) 0).val = n.val := rfl
      omega
    · have : ((ix2 n q : (⟨2, ![N, D]⟩ : Shape).Idx) 1).val = q.val := rfl
      omega
  · rintro ⟨hn, rfl⟩ a
    match a with
    | ⟨0, _⟩ =>
      show (rowScatter N E D wf).start (ix2 e q') idx 0 + ((rowScatter N E D wf).window (ix2 e q') 0 : ℤ) = (n.val : ℤ)
      rw [rowScatter_start_row, rowScatter_window_row, hn]; simp
    | ⟨1, _⟩ =>
      show (rowScatter N E D wf).start (ix2 e q') idx 1 + ((rowScatter N E D wf).window (ix2 e q') 1 : ℤ) = (q'.val : ℤ)
      rw [rowScatter_start_col, rowScatter_window_col]; simp

end RowScatter

/-- THE ACCUMULATING ROW SCATTER READ AT `(n, q)`: the operand's entry plus the sum, over the update rows `e` whose
    index word `idx[e, 0]` read signed is `n`, of the updates' entries `(e, q)`. -/
theorem scatter_rows_apply {N E D w : ℕ} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w)
    (upd : (⟨2, ![E, D]⟩ : Shape).Idx → EReal) (n : Fin N) (q : Fin D) :
    Ideal.hostScatterAdd (rowScatter N E D wf) x idx upd (ix2 n q)
      = x (ix2 n q) + ∑ e ∈ Finset.univ.filter (fun e : Fin E => (idx (ix2 e 0)).toInt = (n.val : ℤ)), upd (ix2 e q) := by
  unfold Ideal.hostScatterAdd
  -- the updates landing on (n, q) are the entries (e, q) of the rows e landing on n
  have himg : (Finset.univ.filter fun j => (rowScatter N E D wf).resultIdx? j idx = some (ix2 n q))
      = (Finset.univ.filter fun e : Fin E => (idx (ix2 e 0)).toInt = (n.val : ℤ)).image (fun e => ix2 e q) := by
    ext j
    obtain ⟨e, q', rfl⟩ : ∃ e q', j = ix2 e q' := ⟨j 0, j 1, eq_ix2 j⟩
    simp only [Finset.mem_filter, Finset.mem_univ, true_and, Finset.mem_image, rowScatter_resultIdx?_iff]
    constructor
    · rintro ⟨h, rfl⟩; exact ⟨e, h, rfl⟩
    · rintro ⟨e', h, heq⟩
      have h0 : e' = e := congrFun heq 0
      have h1 : q = q' := congrFun heq 1
      subst h0; exact ⟨h, h1.symm⟩
  rw [himg, Finset.sum_image (fun a _ b _ hab => (congrFun hab 0 : a = b))]

end Cert.Lib.RowGatherScatter

end
-- ==== Proof.EdgeIdx.lean ====
/-
  The edges of the graph read through their index columns, at the sizes of this layer stack: 625000 edges, 50000 nodes.

  An index column holds one 32-bit word per edge. A row gather along the column reads, for edge e, the row `rowOf idx e`
  of its operand: the word read signed and clamped into the node range. An accumulating row scatter along the column
  adds, into node n, the update rows of the edges `lands idx n`: those whose word, read signed, is n. Both depend on
  the column only. The gather and the scatter are then read at an entry in these terms, together with the two
  broadcasts that surround them: a scalar to a whole array and a one-column array across the columns.
-/
import proofs.«108119_j38019050504554_2_alg».proof.Proof.LibRowGatherScatter
import Idealize.ShloMosaic.PureOps.Ideal
import Idealize.ShloMosaic.Lib.IdealHost
import Idealize.ShloMosaic.Lib.Pipeline.Value
import Idealize.ShloMosaic.Lib.ValueIdx

noncomputable section

open scoped BigOperators

namespace Cert.EdgeReads

open Idealize.ShloMosaic Idealize.ShloMosaic.ValueIdx Cert.Lib.RowGatherScatter

/-- The node whose row a gather along the index column reads for edge e. -/
def rowOf (idx : IVec ⟨2, ![625000, 1]⟩ 32) (e : Fin 625000) : Fin 50000 :=
  srcRow 50000 (by decide) (idx (ix2 e 0))

/-- The edges whose update row a scatter along the index column adds into node n. -/
def lands (idx : IVec ⟨2, ![625000, 1]⟩ 32) (n : Fin 50000) : Finset (Fin 625000) :=
  Finset.univ.filter (fun e => (idx (ix2 e 0)).toInt = (n.val : ℤ))

/-- The row gather at (e, q) is the operand at (rowOf idx e, q). -/
theorem gather_at {D : ℕ}
    (wf : GatherDims.WF ⟨2, ![50000, D]⟩ ⟨2, ![625000, 1]⟩ ⟨2, ![625000, D]⟩ [1] [0] [] [0] [] 1 ![1, D]) {α : Type}
    (x : (⟨2, ![50000, D]⟩ : Shape).Idx → α) (idx : IVec ⟨2, ![625000, 1]⟩ 32) (e : Fin 625000) (q : Fin D) :
    Host.gather (rowGather 50000 625000 D wf) x idx (ix2 e q) = x (ix2 (rowOf idx e) q) :=
  gather_rows_apply (by decide) wf x idx e q

/-- The accumulating row scatter at (n, q) is the operand's entry plus the sum over the edges landing on n of the
    update entries (e, q). -/
theorem scatter_at {D : ℕ} (wf : ScatterDims.WF ⟨2, ![50000, D]⟩ ⟨2, ![625000, 1]⟩ ⟨2, ![625000, D]⟩ [1] [0] [0] 1)
    (x : FVec Ideal ⟨2, ![50000, D]⟩ .f32) (idx : IVec ⟨2, ![625000, 1]⟩ 32) (upd : FVec Ideal ⟨2, ![625000, D]⟩ .f32)
    (n : Fin 50000) (q : Fin D) :
    Host.scatterAdd (F := Ideal) (rowScatter 50000 625000 D wf) x idx upd (ix2 n q)
      = x (ix2 n q) + ∑ e ∈ lands idx n, upd (ix2 e q) := by
  unfold Host.scatterAdd
  rw [Ideal.hostScatterAdd_def, scatter_rows_apply]
  rfl

/-- A float word broadcast to a whole array reads, everywhere, the extended real the word denotes. -/
theorem word_at {T : Shape} (h : (⟨0, ![]⟩ : Shape).BroadcastsInDim T ![]) (b : BitVec 32) (j : T.Idx) :
    broadcastInDim T ![] h (constant (F := Ideal) ⟨0, ![]⟩ .f32 b) j = Ideal.ofBits .f32 b := by
  rw [broadcastInDim_scalar_apply, constant_apply]

/-- A one-column array broadcast across D columns reads, at (e, q), the column's entry (e, 0). -/
theorem bcol_at {E D : ℕ} {α : Type} (v : (⟨2, ![E, 1]⟩ : Shape).Idx → α)
    (h : (⟨2, ![E, 1]⟩ : Shape).BroadcastsInDim ⟨2, ![E, D]⟩ ![0, 1]) (e : Fin E) (q : Fin D) :
    broadcastInDim ⟨2, ![E, D]⟩ ![0, 1] h v (ix2 e q) = v (ix2 e 0) := by
  refine broadcastInDim_apply ![0, 1] h v (ix2 e q) (ix2 e (0 : Fin 1)) (fun a => ?_)
  match a with
  | ⟨0, _⟩ =>
    show e.val = if E = 1 then 0 else e.val
    split_ifs with hE
    · have := e.isLt; omega
    · rfl
  | ⟨1, _⟩ => exact (if_pos rfl).symm

end Cert.EdgeReads

end
-- ==== Proof.EdgeReadsRef.lean ====
/-
  The reference's edge path read at an entry: the gate of an edge and the two gated aggregates of a node.
-/
import proofs.«108119_j38019050504554_2_alg».proof.Proof.RefOpsStages
import proofs.«108119_j38019050504554_2_alg».proof.Proof.EdgeIdx

noncomputable section

open scoped BigOperators

namespace Cert.EdgeReads

open Idealize.ShloMosaic Idealize.ShloMosaic.ValueIdx Idealize.ShloMosaic.TcCoe Cert.Lib.RowGatherScatter
open Cert.ReferenceIdeal Cert.ReferenceIdeal.Gen Cert.ReferenceIdeal.RefRun

/-- The gate of edge e: 1 / (1 + exp (−(score of its source − score of its target))), the endpoints read through the
    wrapped index columns. -/
theorem ref_alpha_apply (s : Vec Ideal S50000x1 .f32) (sr ds : Vec Ideal S625000 .i32) (e : Fin 625000) :
    alpha (F := Ideal) s sr ds (ix2 e 0)
      = Ideal.div (Ideal.ofBits .f32 0x3F800000#32) (Ideal.ofBits .f32 0x3F800000#32
          + Ideal.exp (-(s (ix2 (rowOf (wrapIdx (F := Ideal) sr) e) 0) - s (ix2 (rowOf (wrapIdx (F := Ideal) ds) e) 0)))) := by
  have hg : ∀ idx : IVec ⟨2, ![625000, 1]⟩ 32,
      Host.gather gather_S50000x1_S625000x1_S625000x1_1_0_n_n_0_1_11 s idx (ix2 e 0) = s (ix2 (rowOf idx e) 0) :=
    fun idx => gather_at gather_S50000x1_S625000x1_S625000x1_1_0_n_n_0_1_11.wf s idx e 0
  unfold alpha Host.divf addf Host.exp Host.negf subf
  dsimp only
  rw [word_at, hg, hg]
  rfl

/-- The forward aggregate of node n at column k: from the zero word, the sum over the edges landing on n of the
    source's forward row entry times the edge's gate. -/
theorem ref_aggF_apply (hf : Vec Ideal S50000x128 .f32) (a : Vec Ideal S625000x1 .f32) (sr ds : Vec Ideal S625000 .i32)
    (n : Fin 50000) (k : Fin 128) :
    aggF (F := Ideal) hf a sr ds (ix2 n k)
      = Ideal.ofBits .f32 0x00000000#32
        + ∑ e ∈ lands (broadcastInDim S625000x1 ![0] bcast_S625000_S625000x1_0 ds) n,
            hf (ix2 (rowOf (wrapIdx (F := Ideal) sr) e) k) * a (ix2 e 0) := by
  unfold aggF
  refine (scatter_at scatter_S50000x128_S625000x1_S625000x128_1_0_0_1.wf _ _ _ n k).trans ?_
  rw [word_at]
  refine congrArg _ (Finset.sum_congr rfl fun e _ => ?_)
  rw [mulf_apply, bcol_at]
  exact congrArg (· * _) (gather_at gather_S50000x128_S625000x1_S625000x128_1_0_n_n_0_1_1128.wf hf _ e k)

/-- The backward aggregate of node n at column k: from the zero word, the sum over the edges landing on n of the
    source's backward row entry times one minus the edge's gate. -/
theorem ref_aggB_apply (hb : Vec Ideal S50000x128 .f32) (a : Vec Ideal S625000x1 .f32) (sr ds : Vec Ideal S625000 .i32)
    (n : Fin 50000) (k : Fin 128) :
    aggB (F := Ideal) hb a sr ds (ix2 n k)
      = Ideal.ofBits .f32 0x00000000#32
        + ∑ e ∈ lands (broadcastInDim S625000x1 ![0] bcast_S625000_S625000x1_0 ds) n,
            hb (ix2 (rowOf (wrapIdx (F := Ideal) sr) e) k) * (Ideal.ofBits .f32 0x3F800000#32 - a (ix2 e 0)) := by
  unfold aggB
  refine (scatter_at scatter_S50000x128_S625000x1_S625000x128_1_0_0_1.wf _ _ _ n k).trans ?_
  rw [word_at]
  refine congrArg _ (Finset.sum_congr rfl fun e _ => ?_)
  rw [mulf_apply, bcol_at, subf_apply, word_at]
  exact congrArg (· * _) (gather_at gather_S50000x128_S625000x1_S625000x128_1_0_n_n_0_1_1128.wf hb _ e k)

end Cert.EdgeReads

end
-- ==== Proof.EdgeReadsKer.lean ====
/-
  The kernel-side edge path read at an entry: the gate of an edge and the aggregate of a node, whose message is the
  low half of the source's table row plus the gate times the high half.
-/
import proofs.«108119_j38019050504554_2_alg».proof.Proof.KStage
import proofs.«108119_j38019050504554_2_alg».proof.Proof.EdgeIdx
import proofs.«108119_j38019050504554_2_alg».proof.Proof.LibStacked

noncomputable section

open scoped BigOperators

namespace Cert.EdgeReads

open Idealize.ShloMosaic Idealize.ShloMosaic.ValueIdx Idealize.ShloMosaic.TcCoe Cert.Lib.RowGatherScatter
open Cert.KernelIdeal Cert.KernelIdeal.Gen Cert.KStage

/-- Column j of the low half of a 256-column table row. -/
def colLo (j : Fin 128) : Fin 256 := ⟨j.val, by omega⟩
/-- Column j of the high half of a 256-column table row: 128 columns in. -/
def colHi (j : Fin 128) : Fin 256 := ⟨128 + j.val, by omega⟩

/-- The gate of edge e: 1 / (1 + exp (−(score of its source − score of its target))), the endpoints read through the
    wrapped index columns. -/
theorem ker_gate_apply (s d : IVec S625000 32) (sc : FVec Ideal S50000x1 .f32) (e : Fin 625000) :
    gate s d sc (ix2 e 0)
      = Ideal.div (Ideal.ofBits .f32 0x3F800000#32) (Ideal.ofBits .f32 0x3F800000#32
          + Ideal.exp (-(sc (ix2 (rowOf (wrapIdx s) e) 0) - sc (ix2 (rowOf (wrapIdx d) e) 0)))) := by
  have hg : ∀ idx : IVec ⟨2, ![625000, 1]⟩ 32,
      Host.gather gather_S50000x1_S625000x1_S625000x1_1_0_n_n_0_1_11 sc idx (ix2 e 0) = sc (ix2 (rowOf idx e) 0) :=
    fun idx => gather_at gather_S50000x1_S625000x1_S625000x1_1_0_n_n_0_1_11.wf sc idx e 0
  unfold gate oneCol Host.divf addf Host.exp Host.negf subf
  dsimp only
  rw [word_at, hg, hg]
  rfl

/-- The table row of edge e's source, at column c. -/
theorem ker_tableAt_apply (s : IVec S625000 32) (tb : FVec Ideal S50000x256 .bf16) (e : Fin 625000) (c : Fin 256) :
    tableAt s tb (ix2 e c) = tb (ix2 (rowOf (wrapIdx s) e) c) :=
  gather_at gather_S50000x256_S625000x1_S625000x256_1_0_n_n_0_1_1256.wf tb (wrapIdx s) e c

/-- The message of edge e at column j: the low half of its source's table row plus the gate times the high half. -/
theorem ker_message_apply (s d : IVec S625000 32) (sc : FVec Ideal S50000x1 .f32) (tb : FVec Ideal S50000x256 .bf16)
    (e : Fin 625000) (j : Fin 128) :
    message s d sc tb (ix2 e j)
      = tb (ix2 (rowOf (wrapIdx s) e) (colLo j)) + gate s d sc (ix2 e 0) * tb (ix2 (rowOf (wrapIdx s) e) (colHi j)) := by
  unfold message
  rw [addf_apply, mulf_apply, extf_apply, extf_apply, bcol_at,
    Cert.LibStacked.cols_apply (tableAt s tb) 0 slices_S625000x256_S625000x128_0_0 e j (colLo j) (Nat.zero_add j.val).symm,
    Cert.LibStacked.cols_apply (tableAt s tb) 128 slices_S625000x256_S625000x128_0_128 e j (colHi j) rfl,
    ker_tableAt_apply, ker_tableAt_apply]

/-- The aggregate of node n at column j: from the zero word, the sum of the messages of the edges landing on n. -/
theorem ker_aggregate_apply (s d : IVec S625000 32) (sc : FVec Ideal S50000x1 .f32) (tb : FVec Ideal S50000x256 .bf16)
    (n : Fin 50000) (j : Fin 128) :
    aggregate s d sc tb (ix2 n j)
      = Ideal.ofBits .f32 0x00000000#32
        + ∑ e ∈ lands (broadcastInDim S625000x1 ![0] bcast_S625000_S625000x1_0 d) n,
            (tb (ix2 (rowOf (wrapIdx s) e) (colLo j))
              + gate s d sc (ix2 e 0) * tb (ix2 (rowOf (wrapIdx s) e) (colHi j))) := by
  unfold aggregate
  refine (scatter_at scatter_S50000x128_S625000x1_S625000x128_1_0_0_1.wf _ _ _ n j).trans ?_
  rw [word_at]
  exact congrArg _ (Finset.sum_congr rfl fun e _ => ker_message_apply s d sc tb e j)

end Cert.EdgeReads

end
-- ==== Proof.EdgeSame.lean ====
/-
  The two programs' edge lists and pooling are the same functions.

  Both programs take the source and the target of every edge as rows 0 and 1 of the edge list, wrap a negative
  endpoint by the node count in the same way, and pool by the same quotient: the sum of each graph's rows over the
  larger of its row count and one. The two spellings differ only in the names given to shapes and to the side conditions
  of the layout operations, so each pair is one function.
-/
import proofs.«108119_j38019050504554_2_alg».proof.Proof.RefOpsStages
import proofs.«108119_j38019050504554_2_alg».proof.Proof.KStage

noncomputable section

namespace Cert.EdgeReads

open Idealize.ShloMosaic

/-- The wrapped index column of an endpoint vector. -/
theorem wrapIdx_same :
    (Cert.KStage.wrapIdx : IVec ⟨1, ![625000]⟩ 32 → IVec ⟨2, ![625000, 1]⟩ 32)
      = Cert.ReferenceIdeal.RefRun.wrapIdx (F := Ideal) := rfl

/-- The edges' sources: row 0 of the edge list. -/
theorem src_same :
    (Cert.KStage.src : IVec ⟨2, ![2, 625000]⟩ 32 → IVec ⟨1, ![625000]⟩ 32)
      = Cert.ReferenceIdeal.RefRun.src (F := Ideal) := rfl

/-- The edges' targets: row 1 of the edge list. -/
theorem dst_same :
    (Cert.KStage.dst : IVec ⟨2, ![2, 625000]⟩ 32 → IVec ⟨1, ![625000]⟩ 32)
      = Cert.ReferenceIdeal.RefRun.dst (F := Ideal) := rfl

/-- The pooling: each graph's row sum over the larger of its row count and one. -/
theorem pool_same :
    (Cert.KStage.pool : FVec Ideal ⟨2, ![50000, 128]⟩ .f32 → IVec ⟨1, ![50000]⟩ 32 → FVec Ideal ⟨2, ![64, 128]⟩ .f32)
      = Cert.ReferenceIdeal.RefRun.pooled (F := Ideal) := rfl

end Cert.EdgeReads

end
-- ==== Proof.LayerBridge.lean ====
/-
  One layer is the same function in the two programs, when the features and the layer's parameters are real.

  At an entry (n, q) both layers are the normalised, scaled, shifted, clipped entry of a row z of 128 values plus the
  carried feature. The scale and shift rows are the same (a row flattened and restored is the row). The rows z agree
  entry by entry: the self term is the same sum; the edge terms agree by the law that joins the two arrangements,
  applied with the edges landing on n, each edge's source row and its gate — which the two programs compute from the
  same score column through the same wrapped endpoints.
-/
import proofs.«108119_j38019050504554_2_alg».proof.Proof.ZBridge
import proofs.«108119_j38019050504554_2_alg».proof.Proof.RefNorm
import proofs.«108119_j38019050504554_2_alg».proof.Proof.EdgeReadsRef
import proofs.«108119_j38019050504554_2_alg».proof.Proof.EdgeReadsKer
import proofs.«108119_j38019050504554_2_alg».proof.Proof.EdgeSame
import proofs.«108119_j38019050504554_2_alg».proof.Proof.MathSpecReal
import proofs.«108119_j38019050504554_2_alg».proof.Proof.LibRealReindex

noncomputable section

namespace Cert.LayerBridge

open Idealize.ShloMosaic Idealize.ShloMosaic.ValueIdx Cert.KStage Cert.Math Cert.KPrepReads Cert.Lib.RealSums
open Cert.LibRealEntries Cert.EdgeReads
open scoped BigOperators

local notation "R50" => (⟨2, ![50000, 128]⟩ : Shape)

/-- The two programs' gates of an edge are the same number: the same function of the same score column at the same
    wrapped endpoints. -/
theorem gate_eq (h : FVec Ideal R50 .f32) (a1 : IVec ⟨2, ![2, 625000]⟩ 32) (s5 : FVec Ideal ⟨3, ![1, 1, 128]⟩ .f32)
    (s6 : FVec Ideal ⟨2, ![1, 1]⟩ .f32) (e : Fin 625000) :
    Cert.ReferenceIdeal.RefRun.alpha (F := Ideal) (Cert.ReferenceIdeal.RefRun.scores (F := Ideal) h s5 s6)
        (Cert.ReferenceIdeal.RefRun.src a1) (Cert.ReferenceIdeal.RefRun.dst a1) (ix2 e 0)
      = gate (src a1) (dst a1) (Cert.Spec.scores h (scoreRow s5) (scoreOff s6)) (ix2 e 0) := by
  rw [ref_alpha_apply, ker_gate_apply, Cert.BridgeDense.scores_eq]
  rfl

/-- The score column of real features and real score parameters is real. -/
theorem scores_real (h : FVec Ideal R50 .f32) (s5 : FVec Ideal ⟨3, ![1, 1, 128]⟩ .f32) (s6 : FVec Ideal ⟨2, ![1, 1]⟩ .f32)
    (hh : AllReal h) (h5 : AllReal s5) (h6 : AllReal s6) : AllReal (Cert.Spec.scores h (scoreRow s5) (scoreOff s6)) :=
  scores_allReal h (scoreRow s5) (scoreOff s6) hh (Cert.LibRealReindex.allReal_shapeCast s5 _ h5)
    (by rw [scoreOff_eq]; exact h6)

/-- The gate of an edge is a real when the features and the score parameters are. -/
theorem gate_isReal (h : FVec Ideal R50 .f32) (a1 : IVec ⟨2, ![2, 625000]⟩ 32) (s5 : FVec Ideal ⟨3, ![1, 1, 128]⟩ .f32)
    (s6 : FVec Ideal ⟨2, ![1, 1]⟩ .f32) (hh : AllReal h) (h5 : AllReal s5) (h6 : AllReal s6) (e : Fin 625000) :
    IsReal (gate (src a1) (dst a1) (Cert.Spec.scores h (scoreRow s5) (scoreOff s6)) (ix2 e 0)) := by
  rw [ker_gate_apply]
  exact gate_real_word (IsReal.sub (scores_real h s5 s6 hh h5 h6 _) (scores_real h s5 s6 hh h5 h6 _))

/-- THE LAYER: the kernel side's layer at the prepared parameters is the reference's layer at the slices. -/
theorem layer_eq (h : FVec Ideal R50 .f32) (a1 : IVec ⟨2, ![2, 625000]⟩ 32) (s5 : FVec Ideal ⟨3, ![1, 1, 128]⟩ .f32)
    (s6 : FVec Ideal ⟨2, ![1, 1]⟩ .f32) (s7 s8 s9 : FVec Ideal ⟨3, ![1, 128, 128]⟩ .f32) (s10 : FVec Ideal ⟨2, ![1, 128]⟩ .f32)
    (s11 : FVec Ideal ⟨3, ![1, 128, 384]⟩ .f32) (s12 s13 s14 : FVec Ideal ⟨2, ![1, 128]⟩ .f32)
    (hh : AllReal h) (h5 : AllReal s5) (h6 : AllReal s6) (h7 : AllReal s7) (h8 : AllReal s8) (h9 : AllReal s9)
    (h10 : AllReal s10) (h11 : AllReal s11) (h12 : AllReal s12) (h13 : AllReal s13) (h14 : AllReal s14) :
    Cert.KStage.layer h a1 (Cert.KStage.prep s5 s6 s7 s8 s9 s10 s11 s12 s13 s14)
      = Cert.ReferenceIdeal.RefRun.layer (F := Ideal) h (Cert.ReferenceIdeal.RefRun.src a1)
          (Cert.ReferenceIdeal.RefRun.dst a1) s5 s6 s7 s8 s9 s10 s11 s12 s13 s14 := by
  funext i
  obtain ⟨n, q, rfl⟩ : ∃ (n : Fin 50000) (q : Fin 128), i = ix2 n q := ⟨i 0, i 1, eq_ix2 i⟩
  unfold Cert.ReferenceIdeal.RefRun.layer
  rw [Cert.RefReads.hnext_norm]
  show Cert.Spec.normE
      (fun j => Cert.Spec.zE (Cert.Spec.hself h (matT s9) (row s10)) (combSelfT s11)
        (edge (Cert.Spec.scores h (scoreRow s5) (scoreOff s6)) (Cert.Spec.table h (tableW s7 s8 s11)) a1) (row s12) n j)
      (fun j => row s13 (ix2 0 j)) (fun j => row s14 (ix2 0 j)) (h (ix2 n q)) q = _
  rw [row_eq s13, row_eq s14]
  refine congrArg (fun z => Cert.Spec.normE z (fun j => s13 (ix2 0 j)) (fun j => s14 (ix2 0 j)) (h (ix2 n q)) q)
    (funext fun j => ?_)
  unfold Cert.ReferenceIdeal.RefRun.layerZ
  refine Cert.ZBridge.z_eq
    (lands (broadcastInDim Cert.KernelIdeal.S625000x1 ![0] Cert.KernelIdeal.Gen.bcast_S625000_S625000x1_0 (dst a1)) n)
    (rowOf (wrapIdx (src a1)))
    (fun e => gate (src a1) (dst a1) (Cert.Spec.scores h (scoreRow s5) (scoreOff s6)) (ix2 e 0))
    h s7 s8 s9 s10 s12 s11 _ _ _ n j hh h7 h8 h9 h10 h11 (gate_isReal h a1 s5 s6 hh h5 h6) ?_ ?_ ?_
  · exact ker_aggregate_apply (src a1) (dst a1) _ _ n j
  · intro k
    rw [ref_aggF_apply]
    refine congrArg _ (Finset.sum_congr rfl fun e _ => ?_)
    rw [gate_eq]
    rfl
  · intro k
    rw [ref_aggB_apply]
    refine congrArg _ (Finset.sum_congr rfl fun e _ => ?_)
    rw [gate_eq]
    rfl

end Cert.LayerBridge

end
-- ==== Proof.OutBridge.lean ====
/-
  The two programs compute the same result, given that one layer of each computes the same features.

  Both programs are the same composition: the embedding of the node features, three layers, each taking the previous
  features, the edge list and the layer's slices of the ten stacked parameter arrays, and the pooling of the last
  features by graph.  The embeddings are the same function and so are the poolings.  A layer of the first program on
  real features and real parameter slices is the layer of the second on the same operands: that is the hypothesis
  here, and it is used three times, each time on the features the previous step produced — which are real numbers, the
  second hypothesis — and on slices of the parameter arrays, which are arrays of real numbers because the parameter
  arrays are.
-/
import proofs.«108119_j38019050504554_2_alg».proof.Proof.KStage
import proofs.«108119_j38019050504554_2_alg».proof.Proof.RefOpsStages
import proofs.«108119_j38019050504554_2_alg».proof.Proof.BridgeDense
import proofs.«108119_j38019050504554_2_alg».proof.Proof.EdgeSame
import proofs.«108119_j38019050504554_2_alg».proof.Proof.LibRealReindex

noncomputable section

namespace Cert.OutBridge

open Idealize.ShloMosaic Cert.LibRealEntries Cert.LibRealReindex

local notation "R50" => (⟨2, ![50000, 128]⟩ : Shape)

/-- One layer of the two programs agrees whenever the features and the layer's ten parameter slices are arrays of real
    numbers. -/
abbrev LayerSame : Prop :=
  ∀ (h : FVec Ideal R50 .f32) (a1 : IVec ⟨2, ![2, 625000]⟩ 32)
    (s5 : FVec Ideal ⟨3, ![1, 1, 128]⟩ .f32) (s6 : FVec Ideal ⟨2, ![1, 1]⟩ .f32) (s7 s8 s9 : FVec Ideal ⟨3, ![1, 128, 128]⟩ .f32)
    (s10 : FVec Ideal ⟨2, ![1, 128]⟩ .f32) (s11 : FVec Ideal ⟨3, ![1, 128, 384]⟩ .f32) (s12 s13 s14 : FVec Ideal ⟨2, ![1, 128]⟩ .f32),
    AllReal h → AllReal s5 → AllReal s6 → AllReal s7 → AllReal s8 → AllReal s9 → AllReal s10 → AllReal s11 → AllReal s12 →
    AllReal s13 → AllReal s14 →
    Cert.KStage.layer h a1 (Cert.KStage.prep s5 s6 s7 s8 s9 s10 s11 s12 s13 s14)
      = Cert.ReferenceIdeal.RefRun.layer (F := Ideal) h (Cert.ReferenceIdeal.RefRun.src a1) (Cert.ReferenceIdeal.RefRun.dst a1)
          s5 s6 s7 s8 s9 s10 s11 s12 s13 s14

/-- The embedded features of the two programs are the same array. -/
theorem h0_eq (a0 : FVec Ideal R50 .f32) (a3 : FVec Ideal ⟨2, ![128, 128]⟩ .f32) (a4 : FVec Ideal ⟨1, ![128]⟩ .f32) :
    Cert.KStage.h0 a0 a3 a4 = Cert.ReferenceIdeal.RefRun.emb (F := Ideal) a0 a3 a4 := by
  unfold Cert.KStage.h0
  exact Cert.BridgeDense.embed_eq a0 a3 a4

/-- Layer 0 of the two programs on the same features: the prepared parameters are those of the slices that start
    at 0, and a slice of an array of real numbers is an array of real numbers. -/
theorem layer0_eq (hlayer : LayerSame) (h : FVec Ideal R50 .f32) (a1 : IVec ⟨2, ![2, 625000]⟩ 32)
    (a5 : FVec Ideal ⟨3, ![3, 1, 128]⟩ .f32) (a6 : FVec Ideal ⟨2, ![3, 1]⟩ .f32) (a7 a8 a9 : FVec Ideal ⟨3, ![3, 128, 128]⟩ .f32)
    (a10 : FVec Ideal ⟨2, ![3, 128]⟩ .f32) (a11 : FVec Ideal ⟨3, ![3, 128, 384]⟩ .f32) (a12 a13 a14 : FVec Ideal ⟨2, ![3, 128]⟩ .f32)
    (hh : AllReal h) (r5 : AllReal a5) (r6 : AllReal a6) (r7 : AllReal a7) (r8 : AllReal a8) (r9 : AllReal a9) (r10 : AllReal a10)
    (r11 : AllReal a11) (r12 : AllReal a12) (r13 : AllReal a13) (r14 : AllReal a14) :
    Cert.KStage.layer h a1 (Cert.KStage.params0 a5 a6 a7 a8 a9 a10 a11 a12 a13 a14)
      = Cert.ReferenceIdeal.RefRun.layer0 (F := Ideal) h (Cert.ReferenceIdeal.RefRun.src a1) (Cert.ReferenceIdeal.RefRun.dst a1)
          a5 a6 a7 a8 a9 a10 a11 a12 a13 a14 := by
  unfold Cert.KStage.params0 Cert.ReferenceIdeal.RefRun.layer0
  exact hlayer h a1 _ _ _ _ _ _ _ _ _ _ hh
    (allReal_extractStridedSlice _ a5 _ r5) (allReal_extractStridedSlice _ a6 _ r6) (allReal_extractStridedSlice _ a7 _ r7)
    (allReal_extractStridedSlice _ a8 _ r8) (allReal_extractStridedSlice _ a9 _ r9) (allReal_extractStridedSlice _ a10 _ r10)
    (allReal_extractStridedSlice _ a11 _ r11) (allReal_extractStridedSlice _ a12 _ r12) (allReal_extractStridedSlice _ a13 _ r13)
    (allReal_extractStridedSlice _ a14 _ r14)

/-- Layer 1 of the two programs on the same features: the prepared parameters are those of the slices that start
    at 1, and a slice of an array of real numbers is an array of real numbers. -/
theorem layer1_eq (hlayer : LayerSame) (h : FVec Ideal R50 .f32) (a1 : IVec ⟨2, ![2, 625000]⟩ 32)
    (a5 : FVec Ideal ⟨3, ![3, 1, 128]⟩ .f32) (a6 : FVec Ideal ⟨2, ![3, 1]⟩ .f32) (a7 a8 a9 : FVec Ideal ⟨3, ![3, 128, 128]⟩ .f32)
    (a10 : FVec Ideal ⟨2, ![3, 128]⟩ .f32) (a11 : FVec Ideal ⟨3, ![3, 128, 384]⟩ .f32) (a12 a13 a14 : FVec Ideal ⟨2, ![3, 128]⟩ .f32)
    (hh : AllReal h) (r5 : AllReal a5) (r6 : AllReal a6) (r7 : AllReal a7) (r8 : AllReal a8) (r9 : AllReal a9) (r10 : AllReal a10)
    (r11 : AllReal a11) (r12 : AllReal a12) (r13 : AllReal a13) (r14 : AllReal a14) :
    Cert.KStage.layer h a1 (Cert.KStage.params1 a5 a6 a7 a8 a9 a10 a11 a12 a13 a14)
      = Cert.ReferenceIdeal.RefRun.layer1 (F := Ideal) h (Cert.ReferenceIdeal.RefRun.src a1) (Cert.ReferenceIdeal.RefRun.dst a1)
          a5 a6 a7 a8 a9 a10 a11 a12 a13 a14 := by
  unfold Cert.KStage.params1 Cert.ReferenceIdeal.RefRun.layer1
  exact hlayer h a1 _ _ _ _ _ _ _ _ _ _ hh
    (allReal_extractStridedSlice _ a5 _ r5) (allReal_extractStridedSlice _ a6 _ r6) (allReal_extractStridedSlice _ a7 _ r7)
    (allReal_extractStridedSlice _ a8 _ r8) (allReal_extractStridedSlice _ a9 _ r9) (allReal_extractStridedSlice _ a10 _ r10)
    (allReal_extractStridedSlice _ a11 _ r11) (allReal_extractStridedSlice _ a12 _ r12) (allReal_extractStridedSlice _ a13 _ r13)
    (allReal_extractStridedSlice _ a14 _ r14)

/-- Layer 2 of the two programs on the same features: the prepared parameters are those of the slices that start
    at 2, and a slice of an array of real numbers is an array of real numbers. -/
theorem layer2_eq (hlayer : LayerSame) (h : FVec Ideal R50 .f32) (a1 : IVec ⟨2, ![2, 625000]⟩ 32)
    (a5 : FVec Ideal ⟨3, ![3, 1, 128]⟩ .f32) (a6 : FVec Ideal ⟨2, ![3, 1]⟩ .f32) (a7 a8 a9 : FVec Ideal ⟨3, ![3, 128, 128]⟩ .f32)
    (a10 : FVec Ideal ⟨2, ![3, 128]⟩ .f32) (a11 : FVec Ideal ⟨3, ![3, 128, 384]⟩ .f32) (a12 a13 a14 : FVec Ideal ⟨2, ![3, 128]⟩ .f32)
    (hh : AllReal h) (r5 : AllReal a5) (r6 : AllReal a6) (r7 : AllReal a7) (r8 : AllReal a8) (r9 : AllReal a9) (r10 : AllReal a10)
    (r11 : AllReal a11) (r12 : AllReal a12) (r13 : AllReal a13) (r14 : AllReal a14) :
    Cert.KStage.layer h a1 (Cert.KStage.params2 a5 a6 a7 a8 a9 a10 a11 a12 a13 a14)
      = Cert.ReferenceIdeal.RefRun.layer2 (F := Ideal) h (Cert.ReferenceIdeal.RefRun.src a1) (Cert.ReferenceIdeal.RefRun.dst a1)
          a5 a6 a7 a8 a9 a10 a11 a12 a13 a14 := by
  unfold Cert.KStage.params2 Cert.ReferenceIdeal.RefRun.layer2
  exact hlayer h a1 _ _ _ _ _ _ _ _ _ _ hh
    (allReal_extractStridedSlice _ a5 _ r5) (allReal_extractStridedSlice _ a6 _ r6) (allReal_extractStridedSlice _ a7 _ r7)
    (allReal_extractStridedSlice _ a8 _ r8) (allReal_extractStridedSlice _ a9 _ r9) (allReal_extractStridedSlice _ a10 _ r10)
    (allReal_extractStridedSlice _ a11 _ r11) (allReal_extractStridedSlice _ a12 _ r12) (allReal_extractStridedSlice _ a13 _ r13)
    (allReal_extractStridedSlice _ a14 _ r14)

/-- The pooling of the two programs on the same features and the same graph assignment. -/
theorem pool_eq (h : FVec Ideal R50 .f32) (a2 : IVec ⟨1, ![50000]⟩ 32) :
    Cert.KStage.pool h a2 = Cert.ReferenceIdeal.RefRun.pooled (F := Ideal) h a2 :=
  congrFun (congrFun Cert.EdgeReads.pool_same h) a2

/-- The two programs' results are the same array, given that a layer of each computes the same features on real
    operands, that the features entering each layer are real, and that the ten parameter arrays are real. -/
theorem out_eq (a0 : FVec Ideal R50 .f32) (a1 : IVec ⟨2, ![2, 625000]⟩ 32) (a2 : IVec ⟨1, ![50000]⟩ 32)
    (a3 : FVec Ideal ⟨2, ![128, 128]⟩ .f32) (a4 : FVec Ideal ⟨1, ![128]⟩ .f32)
    (a5 : FVec Ideal ⟨3, ![3, 1, 128]⟩ .f32) (a6 : FVec Ideal ⟨2, ![3, 1]⟩ .f32) (a7 a8 a9 : FVec Ideal ⟨3, ![3, 128, 128]⟩ .f32)
    (a10 : FVec Ideal ⟨2, ![3, 128]⟩ .f32) (a11 : FVec Ideal ⟨3, ![3, 128, 384]⟩ .f32) (a12 a13 a14 : FVec Ideal ⟨2, ![3, 128]⟩ .f32)
    (hlayer : LayerSame)
    (hreal0 : AllReal (Cert.KStage.h0 a0 a3 a4))
    (hreal1 : AllReal (Cert.KStage.layer (Cert.KStage.h0 a0 a3 a4) a1 (Cert.KStage.params0 a5 a6 a7 a8 a9 a10 a11 a12 a13 a14)))
    (hreal2 : AllReal (Cert.KStage.layer
      (Cert.KStage.layer (Cert.KStage.h0 a0 a3 a4) a1 (Cert.KStage.params0 a5 a6 a7 a8 a9 a10 a11 a12 a13 a14))
      a1 (Cert.KStage.params1 a5 a6 a7 a8 a9 a10 a11 a12 a13 a14)))
    (r5 : AllReal a5) (r6 : AllReal a6) (r7 : AllReal a7) (r8 : AllReal a8) (r9 : AllReal a9) (r10 : AllReal a10)
    (r11 : AllReal a11) (r12 : AllReal a12) (r13 : AllReal a13) (r14 : AllReal a14) :
    Cert.KStage.out a0 a1 a2 a3 a4 a5 a6 a7 a8 a9 a10 a11 a12 a13 a14
      = Cert.ReferenceIdeal.RefRun.out (F := Ideal) a0 a1 a2 a3 a4 a5 a6 a7 a8 a9 a10 a11 a12 a13 a14 := by
  have E0 := h0_eq a0 a3 a4
  have E1 := layer0_eq hlayer (Cert.KStage.h0 a0 a3 a4) a1 a5 a6 a7 a8 a9 a10 a11 a12 a13 a14 hreal0 r5 r6 r7 r8 r9 r10 r11 r12 r13 r14
  have E2 := layer1_eq hlayer
    (Cert.KStage.layer (Cert.KStage.h0 a0 a3 a4) a1 (Cert.KStage.params0 a5 a6 a7 a8 a9 a10 a11 a12 a13 a14))
    a1 a5 a6 a7 a8 a9 a10 a11 a12 a13 a14 hreal1 r5 r6 r7 r8 r9 r10 r11 r12 r13 r14
  have E3 := layer2_eq hlayer
    (Cert.KStage.layer
      (Cert.KStage.layer (Cert.KStage.h0 a0 a3 a4) a1 (Cert.KStage.params0 a5 a6 a7 a8 a9 a10 a11 a12 a13 a14))
      a1 (Cert.KStage.params1 a5 a6 a7 a8 a9 a10 a11 a12 a13 a14))
    a1 a5 a6 a7 a8 a9 a10 a11 a12 a13 a14 hreal2 r5 r6 r7 r8 r9 r10 r11 r12 r13 r14
  unfold Cert.KStage.out Cert.ReferenceIdeal.RefRun.out
  rw [E3, E2, E1, E0]
  exact pool_eq _ a2

end Cert.OutBridge

end
-- ==== Proof.lean ====
/-
  The claim. Both word-level and idealized kernel programs run, terminate without a fault and leave their arguments
  as launched (the frames of the seven regions among the host stretches); the reference does too (its four hundred
  host operations run in order); the idealization rewrote nothing, so it is preserved trivially; and at the extended
  reals the two programs return the same array. For the last: the kernel's result buffer ends at the pooled features
  of three layers over the embedding, each region's output being the whole-array function its blocks compute; the
  reference's ends at the same composition of its own stages; the embeddings agree term by term; a layer agrees
  because the kernel's single aggregate of messages t_lo(src e) + α(e)·t_hi(src e), with the table t = h·[B, F − B] of the
  composed backward and forward-minus-backward matrices, is by linearity of the finite sums the reference's product
  of the row [self, Σ α·fwd, Σ (1 − α)·bwd] with the combine weight — a law of real numbers, available because finite
  arguments keep every layer's features real — followed by the same normalisation; the pooling is the same
  operations on both sides.
-/
import proofs.«108119_j38019050504554_2_alg».proof.Defs
import proofs.«108119_j38019050504554_2_alg».proof.Proof.Gen.Kernel.Frame
import proofs.«108119_j38019050504554_2_alg».proof.Proof.Gen.KernelIdeal.Frame
import proofs.«108119_j38019050504554_2_alg».proof.Proof.Gen.ReferenceIdeal
import proofs.«108119_j38019050504554_2_alg».proof.Proof.Gen.Pre_finite_inputs
import proofs.«108119_j38019050504554_2_alg».proof.Proof.KRun
import proofs.«108119_j38019050504554_2_alg».proof.Proof.KValue
import proofs.«108119_j38019050504554_2_alg».proof.Proof.KEmbArr
import proofs.«108119_j38019050504554_2_alg».proof.Proof.KTrArr1
import proofs.«108119_j38019050504554_2_alg».proof.Proof.KTrArr3
import proofs.«108119_j38019050504554_2_alg».proof.Proof.KTrArr5
import proofs.«108119_j38019050504554_2_alg».proof.Proof.KCoCombine2
import proofs.«108119_j38019050504554_2_alg».proof.Proof.KCoCombine4
import proofs.«108119_j38019050504554_2_alg».proof.Proof.KCoCombine6
import proofs.«108119_j38019050504554_2_alg».proof.Proof.RefRun
import proofs.«108119_j38019050504554_2_alg».proof.Proof.PreReal
import proofs.«108119_j38019050504554_2_alg».proof.Proof.KRealLayer
import proofs.«108119_j38019050504554_2_alg».proof.Proof.LayerBridge
import proofs.«108119_j38019050504554_2_alg».proof.Proof.OutBridge

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ => Cert.ReferenceIdeal.RefRun.frame (F := Ideal) m ρ

theorem preserves : Cert.preserves_Kernel_KernelIdeal := trivial

/-- The kernel's result buffer after its run: the pooled features of the three layers over the embedding. -/
theorem kernel_result (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W15 m ρ c (Proc.devRef .tc Cert.KernelIdeal.main_v255) = Cert.KStage.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) :=
  Cert.KValue.kernel_value Cert.KernelIdeal.KEmb.final0_3 Cert.KernelIdeal.KTr1.final1_6 Cert.KernelIdeal.KTr1.final1_7 Cert.KernelIdeal.KTr1.final1_8 Cert.KCo.final2_7 Cert.KernelIdeal.KTr3.final3_6 Cert.KernelIdeal.KTr3.final3_7 Cert.KernelIdeal.KTr3.final3_8 Cert.KCo.final4_7 Cert.KernelIdeal.KTr5.final5_6 Cert.KernelIdeal.KTr5.final5_7 Cert.KernelIdeal.KTr5.final5_8 Cert.KCo.final6_7 m ρ c

theorem algebraic : Cert.algebraic_KernelIdeal_ReferenceIdeal := by
  intro m ρ m' ρ' hpre hagree
  refine ⟨fun c => Cert.KStage.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono (fun r h c => ⟨(h c).1.trans (kernel_result m ρ c), (h c).2⟩)
      (Cert.KernelIdeal.KRun.run_result (F := Ideal) m ρ)
  · refine (θ_run Cert.ReferenceIdeal.defs _ _).mono (fun r h c => ⟨(h c).1.trans ?_, (h c).2⟩) (Cert.ReferenceIdeal.RefRun.run (F := Ideal) m' ρ')
    obtain ⟨e0, e1, e2, e3, e4, e5, e6, e7, e8, e9, e10, e11, e12, e13, e14⟩ := hagree c
    rw [e0, e1, e2, e3, e4, e5, e6, e7, e8, e9, e10, e11, e12, e13, e14]
    obtain ⟨r0, r3, r4, r5, r6, r7, r8, r9, r10, r11, r12, r13, r14⟩ := Cert.PreReal.reals_of_pre _ _ _ _ _ _ _ _ _ _ _ _ _ _ _ (hpre c)
    have q0 := Cert.KReal.h0_real _ _ _ r0 r3 r4
    have q1 := Cert.KReal.input1_real _ (m ((c.tc : Thread Cert.KernelIdeal.nD Cert.KernelIdeal.τ).loc Cert.KernelIdeal.main_arg1)) _ _ _ _ _ _ _ _ _ _ _ _ r0 r3 r4 r5 r6 r7 r8 r9 r10 r11 r12 r13 r14
    have q2 := Cert.KReal.input2_real _ (m ((c.tc : Thread Cert.KernelIdeal.nD Cert.KernelIdeal.τ).loc Cert.KernelIdeal.main_arg1)) _ _ _ _ _ _ _ _ _ _ _ _ r0 r3 r4 r5 r6 r7 r8 r9 r10 r11 r12 r13 r14
    exact (Cert.OutBridge.out_eq _ _ _ _ _ _ _ _ _ _ _ _ _ _ _ Cert.LayerBridge.layer_eq q0 q1 q2 r5 r6 r7 r8 r9 r10 r11 r12 r13 r14).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
